-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S2x3x512 : Shape := ⟨3, ![2, 3, 512]⟩
abbrev S2x512x2048 : Shape := ⟨3, ![2, 512, 2048]⟩
abbrev S2x512 : Shape := ⟨2, ![2, 512]⟩
abbrev S2x2x1024x512 : Shape := ⟨4, ![2, 2, 1024, 512]⟩
abbrev S2x2x1024 : Shape := ⟨3, ![2, 2, 1024]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S2x3x512 : S_.BroadcastsInDim S2x3x512 (![] : Fin 0 → Fin S2x3x512.rank)
  reducesTo_S2x3x512_S_d0_1_2 : S2x3x512.ReducesTo [0, 1, 2] S_
  bcast_S_S2x512x2048 : S_.BroadcastsInDim S2x512x2048 (![] : Fin 0 → Fin S2x512x2048.rank)
  reducesTo_S2x512x2048_S_d0_1_2 : S2x512x2048.ReducesTo [0, 1, 2] S_
  bcast_S_S2x512 : S_.BroadcastsInDim S2x512 (![] : Fin 0 → Fin S2x512.rank)
  reducesTo_S2x512_S_d0_1 : S2x512.ReducesTo [0, 1] S_
  bcast_S_S2x2x1024x512 : S_.BroadcastsInDim S2x2x1024x512 (![] : Fin 0 → Fin S2x2x1024x512.rank)
  reducesTo_S2x2x1024x512_S_d0_1_2_3 : S2x2x1024x512.ReducesTo [0, 1, 2, 3] S_
  bcast_S_S2x2x1024 : S_.BroadcastsInDim S2x2x1024 (![] : Fin 0 → Fin S2x2x1024.rank)
  reducesTo_S2x2x1024_S_d0_1_2 : S2x2x1024.ReducesTo [0, 1, 2] S_

variable [Facts]

def fn_part3 {F : FTy → Type} [FloatOps F] (main_v48 : IVec S_ 1) (main_v49 : FVec F S2x2x1024 .f32) (main_v50 : FVec F S2x2x1024 .f32) : IVec S_ 1 :=
  let main_v51 : IVec S2x2x1024 1 := cmpf .olt main_v49 main_v50
  let main_c_19 : IVec S_ 1 := constantI S_ 1 1#1
  let main_v52 : IVec S_ 1 := (fun x v => Host.reduce IntOp.andi x v reducesTo_S2x2x1024_S_d0_1_2 h_S_) main_v51 main_c_19
  let main_v53 : IVec S_ 1 := andi main_v48 main_v52
  main_v53

def fn_part2 {F : FTy → Type} [FloatOps F] (main_arg7 : FVec F S2x2x1024x512 .f32) (main_arg8 : FVec F S2x2x1024 .f32) (main_arg9 : FVec F S2x2x1024x512 .f32) (main_arg10 : FVec F S2x2x1024 .f32) (main_v33 : IVec S_ 1) : IVec S_ 1 :=
  let main_v34 : FVec F S2x2x1024x512 .f32 := Host.absf main_arg7
  let main_cst_12 : FVec F S_ .f32 := constant S_ .f32 0x7F800000#32
  let main_v35 : FVec F S2x2x1024x512 .f32 := broadcastInDim S2x2x1024x512 ![] bcast_S_S2x2x1024x512 main_cst_12
  let main_v36 : IVec S2x2x1024x512 1 := cmpf .olt main_v34 main_v35
  let main_c_13 : IVec S_ 1 := constantI S_ 1 1#1
  let main_v37 : IVec S_ 1 := (fun x v => Host.reduce IntOp.andi x v reducesTo_S2x2x1024x512_S_d0_1_2_3 h_S_) main_v36 main_c_13
  let main_v38 : IVec S_ 1 := andi main_v33 main_v37
  let main_v39 : FVec F S2x2x1024 .f32 := Host.absf main_arg8
  let main_cst_14 : FVec F S_ .f32 := constant S_ .f32 0x7F800000#32
  let main_v40 : FVec F S2x2x1024 .f32 := broadcastInDim S2x2x1024 ![] bcast_S_S2x2x1024 main_cst_14
  let main_v41 : IVec S2x2x1024 1 := cmpf .olt main_v39 main_v40
  let main_c_15 : IVec S_ 1 := constantI S_ 1 1#1
  let main_v42 : IVec S_ 1 := (fun x v => Host.reduce IntOp.andi x v reducesTo_S2x2x1024_S_d0_1_2 h_S_) main_v41 main_c_15
  let main_v43 : IVec S_ 1 := andi main_v38 main_v42
  let main_v44 : FVec F S2x2x1024x512 .f32 := Host.absf main_arg9
  let main_cst_16 : FVec F S_ .f32 := constant S_ .f32 0x7F800000#32
  let main_v45 : FVec F S2x2x1024x512 .f32 := broadcastInDim S2x2x1024x512 ![] bcast_S_S2x2x1024x512 main_cst_16
  let main_v46 : IVec S2x2x1024x512 1 := cmpf .olt main_v44 main_v45
  let main_c_17 : IVec S_ 1 := constantI S_ 1 1#1
  let main_v47 : IVec S_ 1 := (fun x v => Host.reduce IntOp.andi x v reducesTo_S2x2x1024x512_S_d0_1_2_3 h_S_) main_v46 main_c_17
  let main_v48 : IVec S_ 1 := andi main_v43 main_v47
  let main_v49 : FVec F S2x2x1024 .f32 := Host.absf main_arg10
  let main_cst_18 : FVec F S_ .f32 := constant S_ .f32 0x7F800000#32
  let main_v50 : FVec F S2x2x1024 .f32 := broadcastInDim S2x2x1024 ![] bcast_S_S2x2x1024 main_cst_18
  fn_part3 (F := F) main_v48 main_v49 main_v50

def fn_part1 {F : FTy → Type} [FloatOps F] (main_arg4 : FVec F S2x512 .f32) (main_arg5 : FVec F S2x512x2048 .f32) (main_arg6 : FVec F S2x512 .f32) (main_arg7 : FVec F S2x2x1024x512 .f32) (main_arg8 : FVec F S2x2x1024 .f32) (main_arg9 : FVec F S2x2x1024x512 .f32) (main_arg10 : FVec F S2x2x1024 .f32) (main_v13 : IVec S_ 1) (main_v16 : IVec S2x512x2048 1) : IVec S_ 1 :=
  let main_c_5 : IVec S_ 1 := constantI S_ 1 1#1
  let main_v17 : IVec S_ 1 := (fun x v => Host.reduce IntOp.andi x v reducesTo_S2x512x2048_S_d0_1_2 h_S_) main_v16 main_c_5
  let main_v18 : IVec S_ 1 := andi main_v13 main_v17
  let main_v19 : FVec F S2x512 .f32 := Host.absf main_arg4
  let main_cst_6 : FVec F S_ .f32 := constant S_ .f32 0x7F800000#32
  let main_v20 : FVec F S2x512 .f32 := broadcastInDim S2x512 ![] bcast_S_S2x512 main_cst_6
  let main_v21 : IVec S2x512 1 := cmpf .olt main_v19 main_v20
  let main_c_7 : IVec S_ 1 := constantI S_ 1 1#1
  let main_v22 : IVec S_ 1 := (fun x v => Host.reduce IntOp.andi x v reducesTo_S2x512_S_d0_1 h_S_) main_v21 main_c_7
  let main_v23 : IVec S_ 1 := andi main_v18 main_v22
  let main_v24 : FVec F S2x512x2048 .f32 := Host.absf main_arg5
  let main_cst_8 : FVec F S_ .f32 := constant S_ .f32 0x7F800000#32
  let main_v25 : FVec F S2x512x2048 .f32 := broadcastInDim S2x512x2048 ![] bcast_S_S2x512x2048 main_cst_8
  let main_v26 : IVec S2x512x2048 1 := cmpf .olt main_v24 main_v25
  let main_c_9 : IVec S_ 1 := constantI S_ 1 1#1
  let main_v27 : IVec S_ 1 := (fun x v => Host.reduce IntOp.andi x v reducesTo_S2x512x2048_S_d0_1_2 h_S_) main_v26 main_c_9
  let main_v28 : IVec S_ 1 := andi main_v23 main_v27
  let main_v29 : FVec F S2x512 .f32 := Host.absf main_arg6
  let main_cst_10 : FVec F S_ .f32 := constant S_ .f32 0x7F800000#32
  let main_v30 : FVec F S2x512 .f32 := broadcastInDim S2x512 ![] bcast_S_S2x512 main_cst_10
  let main_v31 : IVec S2x512 1 := cmpf .olt main_v29 main_v30
  let main_c_11 : IVec S_ 1 := constantI S_ 1 1#1
  let main_v32 : IVec S_ 1 := (fun x v => Host.reduce IntOp.andi x v reducesTo_S2x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S32x512x512 .f32) (main_arg1 : FVec F S2x3x512 .f32) (main_arg2 : FVec F S2x3x512 .f32) (main_arg3 : FVec F S2x512x2048 .f32) (main_arg4 : FVec F S2x512 .f32) (main_arg5 : FVec F S2x512x2048 .f32) (main_arg6 : FVec F S2x512 .f32) (main_arg7 : FVec F S2x2x1024x512 .f32) (main_arg8 : FVec F S2x2x1024 .f32) (main_arg9 : FVec F S2x2x1024x512 .f32) (main_arg10 : FVec F S2x2x1024 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S2x3x512 .f32 := Host.absf main_arg1
  let main_cst_0 : FVec F S_ .f32 := constant S_ .f32 0x7F800000#32
  let main_v5 : FVec F S2x3x512 .f32 := broadcastInDim S2x3x512 ![] bcast_S_S2x3x512 main_cst_0
  let main_v6 : IVec S2x3x512 1 := cmpf .olt main_v4 main_v5
  let main_c_1 : IVec S_ 1 := constantI S_ 1 1#1
  let main_v7 : IVec S_ 1 := (fun x v => Host.reduce IntOp.andi x v reducesTo_S2x3x512_S_d0_1_2 h_S_) main_v6 main_c_1
  let main_v8 : IVec S_ 1 := andi main_v3 main_v7
  let main_v9 : FVec F S2x3x512 .f32 := Host.absf main_arg2
  let main_cst_2 : FVec F S_ .f32 := constant S_ .f32 0x7F800000#32
  let main_v10 : FVec F S2x3x512 .f32 := broadcastInDim S2x3x512 ![] bcast_S_S2x3x512 main_cst_2
  let main_v11 : IVec S2x3x512 1 := cmpf .olt main_v9 main_v10
  let main_c_3 : IVec S_ 1 := constantI S_ 1 1#1
  let main_v12 : IVec S_ 1 := (fun x v => Host.reduce IntOp.andi x v reducesTo_S2x3x512_S_d0_1_2 h_S_) main_v11 main_c_3
  let main_v13 : IVec S_ 1 := andi main_v8 main_v12
  let main_v14 : FVec F S2x512x2048 .f32 := Host.absf main_arg3
  let main_cst_4 : FVec F S_ .f32 := constant S_ .f32 0x7F800000#32
  let main_v15 : FVec F S2x512x2048 .f32 := broadcastInDim S2x512x2048 ![] bcast_S_S2x512x2048 main_cst_4
  let main_v16 : IVec S2x512x2048 1 := cmpf .olt main_v14 main_v15
  fn_part1 (F := F) main_arg4 main_arg5 main_arg6 main_arg7 main_arg8 main_arg9 main_arg10 main_v13 main_v16
-- ==== Kernel.lean ====
abbrev S32x512x512 : Shape := ⟨3, ![32, 512, 512]⟩
abbrev S2x3x512 : Shape := ⟨3, ![2, 3, 512]⟩
abbrev S2x512x2048 : Shape := ⟨3, ![2, 512, 2048]⟩
abbrev S2x512 : Shape := ⟨2, ![2, 512]⟩
abbrev S2x2x1024x512 : Shape := ⟨4, ![2, 2, 1024, 512]⟩
abbrev S2x2x1024 : Shape := ⟨3, ![2, 2, 1024]⟩
abbrev S1x3x512 : Shape := ⟨3, ![1, 3, 512]⟩
abbrev S3x512 : Shape := ⟨2, ![3, 512]⟩
abbrev S32x3x512 : Shape := ⟨3, ![32, 3, 512]⟩
abbrev S32x515x512 : Shape := ⟨3, ![32, 515, 512]⟩
abbrev S1x512x2048 : Shape := ⟨3, ![1, 512, 2048]⟩
abbrev S512x2048 : Shape := ⟨2, ![512, 2048]⟩
abbrev S512x4x512 : Shape := ⟨3, ![512, 4, 512]⟩
abbrev S4x512x512 : Shape := ⟨3, ![4, 512, 512]⟩
abbrev S1x512 : Shape := ⟨2, ![1, 512]⟩
abbrev S512 : Shape := ⟨1, ![512]⟩
abbrev S1x2x1024x512 : Shape := ⟨4, ![1, 2, 1024, 512]⟩
abbrev S2x1024x512 : Shape := ⟨3, ![2, 1024, 512]⟩
abbrev S2x512x1024 : Shape := ⟨3, ![2, 512, 1024]⟩
abbrev S1x2x1024 : Shape := ⟨3, ![1, 2, 1024]⟩
abbrev S2x1024 : Shape := ⟨2, ![2, 1024]⟩
abbrev S2x1x1024 : Shape := ⟨3, ![2, 1, 1024]⟩
abbrev S1x515x512 : Shape := ⟨3, ![1, 515, 512]⟩
abbrev S1x512x512 : Shape := ⟨3, ![1, 512, 512]⟩
abbrev S515x512 : Shape := ⟨2, ![515, 512]⟩
abbrev S512x512 : Shape := ⟨2, ![512, 512]⟩
abbrev S1x512x1024 : Shape := ⟨3, ![1, 512, 1024]⟩
abbrev S512x1024 : Shape := ⟨2, ![512, 1024]⟩
abbrev S1x1x1024 : Shape := ⟨3, ![1, 1, 1024]⟩
abbrev S1x1024 : Shape := ⟨2, ![1, 1024]⟩
abbrev S32x512x1024 : Shape := ⟨3, ![32, 512, 1024]⟩
abbrev S1x32x512x1024 : Shape := ⟨4, ![1, 32, 512, 1024]⟩
abbrev S2x32x512x1024 : Shape := ⟨4, ![2, 32, 512, 1024]⟩

abbrev nBuf : Space → Nat
  | .hbm => 104
  | .vmem => 32
  | .smem => 0
  | _ => 0

abbrev bufTy : (tb : Table) → Fin (tcTables nBuf tb) → BufTy
  | .hbm, ⟨0, _⟩ => ⟨S32x512x512, .f32⟩
  | .hbm, ⟨1, _⟩ => ⟨S2x3x512, .f32⟩
  | .hbm, ⟨2, _⟩ => ⟨S2x3x512, .f32⟩
  | .hbm, ⟨3, _⟩ => ⟨S2x512x2048, .f32⟩
  | .hbm, ⟨4, _⟩ => ⟨S2x512, .f32⟩
  | .hbm, ⟨5, _⟩ => ⟨S2x512x2048, .f32⟩
  | .hbm, ⟨6, _⟩ => ⟨S2x512, .f32⟩
  | .hbm, ⟨7, _⟩ => ⟨S2x2x1024x512, .f32⟩
  | .hbm, ⟨8, _⟩ => ⟨S2x2x1024, .f32⟩
  | .hbm, ⟨9, _⟩ => ⟨S2x2x1024x512, .f32⟩
  | .hbm, ⟨10, _⟩ => ⟨S2x2x1024, .f32⟩
  | .hbm, ⟨11, _⟩ => ⟨S1x3x512, .f32⟩
  | .hbm, ⟨12, _⟩ => ⟨S3x512, .f32⟩
  | .hbm, ⟨13, _⟩ => ⟨S1x3x512, .f32⟩
  | .hbm, ⟨14, _⟩ => ⟨S32x3x512, .f32⟩
  | .hbm, ⟨15, _⟩ => ⟨S1x3x512, .f32⟩
  | .hbm, ⟨16, _⟩ => ⟨S3x512, .f32⟩
  | .hbm, ⟨17, _⟩ => ⟨S1x3x512, .f32⟩
  | .hbm, ⟨18, _⟩ => ⟨S32x3x512, .f32⟩
  | .hbm, ⟨19, _⟩ => ⟨S32x515x512, .f32⟩
  | .hbm, ⟨20, _⟩ => ⟨S32x515x512, .bf16⟩
  | .hbm, ⟨21, _⟩ => ⟨S32x515x512, .f32⟩
  | .hbm, ⟨22, _⟩ => ⟨S32x515x512, .bf16⟩
  | .hbm, ⟨23, _⟩ => ⟨S1x512x2048, .f32⟩
  | .hbm, ⟨24, _⟩ => ⟨S512x2048, .f32⟩
  | .hbm, ⟨25, _⟩ => ⟨S512x4x512, .f32⟩
  | .hbm, ⟨26, _⟩ => ⟨S4x512x512, .f32⟩
  | .hbm, ⟨27, _⟩ => ⟨S4x512x512, .bf16⟩
  | .hbm, ⟨28, _⟩ => ⟨S1x512x2048, .f32⟩
  | .hbm, ⟨29, _⟩ => ⟨S512x2048, .f32⟩
  | .hbm, ⟨30, _⟩ => ⟨S512x4x512, .f32⟩
  | .hbm, ⟨31, _⟩ => ⟨S4x512x512, .f32⟩
  | .hbm, ⟨32, _⟩ => ⟨S4x512x512, .bf16⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S1x512, .f32⟩
  | .hbm, ⟨37, _⟩ => ⟨S512, .f32⟩
  | .hbm, ⟨38, _⟩ => ⟨S1x512, .f32⟩
  | .hbm, ⟨39, _⟩ => ⟨S1x2x1024x512, .f32⟩
  | .hbm, ⟨40, _⟩ => ⟨S2x1024x512, .f32⟩
  | .hbm, ⟨41, _⟩ => ⟨S2x512x1024, .f32⟩
  | .hbm, ⟨42, _⟩ => ⟨S2x512x1024, .bf16⟩
  | .hbm, ⟨43, _⟩ => ⟨S1x2x1024x512, .f32⟩
  | .hbm, ⟨44, _⟩ => ⟨S2x1024x512, .f32⟩
  | .hbm, ⟨45, _⟩ => ⟨S2x512x1024, .f32⟩
  | .hbm, ⟨46, _⟩ => ⟨S2x512x1024, .bf16⟩
  | .hbm, ⟨47, _⟩ => ⟨S1x2x1024, .f32⟩
  | .hbm, ⟨48, _⟩ => ⟨S2x1024, .f32⟩
  | .hbm, ⟨49, _⟩ => ⟨S2x1x1024, .f32⟩
  | .hbm, ⟨50, _⟩ => ⟨S1x2x1024, .f32⟩
  | .hbm, ⟨51, _⟩ => ⟨S2x1024, .f32⟩
  | .hbm, ⟨52, _⟩ => ⟨S2x1x1024, .f32⟩
  | .hbm, ⟨53, _⟩ => ⟨S32x512x512, .f32⟩
  | .hbm, ⟨54, _⟩ => ⟨S32x512x512, .f32⟩
  | .hbm, ⟨55, _⟩ => ⟨S32x512x1024, .f32⟩
  | .hbm, ⟨56, _⟩ => ⟨S1x3x512, .f32⟩
  | .hbm, ⟨57, _⟩ => ⟨S3x512, .f32⟩
  | .hbm, ⟨58, _⟩ => ⟨S1x3x512, .f32⟩
  | .hbm, ⟨59, _⟩ => ⟨S32x3x512, .f32⟩
  | .hbm, ⟨60, _⟩ => ⟨S1x3x512, .f32⟩
  | .hbm, ⟨61, _⟩ => ⟨S3x512, .f32⟩
  | .hbm, ⟨62, _⟩ => ⟨S1x3x512, .f32⟩
  | .hbm, ⟨63, _⟩ => ⟨S32x3x512, .f32⟩
  | .hbm, ⟨64, _⟩ => ⟨S32x515x512, .f32⟩
  | .hbm, ⟨65, _⟩ => ⟨S32x515x512, .bf16⟩
  | .hbm, ⟨66, _⟩ => ⟨S32x515x512, .f32⟩
  | .hbm, ⟨67, _⟩ => ⟨S32x515x512, .bf16⟩
  | .hbm, ⟨68, _⟩ => ⟨S1x512x2048, .f32⟩
  | .hbm, ⟨69, _⟩ => ⟨S512x2048, .f32⟩
  | .hbm, ⟨70, _⟩ => ⟨S512x4x512, .f32⟩
  | .hbm, ⟨71, _⟩ => ⟨S4x512x512, .f32⟩
  | .hbm, ⟨72, _⟩ => ⟨S4x512x512, .bf16⟩
  | .hbm, ⟨73, _⟩ => ⟨S1x512x2048, .f32⟩
  | .hbm, ⟨74, _⟩ => ⟨S512x2048, .f32⟩
  | .hbm, ⟨75, _⟩ => ⟨S512x4x512, .f32⟩
  | .hbm, ⟨76, _⟩ => ⟨S4x512x512, .f32⟩
  | .hbm, ⟨77, _⟩ => ⟨S4x512x512, .bf16⟩
  | .hbm, ⟨78, _⟩ => ⟨S1x512, .f32⟩
  | .hbm, ⟨79, _⟩ => ⟨S512, .f32⟩
  | .hbm, ⟨80, _⟩ => ⟨S1x512, .f32⟩
  | .hbm, ⟨81, _⟩ => ⟨S1x512, .f32⟩
  | .hbm, ⟨82, _⟩ => ⟨S512, .f32⟩
  | .hbm, ⟨83, _⟩ => ⟨S1x512, .f32⟩
  | .hbm, ⟨84, _⟩ => ⟨S1x2x1024x512, .f32⟩
  | .hbm, ⟨85, _⟩ => ⟨S2x1024x512, .f32⟩
  | .hbm, ⟨86, _⟩ => ⟨S2x512x1024, .f32⟩
  | .hbm, ⟨87, _⟩ => ⟨S2x512x1024, .bf16⟩
  | .hbm, ⟨88, _⟩ => ⟨S1x2x1024x512, .f32⟩
  | .hbm, ⟨89, _⟩ => ⟨S2x1024x512, .f32⟩
  | .hbm, ⟨90, _⟩ => ⟨S2x512x1024, .f32⟩
  | .hbm, ⟨91, _⟩ => ⟨S2x512x1024, .bf16⟩
  | .hbm, ⟨92, _⟩ => ⟨S1x2x1024, .f32⟩
  | .hbm, ⟨93, _⟩ => ⟨S2x1024, .f32⟩
  | .hbm, ⟨94, _⟩ => ⟨S2x1x1024, .f32⟩
  | .hbm, ⟨95, _⟩ => ⟨S1x2x1024, .f32⟩
  | .hbm, ⟨96, _⟩ => ⟨S2x1024, .f32⟩
  | .hbm, ⟨97, _⟩ => ⟨S2x1x1024, .f32⟩
  | .hbm, ⟨98, _⟩ => ⟨S32x512x512, .f32⟩
  | .hbm, ⟨99, _⟩ => ⟨S32x512x512, .f32⟩
  | .hbm, ⟨100, _⟩ => ⟨S32x512x1024, .f32⟩
  | .hbm, ⟨101, _⟩ => ⟨S1x32x512x1024, .f32⟩
  | .hbm, ⟨102, _⟩ => ⟨S1x32x512x1024, .f32⟩
  | .hbm, ⟨103, _⟩ => ⟨S2x32x512x1024, .f32⟩
  | .local _ .vmem, ⟨0, _⟩ => ⟨S1x515x512, .bf16⟩
  | .local _ .vmem, ⟨1, _⟩ => ⟨S1x515x512, .bf16⟩
  | .local _ .vmem, ⟨2, _⟩ => ⟨S4x512x512, .bf16⟩
  | .local _ .vmem, ⟨3, _⟩ => ⟨S1x512, .f32⟩
  | .local _ .vmem, ⟨4, _⟩ => ⟨S2x512x1024, .bf16⟩
  | .local _ .vmem, ⟨5, _⟩ => ⟨S2x1x1024, .f32⟩
  | .local _ .vmem, ⟨6, _⟩ => ⟨S1x512x512, .f32⟩
  | .local _ .vmem, ⟨7, _⟩ => ⟨S1x512x512, .f32⟩
  | .local _ .vmem, ⟨8, _⟩ => ⟨S1x515x512, .bf16⟩
  | .local _ .vmem, ⟨9, _⟩ => ⟨S1x515x512, .bf16⟩
  | .local _ .vmem, ⟨10, _⟩ => ⟨S4x512x512, .bf16⟩
  | .local _ .vmem, ⟨11, _⟩ => ⟨S1x512, .f32⟩
  | .local _ .vmem, ⟨12, _⟩ => ⟨S2x512x1024, .bf16⟩
  | .local _ .vmem, ⟨13, _⟩ => ⟨S2x1x1024, .f32⟩
  | .local _ .vmem, ⟨14, _⟩ => ⟨S1x512x512, .f32⟩
  | .local _ .vmem, ⟨15, _⟩ => ⟨S1x512x512, .f32⟩
  | .local _ .vmem, ⟨16, _⟩ => ⟨S1x515x512, .bf16⟩
  | .local _ .vmem, ⟨17, _⟩ => ⟨S1x515x512, .bf16⟩
  | .local _ .vmem, ⟨18, _⟩ => ⟨S4x512x512, .bf16⟩
  | .local _ .vmem, ⟨19, _⟩ => ⟨S1x512, .f32⟩
  | .local _ .vmem, ⟨20, _⟩ => ⟨S2x512x1024, .bf16⟩
  | .local _ .vmem, ⟨21, _⟩ => ⟨S2x1x1024, .f32⟩
  | .local _ .vmem, ⟨22, _⟩ => ⟨S1x512x512, .f32⟩
  | .local _ .vmem, ⟨23, _⟩ => ⟨S1x512x512, .f32⟩
  | .local _ .vmem, ⟨24, _⟩ => ⟨S1x515x512, .bf16⟩
  | .local _ .vmem, ⟨25, _⟩ => ⟨S1x515x512, .bf16⟩
  | .local _ .vmem, ⟨26, _⟩ => ⟨S4x512x512, .bf16⟩
  | .local _ .vmem, ⟨27, _⟩ => ⟨S1x512, .f32⟩
  | .local _ .vmem, ⟨28, _⟩ => ⟨S2x512x1024, .bf16⟩
  | .local _ .vmem, ⟨29, _⟩ => ⟨S2x1x1024, .f32⟩
  | .local _ .vmem, ⟨30, _⟩ => ⟨S1x512x512, .f32⟩
  | .local _ .vmem, ⟨31, _⟩ => ⟨S1x512x512, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x515x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x515x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x515x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x512x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2x1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x515x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4x512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x512x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2x1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x512x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x3x512_S1x3x512_0_0_0 : S2x3x512.Slices ![0, 0, 0] S1x3x512
  shapeCasts_S1x3x512_S3x512 : S1x3x512.ShapeCasts S3x512
  bcast_S3x512_S1x3x512_1_2 : S3x512.BroadcastsInDim S1x3x512 (![1, 2] : Fin 2 → Fin S1x3x512.rank)
  bcast_S1x3x512_S32x3x512_0_1_2 : S1x3x512.BroadcastsInDim S32x3x512 (![0, 1, 2] : Fin 3 → Fin S32x3x512.rank)
  concatenates_S32x3x512_S32x512x512_S32x515x512_d1 : Shape.Concatenates [S32x3x512, S32x512x512] S32x515x512 1
  bitsLt_bf16_f32 : FTy.bits .bf16 < FTy.bits .f32
  concatenates_S32x512x512_S32x3x512_S32x515x512_d1 : Shape.Concatenates [S32x512x512, S32x3x512] S32x515x512 1
  slices_S2x512x2048_S1x512x2048_0_0_0 : S2x512x2048.Slices ![0, 0, 0] S1x512x2048
  shapeCasts_S1x512x2048_S512x2048 : S1x512x2048.ShapeCasts S512x2048
  shapeCasts_S512x2048_S512x4x512 : S512x2048.ShapeCasts S512x4x512
  transposes_S512x4x512_S4x512x512_1_2_0 : S512x4x512.Transposes [1, 2, 0] S4x512x512
  slices_S2x512_S1x512_0_0 : S2x512.Slices ![0, 0] S1x512
  shapeCasts_S1x512_S512 : S1x512.ShapeCasts S512
  shapeCasts_S512_S1x512 : S512.ShapeCasts S1x512
  slices_S2x2x1024x512_S1x2x1024x512_0_0_0_0 : S2x2x1024x512.Slices ![0, 0, 0, 0] S1x2x1024x512
  shapeCasts_S1x2x1024x512_S2x1024x512 : S1x2x1024x512.ShapeCasts S2x1024x512
  transposes_S2x1024x512_S2x512x1024_0_2_1 : S2x1024x512.Transposes [0, 2, 1] S2x512x1024
  slices_S2x2x1024_S1x2x1024_0_0_0 : S2x2x1024.Slices ![0, 0, 0] S1x2x1024
  shapeCasts_S1x2x1024_S2x1024 : S1x2x1024.ShapeCasts S2x1024
  shapeCasts_S2x1024_S2x1x1024 : S2x1024.ShapeCasts S2x1x1024
  inb_S1x515x512_S1x515x512_0_0_0 : ∀ a, (![0, 0, 0] : Fin 3 → Nat) a + S1x515x512.size a ≤ S1x515x512.size a
  h_S1x515x512 : 0 < S1x515x512.numel
  shapeCasts_S1x515x512_S515x512 : S1x515x512.ShapeCasts S515x512
  slices_S515x512_o0_0_S512x512 : S515x512.Slices ![0, 0] S512x512
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  slices_S515x512_o1_0_S512x512 : S515x512.Slices ![1, 0] S512x512
  inb_S4x512x512_S1x512x512_1_0_0 : ∀ a, (![1, 0, 0] : Fin 3 → Nat) a + S1x512x512.size a ≤ S4x512x512.size a
  slices_S515x512_o2_0_S512x512 : S515x512.Slices ![2, 0] S512x512
  inb_S4x512x512_S1x512x512_2_0_0 : ∀ a, (![2, 0, 0] : Fin 3 → Nat) a + S1x512x512.size a ≤ S4x512x512.size a
  slices_S515x512_o3_0_S512x512 : S515x512.Slices ![3, 0] S512x512
  inb_S4x512x512_S1x512x512_3_0_0 : ∀ a, (![3, 0, 0] : Fin 3 → Nat) a + S1x512x512.size a ≤ S4x512x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S2x512x1024_S1x512x1024_0_0_0 : ∀ a, (![0, 0, 0] : Fin 3 → Nat) a + S1x512x1024.size a ≤ S2x512x1024.size a
  h_S1x512x1024 : 0 < S1x512x1024.numel
  shapeCasts_S1x512x1024_S512x1024 : S1x512x1024.ShapeCasts S512x1024
  inb_S2x1x1024_S1x1x1024_0_0_0 : ∀ a, (![0, 0, 0] : Fin 3 → Nat) a + S1x1x1024.size a ≤ S2x1x1024.size a
  h_S1x1x1024 : 0 < S1x1x1024.numel
  shapeCasts_S1x1x1024_S1x1024 : S1x1x1024.ShapeCasts S1x1024
  broadcasts_S1x1024_S512x1024 : S1x1024.Broadcasts S512x1024
  slices_S512x1024_o0_0_S512x512 : S512x1024.Slices ![0, 0] S512x512
  slices_S512x1024_o0_512_S512x512 : S512x1024.Slices ![0, 512] S512x512
  inb_S2x512x1024_S1x512x1024_1_0_0 : ∀ a, (![1, 0, 0] : Fin 3 → Nat) a + S1x512x1024.size a ≤ S2x512x1024.size a
  inb_S2x1x1024_S1x1x1024_1_0_0 : ∀ a, (![1, 0, 0] : Fin 3 → Nat) a + S1x1x1024.size a ≤ S2x1x1024.size a
  inb_S1x512x512_S1x512x512_0_0_0 : ∀ a, (![0, 0, 0] : Fin 3 → Nat) a + S1x512x512.size a ≤ S1x512x512.size a
  shapeCasts_S512x512_S1x512x512 : S512x512.ShapeCasts S1x512x512
  concatenates_S32x512x512_S32x512x512_S32x512x1024_d2 : Shape.Concatenates [S32x512x512, S32x512x512] S32x512x1024 2
  slices_S2x3x512_S1x3x512_1_0_0 : S2x3x512.Slices ![1, 0, 0] S1x3x512
  slices_S2x512x2048_S1x512x2048_1_0_0 : S2x512x2048.Slices ![1, 0, 0] S1x512x2048
  slices_S2x512_S1x512_1_0 : S2x512.Slices ![1, 0] S1x512
  slices_S2x2x1024x512_S1x2x1024x512_1_0_0_0 : S2x2x1024x512.Slices ![1, 0, 0, 0] S1x2x1024x512
  slices_S2x2x1024_S1x2x1024_1_0_0 : S2x2x1024.Slices ![1, 0, 0] S1x2x1024
  bcast_S32x512x1024_S1x32x512x1024_1_2_3 : S32x512x1024.BroadcastsInDim S1x32x512x1024 (![1, 2, 3] : Fin 3 → Fin S1x32x512x1024.rank)
  concatenates_S1x32x512x1024_S1x32x512x1024_S2x32x512x1024_d0 : Shape.Concatenates [S1x32x512x1024, S1x32x512x1024] S2x32x512x1024 0
  dot_S512x512_S512x512_S512x512_1_0_0_1_n_n_wf : DotDims.WF S512x512 S512x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x515x512.size a ≤ S32x515x512.size a
  hwx0_0 : ∀ i : grid0.Coords, EltTy.bits .bf16 = 32 ∨ (Rect.block (s := S32x515x512) S1x515x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S4x512x512.size a
  hwx0_1 : ∀ i : grid0.Coords, EltTy.bits .bf16 = 32 ∨ (Rect.block (s := S4x512x512) S4x512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x512x1024.size a ≤ S2x512x1024.size a
  hwx0_3 : ∀ i : grid0.Coords, EltTy.bits .bf16 = 32 ∨ (Rect.block (s := S2x512x1024) S2x512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1x1024.size a ≤ S2x1x1024.size a
  hwx0_4 : ∀ i : grid0.Coords, EltTy.bits .f32 = 32 ∨ (Rect.block (s := S2x1x1024) S2x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S32x512x512.size a
  hwx0_5 : ∀ i : grid0.Coords, EltTy.bits .f32 = 32 ∨ (Rect.block (s := S32x512x512) S1x512x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x515x512.size a ≤ S32x515x512.size a
  hwx1_0 : ∀ i : grid1.Coords, EltTy.bits .bf16 = 32 ∨ (Rect.block (s := S32x515x512) S1x515x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x512x512.size a ≤ S4x512x512.size a
  hwx1_1 : ∀ i : grid1.Coords, EltTy.bits .bf16 = 32 ∨ (Rect.block (s := S4x512x512) S4x512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x512x1024.size a ≤ S2x512x1024.size a
  hwx1_3 : ∀ i : grid1.Coords, EltTy.bits .bf16 = 32 ∨ (Rect.block (s := S2x512x1024) S2x512x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x1x1024.size a ≤ S2x1x1024.size a
  hwx1_4 : ∀ i : grid1.Coords, EltTy.bits .f32 = 32 ∨ (Rect.block (s := S2x1x1024) S2x1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x512.size a ≤ S32x512x512.size a
  hwx1_5 : ∀ i : grid1.Coords, EltTy.bits .f32 = 32 ∨ (Rect.block (s := S32x512x512) S1x512x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x515x512.size a ≤ S32x515x512.size a
  hwx2_0 : ∀ i : grid2.Coords, EltTy.bits .bf16 = 32 ∨ (Rect.block (s := S32x515x512) S1x515x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x512x512.size a ≤ S4x512x512.size a
  hwx2_1 : ∀ i : grid2.Coords, EltTy.bits .bf16 = 32 ∨ (Rect.block (s := S4x512x512) S4x512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x512x1024.size a ≤ S2x512x1024.size a
  hwx2_3 : ∀ i : grid2.Coords, EltTy.bits .bf16 = 32 ∨ (Rect.block (s := S2x512x1024) S2x512x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2x1x1024.size a ≤ S2x1x1024.size a
  hwx2_4 : ∀ i : grid2.Coords, EltTy.bits .f32 = 32 ∨ (Rect.block (s := S2x1x1024) S2x1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512x512.size a ≤ S32x512x512.size a
  hwx2_5 : ∀ i : grid2.Coords, EltTy.bits .f32 = 32 ∨ (Rect.block (s := S32x512x512) S1x512x512.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x515x512.size a ≤ S32x515x512.size a
  hwx3_0 : ∀ i : grid3.Coords, EltTy.bits .bf16 = 32 ∨ (Rect.block (s := S32x515x512) S1x515x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4x512x512.size a ≤ S4x512x512.size a
  hwx3_1 : ∀ i : grid3.Coords, EltTy.bits .bf16 = 32 ∨ (Rect.block (s := S4x512x512) S4x512x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2x512x1024.size a ≤ S2x512x1024.size a
  hwx3_3 : ∀ i : grid3.Coords, EltTy.bits .bf16 = 32 ∨ (Rect.block (s := S2x512x1024) S2x512x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2x1x1024.size a ≤ S2x1x1024.size a
  hwx3_4 : ∀ i : grid3.Coords, EltTy.bits .f32 = 32 ∨ (Rect.block (s := S2x1x1024) S2x1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x512x512.size a ≤ S32x512x512.size a
  hwx3_5 : ∀ i : grid3.Coords, EltTy.bits .f32 = 32 ∨ (Rect.block (s := S32x512x512) S1x512x512.size (cc3_transform_5 i) (hinb3_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v9) S1x515x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2x512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S2x1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S1x515x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4x512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S2x512x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S2x1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S1x515x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S4x512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S2x512x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v83) S2x1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v87) S1x512x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S1x515x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S4x512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S2x512x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S2x1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v88) S1x512x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S32x512x512 : Shape := ⟨3, ![32, 512, 512]⟩
abbrev S2x3x512 : Shape := ⟨3, ![2, 3, 512]⟩
abbrev S2x512x2048 : Shape := ⟨3, ![2, 512, 2048]⟩
abbrev S2x512 : Shape := ⟨2, ![2, 512]⟩
abbrev S2x2x1024x512 : Shape := ⟨4, ![2, 2, 1024, 512]⟩
abbrev S2x2x1024 : Shape := ⟨3, ![2, 2, 1024]⟩
abbrev S512 : Shape := ⟨1, ![512]⟩
abbrev S512x1 : Shape := ⟨2, ![512, 1]⟩
abbrev S4 : Shape := ⟨1, ![4]⟩
abbrev S1x4 : Shape := ⟨2, ![1, 4]⟩
abbrev S512x4 : Shape := ⟨2, ![512, 4]⟩
abbrev S1x3x512 : Shape := ⟨3, ![1, 3, 512]⟩
abbrev S3x512 : Shape := ⟨2, ![3, 512]⟩
abbrev S32x3x512 : Shape := ⟨3, ![32, 3, 512]⟩
abbrev S32x518x512 : Shape := ⟨3, ![32, 518, 512]⟩
abbrev S_ : Shape := ⟨0, ![]⟩
abbrev S512x4x1 : Shape := ⟨3, ![512, 4, 1]⟩
abbrev S32x512x4x512 : Shape := ⟨4, ![32, 512, 4, 512]⟩
abbrev S32x512x2048 : Shape := ⟨3, ![32, 512, 2048]⟩
abbrev S1x512x2048 : Shape := ⟨3, ![1, 512, 2048]⟩
abbrev S512x2048 : Shape := ⟨2, ![512, 2048]⟩
abbrev S1x512 : Shape := ⟨2, ![1, 512]⟩
abbrev S1x1x512 : Shape := ⟨3, ![1, 1, 512]⟩
abbrev S1x2x1024x512 : Shape := ⟨4, ![1, 2, 1024, 512]⟩
abbrev S2x1024x512 : Shape := ⟨3, ![2, 1024, 512]⟩
abbrev S1x2x1024 : Shape := ⟨3, ![1, 2, 1024]⟩
abbrev S2x1024 : Shape := ⟨2, ![2, 1024]⟩
abbrev S1x1024x512 : Shape := ⟨3, ![1, 1024, 512]⟩
abbrev S1024x512 : Shape := ⟨2, ![1024, 512]⟩
abbrev S32x512x1024 : Shape := ⟨3, ![32, 512, 1024]⟩
abbrev S1x1024 : Shape := ⟨2, ![1, 1024]⟩
abbrev S1024 : Shape := ⟨1, ![1024]⟩
abbrev S1x1x1024 : Shape := ⟨3, ![1, 1, 1024]⟩
abbrev S1x32x512x1024 : Shape := ⟨4, ![1, 32, 512, 1024]⟩
abbrev S2x32x512x1024 : Shape := ⟨4, ![2, 32, 512, 1024]⟩

abbrev nBuf : Space → Nat
  | .hbm => 361
  | .vmem => 0
  | .smem => 0
  | _ => 0

abbrev hbmTy0_0 (i : Nat) : BufTy := match i % 128 with
  | 0 => ⟨S32x512x512, .f32⟩
  | 1 => ⟨S2x3x512, .f32⟩
  | 2 => ⟨S2x3x512, .f32⟩
  | 3 => ⟨S2x512x2048, .f32⟩
  | 4 => ⟨S2x512, .f32⟩
  | 5 => ⟨S2x512x2048, .f32⟩
  | 6 => ⟨S2x512, .f32⟩
  | 7 => ⟨S2x2x1024x512, .f32⟩
  | 8 => ⟨S2x2x1024, .f32⟩
  | 9 => ⟨S2x2x1024x512, .f32⟩
  | 10 => ⟨S2x2x1024, .f32⟩
  | 11 => ⟨S512, .i32⟩
  | 12 => ⟨S512x1, .i32⟩
  | 13 => ⟨S4, .i32⟩
  | 14 => ⟨S1x4, .i32⟩
  | 15 => ⟨S512x4, .i32⟩
  | 16 => ⟨S512x4, .i32⟩
  | 17 => ⟨S512x4, .i32⟩
  | 18 => ⟨S1x3x512, .f32⟩
  | 19 => ⟨S3x512, .f32⟩
  | 20 => ⟨S32x3x512, .f32⟩
  | 21 => ⟨S1x3x512, .f32⟩
  | 22 => ⟨S3x512, .f32⟩
  | 23 => ⟨S32x3x512, .f32⟩
  | 24 => ⟨S32x518x512, .f32⟩
  | 25 => ⟨S32x518x512, .f32⟩
  | 26 => ⟨S_, .i32⟩
  | 27 => ⟨S512x4, .i32⟩
  | 28 => ⟨S512x4, .i1⟩
  | 29 => ⟨S_, .i32⟩
  | 30 => ⟨S512x4, .i32⟩
  | 31 => ⟨S512x4, .i32⟩
  | 32 => ⟨S512x4, .i32⟩
  | 33 => ⟨S512x4x1, .i32⟩
  | 34 => ⟨S32x512x4x512, .f32⟩
  | 35 => ⟨S32x512x2048, .f32⟩
  | 36 => ⟨S_, .i32⟩
  | 37 => ⟨S512x4, .i32⟩
  | 38 => ⟨S512x4, .i32⟩
  | 39 => ⟨S_, .i32⟩
  | 40 => ⟨S512x4, .i32⟩
  | 41 => ⟨S512x4, .i1⟩
  | 42 => ⟨S_, .i32⟩
  | 43 => ⟨S512x4, .i32⟩
  | 44 => ⟨S512x4, .i32⟩
  | 45 => ⟨S512x4, .i32⟩
  | 46 => ⟨S512x4x1, .i32⟩
  | 47 => ⟨S32x512x4x512, .f32⟩
  | 48 => ⟨S32x512x2048, .f32⟩
  | 49 => ⟨S1x512x2048, .f32⟩
  | 50 => ⟨S512x2048, .f32⟩
  | 51 => ⟨S32x512x512, .f32⟩
  | 52 => ⟨S1x512, .f32⟩
  | 53 => ⟨S512, .f32⟩
  | 54 => ⟨S1x1x512, .f32⟩
  | 55 => ⟨S32x512x512, .f32⟩
  | 56 => ⟨S32x512x512, .f32⟩
  | 57 => ⟨S_, .f32⟩
  | 58 => ⟨S32x512x512, .f32⟩
  | 59 => ⟨S32x512x512, .f32⟩
  | 60 => ⟨S1x512x2048, .f32⟩
  | 61 => ⟨S512x2048, .f32⟩
  | 62 => ⟨S32x512x512, .f32⟩
  | 63 => ⟨S1x512, .f32⟩
  | 64 => ⟨S512, .f32⟩
  | 65 => ⟨S1x1x512, .f32⟩
  | 66 => ⟨S32x512x512, .f32⟩
  | 67 => ⟨S32x512x512, .f32⟩
  | 68 => ⟨S_, .f32⟩
  | 69 => ⟨S32x512x512, .f32⟩
  | 70 => ⟨S32x512x512, .f32⟩
  | 71 => ⟨S1x2x1024x512, .f32⟩
  | 72 => ⟨S2x1024x512, .f32⟩
  | 73 => ⟨S1x2x1024, .f32⟩
  | 74 => ⟨S2x1024, .f32⟩
  | 75 => ⟨S1x1024x512, .f32⟩
  | 76 => ⟨S1024x512, .f32⟩
  | 77 => ⟨S32x512x1024, .f32⟩
  | 78 => ⟨S1x1024, .f32⟩
  | 79 => ⟨S1024, .f32⟩
  | 80 => ⟨S1x1x1024, .f32⟩
  | 81 => ⟨S32x512x1024, .f32⟩
  | 82 => ⟨S32x512x1024, .f32⟩
  | 83 => ⟨S32x512x512, .f32⟩
  | 84 => ⟨S32x512x512, .f32⟩
  | 85 => ⟨S32x512x512, .f32⟩
  | 86 => ⟨S32x512x512, .f32⟩
  | 87 => ⟨S_, .f32⟩
  | 88 => ⟨S32x512x512, .f32⟩
  | 89 => ⟨S32x512x512, .f32⟩
  | 90 => ⟨S_, .f32⟩
  | 91 => ⟨S32x512x512, .f32⟩
  | 92 => ⟨S32x512x512, .f32⟩
  | 93 => ⟨S32x512x512, .f32⟩
  | 94 => ⟨S_, .f32⟩
  | 95 => ⟨S32x512x512, .f32⟩
  | 96 => ⟨S32x512x512, .f32⟩
  | 97 => ⟨S_, .f32⟩
  | 98 => ⟨S32x512x512, .f32⟩
  | 99 => ⟨S32x512x512, .f32⟩
  | 100 => ⟨S32x512x512, .f32⟩
  | 101 => ⟨S32x512x512, .f32⟩
  | 102 => ⟨S1x1024x512, .f32⟩
  | 103 => ⟨S1024x512, .f32⟩
  | 104 => ⟨S32x512x1024, .f32⟩
  | 105 => ⟨S1x1024, .f32⟩
  | 106 => ⟨S1024, .f32⟩
  | 107 => ⟨S1x1x1024, .f32⟩
  | 108 => ⟨S32x512x1024, .f32⟩
  | 109 => ⟨S32x512x1024, .f32⟩
  | 110 => ⟨S32x512x512, .f32⟩
  | 111 => ⟨S32x512x512, .f32⟩
  | 112 => ⟨S32x512x512, .f32⟩
  | 113 => ⟨S32x512x512, .f32⟩
  | 114 => ⟨S_, .f32⟩
  | 115 => ⟨S32x512x512, .f32⟩
  | 116 => ⟨S32x512x512, .f32⟩
  | 117 => ⟨S_, .f32⟩
  | 118 => ⟨S32x512x512, .f32⟩
  | 119 => ⟨S32x512x512, .f32⟩
  | 120 => ⟨S32x512x512, .f32⟩
  | 121 => ⟨S_, .f32⟩
  | 122 => ⟨S32x512x512, .f32⟩
  | 123 => ⟨S32x512x512, .f32⟩
  | 124 => ⟨S_, .f32⟩
  | 125 => ⟨S32x512x512, .f32⟩
  | 126 => ⟨S32x512x512, .f32⟩
  | 127 => ⟨S32x512x512, .f32⟩
  | _ => ⟨S32x512x512, .f32⟩

abbrev hbmTy0_1 (i : Nat) : BufTy := match i % 128 with
  | 0 => ⟨S32x512x512, .f32⟩
  | 1 => ⟨S1x2x1024x512, .f32⟩
  | 2 => ⟨S2x1024x512, .f32⟩
  | 3 => ⟨S1x2x1024, .f32⟩
  | 4 => ⟨S2x1024, .f32⟩
  | 5 => ⟨S1x1024x512, .f32⟩
  | 6 => ⟨S1024x512, .f32⟩
  | 7 => ⟨S32x512x1024, .f32⟩
  | 8 => ⟨S1x1024, .f32⟩
  | 9 => ⟨S1024, .f32⟩
  | 10 => ⟨S1x1x1024, .f32⟩
  | 11 => ⟨S32x512x1024, .f32⟩
  | 12 => ⟨S32x512x1024, .f32⟩
  | 13 => ⟨S32x512x512, .f32⟩
  | 14 => ⟨S32x512x512, .f32⟩
  | 15 => ⟨S32x512x512, .f32⟩
  | 16 => ⟨S32x512x512, .f32⟩
  | 17 => ⟨S_, .f32⟩
  | 18 => ⟨S32x512x512, .f32⟩
  | 19 => ⟨S32x512x512, .f32⟩
  | 20 => ⟨S_, .f32⟩
  | 21 => ⟨S32x512x512, .f32⟩
  | 22 => ⟨S32x512x512, .f32⟩
  | 23 => ⟨S32x512x512, .f32⟩
  | 24 => ⟨S_, .f32⟩
  | 25 => ⟨S32x512x512, .f32⟩
  | 26 => ⟨S32x512x512, .f32⟩
  | 27 => ⟨S_, .f32⟩
  | 28 => ⟨S32x512x512, .f32⟩
  | 29 => ⟨S32x512x512, .f32⟩
  | 30 => ⟨S32x512x512, .f32⟩
  | 31 => ⟨S32x512x512, .f32⟩
  | 32 => ⟨S1x1024x512, .f32⟩
  | 33 => ⟨S1024x512, .f32⟩
  | 34 => ⟨S32x512x1024, .f32⟩
  | 35 => ⟨S1x1024, .f32⟩
  | 36 => ⟨S1024, .f32⟩
  | 37 => ⟨S1x1x1024, .f32⟩
  | 38 => ⟨S32x512x1024, .f32⟩
  | 39 => ⟨S32x512x1024, .f32⟩
  | 40 => ⟨S32x512x512, .f32⟩
  | 41 => ⟨S32x512x512, .f32⟩
  | 42 => ⟨S32x512x512, .f32⟩
  | 43 => ⟨S32x512x512, .f32⟩
  | 44 => ⟨S_, .f32⟩
  | 45 => ⟨S32x512x512, .f32⟩
  | 46 => ⟨S32x512x512, .f32⟩
  | 47 => ⟨S_, .f32⟩
  | 48 => ⟨S32x512x512, .f32⟩
  | 49 => ⟨S32x512x512, .f32⟩
  | 50 => ⟨S32x512x512, .f32⟩
  | 51 => ⟨S_, .f32⟩
  | 52 => ⟨S32x512x512, .f32⟩
  | 53 => ⟨S32x512x512, .f32⟩
  | 54 => ⟨S_, .f32⟩
  | 55 => ⟨S32x512x512, .f32⟩
  | 56 => ⟨S32x512x512, .f32⟩
  | 57 => ⟨S32x512x512, .f32⟩
  | 58 => ⟨S32x512x512, .f32⟩
  | 59 => ⟨S32x512x1024, .f32⟩
  | 60 => ⟨S1x3x512, .f32⟩
  | 61 => ⟨S3x512, .f32⟩
  | 62 => ⟨S32x3x512, .f32⟩
  | 63 => ⟨S1x3x512, .f32⟩
  | 64 => ⟨S3x512, .f32⟩
  | 65 => ⟨S32x3x512, .f32⟩
  | 66 => ⟨S32x518x512, .f32⟩
  | 67 => ⟨S32x518x512, .f32⟩
  | 68 => ⟨S_, .i32⟩
  | 69 => ⟨S512x4, .i32⟩
  | 70 => ⟨S512x4, .i1⟩
  | 71 => ⟨S_, .i32⟩
  | 72 => ⟨S512x4, .i32⟩
  | 73 => ⟨S512x4, .i32⟩
  | 74 => ⟨S512x4, .i32⟩
  | 75 => ⟨S512x4x1, .i32⟩
  | 76 => ⟨S32x512x4x512, .f32⟩
  | 77 => ⟨S32x512x2048, .f32⟩
  | 78 => ⟨S_, .i32⟩
  | 79 => ⟨S512x4, .i32⟩
  | 80 => ⟨S512x4, .i32⟩
  | 81 => ⟨S_, .i32⟩
  | 82 => ⟨S512x4, .i32⟩
  | 83 => ⟨S512x4, .i1⟩
  | 84 => ⟨S_, .i32⟩
  | 85 => ⟨S512x4, .i32⟩
  | 86 => ⟨S512x4, .i32⟩
  | 87 => ⟨S512x4, .i32⟩
  | 88 => ⟨S512x4x1, .i32⟩
  | 89 => ⟨S32x512x4x512, .f32⟩
  | 90 => ⟨S32x512x2048, .f32⟩
  | 91 => ⟨S1x512x2048, .f32⟩
  | 92 => ⟨S512x2048, .f32⟩
  | 93 => ⟨S32x512x512, .f32⟩
  | 94 => ⟨S1x512, .f32⟩
  | 95 => ⟨S512, .f32⟩
  | 96 => ⟨S1x1x512, .f32⟩
  | 97 => ⟨S32x512x512, .f32⟩
  | 98 => ⟨S32x512x512, .f32⟩
  | 99 => ⟨S_, .f32⟩
  | 100 => ⟨S32x512x512, .f32⟩
  | 101 => ⟨S32x512x512, .f32⟩
  | 102 => ⟨S1x512x2048, .f32⟩
  | 103 => ⟨S512x2048, .f32⟩
  | 104 => ⟨S32x512x512, .f32⟩
  | 105 => ⟨S1x512, .f32⟩
  | 106 => ⟨S512, .f32⟩
  | 107 => ⟨S1x1x512, .f32⟩
  | 108 => ⟨S32x512x512, .f32⟩
  | 109 => ⟨S32x512x512, .f32⟩
  | 110 => ⟨S_, .f32⟩
  | 111 => ⟨S32x512x512, .f32⟩
  | 112 => ⟨S32x512x512, .f32⟩
  | 113 => ⟨S1x2x1024x512, .f32⟩
  | 114 => ⟨S2x1024x512, .f32⟩
  | 115 => ⟨S1x2x1024, .f32⟩
  | 116 => ⟨S2x1024, .f32⟩
  | 117 => ⟨S1x1024x512, .f32⟩
  | 118 => ⟨S1024x512, .f32⟩
  | 119 => ⟨S32x512x1024, .f32⟩
  | 120 => ⟨S1x1024, .f32⟩
  | 121 => ⟨S1024, .f32⟩
  | 122 => ⟨S1x1x1024, .f32⟩
  | 123 => ⟨S32x512x1024, .f32⟩
  | 124 => ⟨S32x512x1024, .f32⟩
  | 125 => ⟨S32x512x512, .f32⟩
  | 126 => ⟨S32x512x512, .f32⟩
  | 127 => ⟨S32x512x512, .f32⟩
  | _ => ⟨S32x512x512, .f32⟩

abbrev hbmTy0_2 (i : Nat) : BufTy := match i % 128 with
  | 0 => ⟨S32x512x512, .f32⟩
  | 1 => ⟨S_, .f32⟩
  | 2 => ⟨S32x512x512, .f32⟩
  | 3 => ⟨S32x512x512, .f32⟩
  | 4 => ⟨S_, .f32⟩
  | 5 => ⟨S32x512x512, .f32⟩
  | 6 => ⟨S32x512x512, .f32⟩
  | 7 => ⟨S32x512x512, .f32⟩
  | 8 => ⟨S_, .f32⟩
  | 9 => ⟨S32x512x512, .f32⟩
  | 10 => ⟨S32x512x512, .f32⟩
  | 11 => ⟨S_, .f32⟩
  | 12 => ⟨S32x512x512, .f32⟩
  | 13 => ⟨S32x512x512, .f32⟩
  | 14 => ⟨S32x512x512, .f32⟩
  | 15 => ⟨S32x512x512, .f32⟩
  | 16 => ⟨S1x1024x512, .f32⟩
  | 17 => ⟨S1024x512, .f32⟩
  | 18 => ⟨S32x512x1024, .f32⟩
  | 19 => ⟨S1x1024, .f32⟩
  | 20 => ⟨S1024, .f32⟩
  | 21 => ⟨S1x1x1024, .f32⟩
  | 22 => ⟨S32x512x1024, .f32⟩
  | 23 => ⟨S32x512x1024, .f32⟩
  | 24 => ⟨S32x512x512, .f32⟩
  | 25 => ⟨S32x512x512, .f32⟩
  | 26 => ⟨S32x512x512, .f32⟩
  | 27 => ⟨S32x512x512, .f32⟩
  | 28 => ⟨S_, .f32⟩
  | 29 => ⟨S32x512x512, .f32⟩
  | 30 => ⟨S32x512x512, .f32⟩
  | 31 => ⟨S_, .f32⟩
  | 32 => ⟨S32x512x512, .f32⟩
  | 33 => ⟨S32x512x512, .f32⟩
  | 34 => ⟨S32x512x512, .f32⟩
  | 35 => ⟨S_, .f32⟩
  | 36 => ⟨S32x512x512, .f32⟩
  | 37 => ⟨S32x512x512, .f32⟩
  | 38 => ⟨S_, .f32⟩
  | 39 => ⟨S32x512x512, .f32⟩
  | 40 => ⟨S32x512x512, .f32⟩
  | 41 => ⟨S32x512x512, .f32⟩
  | 42 => ⟨S32x512x512, .f32⟩
  | 43 => ⟨S1x2x1024x512, .f32⟩
  | 44 => ⟨S2x1024x512, .f32⟩
  | 45 => ⟨S1x2x1024, .f32⟩
  | 46 => ⟨S2x1024, .f32⟩
  | 47 => ⟨S1x1024x512, .f32⟩
  | 48 => ⟨S1024x512, .f32⟩
  | 49 => ⟨S32x512x1024, .f32⟩
  | 50 => ⟨S1x1024, .f32⟩
  | 51 => ⟨S1024, .f32⟩
  | 52 => ⟨S1x1x1024, .f32⟩
  | 53 => ⟨S32x512x1024, .f32⟩
  | 54 => ⟨S32x512x1024, .f32⟩
  | 55 => ⟨S32x512x512, .f32⟩
  | 56 => ⟨S32x512x512, .f32⟩
  | 57 => ⟨S32x512x512, .f32⟩
  | 58 => ⟨S32x512x512, .f32⟩
  | 59 => ⟨S_, .f32⟩
  | 60 => ⟨S32x512x512, .f32⟩
  | 61 => ⟨S32x512x512, .f32⟩
  | 62 => ⟨S_, .f32⟩
  | 63 => ⟨S32x512x512, .f32⟩
  | 64 => ⟨S32x512x512, .f32⟩
  | 65 => ⟨S32x512x512, .f32⟩
  | 66 => ⟨S_, .f32⟩
  | 67 => ⟨S32x512x512, .f32⟩
  | 68 => ⟨S32x512x512, .f32⟩
  | 69 => ⟨S_, .f32⟩
  | 70 => ⟨S32x512x512, .f32⟩
  | 71 => ⟨S32x512x512, .f32⟩
  | 72 => ⟨S32x512x512, .f32⟩
  | 73 => ⟨S32x512x512, .f32⟩
  | 74 => ⟨S1x1024x512, .f32⟩
  | 75 => ⟨S1024x512, .f32⟩
  | 76 => ⟨S32x512x1024, .f32⟩
  | 77 => ⟨S1x1024, .f32⟩
  | 78 => ⟨S1024, .f32⟩
  | 79 => ⟨S1x1x1024, .f32⟩
  | 80 => ⟨S32x512x1024, .f32⟩
  | 81 => ⟨S32x512x1024, .f32⟩
  | 82 => ⟨S32x512x512, .f32⟩
  | 83 => ⟨S32x512x512, .f32⟩
  | 84 => ⟨S32x512x512, .f32⟩
  | 85 => ⟨S32x512x512, .f32⟩
  | 86 => ⟨S_, .f32⟩
  | 87 => ⟨S32x512x512, .f32⟩
  | 88 => ⟨S32x512x512, .f32⟩
  | 89 => ⟨S_, .f32⟩
  | 90 => ⟨S32x512x512, .f32⟩
  | 91 => ⟨S32x512x512, .f32⟩
  | 92 => ⟨S32x512x512, .f32⟩
  | 93 => ⟨S_, .f32⟩
  | 94 => ⟨S32x512x512, .f32⟩
  | 95 => ⟨S32x512x512, .f32⟩
  | 96 => ⟨S_, .f32⟩
  | 97 => ⟨S32x512x512, .f32⟩
  | 98 => ⟨S32x512x512, .f32⟩
  | 99 => ⟨S32x512x512, .f32⟩
  | 100 => ⟨S32x512x512, .f32⟩
  | 101 => ⟨S32x512x1024, .f32⟩
  | 102 => ⟨S1x32x512x1024, .f32⟩
  | 103 => ⟨S1x32x512x1024, .f32⟩
  | 104 => ⟨S2x32x512x1024, .f32⟩
  | _ => ⟨S32x512x512, .f32⟩

abbrev hbmTy (i : Nat) : BufTy := match i / 128 with
  | 0 => hbmTy0_0 i
  | 1 => hbmTy0_1 i
  | 2 => hbmTy0_2 i
  | _ => ⟨S32x512x512, .f32⟩

abbrev bufTy : (tb : Table) → Fin (tcTables nBuf tb) → BufTy
  | .hbm, ⟨i, _⟩ => hbmTy i
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call0_cst : Ref sig .tc := ⟨.hbm, 57, rfl⟩
abbrev main_call0_v0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst : Ref sig .tc := ⟨.hbm, 87, rfl⟩
abbrev main_v67 : Ref sig .tc := ⟨.hbm, 88, rfl⟩
abbrev main_v68 : Ref sig .tc := ⟨.hbm, 89, rfl⟩
abbrev main_cst_4 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_5 : Ref sig .tc := ⟨.hbm, 94, rfl⟩
abbrev main_v72 : Ref sig .tc := ⟨.hbm, 95, rfl⟩
abbrev main_v73 : Ref sig .tc := ⟨.hbm, 96, rfl⟩
abbrev main_call2_cst : Ref sig .tc := ⟨.hbm, 97, rfl⟩
abbrev main_call2_v0 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_6 : Ref sig .tc := ⟨.hbm, 114, rfl⟩
abbrev main_v89 : Ref sig .tc := ⟨.hbm, 115, rfl⟩
abbrev main_v90 : Ref sig .tc := ⟨.hbm, 116, rfl⟩
abbrev main_cst_7 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_8 : Ref sig .tc := ⟨.hbm, 121, rfl⟩
abbrev main_v94 : Ref sig .tc := ⟨.hbm, 122, rfl⟩
abbrev main_v95 : Ref sig .tc := ⟨.hbm, 123, rfl⟩
abbrev main_call3_cst : Ref sig .tc := ⟨.hbm, 124, rfl⟩
abbrev main_call3_v0 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_9 : Ref sig .tc := ⟨.hbm, 145, rfl⟩
abbrev main_v115 : Ref sig .tc := ⟨.hbm, 146, rfl⟩
abbrev main_v116 : Ref sig .tc := ⟨.hbm, 147, rfl⟩
abbrev main_cst_10 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_11 : Ref sig .tc := ⟨.hbm, 152, rfl⟩
abbrev main_v120 : Ref sig .tc := ⟨.hbm, 153, rfl⟩
abbrev main_v121 : Ref sig .tc := ⟨.hbm, 154, rfl⟩
abbrev main_call4_cst : Ref sig .tc := ⟨.hbm, 155, rfl⟩
abbrev main_call4_v0 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_12 : Ref sig .tc := ⟨.hbm, 172, rfl⟩
abbrev main_v137 : Ref sig .tc := ⟨.hbm, 173, rfl⟩
abbrev main_v138 : Ref sig .tc := ⟨.hbm, 174, rfl⟩
abbrev main_cst_13 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_14 : Ref sig .tc := ⟨.hbm, 179, rfl⟩
abbrev main_v142 : Ref sig .tc := ⟨.hbm, 180, rfl⟩
abbrev main_v143 : Ref sig .tc := ⟨.hbm, 181, rfl⟩
abbrev main_call5_cst : Ref sig .tc := ⟨.hbm, 182, rfl⟩
abbrev main_call5_v0 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_c_15 : Ref sig .tc := ⟨.hbm, 196, rfl⟩
abbrev main_v156 : Ref sig .tc := ⟨.hbm, 197, rfl⟩
abbrev main_v157 : Ref sig .tc := ⟨.hbm, 198, rfl⟩
abbrev main_c_16 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_c_17 : Ref sig .tc := ⟨.hbm, 206, rfl⟩
abbrev main_v164 : Ref sig .tc := ⟨.hbm, 207, rfl⟩
abbrev main_v165 : Ref sig .tc := ⟨.hbm, 208, rfl⟩
abbrev main_c_18 : Ref sig .tc := ⟨.hbm, 209, rfl⟩
abbrev main_v166 : Ref sig .tc := ⟨.hbm, 210, rfl⟩
abbrev main_v167 : Ref sig .tc := ⟨.hbm, 211, rfl⟩
abbrev main_c_19 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_call6_cst : Ref sig .tc := ⟨.hbm, 227, rfl⟩
abbrev main_call6_v0 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_call7_cst : Ref sig .tc := ⟨.hbm, 238, rfl⟩
abbrev main_call7_v0 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_cst_20 : Ref sig .tc := ⟨.hbm, 257, rfl⟩
abbrev main_v208 : Ref sig .tc := ⟨.hbm, 258, rfl⟩
abbrev main_v209 : Ref sig .tc := ⟨.hbm, 259, rfl⟩
abbrev main_cst_21 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_cst_22 : Ref sig .tc := ⟨.hbm, 264, rfl⟩
abbrev main_v213 : Ref sig .tc := ⟨.hbm, 265, rfl⟩
abbrev main_v214 : Ref sig .tc := ⟨.hbm, 266, rfl⟩
abbrev main_call8_cst : Ref sig .tc := ⟨.hbm, 267, rfl⟩
abbrev main_call8_v0 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_cst_23 : Ref sig .tc := ⟨.hbm, 284, rfl⟩
abbrev main_v230 : Ref sig .tc := ⟨.hbm, 285, rfl⟩
abbrev main_v231 : Ref sig .tc := ⟨.hbm, 286, rfl⟩
abbrev main_cst_24 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_cst_25 : Ref sig .tc := ⟨.hbm, 291, rfl⟩
abbrev main_v235 : Ref sig .tc := ⟨.hbm, 292, rfl⟩
abbrev main_v236 : Ref sig .tc := ⟨.hbm, 293, rfl⟩
abbrev main_call9_cst : Ref sig .tc := ⟨.hbm, 294, rfl⟩
abbrev main_call9_v0 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_cst_26 : Ref sig .tc := ⟨.hbm, 315, rfl⟩
abbrev main_v256 : Ref sig .tc := ⟨.hbm, 316, rfl⟩
abbrev main_v257 : Ref sig .tc := ⟨.hbm, 317, rfl⟩
abbrev main_cst_27 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_cst_28 : Ref sig .tc := ⟨.hbm, 322, rfl⟩
abbrev main_v261 : Ref sig .tc := ⟨.hbm, 323, rfl⟩
abbrev main_v262 : Ref sig .tc := ⟨.hbm, 324, rfl⟩
abbrev main_call10_cst : Ref sig .tc := ⟨.hbm, 325, rfl⟩
abbrev main_call10_v0 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_cst_29 : Ref sig .tc := ⟨.hbm, 342, rfl⟩
abbrev main_v278 : Ref sig .tc := ⟨.hbm, 343, rfl⟩
abbrev main_v279 : Ref sig .tc := ⟨.hbm, 344, rfl⟩
abbrev main_cst_30 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_cst_31 : Ref sig .tc := ⟨.hbm, 349, rfl⟩
abbrev main_v283 : Ref sig .tc := ⟨.hbm, 350, rfl⟩
abbrev main_v284 : Ref sig .tc := ⟨.hbm, 351, rfl⟩
abbrev main_call11_cst : Ref sig .tc := ⟨.hbm, 352, rfl⟩
abbrev main_call11_v0 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S4_S1x4_1 : S4.BroadcastsInDim S1x4 (![1] : Fin 1 → Fin S1x4.rank)
  bcast_S512x1_S512x4_0_1 : S512x1.BroadcastsInDim S512x4 (![0, 1] : Fin 2 → Fin S512x4.rank)
  bcast_S1x4_S512x4_0_1 : S1x4.BroadcastsInDim S512x4 (![0, 1] : Fin 2 → Fin S512x4.rank)
  slices_S2x3x512_S1x3x512_0_0_0 : S2x3x512.Slices ![0, 0, 0] S1x3x512
  shapeCasts_S1x3x512_S3x512 : S1x3x512.ShapeCasts S3x512
  bcast_S3x512_S32x3x512_1_2 : S3x512.BroadcastsInDim S32x3x512 (![1, 2] : Fin 2 → Fin S32x3x512.rank)
  concatenates_S32x3x512_S32x512x512_S32x3x512_S32x518x512_d1 : Shape.Concatenates [S32x3x512, S32x512x512, S32x3x512] S32x518x512 1
  bcast_S_S512x4 : S_.BroadcastsInDim S512x4 (![] : Fin 0 → Fin S512x4.rank)
  bcast_S512x4_S512x4x1_0_1 : S512x4.BroadcastsInDim S512x4x1 (![0, 1] : Fin 2 → Fin S512x4x1.rank)
  shapeCasts_S32x512x4x512_S32x512x2048 : S32x512x4x512.ShapeCasts S32x512x2048
  slices_S2x512x2048_S1x512x2048_0_0_0 : S2x512x2048.Slices ![0, 0, 0] S1x512x2048
  shapeCasts_S1x512x2048_S512x2048 : S1x512x2048.ShapeCasts S512x2048
  slices_S2x512_S1x512_0_0 : S2x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S32x512x512_0_1_2 : S1x1x512.BroadcastsInDim S32x512x512 (![0, 1, 2] : Fin 3 → Fin S32x512x512.rank)
  bcast_S_S32x512x512 : S_.BroadcastsInDim S32x512x512 (![] : Fin 0 → Fin S32x512x512.rank)
  slices_S2x2x1024x512_S1x2x1024x512_0_0_0_0 : S2x2x1024x512.Slices ![0, 0, 0, 0] S1x2x1024x512
  shapeCasts_S1x2x1024x512_S2x1024x512 : S1x2x1024x512.ShapeCasts S2x1024x512
  slices_S2x2x1024_S1x2x1024_0_0_0 : S2x2x1024.Slices ![0, 0, 0] S1x2x1024
  shapeCasts_S1x2x1024_S2x1024 : S1x2x1024.ShapeCasts S2x1024
  slices_S2x1024x512_S1x1024x512_0_0_0 : S2x1024x512.Slices ![0, 0, 0] S1x1024x512
  shapeCasts_S1x1024x512_S1024x512 : S1x1024x512.ShapeCasts S1024x512
  slices_S2x1024_S1x1024_0_0 : S2x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S32x512x1024_0_1_2 : S1x1x1024.BroadcastsInDim S32x512x1024 (![0, 1, 2] : Fin 3 → Fin S32x512x1024.rank)
  slices_S32x512x1024_S32x512x512_0_0_0 : S32x512x1024.Slices ![0, 0, 0] S32x512x512
  slices_S32x512x1024_S32x512x512_0_0_512 : S32x512x1024.Slices ![0, 0, 512] S32x512x512
  slices_S2x1024x512_S1x1024x512_1_0_0 : S2x1024x512.Slices ![1, 0, 0] S1x1024x512
  slices_S2x1024_S1x1024_1_0 : S2x1024.Slices ![1, 0] S1x1024
  concatenates_S32x512x512_S32x512x512_S32x512x1024_d2 : Shape.Concatenates [S32x512x512, S32x512x512] S32x512x1024 2
  slices_S2x3x512_S1x3x512_1_0_0 : S2x3x512.Slices ![1, 0, 0] S1x3x512
  slices_S2x512x2048_S1x512x2048_1_0_0 : S2x512x2048.Slices ![1, 0, 0] S1x512x2048
  slices_S2x512_S1x512_1_0 : S2x512.Slices ![1, 0] S1x512
  slices_S2x2x1024x512_S1x2x1024x512_1_0_0_0 : S2x2x1024x512.Slices ![1, 0, 0, 0] S1x2x1024x512
  slices_S2x2x1024_S1x2x1024_1_0_0 : S2x2x1024.Slices ![1, 0, 0] S1x2x1024
  bcast_S32x512x1024_S1x32x512x1024_1_2_3 : S32x512x1024.BroadcastsInDim S1x32x512x1024 (![1, 2, 3] : Fin 3 → Fin S1x32x512x1024.rank)
  concatenates_S1x32x512x1024_S1x32x512x1024_S2x32x512x1024_d0 : Shape.Concatenates [S1x32x512x1024, S1x32x512x1024] S2x32x512x1024 0
  gather_S32x518x512_S512x4x1_S32x512x4x512_03_1_n_n_1_2_321512_wf : GatherDims.WF S32x518x512 S512x4x1 S32x512x4x512 [0, 3] [1] [] [1] [] 2 ![32, 1, 512]
  dot_S32x512x2048_S512x2048_S32x512x512_2_1_01_0_n_n_wf : DotDims.WF S32x512x2048 S512x2048 S32x512x512 [2] [1] [0, 1] [0] [] []
  dot_S32x512x512_S1024x512_S32x512x1024_2_1_01_0_n_n_wf : DotDims.WF S32x512x512 S1024x512 S32x512x1024 [2] [1] [0, 1] [0] [] []

variable [Facts₀]

def gather_S32x518x512_S512x4x1_S32x512x4x512_03_1_n_n_1_2_321512 : GatherDims S32x518x512 S512x4x1 S32x512x4x512 where
  offsetDims := [0, 3]
  collapsedSliceDims := [1]
  operandBatchingDims := []
  startIndicesBatchingDims := []
  startIndexMap := [1]
  indexVectorDim := 2
  sliceSizes := ![32, 1, 512]
  wf := gather_S32x518x512_S512x4x1_S32x512x4x512_03_1_n_n_1_2_321512_wf
def dot_S32x512x2048_S512x2048_S32x512x512_2_1_01_0_n_n : DotDims S32x512x2048 S512x2048 S32x512x512 where
  lhsContracting := [2]
  rhsContracting := [1]
  lhsNonContracting := [0, 1]
  rhsNonContracting := [0]
  lhsBatch := []
  rhsBatch := []
  wf := dot_S32x512x2048_S512x2048_S32x512x512_2_1_01_0_n_n_wf
def dot_S32x512x512_S1024x512_S32x512x1024_2_1_01_0_n_n : DotDims S32x512x512 S1024x512 S32x512x1024 where
  lhsContracting := [2]
  rhsContracting := [1]
  lhsNonContracting := [0, 1]
  rhsNonContracting := [0]
  lhsBatch := []
  rhsBatch := []
  wf := dot_S32x512x512_S1024x512_S32x512x1024_2_1_01_0_n_n_wf

class Facts : Prop extends Facts₀ where

variable [Facts]
-- ==== Proof.KRun.lean ====
/-
  The idealized kernel's run with its result named.

  @main is seven segments: host operations, two kernel regions, host operations, two kernel regions, host
  operations.  The buffer contents at each boundary are a fold from the launch memory (`Gen.W0` … `Gen.W7`): a
  stretch of host operations applies them, a region replaces its arrays by what its write-backs leave.  Every
  weakly fair execution terminates with every unscoped buffer at the last boundary's contents `Gen.W7`; read at
  the result buffer this is the program's value, read at an argument it is the argument as launched.
-/
import proofs.«101546_j62689342652477_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v92) = W7 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v92 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.RunValue

end
-- ==== Proof.Spec.lean ====
/-
  The function both programs compute, one batch row at a time.

  A row is a 512 × 512 array `x s k` (position, channel).  One direction of one layer sends a row to
  `hwStep (hwStep (convRelu win W bias) HW₀ HB₀) HW₁ HB₁`:

  * `convRelu`: a linear map over a window of four consecutive positions of the padded row,
    `max (∑ w < 4, ∑ k < 512, win s w k · W h w k + bias h) 0`;
  * `hwStep`: a highway step, `σ(g) · x + (1 − σ(g)) · max n 0` with the gate `g` and the candidate `n`
    the two halves of one affine map of the row's position, `σ` the logistic function.

  The forward direction pads three learned rows in front of the row (`winF`), the backward direction three
  behind it (`winB`).  Layer 1 reads layer 0's rows.  The result stacks the two layers, and in each joins the
  forward and the backward rows along the channel axis.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A row of activations: position, channel. -/
abbrev Row := Fin 512 → Fin 512 → EReal

/-- The first half of the 1024 highway outputs: the candidate. -/
abbrev lo (h : Fin 512) : Fin 1024 := ⟨h.val, by omega⟩
/-- The second half of the 1024 highway outputs: the gate. -/
abbrev hi (h : Fin 512) : Fin 1024 := ⟨512 + h.val, by omega⟩

/-- The windowed linear map, its bias, and the rectifier: position `s`, output channel `h`. -/
def convRelu (win : Fin 512 → Fin 4 → Fin 512 → EReal) (W : Fin 512 → Fin 4 → Fin 512 → EReal) (bias : Fin 512 → EReal) : Row :=
  fun s h => max ((∑ w : Fin 4, ∑ k : Fin 512, win s w k * W h w k) + bias h) 0

/-- The affine map of a highway step at position `s`, output `g` of 1024. -/
def hwProj (x : Row) (HW : Fin 1024 → Fin 512 → EReal) (HB : Fin 1024 → EReal) (s : Fin 512) (g : Fin 1024) : EReal :=
  (∑ k : Fin 512, x s k * HW g k) + HB g

/-- One highway step. -/
def hwStep (x : Row) (HW : Fin 1024 → Fin 512 → EReal) (HB : Fin 1024 → EReal) : Row :=
  fun s h => Ideal.logistic (hwProj x HW HB s (hi h)) * x s h
    + (1 - Ideal.logistic (hwProj x HW HB s (hi h))) * max (hwProj x HW HB s (lo h)) 0

/-- One direction of one layer on one row. -/
def dirLayer (win : Fin 512 → Fin 4 → Fin 512 → EReal) (W : Fin 512 → Fin 4 → Fin 512 → EReal) (bias : Fin 512 → EReal)
    (HW0 : Fin 1024 → Fin 512 → EReal) (HB0 : Fin 1024 → EReal) (HW1 : Fin 1024 → Fin 512 → EReal) (HB1 : Fin 1024 → EReal) : Row :=
  hwStep (hwStep (convRelu win W bias) HW0 HB0) HW1 HB1

/-- The forward window: three pad rows, then the row; position `s`, offset `w`. -/
def winF (pad : Fin 3 → Fin 512 → EReal) (x : Row) : Fin 512 → Fin 4 → Fin 512 → EReal :=
  fun s w k => if h : s.val + w.val < 3 then pad ⟨s.val + w.val, h⟩ k else x ⟨s.val + w.val - 3, by omega⟩ k

/-- The backward window: the row, then three pad rows. -/
def winB (pad : Fin 3 → Fin 512 → EReal) (x : Row) : Fin 512 → Fin 4 → Fin 512 → EReal :=
  fun s w k => if h : s.val + w.val < 512 then x ⟨s.val + w.val, h⟩ k else pad ⟨s.val + w.val - 512, by omega⟩ k

/-! ## The whole function of the eleven arguments -/

section Whole

variable (a0 : (⟨3, ![32, 512, 512]⟩ : Shape).Idx → EReal)
  (a1 a2 : (⟨3, ![2, 3, 512]⟩ : Shape).Idx → EReal)
  (a3 : (⟨3, ![2, 512, 2048]⟩ : Shape).Idx → EReal) (a4 : (⟨2, ![2, 512]⟩ : Shape).Idx → EReal)
  (a5 : (⟨3, ![2, 512, 2048]⟩ : Shape).Idx → EReal) (a6 : (⟨2, ![2, 512]⟩ : Shape).Idx → EReal)
  (a7 : (⟨4, ![2, 2, 1024, 512]⟩ : Shape).Idx → EReal) (a8 : (⟨3, ![2, 2, 1024]⟩ : Shape).Idx → EReal)
  (a9 : (⟨4, ![2, 2, 1024, 512]⟩ : Shape).Idx → EReal) (a10 : (⟨3, ![2, 2, 1024]⟩ : Shape).Idx → EReal)

/-- The pad rows of layer `l`. -/
abbrev padOf (a : (⟨3, ![2, 3, 512]⟩ : Shape).Idx → EReal) (l : Fin 2) : Fin 3 → Fin 512 → EReal := fun r k => a (ix3 l r k)
/-- The window weights of layer `l`: output channel, offset, input channel. -/
abbrev wOf (a : (⟨3, ![2, 512, 2048]⟩ : Shape).Idx → EReal) (l : Fin 2) : Fin 512 → Fin 4 → Fin 512 → EReal :=
  fun h w k => a (ix3 l h ⟨w.val * 512 + k.val, by omega⟩)
/-- The bias of layer `l`. -/
abbrev bOf (a : (⟨2, ![2, 512]⟩ : Shape).Idx → EReal) (l : Fin 2) : Fin 512 → EReal := fun h => a (ix2 l h)
/-- The weights of highway step `j` of layer `l`. -/
abbrev hwOf (a : (⟨4, ![2, 2, 1024, 512]⟩ : Shape).Idx → EReal) (l j : Fin 2) : Fin 1024 → Fin 512 → EReal := fun g k => a (ix4 l j g k)
/-- The bias of highway step `j` of layer `l`. -/
abbrev hbOf (a : (⟨3, ![2, 2, 1024]⟩ : Shape).Idx → EReal) (l j : Fin 2) : Fin 1024 → EReal := fun g => a (ix3 l j g)

/-- The forward direction of layer `l` on the row `x`. -/
def fwd (l : Fin 2) (x : Row) : Row :=
  dirLayer (winF (padOf a1 l) x) (wOf a3 l) (bOf a4 l) (hwOf a7 l 0) (hbOf a8 l 0) (hwOf a7 l 1) (hbOf a8 l 1)

/-- The backward direction of layer `l` on the row `x`. -/
def bwd (l : Fin 2) (x : Row) : Row :=
  dirLayer (winB (padOf a2 l) x) (wOf a5 l) (bOf a6 l) (hwOf a9 l 0) (hbOf a10 l 0) (hwOf a9 l 1) (hbOf a10 l 1)

/-- Row `b` of the input. -/
abbrev row0 (b : Fin 32) : Row := fun s k => a0 (ix3 b s k)

/-- Layer 0, forward and backward, on row `b`. -/
def f0 (b : Fin 32) : Row := fwd a1 a3 a4 a7 a8 0 (row0 a0 b)
def b0 (b : Fin 32) : Row := bwd a2 a5 a6 a9 a10 0 (row0 a0 b)
/-- Layer 1 reads layer 0. -/
def f1 (b : Fin 32) : Row := fwd a1 a3 a4 a7 a8 1 (f0 a0 a1 a3 a4 a7 a8 b)
def b1 (b : Fin 32) : Row := bwd a2 a5 a6 a9 a10 1 (b0 a0 a2 a5 a6 a9 a10 b)

/-- Two rows joined along the channel axis. -/
def join (f b : Row) (s : Fin 512) (g : Fin 1024) : EReal :=
  if h : g.val < 512 then f s ⟨g.val, h⟩ else b s ⟨g.val - 512, by omega⟩

/-- The result: layer, batch row, position, channel of 1024. -/
def result : (⟨4, ![2, 32, 512, 1024]⟩ : Shape).Idx → EReal := fun i =>
  if (i 0).val = 0 then join (f0 a0 a1 a3 a4 a7 a8 (i 1)) (b0 a0 a2 a5 a6 a9 a10 (i 1)) (i 2) (i 3)
  else join (f1 a0 a1 a3 a4 a7 a8 (i 1)) (b1 a0 a2 a5 a6 a9 a10 (i 1)) (i 2) (i 3)

end Whole

end Cert.Spec

end
-- ==== Proof.KBody.lean ====
/-
  The kernel body read at an index.

  Each of the four kernel calls runs the same body on one row's blocks: a linear map over a window of four
  consecutive positions (four matrix products into a zero accumulator, summed), a bias, the rectifier, and two
  highway steps.  This module reads the body's one store at position `s`, channel `h` and finds the
  specification's `dirLayer` of the blocks read at coordinates.
-/
import proofs.«101546_j62689342652477_1_alg».proof.Proof.Gen.KernelIdeal.Frame
import proofs.«101546_j62689342652477_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Idealize.ShloMosaic.TcCoe Idealize.SL.Sem
open Cert.KernelIdeal

/-! ## A matrix product into the zero accumulator, read at an index -/

theorem dotA_lhs0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem dotA_lhs1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem dotA_rhs0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem dotA_rhs1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl
theorem dotB_lhs0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem dotB_lhs1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem dotB_rhs0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem dotB_rhs1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- A [512,512] × [512,512] product into zero at `(s, h)` is `∑ k, l (s, k) · r (k, h)`. -/
theorem mm512_apply {φ₁ φ₂ : FTy} (l : FVec Ideal S512x512 φ₁) (r : FVec Ideal S512x512 φ₂) (s : Fin 512) (h : Fin 512) :
    matmul dot_S512x512_S512x512_S512x512_1_0_0_1_n_n none l r (constant S512x512 .f32 0x00000000#32) (ix2 s h)
      = ∑ k : Fin 512, l (ix2 s k) * r (ix2 k h) := by
  simp only [matmul]
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 s h)
      ((contrEquiv1 dot_S512x512_S512x512_S512x512_1_0_0_1_n_n 512 rfl rfl).symm k) = ix2 s k :=
    funext fun a => Fin.ext (by
      match a with
      | ⟨0, _⟩ => exact dotA_lhs0 _ _
      | ⟨1, _⟩ => exact (dotA_lhs1 _ _).trans hk)
  have er : dot_S512x512_S512x512_S512x512_1_0_0_1_n_n.rhsIdx (ix2 s h)
      ((contrEquiv1 dot_S512x512_S512x512_S512x512_1_0_0_1_n_n 512 rfl rfl).symm k) = ix2 k h :=
    funext fun a => Fin.ext (by
      match a with
      | ⟨0, _⟩ => exact (dotA_rhs0 _ _).trans hk
      | ⟨1, _⟩ => exact dotA_rhs1 _ _)
  rw [el, er]

/-- A [512,512] × [512,1024] product into zero at `(s, g)` is `∑ k, l (s, k) · r (k, g)`. -/
theorem mm1024_apply {φ₁ φ₂ : FTy} (l : FVec Ideal S512x512 φ₁) (r : FVec Ideal S512x1024 φ₂) (s : Fin 512) (g : Fin 1024) :
    matmul dot_S512x512_S512x1024_S512x1024_1_0_0_1_n_n none l r (constant S512x1024 .f32 0x00000000#32) (ix2 s g)
      = ∑ k : Fin 512, l (ix2 s k) * r (ix2 k g) := by
  simp only [matmul]
  rw [Ideal.matmul_constant_zero_apply,
    ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 s g)
      ((contrEquiv1 dot_S512x512_S512x1024_S512x1024_1_0_0_1_n_n 512 rfl rfl).symm k) = ix2 s k :=
    funext fun a => Fin.ext (by
      match a with
      | ⟨0, _⟩ => exact dotB_lhs0 _ _
      | ⟨1, _⟩ => exact (dotB_lhs1 _ _).trans hk)
  have er : dot_S512x512_S512x1024_S512x1024_1_0_0_1_n_n.rhsIdx (ix2 s g)
      ((contrEquiv1 dot_S512x512_S512x1024_S512x1024_1_0_0_1_n_n 512 rfl rfl).symm k) = ix2 k g :=
    funext fun a => Fin.ext (by
      match a with
      | ⟨0, _⟩ => exact (dotB_rhs0 _ _).trans hk
      | ⟨1, _⟩ => exact dotB_rhs1 _ _)
  rw [el, er]

/-! ## The two float literals -/

/-- The word `0x3F800000` is the number one. -/
theorem one_f32 : Ideal.ofBits .f32 0x3F800000#32 = 1 := by
  simp [Ideal.ofBits, Ideal.ieee, -EReal.coe_mul]; norm_num

/-! ## The windowed linear map, its bias and the rectifier -/

/-- One offset of the window: the product of the rows `o … o + 511` of the padded row with one weight block, at
    `(s, h)`, is `∑ k, v0 (0, s + o, k) · v4 (0, k, h)`. -/
theorem tap_apply (v0 : FVec Ideal S1x515x512 .bf16) (o : Nat) (ho : o + 512 ≤ 515)
    (hc1 : S1x515x512.ShapeCasts S515x512) (hs : S515x512.Slices ![o, 0] S512x512)
    (v4 : FVec Ideal S1x512x512 .bf16) (hc2 : S1x512x512.ShapeCasts S512x512) (s h : Fin 512) :
    matmul (F := Ideal) (φ₁ := .bf16) (φ₂ := .bf16) dot_S512x512_S512x512_S512x512_1_0_0_1_n_n none
        (extractStridedSlice S512x512 ![o, 0] (shapeCast S515x512 v0 hc1) hs) (shapeCast S512x512 v4 hc2)
        (constant S512x512 .f32 0x00000000#32) (ix2 s h)
      = ∑ k : Fin 512, v0 (ix3 (0 : Fin 1) (⟨s.val + o, by omega⟩ : Fin 515) k) * v4 (ix3 (0 : Fin 1) k h) := by
  refine (mm512_apply _ _ s h).trans ?_
  refine Finset.sum_congr rfl fun k _ => ?_
  rw [slice2_axis0_apply o (shapeCast S515x512 v0 hc1) hs s k ⟨s.val + o, by omega⟩ (Nat.add_comm _ _),
    shapeCast_1ab_ab_apply v0 hc1, shapeCast_1ab_ab_apply v4 hc2]

/-- The bias row broadcast over the positions, at `(s, h)`. -/
theorem bias_apply (v23 : FVec Ideal S1x512 .f32) (hc : S1x512.ShapeCasts S1x512) (hb : S1x512.Broadcasts S512x512)
    (s h : Fin 512) :
    broadcastTo S512x512 (shapeCast S1x512 v23 hc) hb (ix2 s h) = v23 (ix2 (0 : Fin 1) h) := by
  rw [broadcastTo_1b_ab_apply, shapeCast_self]

/-! ## One highway step -/

/-- The logistic function read at an index. -/
theorem logistic_apply {s : Shape} {φ : FTy} (x : FVec Ideal s φ) (i : s.Idx) : logistic x i = Ideal.logistic (x i) := rfl

/-- The lower half of the 1024 outputs of a highway step's affine map: the candidate. -/
theorem sliceLo_apply {α : Type} (m : S512x1024.Idx → α) (hs : S512x1024.Slices ![0, 0] S512x512) (s h : Fin 512) :
    extractStridedSlice S512x512 ![0, 0] m hs (ix2 s h) = m (ix2 s (Cert.Spec.lo h)) :=
  slice2_axis1_apply 0 m hs s h (Cert.Spec.lo h) (Nat.zero_add _).symm

/-- The upper half: the gate. -/
theorem sliceHi_apply {α : Type} (m : S512x1024.Idx → α) (hs : S512x1024.Slices ![0, 512] S512x512) (s h : Fin 512) :
    extractStridedSlice S512x512 ![0, 512] m hs (ix2 s h) = m (ix2 s (Cert.Spec.hi h)) :=
  slice2_axis1_apply 512 m hs s h (Cert.Spec.hi h) rfl

/-- The bias block of a highway step broadcast over the positions, at `(s, g)`. -/
theorem hbias_apply (b : FVec Ideal S1x1x1024 .f32) (hc : S1x1x1024.ShapeCasts S1x1024) (hb : S1x1024.Broadcasts S512x1024)
    (s : Fin 512) (g : Fin 1024) :
    broadcastTo S512x1024 (shapeCast S1x1024 b hc) hb (ix2 s g) = b (ix3 (0 : Fin 1) (0 : Fin 1) g) := by
  rw [broadcastTo_1b_ab_apply, shapeCast_1ab_ab_apply]

/-- One highway step as the body computes it, from the row `x`, the product `m` of the row with the step's weights
    and the step's bias block `b`: the gate is the upper half of `m + b`, the candidate the lower half. -/
def kStep (x : FVec Ideal S512x512 .f32) (m : FVec Ideal S512x1024 .f32) (b : FVec Ideal S1x1x1024 .f32) :
    FVec Ideal S512x512 .f32 :=
  have v34 : FVec Ideal S1x1024 .f32 := shapeCast S1x1024 b Gen.shapeCasts_S1x1x1024_S1x1024
  have v35 : FVec Ideal S512x1024 .f32 := broadcastTo S512x1024 v34 Gen.broadcasts_S1x1024_S512x1024
  have v36 : FVec Ideal S512x1024 .f32 := addf m v35
  have v37 : FVec Ideal S512x512 .f32 := extractStridedSlice S512x512 ![0, 0] v36 Gen.slices_S512x1024_o0_0_S512x512
  have v38 : FVec Ideal S512x512 .f32 := extractStridedSlice S512x512 ![0, 512] v36 Gen.slices_S512x1024_o0_512_S512x512
  have v39 : FVec Ideal S512x512 .f32 := logistic v38
  have v40 : FVec Ideal S512x512 .f32 := mulf v39 x
  have cst_25 : Ideal .f32 := Scalar.ofBits .f32 0x3F800000#32
  have v41 : FVec Ideal S512x512 .f32 := broadcast S512x512 cst_25
  have v42 : FVec Ideal S512x512 .f32 := subf v41 v39
  have cst_26 : Ideal .f32 := Scalar.ofBits .f32 0x00000000#32
  have v43 : FVec Ideal S512x512 .f32 := broadcast S512x512 cst_26
  have v44 : FVec Ideal S512x512 .f32 := maximumf v37 v43
  have v45 : FVec Ideal S512x512 .f32 := mulf v42 v44
  addf v40 v45

/-- A highway step at `(s, h)`, from the product and the bias at the gate's and the candidate's outputs. -/
theorem kStep_apply (x : FVec Ideal S512x512 .f32) (m : FVec Ideal S512x1024 .f32) (b : FVec Ideal S1x1x1024 .f32)
    (s h : Fin 512) :
    kStep x m b (ix2 s h) =
      Ideal.logistic (m (ix2 s (Cert.Spec.hi h)) + b (ix3 (0 : Fin 1) (0 : Fin 1) (Cert.Spec.hi h))) * x (ix2 s h)
        + (1 - Ideal.logistic (m (ix2 s (Cert.Spec.hi h)) + b (ix3 (0 : Fin 1) (0 : Fin 1) (Cert.Spec.hi h))))
          * max (m (ix2 s (Cert.Spec.lo h)) + b (ix3 (0 : Fin 1) (0 : Fin 1) (Cert.Spec.lo h))) 0 := by
  unfold kStep
  simp only [addf_apply, mulf_apply, subf_apply, maximumf_apply, broadcast_apply, logistic_apply, sliceLo_apply,
    sliceHi_apply, hbias_apply]
  rw [show (Scalar.ofBits .f32 0x3F800000#32 : Ideal .f32) = 1 from one_f32,
    show (Scalar.ofBits .f32 0x00000000#32 : Ideal .f32) = 0 from Ideal.ofBits_zero_f32]

/-- The same with the product spelled out: the step of the specification on the row `x` (read by coordinates), with the
    weights `w (k, g)` and the bias `b (0, 0, g)`.  The product's left operand `xb` is the row in the narrower
    format, the same numbers. -/
theorem kStep_matmul_apply (x : FVec Ideal S512x512 .f32) (xb : FVec Ideal S512x512 .bf16) (hxb : ∀ i, xb i = x i)
    (w : FVec Ideal S512x1024 .bf16) (b : FVec Ideal S1x1x1024 .f32) (s h : Fin 512) :
    kStep x (matmul dot_S512x512_S512x1024_S512x1024_1_0_0_1_n_n none xb w (constant S512x1024 .f32 0x00000000#32)) b
        (ix2 s h) =
      Cert.Spec.hwStep (fun s k => x (ix2 s k)) (fun g k => w (ix2 k g)) (fun g => b (ix3 (0 : Fin 1) (0 : Fin 1) g)) s h := by
  rw [kStep_apply, mm1024_apply, mm1024_apply]
  unfold Cert.Spec.hwStep Cert.Spec.hwProj
  simp only [hxb]

/-! ## A block of a stacked array through its unit rectangle -/

theorem hz3 : (![0, 0, 0] : Fin 3 → Nat) = fun _ => 0 := funext fun a => by fin_cases a <;> rfl
theorem hz2 : (![0, 0] : Fin 2 → Nat) = fun _ => 0 := funext fun a => by fin_cases a <;> rfl

/-- Block `c` along the leading axis of an `[n, a, b]` array, loaded as a `[1, a, b]` vector, reads at `(0, i, j)` the
    array at `(c, i, j)`. -/
theorem ld_lead {n a b : Nat} {e : EltTy} (X : (⟨3, ![n, a, b]⟩ : Shape).Idx → Elt Ideal e) (c : Nat) (hc : c < n)
    (inb : ∀ ax, (![c, 0, 0] : Fin 3 → Nat) ax + (![1, a, b] : Fin 3 → Nat) ax ≤ (⟨3, ![n, a, b]⟩ : Shape).size ax)
    (i : Fin a) (j : Fin b) :
    View.ld X (Rect.unit (s := ⟨3, ![n, a, b]⟩) ![c, 0, 0] ![1, a, b] inb) (ix3 (0 : Fin 1) i j) = X (ix3 (⟨c, hc⟩ : Fin n) i j) :=
  congrArg X (funext fun ax => Fin.ext (by
    match ax with
    | ⟨0, _⟩ => show c + 1 * 0 = c; omega
    | ⟨1, _⟩ => show 0 + 1 * i.val = i.val; omega
    | ⟨2, _⟩ => show 0 + 1 * j.val = j.val; omega))

/-! ## The body of kernel call 0 -/

/-- The first payload at `(s, h)`: the windowed linear map of the padded row `v0` with the four weight blocks, plus the
    bias, rectified. -/
theorem pay2_0_apply (v0 : Vec Ideal S1x515x512 .bf16) (v4 v9 v14 v19 : Vec Ideal S1x512x512 .bf16)
    (v23 : Vec Ideal S1x512 .f32) (s h : Fin 512) :
    Gen.k0_pay2 (F := Ideal) v0 v4 v9 v14 v19 v23 (ix2 s h) =
      Cert.Spec.convRelu (fun s w k => v0 (ix3 (0 : Fin 1) (⟨s.val + w.val, by omega⟩ : Fin 515) k))
        (fun h w k => (![v4, v9, v14, v19] w) (ix3 (0 : Fin 1) k h)) (fun h => v23 (ix2 (0 : Fin 1) h)) s h := by
  unfold Gen.k0_pay2
  simp only [maximumf_apply, addf_apply, broadcast_apply]
  rw [tap_apply v0 0 (by omega) _ _ v4 _ s h, tap_apply v0 1 (by omega) _ _ v9 _ s h,
    tap_apply v0 2 (by omega) _ _ v14 _ s h, tap_apply v0 3 (by omega) _ _ v19 _ s h, bias_apply,
    Ideal.ofBits_def, Ideal.ofBits_zero_f32, zero_add]
  unfold Cert.Spec.convRelu
  rw [Fin.sum_univ_four]
  rfl

/-- The stored payload is two highway steps on its first argument, each step's product taken with the row in the narrower
    format, cast to the block's shape. -/
theorem pay1_0_eq (v28 : FVec Ideal S512x512 .f32) (v29 : FVec Ideal S512x512 .bf16) (v31 : FVec Ideal S512x1024 .bf16)
    (c : FVec Ideal S512x1024 .f32) (v33 : FVec Ideal S1x1x1024 .f32) (v48 : FVec Ideal S1x512x1024 .bf16)
    (v51 : FVec Ideal S1x1x1024 .f32) :
    Gen.k0_pay1 (F := Ideal) v28 v29 v31 c v33 v48 v51 =
      shapeCast S1x512x512
        (kStep (kStep v28 (matmul dot_S512x512_S512x1024_S512x1024_1_0_0_1_n_n none v29 v31 c) v33)
          (matmul dot_S512x512_S512x1024_S512x1024_1_0_0_1_n_n none
            (truncf .bf16 (kStep v28 (matmul dot_S512x512_S512x1024_S512x1024_1_0_0_1_n_n none v29 v31 c) v33) Gen.bitsLt_bf16_f32)
            (shapeCast S512x1024 v48 Gen.shapeCasts_S1x512x1024_S512x1024) (constant S512x1024 .f32 0x00000000#32)) v51)
        Gen.shapeCasts_S512x512_S1x512x512 := rfl

/-- The whole arithmetic of the body at `(0, s, h)`, from the blocks it loads: one direction of one layer. -/
theorem body0_apply (v0 : Vec Ideal S1x515x512 .bf16) (v4 v9 v14 v19 : Vec Ideal S1x512x512 .bf16)
    (v23 : Vec Ideal S1x512 .f32) (v30 : Vec Ideal S1x512x1024 .bf16) (v33 : Vec Ideal S1x1x1024 .f32)
    (v48 : Vec Ideal S1x512x1024 .bf16) (v51 : Vec Ideal S1x1x1024 .f32) (s h : Fin 512) :
    Gen.k0_pay1 (F := Ideal) (Gen.k0_pay2 (F := Ideal) v0 v4 v9 v14 v19 v23) (Gen.k0_pay3 (F := Ideal) v0 v4 v9 v14 v19 v23) (Gen.k0_pay4 (F := Ideal) v30) (constant S512x1024 .f32 0x00000000#32) v33 v48 v51 (ix3 (0 : Fin 1) s h) =
      Cert.Spec.dirLayer (fun s w k => v0 (ix3 (0 : Fin 1) (⟨s.val + w.val, by omega⟩ : Fin 515) k))
        (fun h w k => (![v4, v9, v14, v19] w) (ix3 (0 : Fin 1) k h)) (fun h => v23 (ix2 (0 : Fin 1) h))
        (fun g k => v30 (ix3 (0 : Fin 1) k g)) (fun g => v33 (ix3 (0 : Fin 1) (0 : Fin 1) g))
        (fun g k => v48 (ix3 (0 : Fin 1) k g)) (fun g => v51 (ix3 (0 : Fin 1) (0 : Fin 1) g)) s h := by
  have e0 : (fun (s k : Fin 512) => (Gen.k0_pay2 (F := Ideal) v0 v4 v9 v14 v19 v23) (ix2 s k)) = Cert.Spec.convRelu (fun s w k => v0 (ix3 (0 : Fin 1) (⟨s.val + w.val, by omega⟩ : Fin 515) k)) (fun h w k => (![v4, v9, v14, v19] w) (ix3 (0 : Fin 1) k h)) (fun h => v23 (ix2 (0 : Fin 1) h)) :=
    funext fun s => funext fun k => pay2_0_apply v0 v4 v9 v14 v19 v23 s k
  have w0 : (fun (g : Fin 1024) (k : Fin 512) => (Gen.k0_pay4 (F := Ideal) v30) (ix2 k g)) = (fun g k => v30 (ix3 (0 : Fin 1) k g)) :=
    funext fun g => funext fun k => shapeCast_1ab_ab_apply v30 _ k g
  have w1 : (fun (g : Fin 1024) (k : Fin 512) =>
      (shapeCast S512x1024 v48 Gen.shapeCasts_S1x512x1024_S512x1024 : FVec Ideal S512x1024 .bf16) (ix2 k g)) = (fun g k => v48 (ix3 (0 : Fin 1) k g)) :=
    funext fun g => funext fun k => shapeCast_1ab_ab_apply v48 _ k g
  have e1 : (fun (s k : Fin 512) => (kStep (Gen.k0_pay2 (F := Ideal) v0 v4 v9 v14 v19 v23) (matmul dot_S512x512_S512x1024_S512x1024_1_0_0_1_n_n none (Gen.k0_pay3 (F := Ideal) v0 v4 v9 v14 v19 v23) (Gen.k0_pay4 (F := Ideal) v30) (constant S512x1024 .f32 0x00000000#32)) v33) (ix2 s k)) =
      Cert.Spec.hwStep (Cert.Spec.convRelu (fun s w k => v0 (ix3 (0 : Fin 1) (⟨s.val + w.val, by omega⟩ : Fin 515) k)) (fun h w k => (![v4, v9, v14, v19] w) (ix3 (0 : Fin 1) k h)) (fun h => v23 (ix2 (0 : Fin 1) h))) (fun g k => v30 (ix3 (0 : Fin 1) k g)) (fun g => v33 (ix3 (0 : Fin 1) (0 : Fin 1) g)) :=
    funext fun s => funext fun k => by
      rw [kStep_matmul_apply (Gen.k0_pay2 (F := Ideal) v0 v4 v9 v14 v19 v23) (Gen.k0_pay3 (F := Ideal) v0 v4 v9 v14 v19 v23) (fun _ => rfl) (Gen.k0_pay4 (F := Ideal) v30) v33 s k, e0, w0]
  rw [pay1_0_eq, shapeCast_ab_1ab_apply,
    kStep_matmul_apply (kStep (Gen.k0_pay2 (F := Ideal) v0 v4 v9 v14 v19 v23) (matmul dot_S512x512_S512x1024_S512x1024_1_0_0_1_n_n none (Gen.k0_pay3 (F := Ideal) v0 v4 v9 v14 v19 v23) (Gen.k0_pay4 (F := Ideal) v30) (constant S512x1024 .f32 0x00000000#32)) v33) (truncf .bf16 (kStep (Gen.k0_pay2 (F := Ideal) v0 v4 v9 v14 v19 v23) (matmul dot_S512x512_S512x1024_S512x1024_1_0_0_1_n_n none (Gen.k0_pay3 (F := Ideal) v0 v4 v9 v14 v19 v23) (Gen.k0_pay4 (F := Ideal) v30) (constant S512x1024 .f32 0x00000000#32)) v33) Gen.bitsLt_bf16_f32) (fun _ => rfl)
      (shapeCast S512x1024 v48 Gen.shapeCasts_S1x512x1024_S512x1024) v51 s h, e1, w1]
  rfl

/-- What the body of kernel call 0 leaves in its output block, at `(0, s, h)`: one direction of one layer of the
    specification on the blocks the call is given, read by coordinates. -/
theorem out0_5_apply (x0 : Vec Ideal S1x515x512 .bf16) (x1 : Vec Ideal S4x512x512 .bf16) (x2 : Vec Ideal S1x512 .f32)
    (x3 : Vec Ideal S2x512x1024 .bf16) (x4 : Vec Ideal S2x1x1024 .f32) (s h : Fin 512) :
    Gen.out0_5 (F := Ideal) x0 x1 x2 x3 x4 (ix3 (0 : Fin 1) s h) =
      Cert.Spec.dirLayer (fun s w k => x0 (ix3 (0 : Fin 1) (⟨s.val + w.val, by omega⟩ : Fin 515) k))
        (fun h w k => x1 (ix3 w k h)) (fun h => x2 (ix2 (0 : Fin 1) h))
        (fun g k => x3 (ix3 (0 : Fin 2) k g)) (fun g => x4 (ix3 (0 : Fin 2) (0 : Fin 1) g))
        (fun g k => x3 (ix3 (1 : Fin 2) k g)) (fun g => x4 (ix3 (1 : Fin 2) (0 : Fin 1) g)) s h := by
  unfold Gen.out0_5
  rw [View.canon_unit_zero hz3]
  simp only [View.ld_unit_zero (S := S1x515x512) hz3, View.ld_unit_zero (S := S1x512) hz2]
  refine (body0_apply x0 (View.ld x1 Gen.r0_1) (View.ld x1 Gen.r0_2) (View.ld x1 Gen.r0_3) (View.ld x1 Gen.r0_4) x2
    (View.ld x3 Gen.r0_6) (View.ld x4 Gen.r0_7) (View.ld x3 Gen.r0_8) (View.ld x4 Gen.r0_9) s h).trans ?_
  have eW : (fun (h : Fin 512) (w : Fin 4) (k : Fin 512) =>
      (![View.ld x1 Gen.r0_1, View.ld x1 Gen.r0_2, View.ld x1 Gen.r0_3, View.ld x1 Gen.r0_4] w) (ix3 (0 : Fin 1) k h)) = fun h w k => x1 (ix3 w k h) := by
    funext h w k
    match w with
    | ⟨0, _⟩ => exact ld_lead (n := 4) x1 0 (by omega) _ k h
    | ⟨1, _⟩ => exact ld_lead (n := 4) x1 1 (by omega) _ k h
    | ⟨2, _⟩ => exact ld_lead (n := 4) x1 2 (by omega) _ k h
    | ⟨3, _⟩ => exact ld_lead (n := 4) x1 3 (by omega) _ k h
  have eH0 : (fun (g : Fin 1024) (k : Fin 512) => View.ld x3 Gen.r0_6 (ix3 (0 : Fin 1) k g)) = fun g k => x3 (ix3 (0 : Fin 2) k g) :=
    funext fun g => funext fun k => ld_lead (n := 2) x3 0 (by omega) _ k g
  have eB0 : (fun (g : Fin 1024) => View.ld x4 Gen.r0_7 (ix3 (0 : Fin 1) (0 : Fin 1) g)) = fun g => x4 (ix3 (0 : Fin 2) (0 : Fin 1) g) :=
    funext fun g => ld_lead (n := 2) x4 0 (by omega) _ 0 g
  have eH1 : (fun (g : Fin 1024) (k : Fin 512) => View.ld x3 Gen.r0_8 (ix3 (0 : Fin 1) k g)) = fun g k => x3 (ix3 (1 : Fin 2) k g) :=
    funext fun g => funext fun k => ld_lead (n := 2) x3 1 (by omega) _ k g
  have eB1 : (fun (g : Fin 1024) => View.ld x4 Gen.r0_9 (ix3 (0 : Fin 1) (0 : Fin 1) g)) = fun g => x4 (ix3 (1 : Fin 2) (0 : Fin 1) g) :=
    funext fun g => ld_lead (n := 2) x4 1 (by omega) _ 0 g
  rw [eW, eH0, eB0, eH1, eB1]

/-! ## The body of kernel call 1 -/

/-- The first payload at `(s, h)`: the windowed linear map of the padded row `v0` with the four weight blocks, plus the
    bias, rectified. -/
theorem pay2_1_apply (v0 : Vec Ideal S1x515x512 .bf16) (v4 v9 v14 v19 : Vec Ideal S1x512x512 .bf16)
    (v23 : Vec Ideal S1x512 .f32) (s h : Fin 512) :
    Gen.k1_pay2 (F := Ideal) v0 v4 v9 v14 v19 v23 (ix2 s h) =
      Cert.Spec.convRelu (fun s w k => v0 (ix3 (0 : Fin 1) (⟨s.val + w.val, by omega⟩ : Fin 515) k))
        (fun h w k => (![v4, v9, v14, v19] w) (ix3 (0 : Fin 1) k h)) (fun h => v23 (ix2 (0 : Fin 1) h)) s h := by
  unfold Gen.k1_pay2
  simp only [maximumf_apply, addf_apply, broadcast_apply]
  rw [tap_apply v0 0 (by omega) _ _ v4 _ s h, tap_apply v0 1 (by omega) _ _ v9 _ s h,
    tap_apply v0 2 (by omega) _ _ v14 _ s h, tap_apply v0 3 (by omega) _ _ v19 _ s h, bias_apply,
    Ideal.ofBits_def, Ideal.ofBits_zero_f32, zero_add]
  unfold Cert.Spec.convRelu
  rw [Fin.sum_univ_four]
  rfl

/-- The stored payload is two highway steps on its first argument, each step's product taken with the row in the narrower
    format, cast to the block's shape. -/
theorem pay1_1_eq (v28 : FVec Ideal S512x512 .f32) (v29 : FVec Ideal S512x512 .bf16) (v31 : FVec Ideal S512x1024 .bf16)
    (c : FVec Ideal S512x1024 .f32) (v33 : FVec Ideal S1x1x1024 .f32) (v48 : FVec Ideal S1x512x1024 .bf16)
    (v51 : FVec Ideal S1x1x1024 .f32) :
    Gen.k1_pay1 (F := Ideal) v28 v29 v31 c v33 v48 v51 =
      shapeCast S1x512x512
        (kStep (kStep v28 (matmul dot_S512x512_S512x1024_S512x1024_1_0_0_1_n_n none v29 v31 c) v33)
          (matmul dot_S512x512_S512x1024_S512x1024_1_0_0_1_n_n none
            (truncf .bf16 (kStep v28 (matmul dot_S512x512_S512x1024_S512x1024_1_0_0_1_n_n none v29 v31 c) v33) Gen.bitsLt_bf16_f32)
            (shapeCast S512x1024 v48 Gen.shapeCasts_S1x512x1024_S512x1024) (constant S512x1024 .f32 0x00000000#32)) v51)
        Gen.shapeCasts_S512x512_S1x512x512 := rfl

/-- The whole arithmetic of the body at `(0, s, h)`, from the blocks it loads: one direction of one layer. -/
theorem body1_apply (v0 : Vec Ideal S1x515x512 .bf16) (v4 v9 v14 v19 : Vec Ideal S1x512x512 .bf16)
    (v23 : Vec Ideal S1x512 .f32) (v30 : Vec Ideal S1x512x1024 .bf16) (v33 : Vec Ideal S1x1x1024 .f32)
    (v48 : Vec Ideal S1x512x1024 .bf16) (v51 : Vec Ideal S1x1x1024 .f32) (s h : Fin 512) :
    Gen.k1_pay1 (F := Ideal) (Gen.k1_pay2 (F := Ideal) v0 v4 v9 v14 v19 v23) (Gen.k1_pay3 (F := Ideal) v0 v4 v9 v14 v19 v23) (Gen.k1_pay4 (F := Ideal) v30) (constant S512x1024 .f32 0x00000000#32) v33 v48 v51 (ix3 (0 : Fin 1) s h) =
      Cert.Spec.dirLayer (fun s w k => v0 (ix3 (0 : Fin 1) (⟨s.val + w.val, by omega⟩ : Fin 515) k))
        (fun h w k => (![v4, v9, v14, v19] w) (ix3 (0 : Fin 1) k h)) (fun h => v23 (ix2 (0 : Fin 1) h))
        (fun g k => v30 (ix3 (0 : Fin 1) k g)) (fun g => v33 (ix3 (0 : Fin 1) (0 : Fin 1) g))
        (fun g k => v48 (ix3 (0 : Fin 1) k g)) (fun g => v51 (ix3 (0 : Fin 1) (0 : Fin 1) g)) s h := by
  have e0 : (fun (s k : Fin 512) => (Gen.k1_pay2 (F := Ideal) v0 v4 v9 v14 v19 v23) (ix2 s k)) = Cert.Spec.convRelu (fun s w k => v0 (ix3 (0 : Fin 1) (⟨s.val + w.val, by omega⟩ : Fin 515) k)) (fun h w k => (![v4, v9, v14, v19] w) (ix3 (0 : Fin 1) k h)) (fun h => v23 (ix2 (0 : Fin 1) h)) :=
    funext fun s => funext fun k => pay2_1_apply v0 v4 v9 v14 v19 v23 s k
  have w0 : (fun (g : Fin 1024) (k : Fin 512) => (Gen.k1_pay4 (F := Ideal) v30) (ix2 k g)) = (fun g k => v30 (ix3 (0 : Fin 1) k g)) :=
    funext fun g => funext fun k => shapeCast_1ab_ab_apply v30 _ k g
  have w1 : (fun (g : Fin 1024) (k : Fin 512) =>
      (shapeCast S512x1024 v48 Gen.shapeCasts_S1x512x1024_S512x1024 : FVec Ideal S512x1024 .bf16) (ix2 k g)) = (fun g k => v48 (ix3 (0 : Fin 1) k g)) :=
    funext fun g => funext fun k => shapeCast_1ab_ab_apply v48 _ k g
  have e1 : (fun (s k : Fin 512) => (kStep (Gen.k1_pay2 (F := Ideal) v0 v4 v9 v14 v19 v23) (matmul dot_S512x512_S512x1024_S512x1024_1_0_0_1_n_n none (Gen.k1_pay3 (F := Ideal) v0 v4 v9 v14 v19 v23) (Gen.k1_pay4 (F := Ideal) v30) (constant S512x1024 .f32 0x00000000#32)) v33) (ix2 s k)) =
      Cert.Spec.hwStep (Cert.Spec.convRelu (fun s w k => v0 (ix3 (0 : Fin 1) (⟨s.val + w.val, by omega⟩ : Fin 515) k)) (fun h w k => (![v4, v9, v14, v19] w) (ix3 (0 : Fin 1) k h)) (fun h => v23 (ix2 (0 : Fin 1) h))) (fun g k => v30 (ix3 (0 : Fin 1) k g)) (fun g => v33 (ix3 (0 : Fin 1) (0 : Fin 1) g)) :=
    funext fun s => funext fun k => by
      rw [kStep_matmul_apply (Gen.k1_pay2 (F := Ideal) v0 v4 v9 v14 v19 v23) (Gen.k1_pay3 (F := Ideal) v0 v4 v9 v14 v19 v23) (fun _ => rfl) (Gen.k1_pay4 (F := Ideal) v30) v33 s k, e0, w0]
  rw [pay1_1_eq, shapeCast_ab_1ab_apply,
    kStep_matmul_apply (kStep (Gen.k1_pay2 (F := Ideal) v0 v4 v9 v14 v19 v23) (matmul dot_S512x512_S512x1024_S512x1024_1_0_0_1_n_n none (Gen.k1_pay3 (F := Ideal) v0 v4 v9 v14 v19 v23) (Gen.k1_pay4 (F := Ideal) v30) (constant S512x1024 .f32 0x00000000#32)) v33) (truncf .bf16 (kStep (Gen.k1_pay2 (F := Ideal) v0 v4 v9 v14 v19 v23) (matmul dot_S512x512_S512x1024_S512x1024_1_0_0_1_n_n none (Gen.k1_pay3 (F := Ideal) v0 v4 v9 v14 v19 v23) (Gen.k1_pay4 (F := Ideal) v30) (constant S512x1024 .f32 0x00000000#32)) v33) Gen.bitsLt_bf16_f32) (fun _ => rfl)
      (shapeCast S512x1024 v48 Gen.shapeCasts_S1x512x1024_S512x1024) v51 s h, e1, w1]
  rfl

/-- What the body of kernel call 1 leaves in its output block, at `(0, s, h)`: one direction of one layer of the
    specification on the blocks the call is given, read by coordinates. -/
theorem out1_5_apply (x0 : Vec Ideal S1x515x512 .bf16) (x1 : Vec Ideal S4x512x512 .bf16) (x2 : Vec Ideal S1x512 .f32)
    (x3 : Vec Ideal S2x512x1024 .bf16) (x4 : Vec Ideal S2x1x1024 .f32) (s h : Fin 512) :
    Gen.out1_5 (F := Ideal) x0 x1 x2 x3 x4 (ix3 (0 : Fin 1) s h) =
      Cert.Spec.dirLayer (fun s w k => x0 (ix3 (0 : Fin 1) (⟨s.val + w.val, by omega⟩ : Fin 515) k))
        (fun h w k => x1 (ix3 w k h)) (fun h => x2 (ix2 (0 : Fin 1) h))
        (fun g k => x3 (ix3 (0 : Fin 2) k g)) (fun g => x4 (ix3 (0 : Fin 2) (0 : Fin 1) g))
        (fun g k => x3 (ix3 (1 : Fin 2) k g)) (fun g => x4 (ix3 (1 : Fin 2) (0 : Fin 1) g)) s h := by
  unfold Gen.out1_5
  rw [View.canon_unit_zero hz3]
  simp only [View.ld_unit_zero (S := S1x515x512) hz3, View.ld_unit_zero (S := S1x512) hz2]
  refine (body1_apply x0 (View.ld x1 Gen.r1_1) (View.ld x1 Gen.r1_2) (View.ld x1 Gen.r1_3) (View.ld x1 Gen.r1_4) x2
    (View.ld x3 Gen.r1_6) (View.ld x4 Gen.r1_7) (View.ld x3 Gen.r1_8) (View.ld x4 Gen.r1_9) s h).trans ?_
  have eW : (fun (h : Fin 512) (w : Fin 4) (k : Fin 512) =>
      (![View.ld x1 Gen.r1_1, View.ld x1 Gen.r1_2, View.ld x1 Gen.r1_3, View.ld x1 Gen.r1_4] w) (ix3 (0 : Fin 1) k h)) = fun h w k => x1 (ix3 w k h) := by
    funext h w k
    match w with
    | ⟨0, _⟩ => exact ld_lead (n := 4) x1 0 (by omega) _ k h
    | ⟨1, _⟩ => exact ld_lead (n := 4) x1 1 (by omega) _ k h
    | ⟨2, _⟩ => exact ld_lead (n := 4) x1 2 (by omega) _ k h
    | ⟨3, _⟩ => exact ld_lead (n := 4) x1 3 (by omega) _ k h
  have eH0 : (fun (g : Fin 1024) (k : Fin 512) => View.ld x3 Gen.r1_6 (ix3 (0 : Fin 1) k g)) = fun g k => x3 (ix3 (0 : Fin 2) k g) :=
    funext fun g => funext fun k => ld_lead (n := 2) x3 0 (by omega) _ k g
  have eB0 : (fun (g : Fin 1024) => View.ld x4 Gen.r1_7 (ix3 (0 : Fin 1) (0 : Fin 1) g)) = fun g => x4 (ix3 (0 : Fin 2) (0 : Fin 1) g) :=
    funext fun g => ld_lead (n := 2) x4 0 (by omega) _ 0 g
  have eH1 : (fun (g : Fin 1024) (k : Fin 512) => View.ld x3 Gen.r1_8 (ix3 (0 : Fin 1) k g)) = fun g k => x3 (ix3 (1 : Fin 2) k g) :=
    funext fun g => funext fun k => ld_lead (n := 2) x3 1 (by omega) _ k g
  have eB1 : (fun (g : Fin 1024) => View.ld x4 Gen.r1_9 (ix3 (0 : Fin 1) (0 : Fin 1) g)) = fun g => x4 (ix3 (1 : Fin 2) (0 : Fin 1) g) :=
    funext fun g => ld_lead (n := 2) x4 1 (by omega) _ 0 g
  rw [eW, eH0, eB0, eH1, eB1]

/-! ## The body of kernel call 2 -/

/-- The first payload at `(s, h)`: the windowed linear map of the padded row `v0` with the four weight blocks, plus the
    bias, rectified. -/
theorem pay2_2_apply (v0 : Vec Ideal S1x515x512 .bf16) (v4 v9 v14 v19 : Vec Ideal S1x512x512 .bf16)
    (v23 : Vec Ideal S1x512 .f32) (s h : Fin 512) :
    Gen.k2_pay2 (F := Ideal) v0 v4 v9 v14 v19 v23 (ix2 s h) =
      Cert.Spec.convRelu (fun s w k => v0 (ix3 (0 : Fin 1) (⟨s.val + w.val, by omega⟩ : Fin 515) k))
        (fun h w k => (![v4, v9, v14, v19] w) (ix3 (0 : Fin 1) k h)) (fun h => v23 (ix2 (0 : Fin 1) h)) s h := by
  unfold Gen.k2_pay2
  simp only [maximumf_apply, addf_apply, broadcast_apply]
  rw [tap_apply v0 0 (by omega) _ _ v4 _ s h, tap_apply v0 1 (by omega) _ _ v9 _ s h,
    tap_apply v0 2 (by omega) _ _ v14 _ s h, tap_apply v0 3 (by omega) _ _ v19 _ s h, bias_apply,
    Ideal.ofBits_def, Ideal.ofBits_zero_f32, zero_add]
  unfold Cert.Spec.convRelu
  rw [Fin.sum_univ_four]
  rfl

/-- The stored payload is two highway steps on its first argument, each step's product taken with the row in the narrower
    format, cast to the block's shape. -/
theorem pay1_2_eq (v28 : FVec Ideal S512x512 .f32) (v29 : FVec Ideal S512x512 .bf16) (v31 : FVec Ideal S512x1024 .bf16)
    (c : FVec Ideal S512x1024 .f32) (v33 : FVec Ideal S1x1x1024 .f32) (v48 : FVec Ideal S1x512x1024 .bf16)
    (v51 : FVec Ideal S1x1x1024 .f32) :
    Gen.k2_pay1 (F := Ideal) v28 v29 v31 c v33 v48 v51 =
      shapeCast S1x512x512
        (kStep (kStep v28 (matmul dot_S512x512_S512x1024_S512x1024_1_0_0_1_n_n none v29 v31 c) v33)
          (matmul dot_S512x512_S512x1024_S512x1024_1_0_0_1_n_n none
            (truncf .bf16 (kStep v28 (matmul dot_S512x512_S512x1024_S512x1024_1_0_0_1_n_n none v29 v31 c) v33) Gen.bitsLt_bf16_f32)
            (shapeCast S512x1024 v48 Gen.shapeCasts_S1x512x1024_S512x1024) (constant S512x1024 .f32 0x00000000#32)) v51)
        Gen.shapeCasts_S512x512_S1x512x512 := rfl

/-- The whole arithmetic of the body at `(0, s, h)`, from the blocks it loads: one direction of one layer. -/
theorem body2_apply (v0 : Vec Ideal S1x515x512 .bf16) (v4 v9 v14 v19 : Vec Ideal S1x512x512 .bf16)
    (v23 : Vec Ideal S1x512 .f32) (v30 : Vec Ideal S1x512x1024 .bf16) (v33 : Vec Ideal S1x1x1024 .f32)
    (v48 : Vec Ideal S1x512x1024 .bf16) (v51 : Vec Ideal S1x1x1024 .f32) (s h : Fin 512) :
    Gen.k2_pay1 (F := Ideal) (Gen.k2_pay2 (F := Ideal) v0 v4 v9 v14 v19 v23) (Gen.k2_pay3 (F := Ideal) v0 v4 v9 v14 v19 v23) (Gen.k2_pay4 (F := Ideal) v30) (constant S512x1024 .f32 0x00000000#32) v33 v48 v51 (ix3 (0 : Fin 1) s h) =
      Cert.Spec.dirLayer (fun s w k => v0 (ix3 (0 : Fin 1) (⟨s.val + w.val, by omega⟩ : Fin 515) k))
        (fun h w k => (![v4, v9, v14, v19] w) (ix3 (0 : Fin 1) k h)) (fun h => v23 (ix2 (0 : Fin 1) h))
        (fun g k => v30 (ix3 (0 : Fin 1) k g)) (fun g => v33 (ix3 (0 : Fin 1) (0 : Fin 1) g))
        (fun g k => v48 (ix3 (0 : Fin 1) k g)) (fun g => v51 (ix3 (0 : Fin 1) (0 : Fin 1) g)) s h := by
  have e0 : (fun (s k : Fin 512) => (Gen.k2_pay2 (F := Ideal) v0 v4 v9 v14 v19 v23) (ix2 s k)) = Cert.Spec.convRelu (fun s w k => v0 (ix3 (0 : Fin 1) (⟨s.val + w.val, by omega⟩ : Fin 515) k)) (fun h w k => (![v4, v9, v14, v19] w) (ix3 (0 : Fin 1) k h)) (fun h => v23 (ix2 (0 : Fin 1) h)) :=
    funext fun s => funext fun k => pay2_2_apply v0 v4 v9 v14 v19 v23 s k
  have w0 : (fun (g : Fin 1024) (k : Fin 512) => (Gen.k2_pay4 (F := Ideal) v30) (ix2 k g)) = (fun g k => v30 (ix3 (0 : Fin 1) k g)) :=
    funext fun g => funext fun k => shapeCast_1ab_ab_apply v30 _ k g
  have w1 : (fun (g : Fin 1024) (k : Fin 512) =>
      (shapeCast S512x1024 v48 Gen.shapeCasts_S1x512x1024_S512x1024 : FVec Ideal S512x1024 .bf16) (ix2 k g)) = (fun g k => v48 (ix3 (0 : Fin 1) k g)) :=
    funext fun g => funext fun k => shapeCast_1ab_ab_apply v48 _ k g
  have e1 : (fun (s k : Fin 512) => (kStep (Gen.k2_pay2 (F := Ideal) v0 v4 v9 v14 v19 v23) (matmul dot_S512x512_S512x1024_S512x1024_1_0_0_1_n_n none (Gen.k2_pay3 (F := Ideal) v0 v4 v9 v14 v19 v23) (Gen.k2_pay4 (F := Ideal) v30) (constant S512x1024 .f32 0x00000000#32)) v33) (ix2 s k)) =
      Cert.Spec.hwStep (Cert.Spec.convRelu (fun s w k => v0 (ix3 (0 : Fin 1) (⟨s.val + w.val, by omega⟩ : Fin 515) k)) (fun h w k => (![v4, v9, v14, v19] w) (ix3 (0 : Fin 1) k h)) (fun h => v23 (ix2 (0 : Fin 1) h))) (fun g k => v30 (ix3 (0 : Fin 1) k g)) (fun g => v33 (ix3 (0 : Fin 1) (0 : Fin 1) g)) :=
    funext fun s => funext fun k => by
      rw [kStep_matmul_apply (Gen.k2_pay2 (F := Ideal) v0 v4 v9 v14 v19 v23) (Gen.k2_pay3 (F := Ideal) v0 v4 v9 v14 v19 v23) (fun _ => rfl) (Gen.k2_pay4 (F := Ideal) v30) v33 s k, e0, w0]
  rw [pay1_2_eq, shapeCast_ab_1ab_apply,
    kStep_matmul_apply (kStep (Gen.k2_pay2 (F := Ideal) v0 v4 v9 v14 v19 v23) (matmul dot_S512x512_S512x1024_S512x1024_1_0_0_1_n_n none (Gen.k2_pay3 (F := Ideal) v0 v4 v9 v14 v19 v23) (Gen.k2_pay4 (F := Ideal) v30) (constant S512x1024 .f32 0x00000000#32)) v33) (truncf .bf16 (kStep (Gen.k2_pay2 (F := Ideal) v0 v4 v9 v14 v19 v23) (matmul dot_S512x512_S512x1024_S512x1024_1_0_0_1_n_n none (Gen.k2_pay3 (F := Ideal) v0 v4 v9 v14 v19 v23) (Gen.k2_pay4 (F := Ideal) v30) (constant S512x1024 .f32 0x00000000#32)) v33) Gen.bitsLt_bf16_f32) (fun _ => rfl)
      (shapeCast S512x1024 v48 Gen.shapeCasts_S1x512x1024_S512x1024) v51 s h, e1, w1]
  rfl

/-- What the body of kernel call 2 leaves in its output block, at `(0, s, h)`: one direction of one layer of the
    specification on the blocks the call is given, read by coordinates. -/
theorem out2_5_apply (x0 : Vec Ideal S1x515x512 .bf16) (x1 : Vec Ideal S4x512x512 .bf16) (x2 : Vec Ideal S1x512 .f32)
    (x3 : Vec Ideal S2x512x1024 .bf16) (x4 : Vec Ideal S2x1x1024 .f32) (s h : Fin 512) :
    Gen.out2_5 (F := Ideal) x0 x1 x2 x3 x4 (ix3 (0 : Fin 1) s h) =
      Cert.Spec.dirLayer (fun s w k => x0 (ix3 (0 : Fin 1) (⟨s.val + w.val, by omega⟩ : Fin 515) k))
        (fun h w k => x1 (ix3 w k h)) (fun h => x2 (ix2 (0 : Fin 1) h))
        (fun g k => x3 (ix3 (0 : Fin 2) k g)) (fun g => x4 (ix3 (0 : Fin 2) (0 : Fin 1) g))
        (fun g k => x3 (ix3 (1 : Fin 2) k g)) (fun g => x4 (ix3 (1 : Fin 2) (0 : Fin 1) g)) s h := by
  unfold Gen.out2_5
  rw [View.canon_unit_zero hz3]
  simp only [View.ld_unit_zero (S := S1x515x512) hz3, View.ld_unit_zero (S := S1x512) hz2]
  refine (body2_apply x0 (View.ld x1 Gen.r2_1) (View.ld x1 Gen.r2_2) (View.ld x1 Gen.r2_3) (View.ld x1 Gen.r2_4) x2
    (View.ld x3 Gen.r2_6) (View.ld x4 Gen.r2_7) (View.ld x3 Gen.r2_8) (View.ld x4 Gen.r2_9) s h).trans ?_
  have eW : (fun (h : Fin 512) (w : Fin 4) (k : Fin 512) =>
      (![View.ld x1 Gen.r2_1, View.ld x1 Gen.r2_2, View.ld x1 Gen.r2_3, View.ld x1 Gen.r2_4] w) (ix3 (0 : Fin 1) k h)) = fun h w k => x1 (ix3 w k h) := by
    funext h w k
    match w with
    | ⟨0, _⟩ => exact ld_lead (n := 4) x1 0 (by omega) _ k h
    | ⟨1, _⟩ => exact ld_lead (n := 4) x1 1 (by omega) _ k h
    | ⟨2, _⟩ => exact ld_lead (n := 4) x1 2 (by omega) _ k h
    | ⟨3, _⟩ => exact ld_lead (n := 4) x1 3 (by omega) _ k h
  have eH0 : (fun (g : Fin 1024) (k : Fin 512) => View.ld x3 Gen.r2_6 (ix3 (0 : Fin 1) k g)) = fun g k => x3 (ix3 (0 : Fin 2) k g) :=
    funext fun g => funext fun k => ld_lead (n := 2) x3 0 (by omega) _ k g
  have eB0 : (fun (g : Fin 1024) => View.ld x4 Gen.r2_7 (ix3 (0 : Fin 1) (0 : Fin 1) g)) = fun g => x4 (ix3 (0 : Fin 2) (0 : Fin 1) g) :=
    funext fun g => ld_lead (n := 2) x4 0 (by omega) _ 0 g
  have eH1 : (fun (g : Fin 1024) (k : Fin 512) => View.ld x3 Gen.r2_8 (ix3 (0 : Fin 1) k g)) = fun g k => x3 (ix3 (1 : Fin 2) k g) :=
    funext fun g => funext fun k => ld_lead (n := 2) x3 1 (by omega) _ k g
  have eB1 : (fun (g : Fin 1024) => View.ld x4 Gen.r2_9 (ix3 (0 : Fin 1) (0 : Fin 1) g)) = fun g => x4 (ix3 (1 : Fin 2) (0 : Fin 1) g) :=
    funext fun g => ld_lead (n := 2) x4 1 (by omega) _ 0 g
  rw [eW, eH0, eB0, eH1, eB1]

/-! ## The body of kernel call 3 -/

/-- The first payload at `(s, h)`: the windowed linear map of the padded row `v0` with the four weight blocks, plus the
    bias, rectified. -/
theorem pay2_3_apply (v0 : Vec Ideal S1x515x512 .bf16) (v4 v9 v14 v19 : Vec Ideal S1x512x512 .bf16)
    (v23 : Vec Ideal S1x512 .f32) (s h : Fin 512) :
    Gen.k3_pay2 (F := Ideal) v0 v4 v9 v14 v19 v23 (ix2 s h) =
      Cert.Spec.convRelu (fun s w k => v0 (ix3 (0 : Fin 1) (⟨s.val + w.val, by omega⟩ : Fin 515) k))
        (fun h w k => (![v4, v9, v14, v19] w) (ix3 (0 : Fin 1) k h)) (fun h => v23 (ix2 (0 : Fin 1) h)) s h := by
  unfold Gen.k3_pay2
  simp only [maximumf_apply, addf_apply, broadcast_apply]
  rw [tap_apply v0 0 (by omega) _ _ v4 _ s h, tap_apply v0 1 (by omega) _ _ v9 _ s h,
    tap_apply v0 2 (by omega) _ _ v14 _ s h, tap_apply v0 3 (by omega) _ _ v19 _ s h, bias_apply,
    Ideal.ofBits_def, Ideal.ofBits_zero_f32, zero_add]
  unfold Cert.Spec.convRelu
  rw [Fin.sum_univ_four]
  rfl

/-- The stored payload is two highway steps on its first argument, each step's product taken with the row in the narrower
    format, cast to the block's shape. -/
theorem pay1_3_eq (v28 : FVec Ideal S512x512 .f32) (v29 : FVec Ideal S512x512 .bf16) (v31 : FVec Ideal S512x1024 .bf16)
    (c : FVec Ideal S512x1024 .f32) (v33 : FVec Ideal S1x1x1024 .f32) (v48 : FVec Ideal S1x512x1024 .bf16)
    (v51 : FVec Ideal S1x1x1024 .f32) :
    Gen.k3_pay1 (F := Ideal) v28 v29 v31 c v33 v48 v51 =
      shapeCast S1x512x512
        (kStep (kStep v28 (matmul dot_S512x512_S512x1024_S512x1024_1_0_0_1_n_n none v29 v31 c) v33)
          (matmul dot_S512x512_S512x1024_S512x1024_1_0_0_1_n_n none
            (truncf .bf16 (kStep v28 (matmul dot_S512x512_S512x1024_S512x1024_1_0_0_1_n_n none v29 v31 c) v33) Gen.bitsLt_bf16_f32)
            (shapeCast S512x1024 v48 Gen.shapeCasts_S1x512x1024_S512x1024) (constant S512x1024 .f32 0x00000000#32)) v51)
        Gen.shapeCasts_S512x512_S1x512x512 := rfl

/-- The whole arithmetic of the body at `(0, s, h)`, from the blocks it loads: one direction of one layer. -/
theorem body3_apply (v0 : Vec Ideal S1x515x512 .bf16) (v4 v9 v14 v19 : Vec Ideal S1x512x512 .bf16)
    (v23 : Vec Ideal S1x512 .f32) (v30 : Vec Ideal S1x512x1024 .bf16) (v33 : Vec Ideal S1x1x1024 .f32)
    (v48 : Vec Ideal S1x512x1024 .bf16) (v51 : Vec Ideal S1x1x1024 .f32) (s h : Fin 512) :
    Gen.k3_pay1 (F := Ideal) (Gen.k3_pay2 (F := Ideal) v0 v4 v9 v14 v19 v23) (Gen.k3_pay3 (F := Ideal) v0 v4 v9 v14 v19 v23) (Gen.k3_pay4 (F := Ideal) v30) (constant S512x1024 .f32 0x00000000#32) v33 v48 v51 (ix3 (0 : Fin 1) s h) =
      Cert.Spec.dirLayer (fun s w k => v0 (ix3 (0 : Fin 1) (⟨s.val + w.val, by omega⟩ : Fin 515) k))
        (fun h w k => (![v4, v9, v14, v19] w) (ix3 (0 : Fin 1) k h)) (fun h => v23 (ix2 (0 : Fin 1) h))
        (fun g k => v30 (ix3 (0 : Fin 1) k g)) (fun g => v33 (ix3 (0 : Fin 1) (0 : Fin 1) g))
        (fun g k => v48 (ix3 (0 : Fin 1) k g)) (fun g => v51 (ix3 (0 : Fin 1) (0 : Fin 1) g)) s h := by
  have e0 : (fun (s k : Fin 512) => (Gen.k3_pay2 (F := Ideal) v0 v4 v9 v14 v19 v23) (ix2 s k)) = Cert.Spec.convRelu (fun s w k => v0 (ix3 (0 : Fin 1) (⟨s.val + w.val, by omega⟩ : Fin 515) k)) (fun h w k => (![v4, v9, v14, v19] w) (ix3 (0 : Fin 1) k h)) (fun h => v23 (ix2 (0 : Fin 1) h)) :=
    funext fun s => funext fun k => pay2_3_apply v0 v4 v9 v14 v19 v23 s k
  have w0 : (fun (g : Fin 1024) (k : Fin 512) => (Gen.k3_pay4 (F := Ideal) v30) (ix2 k g)) = (fun g k => v30 (ix3 (0 : Fin 1) k g)) :=
    funext fun g => funext fun k => shapeCast_1ab_ab_apply v30 _ k g
  have w1 : (fun (g : Fin 1024) (k : Fin 512) =>
      (shapeCast S512x1024 v48 Gen.shapeCasts_S1x512x1024_S512x1024 : FVec Ideal S512x1024 .bf16) (ix2 k g)) = (fun g k => v48 (ix3 (0 : Fin 1) k g)) :=
    funext fun g => funext fun k => shapeCast_1ab_ab_apply v48 _ k g
  have e1 : (fun (s k : Fin 512) => (kStep (Gen.k3_pay2 (F := Ideal) v0 v4 v9 v14 v19 v23) (matmul dot_S512x512_S512x1024_S512x1024_1_0_0_1_n_n none (Gen.k3_pay3 (F := Ideal) v0 v4 v9 v14 v19 v23) (Gen.k3_pay4 (F := Ideal) v30) (constant S512x1024 .f32 0x00000000#32)) v33) (ix2 s k)) =
      Cert.Spec.hwStep (Cert.Spec.convRelu (fun s w k => v0 (ix3 (0 : Fin 1) (⟨s.val + w.val, by omega⟩ : Fin 515) k)) (fun h w k => (![v4, v9, v14, v19] w) (ix3 (0 : Fin 1) k h)) (fun h => v23 (ix2 (0 : Fin 1) h))) (fun g k => v30 (ix3 (0 : Fin 1) k g)) (fun g => v33 (ix3 (0 : Fin 1) (0 : Fin 1) g)) :=
    funext fun s => funext fun k => by
      rw [kStep_matmul_apply (Gen.k3_pay2 (F := Ideal) v0 v4 v9 v14 v19 v23) (Gen.k3_pay3 (F := Ideal) v0 v4 v9 v14 v19 v23) (fun _ => rfl) (Gen.k3_pay4 (F := Ideal) v30) v33 s k, e0, w0]
  rw [pay1_3_eq, shapeCast_ab_1ab_apply,
    kStep_matmul_apply (kStep (Gen.k3_pay2 (F := Ideal) v0 v4 v9 v14 v19 v23) (matmul dot_S512x512_S512x1024_S512x1024_1_0_0_1_n_n none (Gen.k3_pay3 (F := Ideal) v0 v4 v9 v14 v19 v23) (Gen.k3_pay4 (F := Ideal) v30) (constant S512x1024 .f32 0x00000000#32)) v33) (truncf .bf16 (kStep (Gen.k3_pay2 (F := Ideal) v0 v4 v9 v14 v19 v23) (matmul dot_S512x512_S512x1024_S512x1024_1_0_0_1_n_n none (Gen.k3_pay3 (F := Ideal) v0 v4 v9 v14 v19 v23) (Gen.k3_pay4 (F := Ideal) v30) (constant S512x1024 .f32 0x00000000#32)) v33) Gen.bitsLt_bf16_f32) (fun _ => rfl)
      (shapeCast S512x1024 v48 Gen.shapeCasts_S1x512x1024_S512x1024) v51 s h, e1, w1]
  rfl

/-- What the body of kernel call 3 leaves in its output block, at `(0, s, h)`: one direction of one layer of the
    specification on the blocks the call is given, read by coordinates. -/
theorem out3_5_apply (x0 : Vec Ideal S1x515x512 .bf16) (x1 : Vec Ideal S4x512x512 .bf16) (x2 : Vec Ideal S1x512 .f32)
    (x3 : Vec Ideal S2x512x1024 .bf16) (x4 : Vec Ideal S2x1x1024 .f32) (s h : Fin 512) :
    Gen.out3_5 (F := Ideal) x0 x1 x2 x3 x4 (ix3 (0 : Fin 1) s h) =
      Cert.Spec.dirLayer (fun s w k => x0 (ix3 (0 : Fin 1) (⟨s.val + w.val, by omega⟩ : Fin 515) k))
        (fun h w k => x1 (ix3 w k h)) (fun h => x2 (ix2 (0 : Fin 1) h))
        (fun g k => x3 (ix3 (0 : Fin 2) k g)) (fun g => x4 (ix3 (0 : Fin 2) (0 : Fin 1) g))
        (fun g k => x3 (ix3 (1 : Fin 2) k g)) (fun g => x4 (ix3 (1 : Fin 2) (0 : Fin 1) g)) s h := by
  unfold Gen.out3_5
  rw [View.canon_unit_zero hz3]
  simp only [View.ld_unit_zero (S := S1x515x512) hz3, View.ld_unit_zero (S := S1x512) hz2]
  refine (body3_apply x0 (View.ld x1 Gen.r3_1) (View.ld x1 Gen.r3_2) (View.ld x1 Gen.r3_3) (View.ld x1 Gen.r3_4) x2
    (View.ld x3 Gen.r3_6) (View.ld x4 Gen.r3_7) (View.ld x3 Gen.r3_8) (View.ld x4 Gen.r3_9) s h).trans ?_
  have eW : (fun (h : Fin 512) (w : Fin 4) (k : Fin 512) =>
      (![View.ld x1 Gen.r3_1, View.ld x1 Gen.r3_2, View.ld x1 Gen.r3_3, View.ld x1 Gen.r3_4] w) (ix3 (0 : Fin 1) k h)) = fun h w k => x1 (ix3 w k h) := by
    funext h w k
    match w with
    | ⟨0, _⟩ => exact ld_lead (n := 4) x1 0 (by omega) _ k h
    | ⟨1, _⟩ => exact ld_lead (n := 4) x1 1 (by omega) _ k h
    | ⟨2, _⟩ => exact ld_lead (n := 4) x1 2 (by omega) _ k h
    | ⟨3, _⟩ => exact ld_lead (n := 4) x1 3 (by omega) _ k h
  have eH0 : (fun (g : Fin 1024) (k : Fin 512) => View.ld x3 Gen.r3_6 (ix3 (0 : Fin 1) k g)) = fun g k => x3 (ix3 (0 : Fin 2) k g) :=
    funext fun g => funext fun k => ld_lead (n := 2) x3 0 (by omega) _ k g
  have eB0 : (fun (g : Fin 1024) => View.ld x4 Gen.r3_7 (ix3 (0 : Fin 1) (0 : Fin 1) g)) = fun g => x4 (ix3 (0 : Fin 2) (0 : Fin 1) g) :=
    funext fun g => ld_lead (n := 2) x4 0 (by omega) _ 0 g
  have eH1 : (fun (g : Fin 1024) (k : Fin 512) => View.ld x3 Gen.r3_8 (ix3 (0 : Fin 1) k g)) = fun g k => x3 (ix3 (1 : Fin 2) k g) :=
    funext fun g => funext fun k => ld_lead (n := 2) x3 1 (by omega) _ k g
  have eB1 : (fun (g : Fin 1024) => View.ld x4 Gen.r3_9 (ix3 (0 : Fin 1) (0 : Fin 1) g)) = fun g => x4 (ix3 (1 : Fin 2) (0 : Fin 1) g) :=
    funext fun g => ld_lead (n := 2) x4 1 (by omega) _ 0 g
  rw [eW, eH0, eB0, eH1, eB1]

end Cert.KernelIdeal.Body

end
-- ==== Proof.KArr.lean ====
/-
  From the blocks to the array, for each of the four regions.

  A region runs its body once per batch row: at grid point `t` the body reads row `t` of the padded input array and the
  whole of the four weight arrays, and its result is written to row `t` of the region's result array.  The body's result
  on blocks is one direction of one layer (`Cert.Spec.dirLayer`) of those blocks; here that is carried to the arrays:
  each input block is read where it sits in its array, the 32 rows cover the result array, and so the result array is
  `dirLayer`, row by row, of the arrays the region found.
-/
import proofs.«101546_j62689342652477_1_alg».proof.Proof.Gen.KernelIdeal.Frame
import proofs.«101546_j62689342652477_1_alg».proof.Proof.KBody
import proofs.«101546_j62689342652477_1_alg».proof.Proof.Spec
import Idealize.ShloMosaic.Lib.Pipeline.Value
import Idealize.ShloMosaic.Lib.ValueIdx

noncomputable section

namespace Cert.KernelIdeal.Arr

open Idealize.ShloMosaic Idealize.ShloMosaic.ValueIdx Idealize.ShloMosaic.TcCoe Idealize.SL.Sem
open Idealize.ShloMosaic.Pipeline (Dat)
open Cert.KernelIdeal

/-- `dirLayer` of five blocks is `dirLayer` of five arrays when the first block is row `b` of the first array and the
    other four blocks are the other four arrays. -/
theorem dirLayer_congr (x0 : Vec Ideal S1x515x512 .bf16) (x1 : Vec Ideal S4x512x512 .bf16) (x2 : Vec Ideal S1x512 .f32)
    (x3 : Vec Ideal S2x512x1024 .bf16) (x4 : Vec Ideal S2x1x1024 .f32)
    (A0 : S32x515x512.Idx → EReal) (A1 : S4x512x512.Idx → EReal) (A2 : S1x512.Idx → EReal)
    (A3 : S2x512x1024.Idx → EReal) (A4 : S2x1x1024.Idx → EReal) (b : Fin 32)
    (h0 : ∀ (s : Fin 515) (k : Fin 512), x0 (ix3 (0 : Fin 1) s k) = A0 (ix3 b s k))
    (h1 : x1 = A1) (h2 : x2 = A2) (h3 : x3 = A3) (h4 : x4 = A4) (s h : Fin 512) :
    Cert.Spec.dirLayer (fun s w k => x0 (ix3 (0 : Fin 1) (⟨s.val + w.val, by omega⟩ : Fin 515) k))
        (fun h w k => x1 (ix3 w k h)) (fun h => x2 (ix2 (0 : Fin 1) h))
        (fun g k => x3 (ix3 (0 : Fin 2) k g)) (fun g => x4 (ix3 (0 : Fin 2) (0 : Fin 1) g))
        (fun g k => x3 (ix3 (1 : Fin 2) k g)) (fun g => x4 (ix3 (1 : Fin 2) (0 : Fin 1) g)) s h
      = Cert.Spec.dirLayer (fun s w k => A0 (ix3 b (⟨s.val + w.val, by omega⟩ : Fin 515) k))
        (fun h w k => A1 (ix3 w k h)) (fun h => A2 (ix2 (0 : Fin 1) h))
        (fun g k => A3 (ix3 (0 : Fin 2) k g)) (fun g => A4 (ix3 (0 : Fin 2) (0 : Fin 1) g))
        (fun g k => A3 (ix3 (1 : Fin 2) k g)) (fun g => A4 (ix3 (1 : Fin 2) (0 : Fin 1) g)) s h := by
  subst h1 h2 h3 h4
  have e : (fun (s : Fin 512) (w : Fin 4) (k : Fin 512) => x0 (ix3 (0 : Fin 1) (⟨s.val + w.val, by omega⟩ : Fin 515) k))
      = (fun (s : Fin 512) (w : Fin 4) (k : Fin 512) => A0 (ix3 b (⟨s.val + w.val, by omega⟩ : Fin 515) k)) :=
    funext fun s => funext fun w => funext fun k => h0 _ k
  rw [e]

variable (V : (c : Dev nD) → (b : Ref sig .tc) → Buf (Elt Ideal) ((c : Thread nD τ).loc b))

/-! ## Region 0 -/

/-- What region 0 leaves in its result array: row `b` is one direction of one layer of row `b` of the padded input
    array, with the weights the other four arrays hold. -/
abbrev target0 (c : Dev nD) : S32x512x512.Idx → EReal := fun i =>
  Cert.Spec.dirLayer (fun s w k => V c main_v9 (ix3 (i 0) (⟨s.val + w.val, by omega⟩ : Fin 515) k))
        (fun h w k => V c main_v16 (ix3 w k h)) (fun h => V c main_v24 (ix2 (0 : Fin 1) h))
        (fun g k => V c main_v31 (ix3 (0 : Fin 2) k g)) (fun g => V c main_v38 (ix3 (0 : Fin 2) (0 : Fin 1) g))
        (fun g k => V c main_v31 (ix3 (1 : Fin 2) k g)) (fun g => V c main_v38 (ix3 (1 : Fin 2) (0 : Fin 1) g)) (i 1) (i 2)

/-- The block indices over the grid: the padded input and the result move with the grid point along the batch axis,
    the four weight arrays stay at block zero. -/
theorem blockIndex0 : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- Window 0's block at grid point `t` is row `t` of the padded input array. -/
theorem rowBlock0 (c : Dev nD) (t : Fin cfg0.N) (b : Fin 32) (hb : b.val = t.val) (s : Fin 515) (k : Fin 512) :
    (Gen.iblk0 (F := Ideal) V c 0 t : Vec Ideal S1x515x512 .bf16) (ix3 (0 : Fin 1) s k)
      = (V c main_v9 : S32x515x512.Idx → EReal) (ix3 b s k) := by
  obtain ⟨e0, e1, e2, -⟩ := blockIndex0 t
  unfold Gen.iblk0
  rw [View.read_apply]
  show V c main_v9 _ = V c main_v9 _
  congr 1
  funext a; apply Fin.ext
  match a with
  | ⟨0, _⟩ => show win0_0.index t (0 : Fin 3) * 1 + 1 * 0 = b.val; omega
  | ⟨1, _⟩ => show win0_0.index t (1 : Fin 3) * 515 + 1 * s.val = s.val; omega
  | ⟨2, _⟩ => show win0_0.index t (2 : Fin 3) * 512 + 1 * k.val = k.val; omega

/-- Window 1's block is its whole array at every grid point: every block index is zero. -/
theorem wholeBlock0_1 (c : Dev nD) (t : Fin cfg0.N) :
    (Gen.iblk0 (F := Ideal) V c 1 t : Vec Ideal S4x512x512 .bf16) = (V c main_v16 : S4x512x512.Idx → EReal) := by
  obtain ⟨-, -, -, e0, e1, e2, -⟩ := blockIndex0 t
  funext y
  unfold Gen.iblk0
  rw [View.read_apply]
  show V c main_v16 _ = V c main_v16 _
  congr 1
  funext a; apply Fin.ext
  match a with
  | ⟨0, _⟩ => show win0_1.index t (0 : Fin 3) * 4 + 1 * (y 0).val = (y 0).val; omega
  | ⟨1, _⟩ => show win0_1.index t (1 : Fin 3) * 512 + 1 * (y 1).val = (y 1).val; omega
  | ⟨2, _⟩ => show win0_1.index t (2 : Fin 3) * 512 + 1 * (y 2).val = (y 2).val; omega

/-- Window 2's block is its whole array at every grid point: every block index is zero. -/
theorem wholeBlock0_2 (c : Dev nD) (t : Fin cfg0.N) :
    (Gen.iblk0 (F := Ideal) V c 2 t : Vec Ideal S1x512 .f32) = (V c main_v24 : S1x512.Idx → EReal) := by
  obtain ⟨-, -, -, -, -, -, e0, e1, -⟩ := blockIndex0 t
  funext y
  unfold Gen.iblk0
  rw [View.read_apply]
  show V c main_v24 _ = V c main_v24 _
  congr 1
  funext a; apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- Window 3's block is its whole array at every grid point: every block index is zero. -/
theorem wholeBlock0_3 (c : Dev nD) (t : Fin cfg0.N) :
    (Gen.iblk0 (F := Ideal) V c 3 t : Vec Ideal S2x512x1024 .bf16) = (V c main_v31 : S2x512x1024.Idx → EReal) := by
  obtain ⟨-, -, -, -, -, -, -, -, e0, e1, e2, -⟩ := blockIndex0 t
  funext y
  unfold Gen.iblk0
  rw [View.read_apply]
  show V c main_v31 _ = V c main_v31 _
  congr 1
  funext a; apply Fin.ext
  match a with
  | ⟨0, _⟩ => show win0_3.index t (0 : Fin 3) * 2 + 1 * (y 0).val = (y 0).val; omega
  | ⟨1, _⟩ => show win0_3.index t (1 : Fin 3) * 512 + 1 * (y 1).val = (y 1).val; omega
  | ⟨2, _⟩ => show win0_3.index t (2 : Fin 3) * 1024 + 1 * (y 2).val = (y 2).val; omega

/-- Window 4's block is its whole array at every grid point: every block index is zero. -/
theorem wholeBlock0_4 (c : Dev nD) (t : Fin cfg0.N) :
    (Gen.iblk0 (F := Ideal) V c 4 t : Vec Ideal S2x1x1024 .f32) = (V c main_v38 : S2x1x1024.Idx → EReal) := by
  obtain ⟨-, -, -, -, -, -, -, -, -, -, -, e0, e1, e2, -⟩ := blockIndex0 t
  funext y
  unfold Gen.iblk0
  rw [View.read_apply]
  show V c main_v38 _ = V c main_v38 _
  congr 1
  funext a; apply Fin.ext
  match a with
  | ⟨0, _⟩ => show win0_4.index t (0 : Fin 3) * 2 + 1 * (y 0).val = (y 0).val; omega
  | ⟨1, _⟩ => show win0_4.index t (1 : Fin 3) * 1 + 1 * (y 1).val = (y 1).val; omega
  | ⟨2, _⟩ => show win0_4.index t (2 : Fin 3) * 1024 + 1 * (y 2).val = (y 2).val; omega

/-- The body's result at grid point `t`, at the element `y` of its block, is the target at the array index `i` that element
    sits at: row `t`, the same position and channel. -/
theorem point0 (c : Dev nD) (t : Fin cfg0.N) (y : S1x512x512.Idx) (i : S32x512x512.Idx)
    (h0 : (i 0).val = t.val) (h1 : (i 1).val = (y 1).val) (h2 : (i 2).val = (y 2).val) :
    Gen.out0_5 (F := Ideal) (Gen.iblk0 V c 0 t) (Gen.iblk0 V c 1 t) (Gen.iblk0 V c 2 t) (Gen.iblk0 V c 3 t) (Gen.iblk0 V c 4 t) y
      = target0 V c i := by
  obtain ⟨a, s, h, rfl⟩ : ∃ (a : Fin 1) (s h : Fin 512), y = ix3 a s h := ⟨y 0, y 1, y 2, eq_ix3 y⟩
  obtain ⟨b, s', h', rfl⟩ : ∃ (b : Fin 32) (s' h' : Fin 512), i = ix3 b s' h' := ⟨i 0, i 1, i 2, eq_ix3 i⟩
  obtain rfl : a = 0 := Subsingleton.elim _ _
  obtain rfl : s' = s := Fin.ext h1
  obtain rfl : h' = h := Fin.ext h2
  refine (Body.out0_5_apply (Gen.iblk0 V c 0 t) (Gen.iblk0 V c 1 t) (Gen.iblk0 V c 2 t) (Gen.iblk0 V c 3 t) (Gen.iblk0 V c 4 t) s' h').trans ?_
  exact dirLayer_congr (Gen.iblk0 V c 0 t) (Gen.iblk0 V c 1 t) (Gen.iblk0 V c 2 t) (Gen.iblk0 V c 3 t) (Gen.iblk0 V c 4 t)
    (V c main_v9) (V c main_v16) (V c main_v24) (V c main_v31) (V c main_v38) b
    (fun s k => rowBlock0 V c t b h0 s k) (wholeBlock0_1 V c t) (wholeBlock0_2 V c t) (wholeBlock0_3 V c t) (wholeBlock0_4 V c t) s' h'

/-- What grid point `t` writes back is block `t` of the target. -/
theorem written0 (c : Dev nD) (t : Fin cfg0.N) :
    (Gen.dat0 (F := Ideal) V c).flushed 5 t = ((cfg0.win 5).blk t).view.read (Elt Ideal) (target0 V c) := by
  show (cfg0.win 5).cut (grid0.coords t) ((Gen.dat0 (F := Ideal) V c).after 5 t) = _
  rw [Gen.after0_5]
  obtain ⟨-, -, -, -, -, -, -, -, -, -, -, -, -, -, e0, e1, e2⟩ := blockIndex0 t
  funext j
  refine point0 V c t ((cfg0.win 5).xinj (grid0.coords t) j) (((cfg0.win 5).blk t).view.emb j) ?_ ?_ ?_
  · show win0_5.index t (0 : Fin 3) * 1 + 1 * (j 0).val = t.val
    have hj : (j 0).val < 1 := (j 0).isLt
    omega
  · show win0_5.index t (1 : Fin 3) * 512 + 1 * (j 1).val = (j 1).val
    omega
  · show win0_5.index t (2 : Fin 3) * 512 + 1 * (j 2).val = (j 2).val
    omega

/-- An index of the result array is in grid point `t`'s block iff each coordinate is in the block's range on its axis. -/
theorem mem_block0 (t : Fin cfg0.N) (i : S32x512x512.Idx) :
    i ∈ ((cfg0.win 5).blk t).view.set ↔ ∀ a : Fin 3, win0_5.index t a * S1x512x512.size a ≤ (i a).val
      ∧ (i a).val < win0_5.index t a * S1x512x512.size a + S1x512x512.size a := by
  show i ∈ ((View.whole main_v42).slice (win0_5.rect t)).set ↔ _
  rw [View.set_slice_whole, Rect.mem_set_unit]
  exact Iff.rfl

/-- Every index of the result array is in some grid point's block: row `b` is grid point `b`'s. -/
theorem rows_cover0 (i : S32x512x512.Idx) :
    ∃ t : Fin cfg0.N, (cfg0.win 5).flush t = true ∧ i ∈ ((cfg0.win 5).blk t).view.set := by
  have hi0 : (i 0).val < 32 := (i 0).isLt
  have hi1 : (i 1).val < 512 := (i 1).isLt
  have hi2 : (i 2).val < 512 := (i 2).isLt
  obtain ⟨t, ht⟩ : ∃ t : Fin cfg0.N, t.val = (i 0).val :=
    ⟨⟨(i 0).val, by rw [show cfg0.N = 32 from Gen.N_0]; exact hi0⟩, rfl⟩
  obtain ⟨-, -, -, -, -, -, -, -, -, -, -, -, -, -, e0, e1, e2⟩ := blockIndex0 t
  refine ⟨t, Gen.flush0_5 t, ?_⟩
  rw [mem_block0]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 512 ≤ (i 2).val ∧ (i 2).val < win0_5.index t (2 : Fin 3) * 512 + 512; omega

/-- The result array after region 0: one direction of one layer, row by row, of the arrays the region found. -/
theorem arr0 (c : Dev nD) (b : Fin 32) (s h : Fin 512) :
    (Gen.dat0 (F := Ideal) V c).arrAt 5 cfg0.N (ix3 b s h) =
      Cert.Spec.dirLayer (fun s w k => V c main_v9 (ix3 b (⟨s.val + w.val, by omega⟩ : Fin 515) k))
        (fun h w k => V c main_v16 (ix3 w k h)) (fun h => V c main_v24 (ix2 (0 : Fin 1) h))
        (fun g k => V c main_v31 (ix3 (0 : Fin 2) k g)) (fun g => V c main_v38 (ix3 (0 : Fin 2) (0 : Fin 1) g))
        (fun g k => V c main_v31 (ix3 (1 : Fin 2) k g)) (fun g => V c main_v38 (ix3 (1 : Fin 2) (0 : Fin 1) g)) s h :=
  congrFun ((Gen.dat0 (F := Ideal) V c).arrAt_eq_of_cover 5 (target0 V c) (fun t _ => written0 V c t) rows_cover0) (ix3 b s h)

/-! ## Region 1 -/

/-- What region 1 leaves in its result array: row `b` is one direction of one layer of row `b` of the padded input
    array, with the weights the other four arrays hold. -/
abbrev target1 (c : Dev nD) : S32x512x512.Idx → EReal := fun i =>
  Cert.Spec.dirLayer (fun s w k => V c main_v11 (ix3 (i 0) (⟨s.val + w.val, by omega⟩ : Fin 515) k))
        (fun h w k => V c main_v21 (ix3 w k h)) (fun h => V c main_v27 (ix2 (0 : Fin 1) h))
        (fun g k => V c main_v35 (ix3 (0 : Fin 2) k g)) (fun g => V c main_v41 (ix3 (0 : Fin 2) (0 : Fin 1) g))
        (fun g k => V c main_v35 (ix3 (1 : Fin 2) k g)) (fun g => V c main_v41 (ix3 (1 : Fin 2) (0 : Fin 1) g)) (i 1) (i 2)

/-- The block indices over the grid: the padded input and the result move with the grid point along the batch axis,
    the four weight arrays stay at block zero. -/
theorem blockIndex1 : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0 :=
  (by decide +kernel : ∀ t : Fin grid1.N, _)

/-- Window 0's block at grid point `t` is row `t` of the padded input array. -/
theorem rowBlock1 (c : Dev nD) (t : Fin cfg1.N) (b : Fin 32) (hb : b.val = t.val) (s : Fin 515) (k : Fin 512) :
    (Gen.iblk1 (F := Ideal) V c 0 t : Vec Ideal S1x515x512 .bf16) (ix3 (0 : Fin 1) s k)
      = (V c main_v11 : S32x515x512.Idx → EReal) (ix3 b s k) := by
  obtain ⟨e0, e1, e2, -⟩ := blockIndex1 t
  unfold Gen.iblk1
  rw [View.read_apply]
  show V c main_v11 _ = V c main_v11 _
  congr 1
  funext a; apply Fin.ext
  match a with
  | ⟨0, _⟩ => show win1_0.index t (0 : Fin 3) * 1 + 1 * 0 = b.val; omega
  | ⟨1, _⟩ => show win1_0.index t (1 : Fin 3) * 515 + 1 * s.val = s.val; omega
  | ⟨2, _⟩ => show win1_0.index t (2 : Fin 3) * 512 + 1 * k.val = k.val; omega

/-- Window 1's block is its whole array at every grid point: every block index is zero. -/
theorem wholeBlock1_1 (c : Dev nD) (t : Fin cfg1.N) :
    (Gen.iblk1 (F := Ideal) V c 1 t : Vec Ideal S4x512x512 .bf16) = (V c main_v21 : S4x512x512.Idx → EReal) := by
  obtain ⟨-, -, -, e0, e1, e2, -⟩ := blockIndex1 t
  funext y
  unfold Gen.iblk1
  rw [View.read_apply]
  show V c main_v21 _ = V c main_v21 _
  congr 1
  funext a; apply Fin.ext
  match a with
  | ⟨0, _⟩ => show win1_1.index t (0 : Fin 3) * 4 + 1 * (y 0).val = (y 0).val; omega
  | ⟨1, _⟩ => show win1_1.index t (1 : Fin 3) * 512 + 1 * (y 1).val = (y 1).val; omega
  | ⟨2, _⟩ => show win1_1.index t (2 : Fin 3) * 512 + 1 * (y 2).val = (y 2).val; omega

/-- Window 2's block is its whole array at every grid point: every block index is zero. -/
theorem wholeBlock1_2 (c : Dev nD) (t : Fin cfg1.N) :
    (Gen.iblk1 (F := Ideal) V c 2 t : Vec Ideal S1x512 .f32) = (V c main_v27 : S1x512.Idx → EReal) := by
  obtain ⟨-, -, -, -, -, -, e0, e1, -⟩ := blockIndex1 t
  funext y
  unfold Gen.iblk1
  rw [View.read_apply]
  show V c main_v27 _ = V c main_v27 _
  congr 1
  funext a; apply Fin.ext
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- Window 3's block is its whole array at every grid point: every block index is zero. -/
theorem wholeBlock1_3 (c : Dev nD) (t : Fin cfg1.N) :
    (Gen.iblk1 (F := Ideal) V c 3 t : Vec Ideal S2x512x1024 .bf16) = (V c main_v35 : S2x512x1024.Idx → EReal) := by
  obtain ⟨-, -, -, -, -, -, -, -, e0, e1, e2, -⟩ := blockIndex1 t
  funext y
  unfold Gen.iblk1
  rw [View.read_apply]
  show V c main_v35 _ = V c main_v35 _
  congr 1
  funext a; apply Fin.ext
  match a with
  | ⟨0, _⟩ => show win1_3.index t (0 : Fin 3) * 2 + 1 * (y 0).val = (y 0).val; omega
  | ⟨1, _⟩ => show win1_3.index t (1 : Fin 3) * 512 + 1 * (y 1).val = (y 1).val; omega
  | ⟨2, _⟩ => show win1_3.index t (2 : Fin 3) * 1024 + 1 * (y 2).val = (y 2).val; omega

/-- Window 4's block is its whole array at every grid point: every block index is zero. -/
theorem wholeBlock1_4 (c : Dev nD) (t : Fin cfg1.N) :
    (Gen.iblk1 (F := Ideal) V c 4 t : Vec Ideal S2x1x1024 .f32) = (V c main_v41 : S2x1x1024.Idx → EReal) := by
  obtain ⟨-, -, -, -, -, -, -, -, -, -, -, e0, e1, e2, -⟩ := blockIndex1 t
  funext y
  unfold Gen.iblk1
  rw [View.read_apply]
  show V c main_v41 _ = V c main_v41 _
  congr 1
  funext a; apply Fin.ext
  match a with
  | ⟨0, _⟩ => show win1_4.index t (0 : Fin 3) * 2 + 1 * (y 0).val = (y 0).val; omega
  | ⟨1, _⟩ => show win1_4.index t (1 : Fin 3) * 1 + 1 * (y 1).val = (y 1).val; omega
  | ⟨2, _⟩ => show win1_4.index t (2 : Fin 3) * 1024 + 1 * (y 2).val = (y 2).val; omega

/-- The body's result at grid point `t`, at the element `y` of its block, is the target at the array index `i` that element
    sits at: row `t`, the same position and channel. -/
theorem point1 (c : Dev nD) (t : Fin cfg1.N) (y : S1x512x512.Idx) (i : S32x512x512.Idx)
    (h0 : (i 0).val = t.val) (h1 : (i 1).val = (y 1).val) (h2 : (i 2).val = (y 2).val) :
    Gen.out1_5 (F := Ideal) (Gen.iblk1 V c 0 t) (Gen.iblk1 V c 1 t) (Gen.iblk1 V c 2 t) (Gen.iblk1 V c 3 t) (Gen.iblk1 V c 4 t) y
      = target1 V c i := by
  obtain ⟨a, s, h, rfl⟩ : ∃ (a : Fin 1) (s h : Fin 512), y = ix3 a s h := ⟨y 0, y 1, y 2, eq_ix3 y⟩
  obtain ⟨b, s', h', rfl⟩ : ∃ (b : Fin 32) (s' h' : Fin 512), i = ix3 b s' h' := ⟨i 0, i 1, i 2, eq_ix3 i⟩
  obtain rfl : a = 0 := Subsingleton.elim _ _
  obtain rfl : s' = s := Fin.ext h1
  obtain rfl : h' = h := Fin.ext h2
  refine (Body.out1_5_apply (Gen.iblk1 V c 0 t) (Gen.iblk1 V c 1 t) (Gen.iblk1 V c 2 t) (Gen.iblk1 V c 3 t) (Gen.iblk1 V c 4 t) s' h').trans ?_
  exact dirLayer_congr (Gen.iblk1 V c 0 t) (Gen.iblk1 V c 1 t) (Gen.iblk1 V c 2 t) (Gen.iblk1 V c 3 t) (Gen.iblk1 V c 4 t)
    (V c main_v11) (V c main_v21) (V c main_v27) (V c main_v35) (V c main_v41) b
    (fun s k => rowBlock1 V c t b h0 s k) (wholeBlock1_1 V c t) (wholeBlock1_2 V c t) (wholeBlock1_3 V c t) (wholeBlock1_4 V c t) s' h'

/-- What grid point `t` writes back is block `t` of the target. -/
theorem written1 (c : Dev nD) (t : Fin cfg1.N) :
    (Gen.dat1 (F := Ideal) V c).flushed 5 t = ((cfg1.win 5).blk t).view.read (Elt Ideal) (target1 V c) := by
  show (cfg1.win 5).cut (grid1.coords t) ((Gen.dat1 (F := Ideal) V c).after 5 t) = _
  rw [Gen.after1_5]
  obtain ⟨-, -, -, -, -, -, -, -, -, -, -, -, -, -, e0, e1, e2⟩ := blockIndex1 t
  funext j
  refine point1 V c t ((cfg1.win 5).xinj (grid1.coords t) j) (((cfg1.win 5).blk t).view.emb j) ?_ ?_ ?_
  · show win1_5.index t (0 : Fin 3) * 1 + 1 * (j 0).val = t.val
    have hj : (j 0).val < 1 := (j 0).isLt
    omega
  · show win1_5.index t (1 : Fin 3) * 512 + 1 * (j 1).val = (j 1).val
    omega
  · show win1_5.index t (2 : Fin 3) * 512 + 1 * (j 2).val = (j 2).val
    omega

/-- An index of the result array is in grid point `t`'s block iff each coordinate is in the block's range on its axis. -/
theorem mem_block1 (t : Fin cfg1.N) (i : S32x512x512.Idx) :
    i ∈ ((cfg1.win 5).blk t).view.set ↔ ∀ a : Fin 3, win1_5.index t a * S1x512x512.size a ≤ (i a).val
      ∧ (i a).val < win1_5.index t a * S1x512x512.size a + S1x512x512.size a := by
  show i ∈ ((View.whole main_v43).slice (win1_5.rect t)).set ↔ _
  rw [View.set_slice_whole, Rect.mem_set_unit]
  exact Iff.rfl

/-- Every index of the result array is in some grid point's block: row `b` is grid point `b`'s. -/
theorem rows_cover1 (i : S32x512x512.Idx) :
    ∃ t : Fin cfg1.N, (cfg1.win 5).flush t = true ∧ i ∈ ((cfg1.win 5).blk t).view.set := by
  have hi0 : (i 0).val < 32 := (i 0).isLt
  have hi1 : (i 1).val < 512 := (i 1).isLt
  have hi2 : (i 2).val < 512 := (i 2).isLt
  obtain ⟨t, ht⟩ : ∃ t : Fin cfg1.N, t.val = (i 0).val :=
    ⟨⟨(i 0).val, by rw [show cfg1.N = 32 from Gen.N_1]; exact hi0⟩, rfl⟩
  obtain ⟨-, -, -, -, -, -, -, -, -, -, -, -, -, -, e0, e1, e2⟩ := blockIndex1 t
  refine ⟨t, Gen.flush1_5 t, ?_⟩
  rw [mem_block1]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 512 ≤ (i 2).val ∧ (i 2).val < win1_5.index t (2 : Fin 3) * 512 + 512; omega

/-- The result array after region 1: one direction of one layer, row by row, of the arrays the region found. -/
theorem arr1 (c : Dev nD) (b : Fin 32) (s h : Fin 512) :
    (Gen.dat1 (F := Ideal) V c).arrAt 5 cfg1.N (ix3 b s h) =
      Cert.Spec.dirLayer (fun s w k => V c main_v11 (ix3 b (⟨s.val + w.val, by omega⟩ : Fin 515) k))
        (fun h w k => V c main_v21 (ix3 w k h)) (fun h => V c main_v27 (ix2 (0 : Fin 1) h))
        (fun g k => V c main_v35 (ix3 (0 : Fin 2) k g)) (fun g => V c main_v41 (ix3 (0 : Fin 2) (0 : Fin 1) g))
        (fun g k => V c main_v35 (ix3 (1 : Fin 2) k g)) (fun g => V c main_v41 (ix3 (1 : Fin 2) (0 : Fin 1) g)) s h :=
  congrFun ((Gen.dat1 (F := Ideal) V c).arrAt_eq_of_cover 5 (target1 V c) (fun t _ => written1 V c t) rows_cover1) (ix3 b s h)

/-! ## Region 2 -/

/-- What region 2 leaves in its result array: row `b` is one direction of one layer of row `b` of the padded input
    array, with the weights the other four arrays hold. -/
abbrev target2 (c : Dev nD) : S32x512x512.Idx → EReal := fun i =>
  Cert.Spec.dirLayer (fun s w k => V c main_v54 (ix3 (i 0) (⟨s.val + w.val, by omega⟩ : Fin 515) k))
        (fun h w k => V c main_v61 (ix3 w k h)) (fun h => V c main_v69 (ix2 (0 : Fin 1) h))
        (fun g k => V c main_v76 (ix3 (0 : Fin 2) k g)) (fun g => V c main_v83 (ix3 (0 : Fin 2) (0 : Fin 1) g))
        (fun g k => V c main_v76 (ix3 (1 : Fin 2) k g)) (fun g => V c main_v83 (ix3 (1 : Fin 2) (0 : Fin 1) g)) (i 1) (i 2)

/-- The block indices over the grid: the padded input and the result move with the grid point along the batch axis,
    the four weight arrays stay at block zero. -/
theorem blockIndex2 : ∀ t : Fin cfg2.N,
    win2_0.index t (0 : Fin 3) = t.val ∧ win2_0.index t (1 : Fin 3) = 0 ∧ win2_0.index t (2 : Fin 3) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 3) = 0 ∧ win2_3.index t (1 : Fin 3) = 0 ∧ win2_3.index t (2 : Fin 3) = 0
    ∧ win2_4.index t (0 : Fin 3) = 0 ∧ win2_4.index t (1 : Fin 3) = 0 ∧ win2_4.index t (2 : Fin 3) = 0
    ∧ win2_5.index t (0 : Fin 3) = t.val ∧ win2_5.index t (1 : Fin 3) = 0 ∧ win2_5.index t (2 : Fin 3) = 0 :=
  (by decide +kernel : ∀ t : Fin grid2.N, _)

/-- Window 0's block at grid point `t` is row `t` of the padded input array. -/
theorem rowBlock2 (c : Dev nD) (t : Fin cfg2.N) (b : Fin 32) (hb : b.val = t.val) (s : Fin 515) (k : Fin 512) :
    (Gen.iblk2 (F := Ideal) V c 0 t : Vec Ideal S1x515x512 .bf16) (ix3 (0 : Fin 1) s k)
      = (V c main_v54 : S32x515x512.Idx → EReal) (ix3 b s k) := by
  obtain ⟨e0, e1, e2, -⟩ := blockIndex2 t
  unfold Gen.iblk2
  rw [View.read_apply]
  show V c main_v54 _ = V c main_v54 _
  congr 1
  funext a; apply Fin.ext
  match a with
  | ⟨0, _⟩ => show win2_0.index t (0 : Fin 3) * 1 + 1 * 0 = b.val; omega
  | ⟨1, _⟩ => show win2_0.index t (1 : Fin 3) * 515 + 1 * s.val = s.val; omega
  | ⟨2, _⟩ => show win2_0.index t (2 : Fin 3) * 512 + 1 * k.val = k.val; omega

/-- Window 1's block is its whole array at every grid point: every block index is zero. -/
theorem wholeBlock2_1 (c : Dev nD) (t : Fin cfg2.N) :
    (Gen.iblk2 (F := Ideal) V c 1 t : Vec Ideal S4x512x512 .bf16) = (V c main_v61 : S4x512x512.Idx → EReal) := by
  obtain ⟨-, -, -, e0, e1, e2, -⟩ := blockIndex2 t
  funext y
  unfold Gen.iblk2
  rw [View.read_apply]
  show V c main_v61 _ = V c main_v61 _
  congr 1
  funext a; apply Fin.ext
  match a with
  | ⟨0, _⟩ => show win2_1.index t (0 : Fin 3) * 4 + 1 * (y 0).val = (y 0).val; omega
  | ⟨1, _⟩ => show win2_1.index t (1 : Fin 3) * 512 + 1 * (y 1).val = (y 1).val; omega
  | ⟨2, _⟩ => show win2_1.index t (2 : Fin 3) * 512 + 1 * (y 2).val = (y 2).val; omega

/-- Window 2's block is its whole array at every grid point: every block index is zero. -/
theorem wholeBlock2_2 (c : Dev nD) (t : Fin cfg2.N) :
    (Gen.iblk2 (F := Ideal) V c 2 t : Vec Ideal S1x512 .f32) = (V c main_v69 : S1x512.Idx → EReal) := by
  obtain ⟨-, -, -, -, -, -, e0, e1, -⟩ := blockIndex2 t
  funext y
  unfold Gen.iblk2
  rw [View.read_apply]
  show V c main_v69 _ = V c main_v69 _
  congr 1
  funext a; apply Fin.ext
  match a with
  | ⟨0, _⟩ => show win2_2.index t (0 : Fin 2) * 1 + 1 * (y 0).val = (y 0).val; omega
  | ⟨1, _⟩ => show win2_2.index t (1 : Fin 2) * 512 + 1 * (y 1).val = (y 1).val; omega

/-- Window 3's block is its whole array at every grid point: every block index is zero. -/
theorem wholeBlock2_3 (c : Dev nD) (t : Fin cfg2.N) :
    (Gen.iblk2 (F := Ideal) V c 3 t : Vec Ideal S2x512x1024 .bf16) = (V c main_v76 : S2x512x1024.Idx → EReal) := by
  obtain ⟨-, -, -, -, -, -, -, -, e0, e1, e2, -⟩ := blockIndex2 t
  funext y
  unfold Gen.iblk2
  rw [View.read_apply]
  show V c main_v76 _ = V c main_v76 _
  congr 1
  funext a; apply Fin.ext
  match a with
  | ⟨0, _⟩ => show win2_3.index t (0 : Fin 3) * 2 + 1 * (y 0).val = (y 0).val; omega
  | ⟨1, _⟩ => show win2_3.index t (1 : Fin 3) * 512 + 1 * (y 1).val = (y 1).val; omega
  | ⟨2, _⟩ => show win2_3.index t (2 : Fin 3) * 1024 + 1 * (y 2).val = (y 2).val; omega

/-- Window 4's block is its whole array at every grid point: every block index is zero. -/
theorem wholeBlock2_4 (c : Dev nD) (t : Fin cfg2.N) :
    (Gen.iblk2 (F := Ideal) V c 4 t : Vec Ideal S2x1x1024 .f32) = (V c main_v83 : S2x1x1024.Idx → EReal) := by
  obtain ⟨-, -, -, -, -, -, -, -, -, -, -, e0, e1, e2, -⟩ := blockIndex2 t
  funext y
  unfold Gen.iblk2
  rw [View.read_apply]
  show V c main_v83 _ = V c main_v83 _
  congr 1
  funext a; apply Fin.ext
  match a with
  | ⟨0, _⟩ => show win2_4.index t (0 : Fin 3) * 2 + 1 * (y 0).val = (y 0).val; omega
  | ⟨1, _⟩ => show win2_4.index t (1 : Fin 3) * 1 + 1 * (y 1).val = (y 1).val; omega
  | ⟨2, _⟩ => show win2_4.index t (2 : Fin 3) * 1024 + 1 * (y 2).val = (y 2).val; omega

/-- The body's result at grid point `t`, at the element `y` of its block, is the target at the array index `i` that element
    sits at: row `t`, the same position and channel. -/
theorem point2 (c : Dev nD) (t : Fin cfg2.N) (y : S1x512x512.Idx) (i : S32x512x512.Idx)
    (h0 : (i 0).val = t.val) (h1 : (i 1).val = (y 1).val) (h2 : (i 2).val = (y 2).val) :
    Gen.out2_5 (F := Ideal) (Gen.iblk2 V c 0 t) (Gen.iblk2 V c 1 t) (Gen.iblk2 V c 2 t) (Gen.iblk2 V c 3 t) (Gen.iblk2 V c 4 t) y
      = target2 V c i := by
  obtain ⟨a, s, h, rfl⟩ : ∃ (a : Fin 1) (s h : Fin 512), y = ix3 a s h := ⟨y 0, y 1, y 2, eq_ix3 y⟩
  obtain ⟨b, s', h', rfl⟩ : ∃ (b : Fin 32) (s' h' : Fin 512), i = ix3 b s' h' := ⟨i 0, i 1, i 2, eq_ix3 i⟩
  obtain rfl : a = 0 := Subsingleton.elim _ _
  obtain rfl : s' = s := Fin.ext h1
  obtain rfl : h' = h := Fin.ext h2
  refine (Body.out2_5_apply (Gen.iblk2 V c 0 t) (Gen.iblk2 V c 1 t) (Gen.iblk2 V c 2 t) (Gen.iblk2 V c 3 t) (Gen.iblk2 V c 4 t) s' h').trans ?_
  exact dirLayer_congr (Gen.iblk2 V c 0 t) (Gen.iblk2 V c 1 t) (Gen.iblk2 V c 2 t) (Gen.iblk2 V c 3 t) (Gen.iblk2 V c 4 t)
    (V c main_v54) (V c main_v61) (V c main_v69) (V c main_v76) (V c main_v83) b
    (fun s k => rowBlock2 V c t b h0 s k) (wholeBlock2_1 V c t) (wholeBlock2_2 V c t) (wholeBlock2_3 V c t) (wholeBlock2_4 V c t) s' h'

/-- What grid point `t` writes back is block `t` of the target. -/
theorem written2 (c : Dev nD) (t : Fin cfg2.N) :
    (Gen.dat2 (F := Ideal) V c).flushed 5 t = ((cfg2.win 5).blk t).view.read (Elt Ideal) (target2 V c) := by
  show (cfg2.win 5).cut (grid2.coords t) ((Gen.dat2 (F := Ideal) V c).after 5 t) = _
  rw [Gen.after2_5]
  obtain ⟨-, -, -, -, -, -, -, -, -, -, -, -, -, -, e0, e1, e2⟩ := blockIndex2 t
  funext j
  refine point2 V c t ((cfg2.win 5).xinj (grid2.coords t) j) (((cfg2.win 5).blk t).view.emb j) ?_ ?_ ?_
  · show win2_5.index t (0 : Fin 3) * 1 + 1 * (j 0).val = t.val
    have hj : (j 0).val < 1 := (j 0).isLt
    omega
  · show win2_5.index t (1 : Fin 3) * 512 + 1 * (j 1).val = (j 1).val
    omega
  · show win2_5.index t (2 : Fin 3) * 512 + 1 * (j 2).val = (j 2).val
    omega

/-- An index of the result array is in grid point `t`'s block iff each coordinate is in the block's range on its axis. -/
theorem mem_block2 (t : Fin cfg2.N) (i : S32x512x512.Idx) :
    i ∈ ((cfg2.win 5).blk t).view.set ↔ ∀ a : Fin 3, win2_5.index t a * S1x512x512.size a ≤ (i a).val
      ∧ (i a).val < win2_5.index t a * S1x512x512.size a + S1x512x512.size a := by
  show i ∈ ((View.whole main_v87).slice (win2_5.rect t)).set ↔ _
  rw [View.set_slice_whole, Rect.mem_set_unit]
  exact Iff.rfl

/-- Every index of the result array is in some grid point's block: row `b` is grid point `b`'s. -/
theorem rows_cover2 (i : S32x512x512.Idx) :
    ∃ t : Fin cfg2.N, (cfg2.win 5).flush t = true ∧ i ∈ ((cfg2.win 5).blk t).view.set := by
  have hi0 : (i 0).val < 32 := (i 0).isLt
  have hi1 : (i 1).val < 512 := (i 1).isLt
  have hi2 : (i 2).val < 512 := (i 2).isLt
  obtain ⟨t, ht⟩ : ∃ t : Fin cfg2.N, t.val = (i 0).val :=
    ⟨⟨(i 0).val, by rw [show cfg2.N = 32 from Gen.N_2]; exact hi0⟩, rfl⟩
  obtain ⟨-, -, -, -, -, -, -, -, -, -, -, -, -, -, e0, e1, e2⟩ := blockIndex2 t
  refine ⟨t, Gen.flush2_5 t, ?_⟩
  rw [mem_block2]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 512 ≤ (i 1).val ∧ (i 1).val < win2_5.index t (1 : Fin 3) * 512 + 512; omega
  | ⟨2, _⟩ => show win2_5.index t (2 : Fin 3) * 512 ≤ (i 2).val ∧ (i 2).val < win2_5.index t (2 : Fin 3) * 512 + 512; omega

/-- The result array after region 2: one direction of one layer, row by row, of the arrays the region found. -/
theorem arr2 (c : Dev nD) (b : Fin 32) (s h : Fin 512) :
    (Gen.dat2 (F := Ideal) V c).arrAt 5 cfg2.N (ix3 b s h) =
      Cert.Spec.dirLayer (fun s w k => V c main_v54 (ix3 b (⟨s.val + w.val, by omega⟩ : Fin 515) k))
        (fun h w k => V c main_v61 (ix3 w k h)) (fun h => V c main_v69 (ix2 (0 : Fin 1) h))
        (fun g k => V c main_v76 (ix3 (0 : Fin 2) k g)) (fun g => V c main_v83 (ix3 (0 : Fin 2) (0 : Fin 1) g))
        (fun g k => V c main_v76 (ix3 (1 : Fin 2) k g)) (fun g => V c main_v83 (ix3 (1 : Fin 2) (0 : Fin 1) g)) s h :=
  congrFun ((Gen.dat2 (F := Ideal) V c).arrAt_eq_of_cover 5 (target2 V c) (fun t _ => written2 V c t) rows_cover2) (ix3 b s h)

/-! ## Region 3 -/

/-- What region 3 leaves in its result array: row `b` is one direction of one layer of row `b` of the padded input
    array, with the weights the other four arrays hold. -/
abbrev target3 (c : Dev nD) : S32x512x512.Idx → EReal := fun i =>
  Cert.Spec.dirLayer (fun s w k => V c main_v56 (ix3 (i 0) (⟨s.val + w.val, by omega⟩ : Fin 515) k))
        (fun h w k => V c main_v66 (ix3 w k h)) (fun h => V c main_v72 (ix2 (0 : Fin 1) h))
        (fun g k => V c main_v80 (ix3 (0 : Fin 2) k g)) (fun g => V c main_v86 (ix3 (0 : Fin 2) (0 : Fin 1) g))
        (fun g k => V c main_v80 (ix3 (1 : Fin 2) k g)) (fun g => V c main_v86 (ix3 (1 : Fin 2) (0 : Fin 1) g)) (i 1) (i 2)

/-- The block indices over the grid: the padded input and the result move with the grid point along the batch axis,
    the four weight arrays stay at block zero. -/
theorem blockIndex3 : ∀ t : Fin cfg3.N,
    win3_0.index t (0 : Fin 3) = t.val ∧ win3_0.index t (1 : Fin 3) = 0 ∧ win3_0.index t (2 : Fin 3) = 0
    ∧ win3_1.index t (0 : Fin 3) = 0 ∧ win3_1.index t (1 : Fin 3) = 0 ∧ win3_1.index t (2 : Fin 3) = 0
    ∧ win3_2.index t (0 : Fin 2) = 0 ∧ win3_2.index t (1 : Fin 2) = 0
    ∧ win3_3.index t (0 : Fin 3) = 0 ∧ win3_3.index t (1 : Fin 3) = 0 ∧ win3_3.index t (2 : Fin 3) = 0
    ∧ win3_4.index t (0 : Fin 3) = 0 ∧ win3_4.index t (1 : Fin 3) = 0 ∧ win3_4.index t (2 : Fin 3) = 0
    ∧ win3_5.index t (0 : Fin 3) = t.val ∧ win3_5.index t (1 : Fin 3) = 0 ∧ win3_5.index t (2 : Fin 3) = 0 :=
  (by decide +kernel : ∀ t : Fin grid3.N, _)

/-- Window 0's block at grid point `t` is row `t` of the padded input array. -/
theorem rowBlock3 (c : Dev nD) (t : Fin cfg3.N) (b : Fin 32) (hb : b.val = t.val) (s : Fin 515) (k : Fin 512) :
    (Gen.iblk3 (F := Ideal) V c 0 t : Vec Ideal S1x515x512 .bf16) (ix3 (0 : Fin 1) s k)
      = (V c main_v56 : S32x515x512.Idx → EReal) (ix3 b s k) := by
  obtain ⟨e0, e1, e2, -⟩ := blockIndex3 t
  unfold Gen.iblk3
  rw [View.read_apply]
  show V c main_v56 _ = V c main_v56 _
  congr 1
  funext a; apply Fin.ext
  match a with
  | ⟨0, _⟩ => show win3_0.index t (0 : Fin 3) * 1 + 1 * 0 = b.val; omega
  | ⟨1, _⟩ => show win3_0.index t (1 : Fin 3) * 515 + 1 * s.val = s.val; omega
  | ⟨2, _⟩ => show win3_0.index t (2 : Fin 3) * 512 + 1 * k.val = k.val; omega

/-- Window 1's block is its whole array at every grid point: every block index is zero. -/
theorem wholeBlock3_1 (c : Dev nD) (t : Fin cfg3.N) :
    (Gen.iblk3 (F := Ideal) V c 1 t : Vec Ideal S4x512x512 .bf16) = (V c main_v66 : S4x512x512.Idx → EReal) := by
  obtain ⟨-, -, -, e0, e1, e2, -⟩ := blockIndex3 t
  funext y
  unfold Gen.iblk3
  rw [View.read_apply]
  show V c main_v66 _ = V c main_v66 _
  congr 1
  funext a; apply Fin.ext
  match a with
  | ⟨0, _⟩ => show win3_1.index t (0 : Fin 3) * 4 + 1 * (y 0).val = (y 0).val; omega
  | ⟨1, _⟩ => show win3_1.index t (1 : Fin 3) * 512 + 1 * (y 1).val = (y 1).val; omega
  | ⟨2, _⟩ => show win3_1.index t (2 : Fin 3) * 512 + 1 * (y 2).val = (y 2).val; omega

/-- Window 2's block is its whole array at every grid point: every block index is zero. -/
theorem wholeBlock3_2 (c : Dev nD) (t : Fin cfg3.N) :
    (Gen.iblk3 (F := Ideal) V c 2 t : Vec Ideal S1x512 .f32) = (V c main_v72 : S1x512.Idx → EReal) := by
  obtain ⟨-, -, -, -, -, -, e0, e1, -⟩ := blockIndex3 t
  funext y
  unfold Gen.iblk3
  rw [View.read_apply]
  show V c main_v72 _ = V c main_v72 _
  congr 1
  funext a; apply Fin.ext
  match a with
  | ⟨0, _⟩ => show win3_2.index t (0 : Fin 2) * 1 + 1 * (y 0).val = (y 0).val; omega
  | ⟨1, _⟩ => show win3_2.index t (1 : Fin 2) * 512 + 1 * (y 1).val = (y 1).val; omega

/-- Window 3's block is its whole array at every grid point: every block index is zero. -/
theorem wholeBlock3_3 (c : Dev nD) (t : Fin cfg3.N) :
    (Gen.iblk3 (F := Ideal) V c 3 t : Vec Ideal S2x512x1024 .bf16) = (V c main_v80 : S2x512x1024.Idx → EReal) := by
  obtain ⟨-, -, -, -, -, -, -, -, e0, e1, e2, -⟩ := blockIndex3 t
  funext y
  unfold Gen.iblk3
  rw [View.read_apply]
  show V c main_v80 _ = V c main_v80 _
  congr 1
  funext a; apply Fin.ext
  match a with
  | ⟨0, _⟩ => show win3_3.index t (0 : Fin 3) * 2 + 1 * (y 0).val = (y 0).val; omega
  | ⟨1, _⟩ => show win3_3.index t (1 : Fin 3) * 512 + 1 * (y 1).val = (y 1).val; omega
  | ⟨2, _⟩ => show win3_3.index t (2 : Fin 3) * 1024 + 1 * (y 2).val = (y 2).val; omega

/-- Window 4's block is its whole array at every grid point: every block index is zero. -/
theorem wholeBlock3_4 (c : Dev nD) (t : Fin cfg3.N) :
    (Gen.iblk3 (F := Ideal) V c 4 t : Vec Ideal S2x1x1024 .f32) = (V c main_v86 : S2x1x1024.Idx → EReal) := by
  obtain ⟨-, -, -, -, -, -, -, -, -, -, -, e0, e1, e2, -⟩ := blockIndex3 t
  funext y
  unfold Gen.iblk3
  rw [View.read_apply]
  show V c main_v86 _ = V c main_v86 _
  congr 1
  funext a; apply Fin.ext
  match a with
  | ⟨0, _⟩ => show win3_4.index t (0 : Fin 3) * 2 + 1 * (y 0).val = (y 0).val; omega
  | ⟨1, _⟩ => show win3_4.index t (1 : Fin 3) * 1 + 1 * (y 1).val = (y 1).val; omega
  | ⟨2, _⟩ => show win3_4.index t (2 : Fin 3) * 1024 + 1 * (y 2).val = (y 2).val; omega

/-- The body's result at grid point `t`, at the element `y` of its block, is the target at the array index `i` that element
    sits at: row `t`, the same position and channel. -/
theorem point3 (c : Dev nD) (t : Fin cfg3.N) (y : S1x512x512.Idx) (i : S32x512x512.Idx)
    (h0 : (i 0).val = t.val) (h1 : (i 1).val = (y 1).val) (h2 : (i 2).val = (y 2).val) :
    Gen.out3_5 (F := Ideal) (Gen.iblk3 V c 0 t) (Gen.iblk3 V c 1 t) (Gen.iblk3 V c 2 t) (Gen.iblk3 V c 3 t) (Gen.iblk3 V c 4 t) y
      = target3 V c i := by
  obtain ⟨a, s, h, rfl⟩ : ∃ (a : Fin 1) (s h : Fin 512), y = ix3 a s h := ⟨y 0, y 1, y 2, eq_ix3 y⟩
  obtain ⟨b, s', h', rfl⟩ : ∃ (b : Fin 32) (s' h' : Fin 512), i = ix3 b s' h' := ⟨i 0, i 1, i 2, eq_ix3 i⟩
  obtain rfl : a = 0 := Subsingleton.elim _ _
  obtain rfl : s' = s := Fin.ext h1
  obtain rfl : h' = h := Fin.ext h2
  refine (Body.out3_5_apply (Gen.iblk3 V c 0 t) (Gen.iblk3 V c 1 t) (Gen.iblk3 V c 2 t) (Gen.iblk3 V c 3 t) (Gen.iblk3 V c 4 t) s' h').trans ?_
  exact dirLayer_congr (Gen.iblk3 V c 0 t) (Gen.iblk3 V c 1 t) (Gen.iblk3 V c 2 t) (Gen.iblk3 V c 3 t) (Gen.iblk3 V c 4 t)
    (V c main_v56) (V c main_v66) (V c main_v72) (V c main_v80) (V c main_v86) b
    (fun s k => rowBlock3 V c t b h0 s k) (wholeBlock3_1 V c t) (wholeBlock3_2 V c t) (wholeBlock3_3 V c t) (wholeBlock3_4 V c t) s' h'

/-- What grid point `t` writes back is block `t` of the target. -/
theorem written3 (c : Dev nD) (t : Fin cfg3.N) :
    (Gen.dat3 (F := Ideal) V c).flushed 5 t = ((cfg3.win 5).blk t).view.read (Elt Ideal) (target3 V c) := by
  show (cfg3.win 5).cut (grid3.coords t) ((Gen.dat3 (F := Ideal) V c).after 5 t) = _
  rw [Gen.after3_5]
  obtain ⟨-, -, -, -, -, -, -, -, -, -, -, -, -, -, e0, e1, e2⟩ := blockIndex3 t
  funext j
  refine point3 V c t ((cfg3.win 5).xinj (grid3.coords t) j) (((cfg3.win 5).blk t).view.emb j) ?_ ?_ ?_
  · show win3_5.index t (0 : Fin 3) * 1 + 1 * (j 0).val = t.val
    have hj : (j 0).val < 1 := (j 0).isLt
    omega
  · show win3_5.index t (1 : Fin 3) * 512 + 1 * (j 1).val = (j 1).val
    omega
  · show win3_5.index t (2 : Fin 3) * 512 + 1 * (j 2).val = (j 2).val
    omega

/-- An index of the result array is in grid point `t`'s block iff each coordinate is in the block's range on its axis. -/
theorem mem_block3 (t : Fin cfg3.N) (i : S32x512x512.Idx) :
    i ∈ ((cfg3.win 5).blk t).view.set ↔ ∀ a : Fin 3, win3_5.index t a * S1x512x512.size a ≤ (i a).val
      ∧ (i a).val < win3_5.index t a * S1x512x512.size a + S1x512x512.size a := by
  show i ∈ ((View.whole main_v88).slice (win3_5.rect t)).set ↔ _
  rw [View.set_slice_whole, Rect.mem_set_unit]
  exact Iff.rfl

/-- Every index of the result array is in some grid point's block: row `b` is grid point `b`'s. -/
theorem rows_cover3 (i : S32x512x512.Idx) :
    ∃ t : Fin cfg3.N, (cfg3.win 5).flush t = true ∧ i ∈ ((cfg3.win 5).blk t).view.set := by
  have hi0 : (i 0).val < 32 := (i 0).isLt
  have hi1 : (i 1).val < 512 := (i 1).isLt
  have hi2 : (i 2).val < 512 := (i 2).isLt
  obtain ⟨t, ht⟩ : ∃ t : Fin cfg3.N, t.val = (i 0).val :=
    ⟨⟨(i 0).val, by rw [show cfg3.N = 32 from Gen.N_3]; exact hi0⟩, rfl⟩
  obtain ⟨-, -, -, -, -, -, -, -, -, -, -, -, -, -, e0, e1, e2⟩ := blockIndex3 t
  refine ⟨t, Gen.flush3_5 t, ?_⟩
  rw [mem_block3]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 512 ≤ (i 1).val ∧ (i 1).val < win3_5.index t (1 : Fin 3) * 512 + 512; omega
  | ⟨2, _⟩ => show win3_5.index t (2 : Fin 3) * 512 ≤ (i 2).val ∧ (i 2).val < win3_5.index t (2 : Fin 3) * 512 + 512; omega

/-- The result array after region 3: one direction of one layer, row by row, of the arrays the region found. -/
theorem arr3 (c : Dev nD) (b : Fin 32) (s h : Fin 512) :
    (Gen.dat3 (F := Ideal) V c).arrAt 5 cfg3.N (ix3 b s h) =
      Cert.Spec.dirLayer (fun s w k => V c main_v56 (ix3 b (⟨s.val + w.val, by omega⟩ : Fin 515) k))
        (fun h w k => V c main_v66 (ix3 w k h)) (fun h => V c main_v72 (ix2 (0 : Fin 1) h))
        (fun g k => V c main_v80 (ix3 (0 : Fin 2) k g)) (fun g => V c main_v86 (ix3 (0 : Fin 2) (0 : Fin 1) g))
        (fun g k => V c main_v80 (ix3 (1 : Fin 2) k g)) (fun g => V c main_v86 (ix3 (1 : Fin 2) (0 : Fin 1) g)) s h :=
  congrFun ((Gen.dat3 (F := Ideal) V c).arrAt_eq_of_cover 5 (target3 V c) (fun t _ => written3 V c t) rows_cover3) (ix3 b s h)

end Cert.KernelIdeal.Arr

end
-- ==== Proof.KGlue.lean ====
/-
  The kernel program's host operations, read at an index.

  Between its kernel regions the program prepares each layer's operands by layout operations only: a slice of
  the layer's row of a stacked argument, reshapes that drop, restore, split or merge axes, transposes, a
  broadcast over the batch rows, a join of two arrays along one axis, and a change of float format (the
  identity on extended reals).  Each prepared buffer therefore holds, at every index, ONE element of an
  argument or of a region's output.  The theorems below say which, for an arbitrary valuation the stretch
  starts from.
-/
import proofs.«101546_j62689342652477_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Idealize.ShloMosaic Idealize.ShloMosaic.ValueIdx Idealize.ShloMosaic.TcCoe Idealize.SL.Sem
open Cert.KernelIdeal Cert.KernelIdeal.Gen

/-- Reads the operations' results that remain inside the pieces of a join. -/
local macro "results_rw" : tactic =>
  `(tactic| (repeat (first
       | rw [StableHlo.unary_result] | rw [StableHlo.binary_result] | rw [StableHlo.reshape_result]
       | (rw [StableHlo.unary_result_ne]; rotate_left; decide)
       | (rw [StableHlo.binary_result_ne]; rotate_left; decide)
       | (rw [StableHlo.reshape_result_ne]; rotate_left; decide))))

/-! ## Layout chains read at an index

Each host stretch prepares a layer's operands by a short chain of layout operations.  A chain applied at an
index reads ONE element of its operand; the lemmas below name that element, once per chain shape, for any
operand and any evidence of the shape relations. -/

section Chains
variable {α : Type}

/-- Row `l` of a `[2, 3, 512]` array, its unit axis dropped and restored, then repeated over the 32 batch rows. -/
theorem padRows_apply (off : Fin 3 → Nat) (l : Fin 2) (h0 : off 0 = l.val) (h1 : off 1 = 0) (h2 : off 2 = 0)
    (x : S2x3x512.Idx → α) (hs : S2x3x512.Slices off S1x3x512) (hc : S1x3x512.ShapeCasts S3x512)
    (hb : S3x512.BroadcastsInDim S1x3x512 (![1, 2] : Fin 2 → Fin S1x3x512.rank))
    (hb' : S1x3x512.BroadcastsInDim S32x3x512 (![0, 1, 2] : Fin 3 → Fin S32x3x512.rank))
    (b : Fin 32) (r : Fin 3) (k : Fin 512) :
    broadcastInDim S32x3x512 ![0, 1, 2] hb' (broadcastInDim S1x3x512 ![1, 2] hb
      (shapeCast S3x512 (extractStridedSlice S1x3x512 off x hs) hc)) (ix3 b r k) = x (ix3 l r k) := by
  refine (broadcastInDim_apply _ hb' _ (ix3 b r k) (ix3 (0 : Fin 1) r k) (fun a => match a with
    | ⟨0, _⟩ => by show (0 : Nat) = if (1 : Nat) = 1 then 0 else b.val; rw [if_pos rfl]
    | ⟨1, _⟩ => by show r.val = if (3 : Nat) = 1 then 0 else r.val; rw [if_neg (by decide)]
    | ⟨2, _⟩ => by show k.val = if (512 : Nat) = 1 then 0 else k.val; rw [if_neg (by decide)])).trans ?_
  refine (broadcastInDim_apply _ hb _ (ix3 (0 : Fin 1) r k) (ix2 r k) (fun a => match a with
    | ⟨0, _⟩ => by show r.val = if (3 : Nat) = 1 then 0 else r.val; rw [if_neg (by decide)]
    | ⟨1, _⟩ => by show k.val = if (512 : Nat) = 1 then 0 else k.val; rw [if_neg (by decide)])).trans ?_
  refine (shapeCast_apply _ hc (ix2 r k) (ix3 (0 : Fin 1) r k) (by
    rewrite [Shape.rowMajor_val_three, Shape.rowMajor_val_two]
    show (0 * 3 + r.val) * 512 + k.val = r.val * 512 + k.val; omega)).trans ?_
  exact extractStridedSlice_apply off x hs (ix3 (0 : Fin 1) r k) (ix3 l r k) (fun a => match a with
    | ⟨0, _⟩ => by show l.val = off 0 + 0; omega
    | ⟨1, _⟩ => by show r.val = off 1 + r.val; omega
    | ⟨2, _⟩ => by show k.val = off 2 + k.val; omega)

/-- Three rows joined in front of 512 along the position axis: a position below 3 reads the front piece. -/
theorem catFront_apply (p : S32x3x512.Idx → α) (x : S32x512x512.Idx → α)
    (h : Shape.Concatenates [S32x3x512, S32x512x512] S32x515x512 1) (b : Fin 32) (r : Fin 515) (k : Fin 512) :
    concatenate S32x515x512 1 [⟨S32x3x512, p⟩, ⟨S32x512x512, x⟩] h (ix3 b r k)
      = if hr : r.val < 3 then p (ix3 b (⟨r.val, hr⟩ : Fin 3) k) else x (ix3 b (⟨r.val - 3, by omega⟩ : Fin 512) k) := by
  by_cases hr : r.val < 3
  · rw [dif_pos hr]
    exact concatenate_pair_apply_left (1 : Fin 3) p x h (ix3 b r k) rfl (ix3 b (⟨r.val, hr⟩ : Fin 3) k) (fun a => match a with
      | ⟨0, _⟩ => rfl
      | ⟨1, _⟩ => rfl
      | ⟨2, _⟩ => rfl)
  · rw [dif_neg hr]
    exact concatenate_pair_apply_right (1 : Fin 3) p x h (ix3 b r k) rfl rfl (ix3 b (⟨r.val - 3, by omega⟩ : Fin 512) k) (fun a => match a with
      | ⟨0, _⟩ => fun _ => rfl
      | ⟨1, _⟩ => fun hne => absurd rfl hne
      | ⟨2, _⟩ => fun _ => rfl) (by show r.val - 3 + 3 = r.val; omega)

/-- Three rows joined behind 512 along the position axis: a position below 512 reads the front piece. -/
theorem catBack_apply (x : S32x512x512.Idx → α) (p : S32x3x512.Idx → α)
    (h : Shape.Concatenates [S32x512x512, S32x3x512] S32x515x512 1) (b : Fin 32) (r : Fin 515) (k : Fin 512) :
    concatenate S32x515x512 1 [⟨S32x512x512, x⟩, ⟨S32x3x512, p⟩] h (ix3 b r k)
      = if hr : r.val < 512 then x (ix3 b (⟨r.val, hr⟩ : Fin 512) k) else p (ix3 b (⟨r.val - 512, by omega⟩ : Fin 3) k) := by
  by_cases hr : r.val < 512
  · rw [dif_pos hr]
    exact concatenate_pair_apply_left (1 : Fin 3) x p h (ix3 b r k) rfl (ix3 b (⟨r.val, hr⟩ : Fin 512) k) (fun a => match a with
      | ⟨0, _⟩ => rfl
      | ⟨1, _⟩ => rfl
      | ⟨2, _⟩ => rfl)
  · rw [dif_neg hr]
    exact concatenate_pair_apply_right (1 : Fin 3) x p h (ix3 b r k) rfl rfl (ix3 b (⟨r.val - 512, by omega⟩ : Fin 3) k) (fun a => match a with
      | ⟨0, _⟩ => fun _ => rfl
      | ⟨1, _⟩ => fun hne => absurd rfl hne
      | ⟨2, _⟩ => fun _ => rfl) (by show r.val - 512 + 512 = r.val; omega)

/-- Two `[32, 512, 512]` arrays joined along the channel axis. -/
theorem catChan_apply (x y : S32x512x512.Idx → α)
    (h : Shape.Concatenates [S32x512x512, S32x512x512] S32x512x1024 2) (b : Fin 32) (s : Fin 512) (g : Fin 1024) :
    concatenate S32x512x1024 2 [⟨S32x512x512, x⟩, ⟨S32x512x512, y⟩] h (ix3 b s g)
      = if hg : g.val < 512 then x (ix3 b s (⟨g.val, hg⟩ : Fin 512)) else y (ix3 b s (⟨g.val - 512, by omega⟩ : Fin 512)) := by
  by_cases hg : g.val < 512
  · rw [dif_pos hg]
    exact concatenate_pair_apply_left (2 : Fin 3) x y h (ix3 b s g) rfl (ix3 b s (⟨g.val, hg⟩ : Fin 512)) (fun a => match a with
      | ⟨0, _⟩ => rfl
      | ⟨1, _⟩ => rfl
      | ⟨2, _⟩ => rfl)
  · rw [dif_neg hg]
    exact concatenate_pair_apply_right (2 : Fin 3) x y h (ix3 b s g) rfl rfl (ix3 b s (⟨g.val - 512, by omega⟩ : Fin 512)) (fun a => match a with
      | ⟨0, _⟩ => fun _ => rfl
      | ⟨1, _⟩ => fun _ => rfl
      | ⟨2, _⟩ => fun hne => absurd rfl hne) (by show g.val - 512 + 512 = g.val; omega)

/-- Row `l` of a `[2, 512, 2048]` array as `[512, 4, 512]`, then offset, input channel, output channel:
    element `(w, k, h)` is column `w · 512 + k` of row `h`. -/
theorem winW_apply (off : Fin 3 → Nat) (l : Fin 2) (h0 : off 0 = l.val) (h1 : off 1 = 0) (h2 : off 2 = 0)
    (x : S2x512x2048.Idx → α) (hs : S2x512x2048.Slices off S1x512x2048) (hc : S1x512x2048.ShapeCasts S512x2048)
    (hc' : S512x2048.ShapeCasts S512x4x512) (ht : S512x4x512.Transposes [1, 2, 0] S4x512x512)
    (w : Fin 4) (k h : Fin 512) :
    transpose S4x512x512 [1, 2, 0] (shapeCast S512x4x512 (shapeCast S512x2048 (extractStridedSlice S1x512x2048 off x hs) hc) hc') ht
      (ix3 w k h) = x (ix3 l h (⟨w.val * 512 + k.val, by omega⟩ : Fin 2048)) := by
  refine (transpose_apply _ _ ht (ix3 w k h) (ix3 h w k) (fun a => match a with
    | ⟨0, _⟩ => rfl
    | ⟨1, _⟩ => rfl
    | ⟨2, _⟩ => rfl)).trans ?_
  refine (shapeCast_apply _ hc' (ix3 h w k) (ix2 h (⟨w.val * 512 + k.val, by omega⟩ : Fin 2048)) (by
    rewrite [Shape.rowMajor_val_three, Shape.rowMajor_val_two]
    show h.val * 2048 + (w.val * 512 + k.val) = (h.val * 4 + w.val) * 512 + k.val; omega)).trans ?_
  refine (shapeCast_apply _ hc (ix2 h (⟨w.val * 512 + k.val, by omega⟩ : Fin 2048)) (ix3 (0 : Fin 1) h (⟨w.val * 512 + k.val, by omega⟩ : Fin 2048)) (by
    rewrite [Shape.rowMajor_val_three, Shape.rowMajor_val_two]
    show (0 * 512 + h.val) * 2048 + (w.val * 512 + k.val) = h.val * 2048 + (w.val * 512 + k.val); omega)).trans ?_
  exact extractStridedSlice_apply off x hs _ (ix3 l h (⟨w.val * 512 + k.val, by omega⟩ : Fin 2048)) (fun a => match a with
    | ⟨0, _⟩ => by show l.val = off 0 + 0; omega
    | ⟨1, _⟩ => by show h.val = off 1 + h.val; omega
    | ⟨2, _⟩ => by show w.val * 512 + k.val = off 2 + (w.val * 512 + k.val); omega)

/-- Row `l` of a `[2, 512]` array as a `[1, 512]` row. -/
theorem biasRow_apply (off : Fin 2 → Nat) (l : Fin 2) (h0 : off 0 = l.val) (h1 : off 1 = 0)
    (x : S2x512.Idx → α) (hs : S2x512.Slices off S1x512) (hc : S1x512.ShapeCasts S512) (hc' : S512.ShapeCasts S1x512)
    (h : Fin 512) :
    shapeCast S1x512 (shapeCast S512 (extractStridedSlice S1x512 off x hs) hc) hc' (ix2 (0 : Fin 1) h) = x (ix2 l h) := by
  refine (shapeCast_apply _ hc' (ix2 (0 : Fin 1) h) (ix1 h) (by
    rewrite [Shape.rowMajor_val_two, Shape.rowMajor_val_one]
    show h.val = 0 * 512 + h.val; omega)).trans ?_
  refine (shapeCast_apply _ hc (ix1 h) (ix2 (0 : Fin 1) h) (by
    rewrite [Shape.rowMajor_val_two, Shape.rowMajor_val_one]
    show 0 * 512 + h.val = h.val; omega)).trans ?_
  exact extractStridedSlice_apply off x hs _ (ix2 l h) (fun a => match a with
    | ⟨0, _⟩ => by show l.val = off 0 + 0; omega
    | ⟨1, _⟩ => by show h.val = off 1 + h.val; omega)

/-- Row `l` of a `[2, 2, 1024, 512]` array with its last two axes exchanged. -/
theorem hwW_apply (off : Fin 4 → Nat) (l : Fin 2) (h0 : off 0 = l.val) (h1 : off 1 = 0) (h2 : off 2 = 0) (h3 : off 3 = 0)
    (x : S2x2x1024x512.Idx → α) (hs : S2x2x1024x512.Slices off S1x2x1024x512) (hc : S1x2x1024x512.ShapeCasts S2x1024x512)
    (ht : S2x1024x512.Transposes [0, 2, 1] S2x512x1024) (j : Fin 2) (k : Fin 512) (g : Fin 1024) :
    transpose S2x512x1024 [0, 2, 1] (shapeCast S2x1024x512 (extractStridedSlice S1x2x1024x512 off x hs) hc) ht (ix3 j k g)
      = x (ix4 l j g k) := by
  refine (transpose_apply _ _ ht (ix3 j k g) (ix3 j g k) (fun a => match a with
    | ⟨0, _⟩ => rfl
    | ⟨1, _⟩ => rfl
    | ⟨2, _⟩ => rfl)).trans ?_
  refine (shapeCast_apply _ hc (ix3 j g k) (ix4 (0 : Fin 1) j g k) (by
    rewrite [Shape.rowMajor_val_four, Shape.rowMajor_val_three]
    show ((0 * 2 + j.val) * 1024 + g.val) * 512 + k.val = (j.val * 1024 + g.val) * 512 + k.val; omega)).trans ?_
  exact extractStridedSlice_apply off x hs _ (ix4 l j g k) (fun a => match a with
    | ⟨0, _⟩ => by show l.val = off 0 + 0; omega
    | ⟨1, _⟩ => by show j.val = off 1 + j.val; omega
    | ⟨2, _⟩ => by show g.val = off 2 + g.val; omega
    | ⟨3, _⟩ => by show k.val = off 3 + k.val; omega)

/-- Row `l` of a `[2, 2, 1024]` array with a unit axis in the middle. -/
theorem hwB_apply (off : Fin 3 → Nat) (l : Fin 2) (h0 : off 0 = l.val) (h1 : off 1 = 0) (h2 : off 2 = 0)
    (x : S2x2x1024.Idx → α) (hs : S2x2x1024.Slices off S1x2x1024) (hc : S1x2x1024.ShapeCasts S2x1024)
    (hc' : S2x1024.ShapeCasts S2x1x1024) (j : Fin 2) (g : Fin 1024) :
    shapeCast S2x1x1024 (shapeCast S2x1024 (extractStridedSlice S1x2x1024 off x hs) hc) hc' (ix3 j (0 : Fin 1) g)
      = x (ix3 l j g) := by
  refine (shapeCast_apply _ hc' (ix3 j (0 : Fin 1) g) (ix2 j g) (by
    rewrite [Shape.rowMajor_val_three, Shape.rowMajor_val_two]
    show j.val * 1024 + g.val = (j.val * 1 + 0) * 1024 + g.val; omega)).trans ?_
  refine (shapeCast_apply _ hc (ix2 j g) (ix3 (0 : Fin 1) j g) (by
    rewrite [Shape.rowMajor_val_three, Shape.rowMajor_val_two]
    show (0 * 2 + j.val) * 1024 + g.val = j.val * 1024 + g.val; omega)).trans ?_
  exact extractStridedSlice_apply off x hs _ (ix3 l j g) (fun a => match a with
    | ⟨0, _⟩ => by show l.val = off 0 + 0; omega
    | ⟨1, _⟩ => by show j.val = off 1 + j.val; omega
    | ⟨2, _⟩ => by show g.val = off 2 + g.val; omega)

/-- Two `[32, 512, 1024]` arrays, each given a leading unit axis, stacked along it. -/
theorem stack2_apply (x y : S32x512x1024.Idx → α)
    (hb : S32x512x1024.BroadcastsInDim S1x32x512x1024 (![1, 2, 3] : Fin 3 → Fin S1x32x512x1024.rank))
    (h : Shape.Concatenates [S1x32x512x1024, S1x32x512x1024] S2x32x512x1024 0)
    (l : Fin 2) (b : Fin 32) (s : Fin 512) (g : Fin 1024) :
    concatenate S2x32x512x1024 0 [⟨S1x32x512x1024, broadcastInDim S1x32x512x1024 ![1, 2, 3] hb x⟩,
        ⟨S1x32x512x1024, broadcastInDim S1x32x512x1024 ![1, 2, 3] hb y⟩] h (ix4 l b s g)
      = if l.val = 0 then x (ix3 b s g) else y (ix3 b s g) := by
  have hbc : ∀ z : S32x512x1024.Idx → α, broadcastInDim S1x32x512x1024 ![1, 2, 3] hb z (ix4 (0 : Fin 1) b s g) = z (ix3 b s g) := fun z =>
    broadcastInDim_apply _ hb z (ix4 (0 : Fin 1) b s g) (ix3 b s g) (fun a => match a with
      | ⟨0, _⟩ => by show b.val = if (32 : Nat) = 1 then 0 else b.val; rw [if_neg (by decide)]
      | ⟨1, _⟩ => by show s.val = if (512 : Nat) = 1 then 0 else s.val; rw [if_neg (by decide)]
      | ⟨2, _⟩ => by show g.val = if (1024 : Nat) = 1 then 0 else g.val; rw [if_neg (by decide)])
  by_cases hl : l.val = 0
  · rw [if_pos hl]
    refine (concatenate_pair_apply_left (0 : Fin 4) (broadcastInDim S1x32x512x1024 ![1, 2, 3] hb x) (broadcastInDim S1x32x512x1024 ![1, 2, 3] hb y) h (ix4 l b s g) rfl (ix4 (0 : Fin 1) b s g) (fun a => match a with
      | ⟨0, _⟩ => by show (0 : Nat) = l.val; omega
      | ⟨1, _⟩ => rfl
      | ⟨2, _⟩ => rfl
      | ⟨3, _⟩ => rfl)).trans (hbc x)
  · rw [if_neg hl]
    refine (concatenate_pair_apply_right (0 : Fin 4) (broadcastInDim S1x32x512x1024 ![1, 2, 3] hb x) (broadcastInDim S1x32x512x1024 ![1, 2, 3] hb y) h (ix4 l b s g) rfl rfl (ix4 (0 : Fin 1) b s g) (fun a => match a with
      | ⟨0, _⟩ => fun hne => absurd rfl hne
      | ⟨1, _⟩ => fun _ => rfl
      | ⟨2, _⟩ => fun _ => rfl
      | ⟨3, _⟩ => fun _ => rfl) (by show 0 + 1 = l.val; have := l.isLt; omega)).trans (hbc y)

end Chains

/-! ## The stretch before layer 0 -/

section Stretch0
variable (W : Valuation τ sig (Elt Ideal))

set_option maxHeartbeats 4000000 in
set_option maxRecDepth 8192 in
/-- The forward operand: three pad rows of layer 0, then the row. -/
theorem v9_apply (b : Fin 32) (r : Fin 515) (k : Fin 512) :
    (StableHlo.after (hostOps0 (F := Ideal)) W (Proc.devRef .tc main_v9) : S32x515x512.Idx → EReal) (ix3 b r k)
      = if h : r.val < 3 then W (Proc.devRef .tc main_arg1) (ix3 (0 : Fin 2) (⟨r.val, h⟩ : Fin 3) k)
        else W (Proc.devRef .tc main_arg0) (ix3 b (⟨r.val - 3, by omega⟩ : Fin 512) k) := by
  after_results_simp
  results_rw
  refine Eq.trans (truncf_apply _ _ _) ?_
  refine (catFront_apply _ _ _ b r k).trans ?_
  refine dite_congr rfl (fun hr => ?_) (fun _ => rfl)
  exact padRows_apply ![0, 0, 0] 0 rfl rfl rfl _ _ _ _ _ b ⟨r.val, hr⟩ k

set_option maxHeartbeats 4000000 in
set_option maxRecDepth 8192 in
/-- The backward operand: the row, then three pad rows of layer 0. -/
theorem v11_apply (b : Fin 32) (r : Fin 515) (k : Fin 512) :
    (StableHlo.after (hostOps0 (F := Ideal)) W (Proc.devRef .tc main_v11) : S32x515x512.Idx → EReal) (ix3 b r k)
      = if h : r.val < 512 then W (Proc.devRef .tc main_arg0) (ix3 b (⟨r.val, h⟩ : Fin 512) k)
        else W (Proc.devRef .tc main_arg2) (ix3 (0 : Fin 2) (⟨r.val - 512, by omega⟩ : Fin 3) k) := by
  after_results_simp
  results_rw
  refine Eq.trans (truncf_apply _ _ _) ?_
  refine (catBack_apply _ _ _ b r k).trans ?_
  refine dite_congr rfl (fun _ => rfl) (fun hr => ?_)
  exact padRows_apply ![0, 0, 0] 0 rfl rfl rfl _ _ _ _ _ b ⟨r.val - 512, by omega⟩ k

set_option maxHeartbeats 4000000 in
set_option maxRecDepth 8192 in
/-- The forward window weights of layer 0: offset, input channel, output channel. -/
theorem v16_apply (w : Fin 4) (k h : Fin 512) :
    (StableHlo.after (hostOps0 (F := Ideal)) W (Proc.devRef .tc main_v16) : S4x512x512.Idx → EReal) (ix3 w k h)
      = W (Proc.devRef .tc main_arg3) (ix3 (0 : Fin 2) h (⟨w.val * 512 + k.val, by omega⟩ : Fin 2048)) := by
  after_results_simp
  refine Eq.trans (truncf_apply _ _ _) ?_
  exact winW_apply ![0, 0, 0] 0 rfl rfl rfl _ _ _ _ _ w k h

set_option maxHeartbeats 4000000 in
set_option maxRecDepth 8192 in
/-- The backward window weights of layer 0: offset, input channel, output channel. -/
theorem v21_apply (w : Fin 4) (k h : Fin 512) :
    (StableHlo.after (hostOps0 (F := Ideal)) W (Proc.devRef .tc main_v21) : S4x512x512.Idx → EReal) (ix3 w k h)
      = W (Proc.devRef .tc main_arg5) (ix3 (0 : Fin 2) h (⟨w.val * 512 + k.val, by omega⟩ : Fin 2048)) := by
  after_results_simp
  refine Eq.trans (truncf_apply _ _ _) ?_
  exact winW_apply ![0, 0, 0] 0 rfl rfl rfl _ _ _ _ _ w k h

set_option maxHeartbeats 4000000 in
set_option maxRecDepth 8192 in
/-- The forward bias of layer 0. -/
theorem v24_apply (h : Fin 512) :
    (StableHlo.after (hostOps0 (F := Ideal)) W (Proc.devRef .tc main_v24) : S1x512.Idx → EReal) (ix2 (0 : Fin 1) h) = W (Proc.devRef .tc main_arg4) (ix2 (0 : Fin 2) h) := by
  after_results_simp
  exact biasRow_apply ![0, 0] 0 rfl rfl _ _ _ _ h

set_option maxHeartbeats 4000000 in
set_option maxRecDepth 8192 in
/-- The backward bias of layer 0. -/
theorem v27_apply (h : Fin 512) :
    (StableHlo.after (hostOps0 (F := Ideal)) W (Proc.devRef .tc main_v27) : S1x512.Idx → EReal) (ix2 (0 : Fin 1) h) = W (Proc.devRef .tc main_arg6) (ix2 (0 : Fin 2) h) := by
  after_results_simp
  exact biasRow_apply ![0, 0] 0 rfl rfl _ _ _ _ h

set_option maxHeartbeats 4000000 in
set_option maxRecDepth 8192 in
/-- The forward highway weights of layer 0: step, input channel, output. -/
theorem v31_apply (j : Fin 2) (k : Fin 512) (g : Fin 1024) :
    (StableHlo.after (hostOps0 (F := Ideal)) W (Proc.devRef .tc main_v31) : S2x512x1024.Idx → EReal) (ix3 j k g) = W (Proc.devRef .tc main_arg7) (ix4 (0 : Fin 2) j g k) := by
  after_results_simp
  refine Eq.trans (truncf_apply _ _ _) ?_
  exact hwW_apply ![0, 0, 0, 0] 0 rfl rfl rfl rfl _ _ _ _ j k g

set_option maxHeartbeats 4000000 in
set_option maxRecDepth 8192 in
/-- The backward highway weights of layer 0: step, input channel, output. -/
theorem v35_apply (j : Fin 2) (k : Fin 512) (g : Fin 1024) :
    (StableHlo.after (hostOps0 (F := Ideal)) W (Proc.devRef .tc main_v35) : S2x512x1024.Idx → EReal) (ix3 j k g) = W (Proc.devRef .tc main_arg9) (ix4 (0 : Fin 2) j g k) := by
  after_results_simp
  refine Eq.trans (truncf_apply _ _ _) ?_
  exact hwW_apply ![0, 0, 0, 0] 0 rfl rfl rfl rfl _ _ _ _ j k g

set_option maxHeartbeats 4000000 in
set_option maxRecDepth 8192 in
/-- The forward highway bias of layer 0. -/
theorem v38_apply (j : Fin 2) (g : Fin 1024) :
    (StableHlo.after (hostOps0 (F := Ideal)) W (Proc.devRef .tc main_v38) : S2x1x1024.Idx → EReal) (ix3 j (0 : Fin 1) g) = W (Proc.devRef .tc main_arg8) (ix3 (0 : Fin 2) j g) := by
  after_results_simp
  exact hwB_apply ![0, 0, 0] 0 rfl rfl rfl _ _ _ _ j g

set_option maxHeartbeats 4000000 in
set_option maxRecDepth 8192 in
/-- The backward highway bias of layer 0. -/
theorem v41_apply (j : Fin 2) (g : Fin 1024) :
    (StableHlo.after (hostOps0 (F := Ideal)) W (Proc.devRef .tc main_v41) : S2x1x1024.Idx → EReal) (ix3 j (0 : Fin 1) g) = W (Proc.devRef .tc main_arg10) (ix3 (0 : Fin 2) j g) := by
  after_results_simp
  exact hwB_apply ![0, 0, 0] 0 rfl rfl rfl _ _ _ _ j g

end Stretch0

/-! ## The stretch before layer 1 -/

section Stretch2
variable (W : Valuation τ sig (Elt Ideal))

set_option maxHeartbeats 4000000 in
set_option maxRecDepth 8192 in
/-- Layer 0's result: the forward and the backward rows joined along the channel axis. -/
theorem v44_apply (b : Fin 32) (s : Fin 512) (g : Fin 1024) :
    (StableHlo.after (hostOps2 (F := Ideal)) W (Proc.devRef .tc main_v44) : S32x512x1024.Idx → EReal) (ix3 b s g)
      = if h : g.val < 512 then W (Proc.devRef .tc main_v42) (ix3 b s (⟨g.val, h⟩ : Fin 512))
        else W (Proc.devRef .tc main_v43) (ix3 b s (⟨g.val - 512, by omega⟩ : Fin 512)) := by
  after_results_simp
  exact catChan_apply _ _ _ b s g

set_option maxHeartbeats 4000000 in
set_option maxRecDepth 8192 in
/-- The forward operand: three pad rows of layer 1, then the row. -/
theorem v54_apply (b : Fin 32) (r : Fin 515) (k : Fin 512) :
    (StableHlo.after (hostOps2 (F := Ideal)) W (Proc.devRef .tc main_v54) : S32x515x512.Idx → EReal) (ix3 b r k)
      = if h : r.val < 3 then W (Proc.devRef .tc main_arg1) (ix3 (1 : Fin 2) (⟨r.val, h⟩ : Fin 3) k)
        else W (Proc.devRef .tc main_v42) (ix3 b (⟨r.val - 3, by omega⟩ : Fin 512) k) := by
  after_results_simp
  results_rw
  refine Eq.trans (truncf_apply _ _ _) ?_
  refine (catFront_apply _ _ _ b r k).trans ?_
  refine dite_congr rfl (fun hr => ?_) (fun _ => rfl)
  exact padRows_apply ![1, 0, 0] 1 rfl rfl rfl _ _ _ _ _ b ⟨r.val, hr⟩ k

set_option maxHeartbeats 4000000 in
set_option maxRecDepth 8192 in
/-- The backward operand: the row, then three pad rows of layer 1. -/
theorem v56_apply (b : Fin 32) (r : Fin 515) (k : Fin 512) :
    (StableHlo.after (hostOps2 (F := Ideal)) W (Proc.devRef .tc main_v56) : S32x515x512.Idx → EReal) (ix3 b r k)
      = if h : r.val < 512 then W (Proc.devRef .tc main_v43) (ix3 b (⟨r.val, h⟩ : Fin 512) k)
        else W (Proc.devRef .tc main_arg2) (ix3 (1 : Fin 2) (⟨r.val - 512, by omega⟩ : Fin 3) k) := by
  after_results_simp
  results_rw
  refine Eq.trans (truncf_apply _ _ _) ?_
  refine (catBack_apply _ _ _ b r k).trans ?_
  refine dite_congr rfl (fun _ => rfl) (fun hr => ?_)
  exact padRows_apply ![1, 0, 0] 1 rfl rfl rfl _ _ _ _ _ b ⟨r.val - 512, by omega⟩ k

set_option maxHeartbeats 4000000 in
set_option maxRecDepth 8192 in
/-- The forward window weights of layer 1: offset, input channel, output channel. -/
theorem v61_apply (w : Fin 4) (k h : Fin 512) :
    (StableHlo.after (hostOps2 (F := Ideal)) W (Proc.devRef .tc main_v61) : S4x512x512.Idx → EReal) (ix3 w k h)
      = W (Proc.devRef .tc main_arg3) (ix3 (1 : Fin 2) h (⟨w.val * 512 + k.val, by omega⟩ : Fin 2048)) := by
  after_results_simp
  refine Eq.trans (truncf_apply _ _ _) ?_
  exact winW_apply ![1, 0, 0] 1 rfl rfl rfl _ _ _ _ _ w k h

set_option maxHeartbeats 4000000 in
set_option maxRecDepth 8192 in
/-- The backward window weights of layer 1: offset, input channel, output channel. -/
theorem v66_apply (w : Fin 4) (k h : Fin 512) :
    (StableHlo.after (hostOps2 (F := Ideal)) W (Proc.devRef .tc main_v66) : S4x512x512.Idx → EReal) (ix3 w k h)
      = W (Proc.devRef .tc main_arg5) (ix3 (1 : Fin 2) h (⟨w.val * 512 + k.val, by omega⟩ : Fin 2048)) := by
  after_results_simp
  refine Eq.trans (truncf_apply _ _ _) ?_
  exact winW_apply ![1, 0, 0] 1 rfl rfl rfl _ _ _ _ _ w k h

set_option maxHeartbeats 4000000 in
set_option maxRecDepth 8192 in
/-- The forward bias of layer 1. -/
theorem v69_apply (h : Fin 512) :
    (StableHlo.after (hostOps2 (F := Ideal)) W (Proc.devRef .tc main_v69) : S1x512.Idx → EReal) (ix2 (0 : Fin 1) h) = W (Proc.devRef .tc main_arg4) (ix2 (1 : Fin 2) h) := by
  after_results_simp
  exact biasRow_apply ![1, 0] 1 rfl rfl _ _ _ _ h

set_option maxHeartbeats 4000000 in
set_option maxRecDepth 8192 in
/-- The backward bias of layer 1. -/
theorem v72_apply (h : Fin 512) :
    (StableHlo.after (hostOps2 (F := Ideal)) W (Proc.devRef .tc main_v72) : S1x512.Idx → EReal) (ix2 (0 : Fin 1) h) = W (Proc.devRef .tc main_arg6) (ix2 (1 : Fin 2) h) := by
  after_results_simp
  exact biasRow_apply ![1, 0] 1 rfl rfl _ _ _ _ h

set_option maxHeartbeats 4000000 in
set_option maxRecDepth 8192 in
/-- The forward highway weights of layer 1: step, input channel, output. -/
theorem v76_apply (j : Fin 2) (k : Fin 512) (g : Fin 1024) :
    (StableHlo.after (hostOps2 (F := Ideal)) W (Proc.devRef .tc main_v76) : S2x512x1024.Idx → EReal) (ix3 j k g) = W (Proc.devRef .tc main_arg7) (ix4 (1 : Fin 2) j g k) := by
  after_results_simp
  refine Eq.trans (truncf_apply _ _ _) ?_
  exact hwW_apply ![1, 0, 0, 0] 1 rfl rfl rfl rfl _ _ _ _ j k g

set_option maxHeartbeats 4000000 in
set_option maxRecDepth 8192 in
/-- The backward highway weights of layer 1: step, input channel, output. -/
theorem v80_apply (j : Fin 2) (k : Fin 512) (g : Fin 1024) :
    (StableHlo.after (hostOps2 (F := Ideal)) W (Proc.devRef .tc main_v80) : S2x512x1024.Idx → EReal) (ix3 j k g) = W (Proc.devRef .tc main_arg9) (ix4 (1 : Fin 2) j g k) := by
  after_results_simp
  refine Eq.trans (truncf_apply _ _ _) ?_
  exact hwW_apply ![1, 0, 0, 0] 1 rfl rfl rfl rfl _ _ _ _ j k g

set_option maxHeartbeats 4000000 in
set_option maxRecDepth 8192 in
/-- The forward highway bias of layer 1. -/
theorem v83_apply (j : Fin 2) (g : Fin 1024) :
    (StableHlo.after (hostOps2 (F := Ideal)) W (Proc.devRef .tc main_v83) : S2x1x1024.Idx → EReal) (ix3 j (0 : Fin 1) g) = W (Proc.devRef .tc main_arg8) (ix3 (1 : Fin 2) j g) := by
  after_results_simp
  exact hwB_apply ![1, 0, 0] 1 rfl rfl rfl _ _ _ _ j g

set_option maxHeartbeats 4000000 in
set_option maxRecDepth 8192 in
/-- The backward highway bias of layer 1. -/
theorem v86_apply (j : Fin 2) (g : Fin 1024) :
    (StableHlo.after (hostOps2 (F := Ideal)) W (Proc.devRef .tc main_v86) : S2x1x1024.Idx → EReal) (ix3 j (0 : Fin 1) g) = W (Proc.devRef .tc main_arg10) (ix3 (1 : Fin 2) j g) := by
  after_results_simp
  exact hwB_apply ![1, 0, 0] 1 rfl rfl rfl _ _ _ _ j g

end Stretch2

/-! ## The stretch after layer 1 -/

section Stretch4
variable (W : Valuation τ sig (Elt Ideal))

set_option maxHeartbeats 4000000 in
set_option maxRecDepth 8192 in
/-- The result: layer 0's joined rows, then layer 1's forward and backward rows joined along the channel axis. -/
theorem v92_apply (l : Fin 2) (b : Fin 32) (s : Fin 512) (g : Fin 1024) :
    (StableHlo.after (hostOps4 (F := Ideal)) W (Proc.devRef .tc main_v92) : S2x32x512x1024.Idx → EReal) (ix4 l b s g)
      = if l.val = 0 then W (Proc.devRef .tc main_v44) (ix3 b s g)
        else (if h : g.val < 512 then W (Proc.devRef .tc main_v87) (ix3 b s (⟨g.val, h⟩ : Fin 512))
          else W (Proc.devRef .tc main_v88) (ix3 b s (⟨g.val - 512, by omega⟩ : Fin 512))) := by
  after_results_simp
  results_rw
  refine (stack2_apply _ _ _ _ l b s g).trans ?_
  refine ite_congr rfl (fun _ => rfl) (fun _ => ?_)
  exact catChan_apply _ _ _ b s g

end Stretch4

end Cert.KernelIdeal.Glue
end
-- ==== Proof.KValue0.lean ====
/-
  Layer 0 of the kernel program.

  After the first two kernel regions the two result arrays hold, row by row, the forward and the backward direction of
  layer 0 of the specification on the program's arguments; the arguments themselves are still as launched.
-/
import proofs.«101546_j62689342652477_1_alg».proof.Proof.Gen.KernelIdeal.Frame
import proofs.«101546_j62689342652477_1_alg».proof.Proof.KArr
import proofs.«101546_j62689342652477_1_alg».proof.Proof.KGlue
import proofs.«101546_j62689342652477_1_alg».proof.Proof.Spec
import Idealize.ShloMosaic.Lib.ValueIdx

set_option maxRecDepth 16384

noncomputable section

namespace Cert.KernelIdeal.Whole0

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-! ## The forward direction -/

/-- The first region's result array is the forward direction of layer 0. -/
theorem v42_eq (c : Dev nD) (b : Fin 32) (s h : Fin 512) :
    (W3 m ρ c (Proc.devRef .tc main_v42) : S32x512x512.Idx → EReal) (ix3 b s h) =
      Cert.Spec.f0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) b s h := by
  have e1 : W3 m ρ c (Proc.devRef .tc main_v42) = W2 m ρ c (Proc.devRef .tc main_v42) := W3_of_ne m ρ c main_v42 (by decide)
  have e2 : W2 m ρ c (Proc.devRef .tc main_v42) = (dat0 (V1 m ρ) c).arrAt 5 cfg0.N := W2_arr m ρ c 5
  refine (congrFun (e1.trans e2) (ix3 b s h)).trans ((Arr.arr0 (V1 m ρ) c b s h).trans ?_)
  have a0 : (fun (s : Fin 512) (w : Fin 4) (k : Fin 512) => V1 m ρ c main_v9 (ix3 b (⟨s.val + w.val, by omega⟩ : Fin 515) k))
      = Cert.Spec.winF (Cert.Spec.padOf (m ((c.tc : Thread nD τ).loc main_arg1)) 0) (Cert.Spec.row0 (m ((c.tc : Thread nD τ).loc main_arg0)) b) :=
    funext fun s => funext fun w => funext fun k => (Glue.v9_apply (W0 m ρ c) b ⟨s.val + w.val, by omega⟩ k).trans rfl
  have a1 : (fun (h : Fin 512) (w : Fin 4) (k : Fin 512) => V1 m ρ c main_v16 (ix3 w k h)) = Cert.Spec.wOf (m ((c.tc : Thread nD τ).loc main_arg3)) 0 :=
    funext fun h => funext fun w => funext fun k => (Glue.v16_apply (W0 m ρ c) w k h).trans rfl
  have a2 : (fun (h : Fin 512) => V1 m ρ c main_v24 (ix2 (0 : Fin 1) h)) = Cert.Spec.bOf (m ((c.tc : Thread nD τ).loc main_arg4)) 0 :=
    funext fun h => (Glue.v24_apply (W0 m ρ c) h).trans rfl
  have a3 : (fun (g : Fin 1024) (k : Fin 512) => V1 m ρ c main_v31 (ix3 (0 : Fin 2) k g)) = Cert.Spec.hwOf (m ((c.tc : Thread nD τ).loc main_arg7)) 0 0 :=
    funext fun g => funext fun k => (Glue.v31_apply (W0 m ρ c) 0 k g).trans rfl
  have a4 : (fun (g : Fin 1024) => V1 m ρ c main_v38 (ix3 (0 : Fin 2) (0 : Fin 1) g)) = Cert.Spec.hbOf (m ((c.tc : Thread nD τ).loc main_arg8)) 0 0 :=
    funext fun g => (Glue.v38_apply (W0 m ρ c) 0 g).trans rfl
  have a5 : (fun (g : Fin 1024) (k : Fin 512) => V1 m ρ c main_v31 (ix3 (1 : Fin 2) k g)) = Cert.Spec.hwOf (m ((c.tc : Thread nD τ).loc main_arg7)) 0 1 :=
    funext fun g => funext fun k => (Glue.v31_apply (W0 m ρ c) 1 k g).trans rfl
  have a6 : (fun (g : Fin 1024) => V1 m ρ c main_v38 (ix3 (1 : Fin 2) (0 : Fin 1) g)) = Cert.Spec.hbOf (m ((c.tc : Thread nD τ).loc main_arg8)) 0 1 :=
    funext fun g => (Glue.v38_apply (W0 m ρ c) 1 g).trans rfl
  rw [a0, a1, a2, a3, a4, a5, a6]
  rfl

/-! ## The backward direction -/

/-- The second region's result array is the backward direction of layer 0: the region reads arrays the first region
    did not write, so they are still what the host operations before it left. -/
theorem v43_eq (c : Dev nD) (b : Fin 32) (s h : Fin 512) :
    (W3 m ρ c (Proc.devRef .tc main_v43) : S32x512x512.Idx → EReal) (ix3 b s h) =
      Cert.Spec.b0 (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) b s h := by
  have e1 : W3 m ρ c (Proc.devRef .tc main_v43) = (dat1 (V2 m ρ) c).arrAt 5 cfg1.N := W3_arr m ρ c 5
  refine (congrFun e1 (ix3 b s h)).trans ((Arr.arr1 (V2 m ρ) c b s h).trans ?_)
  have hv11 : V2 m ρ c main_v11 = V1 m ρ c main_v11 := W2_of_ne m ρ c main_v11 (by decide)
  have hv21 : V2 m ρ c main_v21 = V1 m ρ c main_v21 := W2_of_ne m ρ c main_v21 (by decide)
  have hv27 : V2 m ρ c main_v27 = V1 m ρ c main_v27 := W2_of_ne m ρ c main_v27 (by decide)
  have hv35 : V2 m ρ c main_v35 = V1 m ρ c main_v35 := W2_of_ne m ρ c main_v35 (by decide)
  have hv41 : V2 m ρ c main_v41 = V1 m ρ c main_v41 := W2_of_ne m ρ c main_v41 (by decide)
  rw [hv11, hv21, hv27, hv35, hv41]
  have a0 : (fun (s : Fin 512) (w : Fin 4) (k : Fin 512) => V1 m ρ c main_v11 (ix3 b (⟨s.val + w.val, by omega⟩ : Fin 515) k))
      = Cert.Spec.winB (Cert.Spec.padOf (m ((c.tc : Thread nD τ).loc main_arg2)) 0) (Cert.Spec.row0 (m ((c.tc : Thread nD τ).loc main_arg0)) b) :=
    funext fun s => funext fun w => funext fun k => (Glue.v11_apply (W0 m ρ c) b ⟨s.val + w.val, by omega⟩ k).trans rfl
  have a1 : (fun (h : Fin 512) (w : Fin 4) (k : Fin 512) => V1 m ρ c main_v21 (ix3 w k h)) = Cert.Spec.wOf (m ((c.tc : Thread nD τ).loc main_arg5)) 0 :=
    funext fun h => funext fun w => funext fun k => (Glue.v21_apply (W0 m ρ c) w k h).trans rfl
  have a2 : (fun (h : Fin 512) => V1 m ρ c main_v27 (ix2 (0 : Fin 1) h)) = Cert.Spec.bOf (m ((c.tc : Thread nD τ).loc main_arg6)) 0 :=
    funext fun h => (Glue.v27_apply (W0 m ρ c) h).trans rfl
  have a3 : (fun (g : Fin 1024) (k : Fin 512) => V1 m ρ c main_v35 (ix3 (0 : Fin 2) k g)) = Cert.Spec.hwOf (m ((c.tc : Thread nD τ).loc main_arg9)) 0 0 :=
    funext fun g => funext fun k => (Glue.v35_apply (W0 m ρ c) 0 k g).trans rfl
  have a4 : (fun (g : Fin 1024) => V1 m ρ c main_v41 (ix3 (0 : Fin 2) (0 : Fin 1) g)) = Cert.Spec.hbOf (m ((c.tc : Thread nD τ).loc main_arg10)) 0 0 :=
    funext fun g => (Glue.v41_apply (W0 m ρ c) 0 g).trans rfl
  have a5 : (fun (g : Fin 1024) (k : Fin 512) => V1 m ρ c main_v35 (ix3 (1 : Fin 2) k g)) = Cert.Spec.hwOf (m ((c.tc : Thread nD τ).loc main_arg9)) 0 1 :=
    funext fun g => funext fun k => (Glue.v35_apply (W0 m ρ c) 1 k g).trans rfl
  have a6 : (fun (g : Fin 1024) => V1 m ρ c main_v41 (ix3 (1 : Fin 2) (0 : Fin 1) g)) = Cert.Spec.hbOf (m ((c.tc : Thread nD τ).loc main_arg10)) 0 1 :=
    funext fun g => (Glue.v41_apply (W0 m ρ c) 1 g).trans rfl
  rw [a0, a1, a2, a3, a4, a5, a6]
  rfl

/-! ## The arguments are as launched -/

theorem W3_arg0 (c : Dev nD) : W3 m ρ c (Proc.devRef .tc main_arg0) = m ((c.tc : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := rfl
theorem W3_arg1 (c : Dev nD) : W3 m ρ c (Proc.devRef .tc main_arg1) = m ((c.tc : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg1) := rfl
theorem W3_arg2 (c : Dev nD) : W3 m ρ c (Proc.devRef .tc main_arg2) = m ((c.tc : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl
theorem W3_arg3 (c : Dev nD) : W3 m ρ c (Proc.devRef .tc main_arg3) = m ((c.tc : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := rfl
theorem W3_arg4 (c : Dev nD) : W3 m ρ c (Proc.devRef .tc main_arg4) = m ((c.tc : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg4) := rfl
theorem W3_arg5 (c : Dev nD) : W3 m ρ c (Proc.devRef .tc main_arg5) = m ((c.tc : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg5) := rfl
theorem W3_arg6 (c : Dev nD) : W3 m ρ c (Proc.devRef .tc main_arg6) = m ((c.tc : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg6) := rfl
theorem W3_arg7 (c : Dev nD) : W3 m ρ c (Proc.devRef .tc main_arg7) = m ((c.tc : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg7) := rfl
theorem W3_arg8 (c : Dev nD) : W3 m ρ c (Proc.devRef .tc main_arg8) = m ((c.tc : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg8) := rfl
theorem W3_arg9 (c : Dev nD) : W3 m ρ c (Proc.devRef .tc main_arg9) = m ((c.tc : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg9) := rfl
theorem W3_arg10 (c : Dev nD) : W3 m ρ c (Proc.devRef .tc main_arg10) = m ((c.tc : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg10) := rfl

end Cert.KernelIdeal.Whole0

end
-- ==== Proof.KValue1.lean ====
/-
  Layer 1 and the result of the kernel program.

  The third and the fourth kernel region each leave one direction of one layer, row by row, of the arrays they find.
  The stretch of host operations before them builds those arrays from layer 0's rows and the arguments: the padded
  forward rows (three pad rows of layer 1 in front), the padded backward rows (three behind), and layer 1's weights and
  biases.  So the two regions leave the forward and the backward direction of layer 1 of the specification on layer 0's
  rows.  The last stretch stacks layer 0's joined rows and layer 1's joined rows, which is the specification's result.
-/
import proofs.«101546_j62689342652477_1_alg».proof.Proof.Gen.KernelIdeal.Frame
import proofs.«101546_j62689342652477_1_alg».proof.Proof.KArr
import proofs.«101546_j62689342652477_1_alg».proof.Proof.KGlue
import proofs.«101546_j62689342652477_1_alg».proof.Proof.KValue0
import proofs.«101546_j62689342652477_1_alg».proof.Proof.Spec
import Idealize.ShloMosaic.Lib.ValueIdx

noncomputable section

namespace Cert.KernelIdeal.Whole1

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- One direction of one layer depends on its seven operands only. -/
theorem dirLayer_congr {win win' : Fin 512 → Fin 4 → Fin 512 → EReal} {W W' : Fin 512 → Fin 4 → Fin 512 → EReal}
    {bias bias' : Fin 512 → EReal} {HW0 HW0' HW1 HW1' : Fin 1024 → Fin 512 → EReal} {HB0 HB0' HB1 HB1' : Fin 1024 → EReal}
    (h0 : win = win') (h1 : W = W') (h2 : bias = bias') (h3 : HW0 = HW0') (h4 : HB0 = HB0') (h5 : HW1 = HW1') (h6 : HB1 = HB1') :
    Cert.Spec.dirLayer win W bias HW0 HB0 HW1 HB1 = Cert.Spec.dirLayer win' W' bias' HW0' HB0' HW1' HB1' := by
  subst h0 h1 h2 h3 h4 h5 h6
  rfl

/-- Layer 1's forward rows: region 2 leaves one direction of one layer of the padded layer-0 forward rows. -/
theorem v87_eq (c : Dev nD) (b : Fin 32) (s h : Fin 512) :
    (W6 m ρ c (Proc.devRef .tc main_v87) : S32x512x512.Idx → EReal) (ix3 b s h)
      = Cert.Spec.f1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) b s h := by
  rw [W6_of_ne m ρ c main_v87 (by decide)]
  have e : W5 m ρ c (Proc.devRef .tc main_v87) = (dat2 (V4 m ρ) c).arrAt 5 cfg2.N := W5_arr m ρ c 5
  rw [e, Arr.arr2 (V4 m ρ) c b s h]
  unfold Cert.Spec.f1 Cert.Spec.fwd
  refine congrFun (congrFun (dirLayer_congr ?_ ?_ ?_ ?_ ?_ ?_ ?_) s) h
  · funext s w k
    show (StableHlo.after (hostOps2 (F := Ideal)) (W3 m ρ c) (Proc.devRef .tc main_v54) : S32x515x512.Idx → EReal) (ix3 b (⟨s.val + w.val, by omega⟩ : Fin 515) k) = _
    rw [Glue.v54_apply]
    unfold Cert.Spec.winF
    by_cases hs : s.val + w.val < 3
    · rw [dif_pos hs, dif_pos hs, Whole0.W3_arg1]
    · rw [dif_neg hs, dif_neg hs, Whole0.v42_eq]
  · funext h w k
    show (StableHlo.after (hostOps2 (F := Ideal)) (W3 m ρ c) (Proc.devRef .tc main_v61) : S4x512x512.Idx → EReal) (ix3 w k h) = _
    rw [Glue.v61_apply, Whole0.W3_arg3]
  · funext h
    show (StableHlo.after (hostOps2 (F := Ideal)) (W3 m ρ c) (Proc.devRef .tc main_v69) : S1x512.Idx → EReal) (ix2 (0 : Fin 1) h) = _
    rw [Glue.v69_apply, Whole0.W3_arg4]
  · funext g k
    show (StableHlo.after (hostOps2 (F := Ideal)) (W3 m ρ c) (Proc.devRef .tc main_v76) : S2x512x1024.Idx → EReal) (ix3 (0 : Fin 2) k g) = _
    rw [Glue.v76_apply, Whole0.W3_arg7]
  · funext g
    show (StableHlo.after (hostOps2 (F := Ideal)) (W3 m ρ c) (Proc.devRef .tc main_v83) : S2x1x1024.Idx → EReal) (ix3 (0 : Fin 2) (0 : Fin 1) g) = _
    rw [Glue.v83_apply, Whole0.W3_arg8]
  · funext g k
    show (StableHlo.after (hostOps2 (F := Ideal)) (W3 m ρ c) (Proc.devRef .tc main_v76) : S2x512x1024.Idx → EReal) (ix3 (1 : Fin 2) k g) = _
    rw [Glue.v76_apply, Whole0.W3_arg7]
  · funext g
    show (StableHlo.after (hostOps2 (F := Ideal)) (W3 m ρ c) (Proc.devRef .tc main_v83) : S2x1x1024.Idx → EReal) (ix3 (1 : Fin 2) (0 : Fin 1) g) = _
    rw [Glue.v83_apply, Whole0.W3_arg8]

/-- Layer 1's backward rows: region 3 leaves one direction of one layer of the padded layer-0 backward rows; its
    operands are as the stretch before region 2 wrote them, region 2 writing none of them. -/
theorem v88_eq (c : Dev nD) (b : Fin 32) (s h : Fin 512) :
    (W6 m ρ c (Proc.devRef .tc main_v88) : S32x512x512.Idx → EReal) (ix3 b s h)
      = Cert.Spec.b1 (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) b s h := by
  have e : W6 m ρ c (Proc.devRef .tc main_v88) = (dat3 (V5 m ρ) c).arrAt 5 cfg3.N := W6_arr m ρ c 5
  rw [e, Arr.arr3 (V5 m ρ) c b s h]
  unfold Cert.Spec.b1 Cert.Spec.bwd
  refine congrFun (congrFun (dirLayer_congr ?_ ?_ ?_ ?_ ?_ ?_ ?_) s) h
  · funext s w k
    show (W5 m ρ c (Proc.devRef .tc main_v56) : S32x515x512.Idx → EReal) (ix3 b (⟨s.val + w.val, by omega⟩ : Fin 515) k) = _
    rw [W5_of_ne m ρ c main_v56 (by decide)]
    show (StableHlo.after (hostOps2 (F := Ideal)) (W3 m ρ c) (Proc.devRef .tc main_v56) : S32x515x512.Idx → EReal) (ix3 b (⟨s.val + w.val, by omega⟩ : Fin 515) k) = _
    rw [Glue.v56_apply]
    unfold Cert.Spec.winB
    by_cases hs : s.val + w.val < 512
    · rw [dif_pos hs, dif_pos hs, Whole0.v43_eq]
    · rw [dif_neg hs, dif_neg hs, Whole0.W3_arg2]
  · funext h w k
    show (W5 m ρ c (Proc.devRef .tc main_v66) : S4x512x512.Idx → EReal) (ix3 w k h) = _
    rw [W5_of_ne m ρ c main_v66 (by decide)]
    show (StableHlo.after (hostOps2 (F := Ideal)) (W3 m ρ c) (Proc.devRef .tc main_v66) : S4x512x512.Idx → EReal) (ix3 w k h) = _
    rw [Glue.v66_apply, Whole0.W3_arg5]
  · funext h
    show (W5 m ρ c (Proc.devRef .tc main_v72) : S1x512.Idx → EReal) (ix2 (0 : Fin 1) h) = _
    rw [W5_of_ne m ρ c main_v72 (by decide)]
    show (StableHlo.after (hostOps2 (F := Ideal)) (W3 m ρ c) (Proc.devRef .tc main_v72) : S1x512.Idx → EReal) (ix2 (0 : Fin 1) h) = _
    rw [Glue.v72_apply, Whole0.W3_arg6]
  · funext g k
    show (W5 m ρ c (Proc.devRef .tc main_v80) : S2x512x1024.Idx → EReal) (ix3 (0 : Fin 2) k g) = _
    rw [W5_of_ne m ρ c main_v80 (by decide)]
    show (StableHlo.after (hostOps2 (F := Ideal)) (W3 m ρ c) (Proc.devRef .tc main_v80) : S2x512x1024.Idx → EReal) (ix3 (0 : Fin 2) k g) = _
    rw [Glue.v80_apply, Whole0.W3_arg9]
  · funext g
    show (W5 m ρ c (Proc.devRef .tc main_v86) : S2x1x1024.Idx → EReal) (ix3 (0 : Fin 2) (0 : Fin 1) g) = _
    rw [W5_of_ne m ρ c main_v86 (by decide)]
    show (StableHlo.after (hostOps2 (F := Ideal)) (W3 m ρ c) (Proc.devRef .tc main_v86) : S2x1x1024.Idx → EReal) (ix3 (0 : Fin 2) (0 : Fin 1) g) = _
    rw [Glue.v86_apply, Whole0.W3_arg10]
  · funext g k
    show (W5 m ρ c (Proc.devRef .tc main_v80) : S2x512x1024.Idx → EReal) (ix3 (1 : Fin 2) k g) = _
    rw [W5_of_ne m ρ c main_v80 (by decide)]
    show (StableHlo.after (hostOps2 (F := Ideal)) (W3 m ρ c) (Proc.devRef .tc main_v80) : S2x512x1024.Idx → EReal) (ix3 (1 : Fin 2) k g) = _
    rw [Glue.v80_apply, Whole0.W3_arg9]
  · funext g
    show (W5 m ρ c (Proc.devRef .tc main_v86) : S2x1x1024.Idx → EReal) (ix3 (1 : Fin 2) (0 : Fin 1) g) = _
    rw [W5_of_ne m ρ c main_v86 (by decide)]
    show (StableHlo.after (hostOps2 (F := Ideal)) (W3 m ρ c) (Proc.devRef .tc main_v86) : S2x1x1024.Idx → EReal) (ix3 (1 : Fin 2) (0 : Fin 1) g) = _
    rw [Glue.v86_apply, Whole0.W3_arg10]

/-- Layer 0's joined rows, which neither later region writes. -/
theorem v44_eq (c : Dev nD) (b : Fin 32) (s : Fin 512) (g : Fin 1024) :
    (W6 m ρ c (Proc.devRef .tc main_v44) : S32x512x1024.Idx → EReal) (ix3 b s g)
      = Cert.Spec.join (Cert.Spec.f0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) b) (Cert.Spec.b0 (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) b) s g := by
  rw [W6_of_ne m ρ c main_v44 (by decide), W5_of_ne m ρ c main_v44 (by decide)]
  show (StableHlo.after (hostOps2 (F := Ideal)) (W3 m ρ c) (Proc.devRef .tc main_v44) : S32x512x1024.Idx → EReal) (ix3 b s g) = _
  rw [Glue.v44_apply]
  unfold Cert.Spec.join
  by_cases hg : g.val < 512
  · rw [dif_pos hg, dif_pos hg, Whole0.v42_eq]
  · rw [dif_neg hg, dif_neg hg, Whole0.v43_eq]

/-- The kernel program's result at an index. -/
theorem result_apply (c : Dev nD) (l : Fin 2) (b : Fin 32) (s : Fin 512) (g : Fin 1024) :
    (W7 m ρ c (Proc.devRef .tc main_v92) : S2x32x512x1024.Idx → EReal) (ix4 l b s g)
      = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix4 l b s g) := by
  show (StableHlo.after (hostOps4 (F := Ideal)) (W6 m ρ c) (Proc.devRef .tc main_v92) : S2x32x512x1024.Idx → EReal)
      (ix4 l b s g) = _
  rw [Glue.v92_apply]
  unfold Cert.Spec.result
  show _ = if l.val = 0 then Cert.Spec.join (Cert.Spec.f0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) b) (Cert.Spec.b0 (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) b) s g
    else Cert.Spec.join (Cert.Spec.f1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) b) (Cert.Spec.b1 (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) b) s g
  by_cases hl : l.val = 0
  · rw [if_pos hl, if_pos hl, v44_eq]
  · rw [if_neg hl, if_neg hl]
    unfold Cert.Spec.join
    by_cases hg : g.val < 512
    · rw [dif_pos hg, dif_pos hg, v87_eq]
    · rw [dif_neg hg, dif_neg hg, v88_eq]

/-- The kernel program's result is the function of its eleven arguments. -/
theorem result_eq (c : Dev nD) :
    (W7 m ρ c (Proc.devRef .tc main_v92) : S2x32x512x1024.Idx → EReal)
      = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine funext fun i => ?_
  obtain ⟨l, b, s, g, rfl⟩ : ∃ (l : Fin 2) (b : Fin 32) (s : Fin 512) (g : Fin 1024), i = ix4 l b s g :=
    ⟨i 0, i 1, i 2, i 3, eq_ix4 i⟩
  exact result_apply m ρ c l b s g

end Cert.KernelIdeal.Whole1

end
-- ==== Proof.RefRunPart0.lean ====
/-
  The reference's host program, part 0 of its six printed parts (operations 0 to 63), run a stretch of operations at a time.
  `main_part0` is the straight line of its stretches' operations (`part0_eq`); each stretch lemma says that the
  stretch, started from buffer contents that hold the stages' values (RefReadP's `val_…`) at every buffer still to be
  read, leaves the stages' values at every buffer read after it.
-/
import proofs.«101546_j62689342652477_1_alg».proof.Proof.RefReadP

noncomputable section

namespace Cert.ReferenceIdeal.RunChunks

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 0 to 10 of @main. -/
abbrev ops0 : List (HloOp τ sig (Elt F)) :=
  [ nullary main_v0 (iotaInDim S512 32 0),
    unary main_v0 main_v1 (broadcastInDim S512x1 ![0] bcast_S512_S512x1_0 : (⟨S512, .i32⟩ : BufTy).Contents (Elt F) → (⟨S512x1, .i32⟩ : BufTy).Contents (Elt F)),
    nullary main_v2 (iotaInDim S4 32 0),
    unary main_v2 main_v3 (broadcastInDim S1x4 ![1] bcast_S4_S1x4_1 : (⟨S4, .i32⟩ : BufTy).Contents (Elt F) → (⟨S1x4, .i32⟩ : BufTy).Contents (Elt F)),
    unary main_v1 main_v4 (broadcastInDim S512x4 ![0, 1] bcast_S512x1_S512x4_0_1 : (⟨S512x1, .i32⟩ : BufTy).Contents (Elt F) → (⟨S512x4, .i32⟩ : BufTy).Contents (Elt F)),
    unary main_v3 main_v5 (broadcastInDim S512x4 ![0, 1] bcast_S1x4_S512x4_0_1 : (⟨S1x4, .i32⟩ : BufTy).Contents (Elt F) → (⟨S512x4, .i32⟩ : BufTy).Contents (Elt F)),
    binary main_v4 main_v5 main_v6 (addi : (⟨S512x4, .i32⟩ : BufTy).Contents (Elt F) → (⟨S512x4, .i32⟩ : BufTy).Contents (Elt F) → (⟨S512x4, .i32⟩ : BufTy).Contents (Elt F)),
    unary main_arg1 main_v7 ((extractStridedSlice S1x3x512 ![0, 0, 0] · slices_S2x3x512_S1x3x512_0_0_0) : (⟨S2x3x512, .f32⟩ : BufTy).Contents (Elt F) → (⟨S1x3x512, .f32⟩ : BufTy).Contents (Elt F)),
    reshape main_v7 main_v8 rfl shapeCasts_S1x3x512_S3x512,
    unary main_v8 main_v9 (broadcastInDim S32x3x512 ![1, 2] bcast_S3x512_S32x3x512_1_2 : (⟨S3x512, .f32⟩ : BufTy).Contents (Elt F) → (⟨S32x3x512, .f32⟩ : BufTy).Contents (Elt F)),
    unary main_arg2 main_v10 ((extractStridedSlice S1x3x512 ![0, 0, 0] · slices_S2x3x512_S1x3x512_0_0_0) : (⟨S2x3x512, .f32⟩ : BufTy).Contents (Elt F) → (⟨S1x3x512, .f32⟩ : BufTy).Contents (Elt F)) ]

theorem ops0_sub : (ops0 : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., unary_bufs_sub .., reshape_bufs_sub .., unary_bufs_sub .., unary_bufs_sub ..⟩
theorem ops0_fresh : ∀ op ∈ (ops0 : List (HloOp τ sig (Elt F))), op.fresh = ∅ := by
  intro _ h; (repeat (cases h with | head => rfl | tail _ h => ?_)); exact nomatch h

set_option maxRecDepth 8192 in
/-- From buffer contents `W` that hold the stages' values at every buffer still to be read, operations 0 to 10
    leave the stages' values at every buffer read after them. -/
theorem chunk0 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (ops0 (F := F)) W (Proc.devRef .tc main_arg0) = x0
      ∧ after (ops0 (F := F)) W (Proc.devRef .tc main_arg1) = x1
      ∧ after (ops0 (F := F)) W (Proc.devRef .tc main_arg10) = x10
      ∧ after (ops0 (F := F)) W (Proc.devRef .tc main_arg2) = x2
      ∧ after (ops0 (F := F)) W (Proc.devRef .tc main_arg3) = x3
      ∧ after (ops0 (F := F)) W (Proc.devRef .tc main_arg4) = x4
      ∧ after (ops0 (F := F)) W (Proc.devRef .tc main_arg5) = x5
      ∧ after (ops0 (F := F)) W (Proc.devRef .tc main_arg6) = x6
      ∧ after (ops0 (F := F)) W (Proc.devRef .tc main_arg7) = x7
      ∧ after (ops0 (F := F)) W (Proc.devRef .tc main_arg8) = x8
      ∧ after (ops0 (F := F)) W (Proc.devRef .tc main_arg9) = x9
      ∧ after (ops0 (F := F)) W (Proc.devRef .tc main_v6) = (val_main_v6 (F := F))
      ∧ after (ops0 (F := F)) W (Proc.devRef .tc main_v9) = (val_main_v9 (F := F) x1)
      ∧ after (ops0 (F := F)) W (Proc.devRef .tc main_v10) = (val_main_v10 (F := F) x2) := by
  refine ⟨?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    rfl

/-- Operations 11 to 21 of @main. -/
abbrev ops1 : List (HloOp τ sig (Elt F)) :=
  [ reshape main_v10 main_v11 rfl shapeCasts_S1x3x512_S3x512,
    unary main_v11 main_v12 (broadcastInDim S32x3x512 ![1, 2] bcast_S3x512_S32x3x512_1_2 : (⟨S3x512, .f32⟩ : BufTy).Contents (Elt F) → (⟨S32x3x512, .f32⟩ : BufTy).Contents (Elt F)),
    nary ![main_v9, main_arg0, main_v12] main_v13 (fun u => concatenate S32x518x512 1 [⟨S32x3x512, u 0⟩, ⟨S32x512x512, u 1⟩, ⟨S32x3x512, u 2⟩] concatenates_S32x3x512_S32x512x512_S32x3x512_S32x518x512_d1),
    nary ![main_v9, main_arg0, main_v12] main_v14 (fun u => concatenate S32x518x512 1 [⟨S32x3x512, u 0⟩, ⟨S32x512x512, u 1⟩, ⟨S32x3x512, u 2⟩] concatenates_S32x3x512_S32x512x512_S32x3x512_S32x518x512_d1),
    nullary main_c (constantI S_ 32 0#32),
    unary main_c main_v15 (broadcastInDim S512x4 ![] bcast_S_S512x4 : (⟨S_, .i32⟩ : BufTy).Contents (Elt F) → (⟨S512x4, .i32⟩ : BufTy).Contents (Elt F)),
    binary main_v6 main_v15 main_v16 (cmpi .slt : (⟨S512x4, .i32⟩ : BufTy).Contents (Elt F) → (⟨S512x4, .i32⟩ : BufTy).Contents (Elt F) → (⟨S512x4, .i1⟩ : BufTy).Contents (Elt F)),
    nullary main_c_0 (constantI S_ 32 518#32),
    unary main_c_0 main_v17 (broadcastInDim S512x4 ![] bcast_S_S512x4 : (⟨S_, .i32⟩ : BufTy).Contents (Elt F) → (⟨S512x4, .i32⟩ : BufTy).Contents (Elt F)),
    binary main_v6 main_v17 main_v18 (addi : (⟨S512x4, .i32⟩ : BufTy).Contents (Elt F) → (⟨S512x4, .i32⟩ : BufTy).Contents (Elt F) → (⟨S512x4, .i32⟩ : BufTy).Contents (Elt F)),
    ternary main_v16 main_v18 main_v6 main_v19 (select : (⟨S512x4, .i1⟩ : BufTy).Contents (Elt F) → (⟨S512x4, .i32⟩ : BufTy).Contents (Elt F) → (⟨S512x4, .i32⟩ : BufTy).Contents (Elt F) → (⟨S512x4, .i32⟩ : BufTy).Contents (Elt F)) ]

theorem ops1_sub : (ops1 : List (HloOp τ sig (Elt F))).Forall fun op => op.bufs ⊆ tcRefs τ sig :=
  ⟨reshape_bufs_sub .., unary_bufs_sub .., nary_bufs_sub .., nary_bufs_sub .., nullary_bufs_sub .., unary_bufs_sub .., binary_bufs_sub .., nullary_bufs_sub .., unary_bufs_sub .., binary_bufs_sub .., ternary_bufs_sub ..⟩
theorem ops1_fresh : ∀ op ∈ (ops1 : List (HloOp τ sig (Elt F))), op.fresh = ∅ := by
  intro _ h; (repeat (cases h with | head => rfl | tail _ h => ?_)); exact nomatch h

set_option maxRecDepth 8192 in
/-- From buffer contents `W` that hold the stages' values at every buffer still to be read, operations 11 to 21
    leave the stages' values at every buffer read after them. -/
theorem chunk1 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v9 : W (Proc.devRef .tc main_v9) = (val_main_v9 (F := F) x1))
    (h_main_v10 : W (Proc.devRef .tc main_v10) = (val_main_v10 (F := F) x2)) :
    after (ops1 (F := F)) W (Proc.devRef .tc main_arg0) = x0
      ∧ after (ops1 (F := F)) W (Proc.devRef .tc main_arg1) = x1
      ∧ after (ops1 (F := F)) W (Proc.devRef .tc main_arg10) = x10
      ∧ after (ops1 (F := F)) W (Proc.devRef .tc main_arg2) = x2
      ∧ after (ops1 (F := F)) W (Proc.devRef .tc main_arg3) = x3
      ∧ after (ops1 (F := F)) W (Proc.devRef .tc main_arg4) = x4
      ∧ after (ops1 (F := F)) W (Proc.devRef .tc main_arg5) = x5
      ∧ after (ops1 (F := F)) W (Proc.devRef .tc main_arg6) = x6
      ∧ after (ops1 (F := F)) W (Proc.devRef .tc main_arg7) = x7
      ∧ after (ops1 (F := F)) W (Proc.devRef .tc main_arg8) = x8
      ∧ after (ops1 (F := F)) W (Proc.devRef .tc main_arg9) = x9
      ∧ after (ops1 (F := F)) W (Proc.devRef .tc main_v6) = (val_main_v6 (F := F))
      ∧ after (ops1 (F := F)) W (Proc.devRef .tc main_v13) = (val_main_v13 (F := F) x0 x1 x2)
      ∧ after (ops1 (F := F)) W (Proc.devRef .tc main_v14) = (val_main_v14 (F := F) x0 x1 x2)
      ∧ after (ops1 (F := F)) W (Proc.devRef .tc main_v19) = (val_main_v19 (F := F)) := by
  refine ⟨?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v9]
    try rw [h_main_v10]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v9]
    try rw [h_main_v10]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v9]
    try rw [h_main_v10]
    rfl

/-- Operations 22 to 32 of @main. -/
abbrev ops2 : List (HloOp τ sig (Elt F)) :=
  [ unary main_v19 main_v20 (broadcastInDim S512x4x1 ![0, 1] bcast_S512x4_S512x4x1_0_1 : (⟨S512x4, .i32⟩ : BufTy).Contents (Elt F) → (⟨S512x4x1, .i32⟩ : BufTy).Contents (Elt F)),
    binary main_v13 main_v20 main_v21 ((fun x i => Host.gather gather_S32x518x512_S512x4x1_S32x512x4x512_03_1_n_n_1_2_321512 x i) : (⟨S32x518x512, .f32⟩ : BufTy).Contents (Elt F) → (⟨S512x4x1, .i32⟩ : BufTy).Contents (Elt F) → (⟨S32x512x4x512, .f32⟩ : BufTy).Contents (Elt F)),
    reshape main_v21 main_v22 rfl shapeCasts_S32x512x4x512_S32x512x2048,
    nullary main_c_1 (constantI S_ 32 3#32),
    unary main_c_1 main_v23 (broadcastInDim S512x4 ![] bcast_S_S512x4 : (⟨S_, .i32⟩ : BufTy).Contents (Elt F) → (⟨S512x4, .i32⟩ : BufTy).Contents (Elt F)),
    binary main_v6 main_v23 main_v24 (addi : (⟨S512x4, .i32⟩ : BufTy).Contents (Elt F) → (⟨S512x4, .i32⟩ : BufTy).Contents (Elt F) → (⟨S512x4, .i32⟩ : BufTy).Contents (Elt F)),
    nullary main_c_2 (constantI S_ 32 0#32),
    unary main_c_2 main_v25 (broadcastInDim S512x4 ![] bcast_S_S512x4 : (⟨S_, .i32⟩ : BufTy).Contents (Elt F) → (⟨S512x4, .i32⟩ : BufTy).Contents (Elt F)),
    binary main_v24 main_v25 main_v26 (cmpi .slt : (⟨S512x4, .i32⟩ : BufTy).Contents (Elt F) → (⟨S512x4, .i32⟩ : BufTy).Contents (Elt F) → (⟨S512x4, .i1⟩ : BufTy).Contents (Elt F)),
    nullary main_c_3 (constantI S_ 32 518#32),
    unary main_c_3 main_v27 (broadcastInDim S512x4 ![] bcast_S_S512x4 : (⟨S_, .i32⟩ : BufTy).Contents (Elt F) → (⟨S512x4, .i32⟩ : BufTy).Contents (Elt F)) ]

theorem ops2_sub : (ops2 : List (HloOp τ sig (Elt F))).Forall fun op => op.bufs ⊆ tcRefs τ sig :=
  ⟨unary_bufs_sub .., binary_bufs_sub .., reshape_bufs_sub .., nullary_bufs_sub .., unary_bufs_sub .., binary_bufs_sub .., nullary_bufs_sub .., unary_bufs_sub .., binary_bufs_sub .., nullary_bufs_sub .., unary_bufs_sub ..⟩
theorem ops2_fresh : ∀ op ∈ (ops2 : List (HloOp τ sig (Elt F))), op.fresh = ∅ := by
  intro _ h; (repeat (cases h with | head => rfl | tail _ h => ?_)); exact nomatch h

set_option maxRecDepth 8192 in
/-- From buffer contents `W` that hold the stages' values at every buffer still to be read, operations 22 to 32
    leave the stages' values at every buffer read after them. -/
theorem chunk2 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v13 : W (Proc.devRef .tc main_v13) = (val_main_v13 (F := F) x0 x1 x2))
    (h_main_v14 : W (Proc.devRef .tc main_v14) = (val_main_v14 (F := F) x0 x1 x2))
    (h_main_v19 : W (Proc.devRef .tc main_v19) = (val_main_v19 (F := F))) :
    after (ops2 (F := F)) W (Proc.devRef .tc main_arg0) = x0
      ∧ after (ops2 (F := F)) W (Proc.devRef .tc main_arg1) = x1
      ∧ after (ops2 (F := F)) W (Proc.devRef .tc main_arg10) = x10
      ∧ after (ops2 (F := F)) W (Proc.devRef .tc main_arg2) = x2
      ∧ after (ops2 (F := F)) W (Proc.devRef .tc main_arg3) = x3
      ∧ after (ops2 (F := F)) W (Proc.devRef .tc main_arg4) = x4
      ∧ after (ops2 (F := F)) W (Proc.devRef .tc main_arg5) = x5
      ∧ after (ops2 (F := F)) W (Proc.devRef .tc main_arg6) = x6
      ∧ after (ops2 (F := F)) W (Proc.devRef .tc main_arg7) = x7
      ∧ after (ops2 (F := F)) W (Proc.devRef .tc main_arg8) = x8
      ∧ after (ops2 (F := F)) W (Proc.devRef .tc main_arg9) = x9
      ∧ after (ops2 (F := F)) W (Proc.devRef .tc main_v6) = (val_main_v6 (F := F))
      ∧ after (ops2 (F := F)) W (Proc.devRef .tc main_v14) = (val_main_v14 (F := F) x0 x1 x2)
      ∧ after (ops2 (F := F)) W (Proc.devRef .tc main_v22) = (val_main_v22 (F := F) x0 x1 x2)
      ∧ after (ops2 (F := F)) W (Proc.devRef .tc main_v24) = (val_main_v24 (F := F))
      ∧ after (ops2 (F := F)) W (Proc.devRef .tc main_v26) = (val_main_v26 (F := F))
      ∧ after (ops2 (F := F)) W (Proc.devRef .tc main_v27) = (val_main_v27 (F := F)) := by
  refine ⟨?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v14
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v13]
    try rw [h_main_v14]
    try rw [h_main_v19]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v13]
    try rw [h_main_v14]
    try rw [h_main_v19]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v13]
    try rw [h_main_v14]
    try rw [h_main_v19]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v13]
    try rw [h_main_v14]
    try rw [h_main_v19]
    rfl

/-- Operations 33 to 43 of @main. -/
abbrev ops3 : List (HloOp τ sig (Elt F)) :=
  [ binary main_v24 main_v27 main_v28 (addi : (⟨S512x4, .i32⟩ : BufTy).Contents (Elt F) → (⟨S512x4, .i32⟩ : BufTy).Contents (Elt F) → (⟨S512x4, .i32⟩ : BufTy).Contents (Elt F)),
    ternary main_v26 main_v28 main_v24 main_v29 (select : (⟨S512x4, .i1⟩ : BufTy).Contents (Elt F) → (⟨S512x4, .i32⟩ : BufTy).Contents (Elt F) → (⟨S512x4, .i32⟩ : BufTy).Contents (Elt F) → (⟨S512x4, .i32⟩ : BufTy).Contents (Elt F)),
    unary main_v29 main_v30 (broadcastInDim S512x4x1 ![0, 1] bcast_S512x4_S512x4x1_0_1 : (⟨S512x4, .i32⟩ : BufTy).Contents (Elt F) → (⟨S512x4x1, .i32⟩ : BufTy).Contents (Elt F)),
    binary main_v14 main_v30 main_v31 ((fun x i => Host.gather gather_S32x518x512_S512x4x1_S32x512x4x512_03_1_n_n_1_2_321512 x i) : (⟨S32x518x512, .f32⟩ : BufTy).Contents (Elt F) → (⟨S512x4x1, .i32⟩ : BufTy).Contents (Elt F) → (⟨S32x512x4x512, .f32⟩ : BufTy).Contents (Elt F)),
    reshape main_v31 main_v32 rfl shapeCasts_S32x512x4x512_S32x512x2048,
    unary main_arg3 main_v33 ((extractStridedSlice S1x512x2048 ![0, 0, 0] · slices_S2x512x2048_S1x512x2048_0_0_0) : (⟨S2x512x2048, .f32⟩ : BufTy).Contents (Elt F) → (⟨S1x512x2048, .f32⟩ : BufTy).Contents (Elt F)),
    reshape main_v33 main_v34 rfl shapeCasts_S1x512x2048_S512x2048,
    binary main_v22 main_v34 main_v35 ((fun l r => Host.dotGeneral dot_S32x512x2048_S512x2048_S32x512x512_2_1_01_0_n_n none l r) : (⟨S32x512x2048, .f32⟩ : BufTy).Contents (Elt F) → (⟨S512x2048, .f32⟩ : BufTy).Contents (Elt F) → (⟨S32x512x512, .f32⟩ : BufTy).Contents (Elt F)),
    unary main_arg4 main_v36 ((extractStridedSlice S1x512 ![0, 0] · slices_S2x512_S1x512_0_0) : (⟨S2x512, .f32⟩ : BufTy).Contents (Elt F) → (⟨S1x512, .f32⟩ : BufTy).Contents (Elt F)),
    reshape main_v36 main_v37 rfl shapeCasts_S1x512_S512,
    unary main_v37 main_v38 (broadcastInDim S1x1x512 ![2] bcast_S512_S1x1x512_2 : (⟨S512, .f32⟩ : BufTy).Contents (Elt F) → (⟨S1x1x512, .f32⟩ : BufTy).Contents (Elt F)) ]

theorem ops3_sub : (ops3 : List (HloOp τ sig (Elt F))).Forall fun op => op.bufs ⊆ tcRefs τ sig :=
  ⟨binary_bufs_sub .., ternary_bufs_sub .., unary_bufs_sub .., binary_bufs_sub .., reshape_bufs_sub .., unary_bufs_sub .., reshape_bufs_sub .., binary_bufs_sub .., unary_bufs_sub .., reshape_bufs_sub .., unary_bufs_sub ..⟩
theorem ops3_fresh : ∀ op ∈ (ops3 : List (HloOp τ sig (Elt F))), op.fresh = ∅ := by
  intro _ h; (repeat (cases h with | head => rfl | tail _ h => ?_)); exact nomatch h

set_option maxRecDepth 8192 in
/-- From buffer contents `W` that hold the stages' values at every buffer still to be read, operations 33 to 43
    leave the stages' values at every buffer read after them. -/
theorem chunk3 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v14 : W (Proc.devRef .tc main_v14) = (val_main_v14 (F := F) x0 x1 x2))
    (h_main_v22 : W (Proc.devRef .tc main_v22) = (val_main_v22 (F := F) x0 x1 x2))
    (h_main_v24 : W (Proc.devRef .tc main_v24) = (val_main_v24 (F := F)))
    (h_main_v26 : W (Proc.devRef .tc main_v26) = (val_main_v26 (F := F)))
    (h_main_v27 : W (Proc.devRef .tc main_v27) = (val_main_v27 (F := F))) :
    after (ops3 (F := F)) W (Proc.devRef .tc main_arg0) = x0
      ∧ after (ops3 (F := F)) W (Proc.devRef .tc main_arg1) = x1
      ∧ after (ops3 (F := F)) W (Proc.devRef .tc main_arg10) = x10
      ∧ after (ops3 (F := F)) W (Proc.devRef .tc main_arg2) = x2
      ∧ after (ops3 (F := F)) W (Proc.devRef .tc main_arg3) = x3
      ∧ after (ops3 (F := F)) W (Proc.devRef .tc main_arg4) = x4
      ∧ after (ops3 (F := F)) W (Proc.devRef .tc main_arg5) = x5
      ∧ after (ops3 (F := F)) W (Proc.devRef .tc main_arg6) = x6
      ∧ after (ops3 (F := F)) W (Proc.devRef .tc main_arg7) = x7
      ∧ after (ops3 (F := F)) W (Proc.devRef .tc main_arg8) = x8
      ∧ after (ops3 (F := F)) W (Proc.devRef .tc main_arg9) = x9
      ∧ after (ops3 (F := F)) W (Proc.devRef .tc main_v6) = (val_main_v6 (F := F))
      ∧ after (ops3 (F := F)) W (Proc.devRef .tc main_v32) = (val_main_v32 (F := F) x0 x1 x2)
      ∧ after (ops3 (F := F)) W (Proc.devRef .tc main_v35) = (val_main_v35 (F := F) x0 x1 x2 x3)
      ∧ after (ops3 (F := F)) W (Proc.devRef .tc main_v38) = (val_main_v38 (F := F) x4) := by
  refine ⟨?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v14]
    try rw [h_main_v22]
    try rw [h_main_v24]
    try rw [h_main_v26]
    try rw [h_main_v27]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v14]
    try rw [h_main_v22]
    try rw [h_main_v24]
    try rw [h_main_v26]
    try rw [h_main_v27]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v14]
    try rw [h_main_v22]
    try rw [h_main_v24]
    try rw [h_main_v26]
    try rw [h_main_v27]
    rfl

/-- Operations 44 to 53 of @main. -/
abbrev ops4 : List (HloOp τ sig (Elt F)) :=
  [ unary main_v38 main_v39 (broadcastInDim S32x512x512 ![0, 1, 2] bcast_S1x1x512_S32x512x512_0_1_2 : (⟨S1x1x512, .f32⟩ : BufTy).Contents (Elt F) → (⟨S32x512x512, .f32⟩ : BufTy).Contents (Elt F)),
    binary main_v35 main_v39 main_v40 (addf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32x512x512, .f32⟩) main_call0_v0) (broadcastInDim S32x512x512 ![] bcast_S_S32x512x512),
    TRef.binary (TRef.of (T := ⟨S32x512x512, .f32⟩) main_v40) (TRef.of (T := ⟨S32x512x512, .f32⟩) main_call0_v0) (TRef.of (T := ⟨S32x512x512, .f32⟩) main_v41) maximumf,
    unary main_arg5 main_v42 ((extractStridedSlice S1x512x2048 ![0, 0, 0] · slices_S2x512x2048_S1x512x2048_0_0_0) : (⟨S2x512x2048, .f32⟩ : BufTy).Contents (Elt F) → (⟨S1x512x2048, .f32⟩ : BufTy).Contents (Elt F)),
    reshape main_v42 main_v43 rfl shapeCasts_S1x512x2048_S512x2048,
    binary main_v32 main_v43 main_v44 ((fun l r => Host.dotGeneral dot_S32x512x2048_S512x2048_S32x512x512_2_1_01_0_n_n none l r) : (⟨S32x512x2048, .f32⟩ : BufTy).Contents (Elt F) → (⟨S512x2048, .f32⟩ : BufTy).Contents (Elt F) → (⟨S32x512x512, .f32⟩ : BufTy).Contents (Elt F)),
    unary main_arg6 main_v45 ((extractStridedSlice S1x512 ![0, 0] · slices_S2x512_S1x512_0_0) : (⟨S2x512, .f32⟩ : BufTy).Contents (Elt F) → (⟨S1x512, .f32⟩ : BufTy).Contents (Elt F)),
    reshape main_v45 main_v46 rfl shapeCasts_S1x512_S512 ]

theorem ops4_sub : (ops4 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., binary_bufs_sub .., unary_bufs_sub .., reshape_bufs_sub ..⟩
theorem ops4_fresh : ∀ op ∈ (ops4 : List (HloOp τ sig (Elt F))), op.fresh = ∅ := by
  intro _ h; (repeat (cases h with | head => rfl | tail _ h => ?_)); exact nomatch h

set_option maxRecDepth 8192 in
/-- From buffer contents `W` that hold the stages' values at every buffer still to be read, operations 44 to 53
    leave the stages' values at every buffer read after them. -/
theorem chunk4 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v32 : W (Proc.devRef .tc main_v32) = (val_main_v32 (F := F) x0 x1 x2))
    (h_main_v35 : W (Proc.devRef .tc main_v35) = (val_main_v35 (F := F) x0 x1 x2 x3))
    (h_main_v38 : W (Proc.devRef .tc main_v38) = (val_main_v38 (F := F) x4)) :
    after (ops4 (F := F)) W (Proc.devRef .tc main_arg0) = x0
      ∧ after (ops4 (F := F)) W (Proc.devRef .tc main_arg1) = x1
      ∧ after (ops4 (F := F)) W (Proc.devRef .tc main_arg10) = x10
      ∧ after (ops4 (F := F)) W (Proc.devRef .tc main_arg2) = x2
      ∧ after (ops4 (F := F)) W (Proc.devRef .tc main_arg3) = x3
      ∧ after (ops4 (F := F)) W (Proc.devRef .tc main_arg4) = x4
      ∧ after (ops4 (F := F)) W (Proc.devRef .tc main_arg5) = x5
      ∧ after (ops4 (F := F)) W (Proc.devRef .tc main_arg6) = x6
      ∧ after (ops4 (F := F)) W (Proc.devRef .tc main_arg7) = x7
      ∧ after (ops4 (F := F)) W (Proc.devRef .tc main_arg8) = x8
      ∧ after (ops4 (F := F)) W (Proc.devRef .tc main_arg9) = x9
      ∧ after (ops4 (F := F)) W (Proc.devRef .tc main_v6) = (val_main_v6 (F := F))
      ∧ after (ops4 (F := F)) W (Proc.devRef .tc main_v41) = (val_main_v41 (F := F) x0 x1 x2 x3 x4)
      ∧ after (ops4 (F := F)) W (Proc.devRef .tc main_v44) = (val_main_v44 (F := F) x0 x1 x2 x5)
      ∧ after (ops4 (F := F)) W (Proc.devRef .tc main_v46) = (val_main_v46 (F := F) x6) := by
  refine ⟨?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v32]
    try rw [h_main_v35]
    try rw [h_main_v38]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v32]
    try rw [h_main_v35]
    try rw [h_main_v38]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v32]
    try rw [h_main_v35]
    try rw [h_main_v38]
    rfl

/-- Operations 54 to 63 of @main. -/
abbrev ops5 : List (HloOp τ sig (Elt F)) :=
  [ unary main_v46 main_v47 (broadcastInDim S1x1x512 ![2] bcast_S512_S1x1x512_2 : (⟨S512, .f32⟩ : BufTy).Contents (Elt F) → (⟨S1x1x512, .f32⟩ : BufTy).Contents (Elt F)),
    unary main_v47 main_v48 (broadcastInDim S32x512x512 ![0, 1, 2] bcast_S1x1x512_S32x512x512_0_1_2 : (⟨S1x1x512, .f32⟩ : BufTy).Contents (Elt F) → (⟨S32x512x512, .f32⟩ : BufTy).Contents (Elt F)),
    binary main_v44 main_v48 main_v49 (addf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32x512x512, .f32⟩) main_call1_v0) (broadcastInDim S32x512x512 ![] bcast_S_S32x512x512),
    TRef.binary (TRef.of (T := ⟨S32x512x512, .f32⟩) main_v49) (TRef.of (T := ⟨S32x512x512, .f32⟩) main_call1_v0) (TRef.of (T := ⟨S32x512x512, .f32⟩) main_v50) maximumf,
    unary main_arg7 main_v51 ((extractStridedSlice S1x2x1024x512 ![0, 0, 0, 0] · slices_S2x2x1024x512_S1x2x1024x512_0_0_0_0) : (⟨S2x2x1024x512, .f32⟩ : BufTy).Contents (Elt F) → (⟨S1x2x1024x512, .f32⟩ : BufTy).Contents (Elt F)),
    reshape main_v51 main_v52 rfl shapeCasts_S1x2x1024x512_S2x1024x512,
    unary main_arg8 main_v53 ((extractStridedSlice S1x2x1024 ![0, 0, 0] · slices_S2x2x1024_S1x2x1024_0_0_0) : (⟨S2x2x1024, .f32⟩ : BufTy).Contents (Elt F) → (⟨S1x2x1024, .f32⟩ : BufTy).Contents (Elt F)),
    reshape main_v53 main_v54 rfl shapeCasts_S1x2x1024_S2x1024 ]

theorem ops5_sub : (ops5 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., reshape_bufs_sub .., unary_bufs_sub .., reshape_bufs_sub ..⟩
theorem ops5_fresh : ∀ op ∈ (ops5 : List (HloOp τ sig (Elt F))), op.fresh = ∅ := by
  intro _ h; (repeat (cases h with | head => rfl | tail _ h => ?_)); exact nomatch h

set_option maxRecDepth 8192 in
/-- From buffer contents `W` that hold the stages' values at every buffer still to be read, operations 54 to 63
    leave the stages' values at every buffer read after them. -/
theorem chunk5 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v41 : W (Proc.devRef .tc main_v41) = (val_main_v41 (F := F) x0 x1 x2 x3 x4))
    (h_main_v44 : W (Proc.devRef .tc main_v44) = (val_main_v44 (F := F) x0 x1 x2 x5))
    (h_main_v46 : W (Proc.devRef .tc main_v46) = (val_main_v46 (F := F) x6)) :
    after (ops5 (F := F)) W (Proc.devRef .tc main_arg0) = x0
      ∧ after (ops5 (F := F)) W (Proc.devRef .tc main_arg1) = x1
      ∧ after (ops5 (F := F)) W (Proc.devRef .tc main_arg10) = x10
      ∧ after (ops5 (F := F)) W (Proc.devRef .tc main_arg2) = x2
      ∧ after (ops5 (F := F)) W (Proc.devRef .tc main_arg3) = x3
      ∧ after (ops5 (F := F)) W (Proc.devRef .tc main_arg4) = x4
      ∧ after (ops5 (F := F)) W (Proc.devRef .tc main_arg5) = x5
      ∧ after (ops5 (F := F)) W (Proc.devRef .tc main_arg6) = x6
      ∧ after (ops5 (F := F)) W (Proc.devRef .tc main_arg7) = x7
      ∧ after (ops5 (F := F)) W (Proc.devRef .tc main_arg8) = x8
      ∧ after (ops5 (F := F)) W (Proc.devRef .tc main_arg9) = x9
      ∧ after (ops5 (F := F)) W (Proc.devRef .tc main_v6) = (val_main_v6 (F := F))
      ∧ after (ops5 (F := F)) W (Proc.devRef .tc main_v41) = (val_main_v41 (F := F) x0 x1 x2 x3 x4)
      ∧ after (ops5 (F := F)) W (Proc.devRef .tc main_v50) = (val_main_v50 (F := F) x0 x1 x2 x5 x6)
      ∧ after (ops5 (F := F)) W (Proc.devRef .tc main_v52) = (val_main_v52 (F := F) x7)
      ∧ after (ops5 (F := F)) W (Proc.devRef .tc main_v54) = (val_main_v54 (F := F) x8) := by
  refine ⟨?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v41
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v41]
    try rw [h_main_v44]
    try rw [h_main_v46]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v41]
    try rw [h_main_v44]
    try rw [h_main_v46]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v41]
    try rw [h_main_v44]
    try rw [h_main_v46]
    rfl

/-- Part 0's operations in order. -/
abbrev opsPart0 : List (HloOp τ sig (Elt F)) := ops0 ++ (ops1 ++ (ops2 ++ (ops3 ++ (ops4 ++ (ops5)))))

set_option maxRecDepth 8192 in
set_option maxHeartbeats 4000000 in
/-- Part 0 of @main is the straight line of its operations. -/
theorem part0_eq (c : Dev nD) : main_part0 (F := F) c = seq (opsPart0 (F := F)) := rfl

end Cert.ReferenceIdeal.RunChunks

end
-- ==== Proof.RefRunPart1.lean ====
/-
  The reference's host program, part 1 of its six printed parts (operations 64 to 127), run a stretch of operations at a time.
  `main_part1` is the straight line of its stretches' operations (`part1_eq`); each stretch lemma says that the
  stretch, started from buffer contents that hold the stages' values (RefReadP's `val_…`) at every buffer still to be
  read, leaves the stages' values at every buffer read after it.
-/
import proofs.«101546_j62689342652477_1_alg».proof.Proof.RefReadP

noncomputable section

namespace Cert.ReferenceIdeal.RunChunks

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 64 to 74 of @main. -/
abbrev ops6 : List (HloOp τ sig (Elt F)) :=
  [ unary main_v52 main_v55 ((extractStridedSlice S1x1024x512 ![0, 0, 0] · slices_S2x1024x512_S1x1024x512_0_0_0) : (⟨S2x1024x512, .f32⟩ : BufTy).Contents (Elt F) → (⟨S1x1024x512, .f32⟩ : BufTy).Contents (Elt F)),
    reshape main_v55 main_v56 rfl shapeCasts_S1x1024x512_S1024x512,
    binary main_v41 main_v56 main_v57 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_v54 main_v58 ((extractStridedSlice S1x1024 ![0, 0] · slices_S2x1024_S1x1024_0_0) : (⟨S2x1024, .f32⟩ : BufTy).Contents (Elt F) → (⟨S1x1024, .f32⟩ : BufTy).Contents (Elt F)),
    reshape main_v58 main_v59 rfl shapeCasts_S1x1024_S1024,
    unary main_v59 main_v60 (broadcastInDim S1x1x1024 ![2] bcast_S1024_S1x1x1024_2 : (⟨S1024, .f32⟩ : BufTy).Contents (Elt F) → (⟨S1x1x1024, .f32⟩ : BufTy).Contents (Elt F)),
    unary main_v60 main_v61 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v57 main_v61 main_v62 (addf : (⟨S32x512x1024, .f32⟩ : BufTy).Contents (Elt F) → (⟨S32x512x1024, .f32⟩ : BufTy).Contents (Elt F) → (⟨S32x512x1024, .f32⟩ : BufTy).Contents (Elt F)),
    unary main_v62 main_v63 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    unary main_v62 main_v64 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v64 main_v65 (Host.negf : (⟨S32x512x512, .f32⟩ : BufTy).Contents (Elt F) → (⟨S32x512x512, .f32⟩ : BufTy).Contents (Elt F)) ]

theorem ops6_sub : (ops6 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., unary_bufs_sub .., unary_bufs_sub ..⟩
theorem ops6_fresh : ∀ op ∈ (ops6 : List (HloOp τ sig (Elt F))), op.fresh = ∅ := by
  intro _ h; (repeat (cases h with | head => rfl | tail _ h => ?_)); exact nomatch h

set_option maxRecDepth 8192 in
/-- From buffer contents `W` that hold the stages' values at every buffer still to be read, operations 64 to 74
    leave the stages' values at every buffer read after them. -/
theorem chunk6 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v41 : W (Proc.devRef .tc main_v41) = (val_main_v41 (F := F) x0 x1 x2 x3 x4))
    (h_main_v50 : W (Proc.devRef .tc main_v50) = (val_main_v50 (F := F) x0 x1 x2 x5 x6))
    (h_main_v52 : W (Proc.devRef .tc main_v52) = (val_main_v52 (F := F) x7))
    (h_main_v54 : W (Proc.devRef .tc main_v54) = (val_main_v54 (F := F) x8)) :
    after (ops6 (F := F)) W (Proc.devRef .tc main_arg0) = x0
      ∧ after (ops6 (F := F)) W (Proc.devRef .tc main_arg1) = x1
      ∧ after (ops6 (F := F)) W (Proc.devRef .tc main_arg10) = x10
      ∧ after (ops6 (F := F)) W (Proc.devRef .tc main_arg2) = x2
      ∧ after (ops6 (F := F)) W (Proc.devRef .tc main_arg3) = x3
      ∧ after (ops6 (F := F)) W (Proc.devRef .tc main_arg4) = x4
      ∧ after (ops6 (F := F)) W (Proc.devRef .tc main_arg5) = x5
      ∧ after (ops6 (F := F)) W (Proc.devRef .tc main_arg6) = x6
      ∧ after (ops6 (F := F)) W (Proc.devRef .tc main_arg7) = x7
      ∧ after (ops6 (F := F)) W (Proc.devRef .tc main_arg8) = x8
      ∧ after (ops6 (F := F)) W (Proc.devRef .tc main_arg9) = x9
      ∧ after (ops6 (F := F)) W (Proc.devRef .tc main_v6) = (val_main_v6 (F := F))
      ∧ after (ops6 (F := F)) W (Proc.devRef .tc main_v41) = (val_main_v41 (F := F) x0 x1 x2 x3 x4)
      ∧ after (ops6 (F := F)) W (Proc.devRef .tc main_v50) = (val_main_v50 (F := F) x0 x1 x2 x5 x6)
      ∧ after (ops6 (F := F)) W (Proc.devRef .tc main_v52) = (val_main_v52 (F := F) x7)
      ∧ after (ops6 (F := F)) W (Proc.devRef .tc main_v54) = (val_main_v54 (F := F) x8)
      ∧ after (ops6 (F := F)) W (Proc.devRef .tc main_v63) = (val_main_v63 (F := F) x0 x1 x2 x3 x4 x7 x8)
      ∧ after (ops6 (F := F)) W (Proc.devRef .tc main_v65) = (val_main_v65 (F := F) x0 x1 x2 x3 x4 x7 x8) := by
  refine ⟨?_, ?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v41
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v50
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v52
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v54
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v41]
    try rw [h_main_v50]
    try rw [h_main_v52]
    try rw [h_main_v54]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v41]
    try rw [h_main_v50]
    try rw [h_main_v52]
    try rw [h_main_v54]
    rfl

/-- Operations 75 to 85 of @main. -/
abbrev ops7 : List (HloOp τ sig (Elt F)) :=
  [ unary main_v65 main_v66 (Host.exp : (⟨S32x512x512, .f32⟩ : BufTy).Contents (Elt F) → (⟨S32x512x512, .f32⟩ : BufTy).Contents (Elt F)),
    nullary main_cst (constant S_ .f32 0x3F800000#32),
    unary main_cst main_v67 (broadcastInDim S32x512x512 ![] bcast_S_S32x512x512 : (⟨S_, .f32⟩ : BufTy).Contents (Elt F) → (⟨S32x512x512, .f32⟩ : BufTy).Contents (Elt F)),
    binary main_v67 main_v66 main_v68 (addf : (⟨S32x512x512, .f32⟩ : BufTy).Contents (Elt F) → (⟨S32x512x512, .f32⟩ : BufTy).Contents (Elt F) → (⟨S32x512x512, .f32⟩ : BufTy).Contents (Elt F)),
    nullary main_cst_4 (constant S_ .f32 0x3F800000#32),
    unary main_cst_4 main_v69 (broadcastInDim S32x512x512 ![] bcast_S_S32x512x512 : (⟨S_, .f32⟩ : BufTy).Contents (Elt F) → (⟨S32x512x512, .f32⟩ : BufTy).Contents (Elt F)),
    binary main_v69 main_v68 main_v70 (Host.divf : (⟨S32x512x512, .f32⟩ : BufTy).Contents (Elt F) → (⟨S32x512x512, .f32⟩ : BufTy).Contents (Elt F) → (⟨S32x512x512, .f32⟩ : BufTy).Contents (Elt F)),
    binary main_v70 main_v41 main_v71 (mulf : (⟨S32x512x512, .f32⟩ : BufTy).Contents (Elt F) → (⟨S32x512x512, .f32⟩ : BufTy).Contents (Elt F) → (⟨S32x512x512, .f32⟩ : BufTy).Contents (Elt F)),
    nullary main_cst_5 (constant S_ .f32 0x3F800000#32),
    unary main_cst_5 main_v72 (broadcastInDim S32x512x512 ![] bcast_S_S32x512x512 : (⟨S_, .f32⟩ : BufTy).Contents (Elt F) → (⟨S32x512x512, .f32⟩ : BufTy).Contents (Elt F)),
    binary main_v72 main_v70 main_v73 (subf : (⟨S32x512x512, .f32⟩ : BufTy).Contents (Elt F) → (⟨S32x512x512, .f32⟩ : BufTy).Contents (Elt F) → (⟨S32x512x512, .f32⟩ : BufTy).Contents (Elt F)) ]

theorem ops7_sub : (ops7 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩
theorem ops7_fresh : ∀ op ∈ (ops7 : List (HloOp τ sig (Elt F))), op.fresh = ∅ := by
  intro _ h; (repeat (cases h with | head => rfl | tail _ h => ?_)); exact nomatch h

set_option maxRecDepth 8192 in
/-- From buffer contents `W` that hold the stages' values at every buffer still to be read, operations 75 to 85
    leave the stages' values at every buffer read after them. -/
theorem chunk7 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v41 : W (Proc.devRef .tc main_v41) = (val_main_v41 (F := F) x0 x1 x2 x3 x4))
    (h_main_v50 : W (Proc.devRef .tc main_v50) = (val_main_v50 (F := F) x0 x1 x2 x5 x6))
    (h_main_v52 : W (Proc.devRef .tc main_v52) = (val_main_v52 (F := F) x7))
    (h_main_v54 : W (Proc.devRef .tc main_v54) = (val_main_v54 (F := F) x8))
    (h_main_v63 : W (Proc.devRef .tc main_v63) = (val_main_v63 (F := F) x0 x1 x2 x3 x4 x7 x8))
    (h_main_v65 : W (Proc.devRef .tc main_v65) = (val_main_v65 (F := F) x0 x1 x2 x3 x4 x7 x8)) :
    after (ops7 (F := F)) W (Proc.devRef .tc main_arg0) = x0
      ∧ after (ops7 (F := F)) W (Proc.devRef .tc main_arg1) = x1
      ∧ after (ops7 (F := F)) W (Proc.devRef .tc main_arg10) = x10
      ∧ after (ops7 (F := F)) W (Proc.devRef .tc main_arg2) = x2
      ∧ after (ops7 (F := F)) W (Proc.devRef .tc main_arg3) = x3
      ∧ after (ops7 (F := F)) W (Proc.devRef .tc main_arg4) = x4
      ∧ after (ops7 (F := F)) W (Proc.devRef .tc main_arg5) = x5
      ∧ after (ops7 (F := F)) W (Proc.devRef .tc main_arg6) = x6
      ∧ after (ops7 (F := F)) W (Proc.devRef .tc main_arg7) = x7
      ∧ after (ops7 (F := F)) W (Proc.devRef .tc main_arg8) = x8
      ∧ after (ops7 (F := F)) W (Proc.devRef .tc main_arg9) = x9
      ∧ after (ops7 (F := F)) W (Proc.devRef .tc main_v6) = (val_main_v6 (F := F))
      ∧ after (ops7 (F := F)) W (Proc.devRef .tc main_v50) = (val_main_v50 (F := F) x0 x1 x2 x5 x6)
      ∧ after (ops7 (F := F)) W (Proc.devRef .tc main_v52) = (val_main_v52 (F := F) x7)
      ∧ after (ops7 (F := F)) W (Proc.devRef .tc main_v54) = (val_main_v54 (F := F) x8)
      ∧ after (ops7 (F := F)) W (Proc.devRef .tc main_v63) = (val_main_v63 (F := F) x0 x1 x2 x3 x4 x7 x8)
      ∧ after (ops7 (F := F)) W (Proc.devRef .tc main_v71) = (val_main_v71 (F := F) x0 x1 x2 x3 x4 x7 x8)
      ∧ after (ops7 (F := F)) W (Proc.devRef .tc main_v73) = (val_main_v73 (F := F) x0 x1 x2 x3 x4 x7 x8) := by
  refine ⟨?_, ?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v50
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v52
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v54
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v63
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v41]
    try rw [h_main_v50]
    try rw [h_main_v52]
    try rw [h_main_v54]
    try rw [h_main_v63]
    try rw [h_main_v65]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v41]
    try rw [h_main_v50]
    try rw [h_main_v52]
    try rw [h_main_v54]
    try rw [h_main_v63]
    try rw [h_main_v65]
    rfl

/-- Operations 86 to 96 of @main. -/
abbrev ops8 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S32x512x512, .f32⟩) main_call2_v0) (broadcastInDim S32x512x512 ![] bcast_S_S32x512x512),
    TRef.binary (TRef.of (T := ⟨S32x512x512, .f32⟩) main_v63) (TRef.of (T := ⟨S32x512x512, .f32⟩) main_call2_v0) (TRef.of (T := ⟨S32x512x512, .f32⟩) main_v74) maximumf,
    binary main_v73 main_v74 main_v75 (mulf : (⟨S32x512x512, .f32⟩ : BufTy).Contents (Elt F) → (⟨S32x512x512, .f32⟩ : BufTy).Contents (Elt F) → (⟨S32x512x512, .f32⟩ : BufTy).Contents (Elt F)),
    binary main_v71 main_v75 main_v76 (addf : (⟨S32x512x512, .f32⟩ : BufTy).Contents (Elt F) → (⟨S32x512x512, .f32⟩ : BufTy).Contents (Elt F) → (⟨S32x512x512, .f32⟩ : BufTy).Contents (Elt F)),
    unary main_v52 main_v77 ((extractStridedSlice S1x1024x512 ![1, 0, 0] · slices_S2x1024x512_S1x1024x512_1_0_0) : (⟨S2x1024x512, .f32⟩ : BufTy).Contents (Elt F) → (⟨S1x1024x512, .f32⟩ : BufTy).Contents (Elt F)),
    reshape main_v77 main_v78 rfl shapeCasts_S1x1024x512_S1024x512,
    binary main_v76 main_v78 main_v79 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_v54 main_v80 ((extractStridedSlice S1x1024 ![1, 0] · slices_S2x1024_S1x1024_1_0) : (⟨S2x1024, .f32⟩ : BufTy).Contents (Elt F) → (⟨S1x1024, .f32⟩ : BufTy).Contents (Elt F)),
    reshape main_v80 main_v81 rfl shapeCasts_S1x1024_S1024,
    unary main_v81 main_v82 (broadcastInDim S1x1x1024 ![2] bcast_S1024_S1x1x1024_2 : (⟨S1024, .f32⟩ : BufTy).Contents (Elt F) → (⟨S1x1x1024, .f32⟩ : BufTy).Contents (Elt F)) ]

theorem ops8_sub : (ops8 : List (HloOp τ sig (Elt F))).Forall fun op => op.bufs ⊆ tcRefs τ sig :=
  ⟨nullary_bufs_sub .., unary_bufs_sub .., binary_bufs_sub .., binary_bufs_sub .., binary_bufs_sub .., unary_bufs_sub .., reshape_bufs_sub .., binary_bufs_sub .., unary_bufs_sub .., reshape_bufs_sub .., unary_bufs_sub ..⟩
theorem ops8_fresh : ∀ op ∈ (ops8 : List (HloOp τ sig (Elt F))), op.fresh = ∅ := by
  intro _ h; (repeat (cases h with | head => rfl | tail _ h => ?_)); exact nomatch h

set_option maxRecDepth 8192 in
/-- From buffer contents `W` that hold the stages' values at every buffer still to be read, operations 86 to 96
    leave the stages' values at every buffer read after them. -/
theorem chunk8 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v50 : W (Proc.devRef .tc main_v50) = (val_main_v50 (F := F) x0 x1 x2 x5 x6))
    (h_main_v52 : W (Proc.devRef .tc main_v52) = (val_main_v52 (F := F) x7))
    (h_main_v54 : W (Proc.devRef .tc main_v54) = (val_main_v54 (F := F) x8))
    (h_main_v63 : W (Proc.devRef .tc main_v63) = (val_main_v63 (F := F) x0 x1 x2 x3 x4 x7 x8))
    (h_main_v71 : W (Proc.devRef .tc main_v71) = (val_main_v71 (F := F) x0 x1 x2 x3 x4 x7 x8))
    (h_main_v73 : W (Proc.devRef .tc main_v73) = (val_main_v73 (F := F) x0 x1 x2 x3 x4 x7 x8)) :
    after (ops8 (F := F)) W (Proc.devRef .tc main_arg0) = x0
      ∧ after (ops8 (F := F)) W (Proc.devRef .tc main_arg1) = x1
      ∧ after (ops8 (F := F)) W (Proc.devRef .tc main_arg10) = x10
      ∧ after (ops8 (F := F)) W (Proc.devRef .tc main_arg2) = x2
      ∧ after (ops8 (F := F)) W (Proc.devRef .tc main_arg3) = x3
      ∧ after (ops8 (F := F)) W (Proc.devRef .tc main_arg4) = x4
      ∧ after (ops8 (F := F)) W (Proc.devRef .tc main_arg5) = x5
      ∧ after (ops8 (F := F)) W (Proc.devRef .tc main_arg6) = x6
      ∧ after (ops8 (F := F)) W (Proc.devRef .tc main_arg7) = x7
      ∧ after (ops8 (F := F)) W (Proc.devRef .tc main_arg8) = x8
      ∧ after (ops8 (F := F)) W (Proc.devRef .tc main_arg9) = x9
      ∧ after (ops8 (F := F)) W (Proc.devRef .tc main_v6) = (val_main_v6 (F := F))
      ∧ after (ops8 (F := F)) W (Proc.devRef .tc main_v50) = (val_main_v50 (F := F) x0 x1 x2 x5 x6)
      ∧ after (ops8 (F := F)) W (Proc.devRef .tc main_v76) = (val_main_v76 (F := F) x0 x1 x2 x3 x4 x7 x8)
      ∧ after (ops8 (F := F)) W (Proc.devRef .tc main_v79) = (val_main_v79 (F := F) x0 x1 x2 x3 x4 x7 x8)
      ∧ after (ops8 (F := F)) W (Proc.devRef .tc main_v82) = (val_main_v82 (F := F) x8) := by
  refine ⟨?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v50
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v52]
    try rw [h_main_v54]
    try rw [h_main_v63]
    try rw [h_main_v71]
    try rw [h_main_v73]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v52]
    try rw [h_main_v54]
    try rw [h_main_v63]
    try rw [h_main_v71]
    try rw [h_main_v73]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v52]
    try rw [h_main_v54]
    try rw [h_main_v63]
    try rw [h_main_v71]
    try rw [h_main_v73]
    rfl

/-- Operations 97 to 107 of @main. -/
abbrev ops9 : List (HloOp τ sig (Elt F)) :=
  [ unary main_v82 main_v83 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v79 main_v83 main_v84 (addf : (⟨S32x512x1024, .f32⟩ : BufTy).Contents (Elt F) → (⟨S32x512x1024, .f32⟩ : BufTy).Contents (Elt F) → (⟨S32x512x1024, .f32⟩ : BufTy).Contents (Elt F)),
    unary main_v84 main_v85 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    unary main_v84 main_v86 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v86 main_v87 (Host.negf : (⟨S32x512x512, .f32⟩ : BufTy).Contents (Elt F) → (⟨S32x512x512, .f32⟩ : BufTy).Contents (Elt F)),
    unary main_v87 main_v88 (Host.exp : (⟨S32x512x512, .f32⟩ : BufTy).Contents (Elt F) → (⟨S32x512x512, .f32⟩ : BufTy).Contents (Elt F)),
    nullary main_cst_6 (constant S_ .f32 0x3F800000#32),
    unary main_cst_6 main_v89 (broadcastInDim S32x512x512 ![] bcast_S_S32x512x512 : (⟨S_, .f32⟩ : BufTy).Contents (Elt F) → (⟨S32x512x512, .f32⟩ : BufTy).Contents (Elt F)),
    binary main_v89 main_v88 main_v90 (addf : (⟨S32x512x512, .f32⟩ : BufTy).Contents (Elt F) → (⟨S32x512x512, .f32⟩ : BufTy).Contents (Elt F) → (⟨S32x512x512, .f32⟩ : BufTy).Contents (Elt F)),
    nullary main_cst_7 (constant S_ .f32 0x3F800000#32),
    unary main_cst_7 main_v91 (broadcastInDim S32x512x512 ![] bcast_S_S32x512x512 : (⟨S_, .f32⟩ : BufTy).Contents (Elt F) → (⟨S32x512x512, .f32⟩ : BufTy).Contents (Elt F)) ]

theorem ops9_sub : (ops9 : List (HloOp τ sig (Elt F))).Forall fun op => op.bufs ⊆ tcRefs τ sig :=
  ⟨unary_bufs_sub .., binary_bufs_sub .., unary_bufs_sub .., unary_bufs_sub .., unary_bufs_sub .., unary_bufs_sub .., nullary_bufs_sub .., unary_bufs_sub .., binary_bufs_sub .., nullary_bufs_sub .., unary_bufs_sub ..⟩
theorem ops9_fresh : ∀ op ∈ (ops9 : List (HloOp τ sig (Elt F))), op.fresh = ∅ := by
  intro _ h; (repeat (cases h with | head => rfl | tail _ h => ?_)); exact nomatch h

set_option maxRecDepth 8192 in
/-- From buffer contents `W` that hold the stages' values at every buffer still to be read, operations 97 to 107
    leave the stages' values at every buffer read after them. -/
theorem chunk9 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v50 : W (Proc.devRef .tc main_v50) = (val_main_v50 (F := F) x0 x1 x2 x5 x6))
    (h_main_v76 : W (Proc.devRef .tc main_v76) = (val_main_v76 (F := F) x0 x1 x2 x3 x4 x7 x8))
    (h_main_v79 : W (Proc.devRef .tc main_v79) = (val_main_v79 (F := F) x0 x1 x2 x3 x4 x7 x8))
    (h_main_v82 : W (Proc.devRef .tc main_v82) = (val_main_v82 (F := F) x8)) :
    after (ops9 (F := F)) W (Proc.devRef .tc main_arg0) = x0
      ∧ after (ops9 (F := F)) W (Proc.devRef .tc main_arg1) = x1
      ∧ after (ops9 (F := F)) W (Proc.devRef .tc main_arg10) = x10
      ∧ after (ops9 (F := F)) W (Proc.devRef .tc main_arg2) = x2
      ∧ after (ops9 (F := F)) W (Proc.devRef .tc main_arg3) = x3
      ∧ after (ops9 (F := F)) W (Proc.devRef .tc main_arg4) = x4
      ∧ after (ops9 (F := F)) W (Proc.devRef .tc main_arg5) = x5
      ∧ after (ops9 (F := F)) W (Proc.devRef .tc main_arg6) = x6
      ∧ after (ops9 (F := F)) W (Proc.devRef .tc main_arg7) = x7
      ∧ after (ops9 (F := F)) W (Proc.devRef .tc main_arg8) = x8
      ∧ after (ops9 (F := F)) W (Proc.devRef .tc main_arg9) = x9
      ∧ after (ops9 (F := F)) W (Proc.devRef .tc main_v6) = (val_main_v6 (F := F))
      ∧ after (ops9 (F := F)) W (Proc.devRef .tc main_v50) = (val_main_v50 (F := F) x0 x1 x2 x5 x6)
      ∧ after (ops9 (F := F)) W (Proc.devRef .tc main_v76) = (val_main_v76 (F := F) x0 x1 x2 x3 x4 x7 x8)
      ∧ after (ops9 (F := F)) W (Proc.devRef .tc main_v85) = (val_main_v85 (F := F) x0 x1 x2 x3 x4 x7 x8)
      ∧ after (ops9 (F := F)) W (Proc.devRef .tc main_v90) = (val_main_v90 (F := F) x0 x1 x2 x3 x4 x7 x8)
      ∧ after (ops9 (F := F)) W (Proc.devRef .tc main_v91) = (val_main_v91 (F := F)) := by
  refine ⟨?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v50
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v76
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v76]
    try rw [h_main_v79]
    try rw [h_main_v82]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v76]
    try rw [h_main_v79]
    try rw [h_main_v82]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v76]
    try rw [h_main_v79]
    try rw [h_main_v82]
    rfl

/-- Operations 108 to 117 of @main. -/
abbrev ops10 : List (HloOp τ sig (Elt F)) :=
  [ binary main_v91 main_v90 main_v92 (Host.divf : (⟨S32x512x512, .f32⟩ : BufTy).Contents (Elt F) → (⟨S32x512x512, .f32⟩ : BufTy).Contents (Elt F) → (⟨S32x512x512, .f32⟩ : BufTy).Contents (Elt F)),
    binary main_v92 main_v76 main_v93 (mulf : (⟨S32x512x512, .f32⟩ : BufTy).Contents (Elt F) → (⟨S32x512x512, .f32⟩ : BufTy).Contents (Elt F) → (⟨S32x512x512, .f32⟩ : BufTy).Contents (Elt F)),
    nullary main_cst_8 (constant S_ .f32 0x3F800000#32),
    unary main_cst_8 main_v94 (broadcastInDim S32x512x512 ![] bcast_S_S32x512x512 : (⟨S_, .f32⟩ : BufTy).Contents (Elt F) → (⟨S32x512x512, .f32⟩ : BufTy).Contents (Elt F)),
    binary main_v94 main_v92 main_v95 (subf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32x512x512, .f32⟩) main_call3_v0) (broadcastInDim S32x512x512 ![] bcast_S_S32x512x512),
    TRef.binary (TRef.of (T := ⟨S32x512x512, .f32⟩) main_v85) (TRef.of (T := ⟨S32x512x512, .f32⟩) main_call3_v0) (TRef.of (T := ⟨S32x512x512, .f32⟩) main_v96) maximumf,
    binary main_v95 main_v96 main_v97 (mulf : (⟨S32x512x512, .f32⟩ : BufTy).Contents (Elt F) → (⟨S32x512x512, .f32⟩ : BufTy).Contents (Elt F) → (⟨S32x512x512, .f32⟩ : BufTy).Contents (Elt F)),
    binary main_v93 main_v97 main_v98 (addf : (⟨S32x512x512, .f32⟩ : BufTy).Contents (Elt F) → (⟨S32x512x512, .f32⟩ : BufTy).Contents (Elt F) → (⟨S32x512x512, .f32⟩ : BufTy).Contents (Elt F)) ]

theorem ops10_sub : (ops10 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub ..⟩
theorem ops10_fresh : ∀ op ∈ (ops10 : List (HloOp τ sig (Elt F))), op.fresh = ∅ := by
  intro _ h; (repeat (cases h with | head => rfl | tail _ h => ?_)); exact nomatch h

set_option maxRecDepth 8192 in
/-- From buffer contents `W` that hold the stages' values at every buffer still to be read, operations 108 to 117
    leave the stages' values at every buffer read after them. -/
theorem chunk10 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v50 : W (Proc.devRef .tc main_v50) = (val_main_v50 (F := F) x0 x1 x2 x5 x6))
    (h_main_v76 : W (Proc.devRef .tc main_v76) = (val_main_v76 (F := F) x0 x1 x2 x3 x4 x7 x8))
    (h_main_v85 : W (Proc.devRef .tc main_v85) = (val_main_v85 (F := F) x0 x1 x2 x3 x4 x7 x8))
    (h_main_v90 : W (Proc.devRef .tc main_v90) = (val_main_v90 (F := F) x0 x1 x2 x3 x4 x7 x8))
    (h_main_v91 : W (Proc.devRef .tc main_v91) = (val_main_v91 (F := F))) :
    after (ops10 (F := F)) W (Proc.devRef .tc main_arg0) = x0
      ∧ after (ops10 (F := F)) W (Proc.devRef .tc main_arg1) = x1
      ∧ after (ops10 (F := F)) W (Proc.devRef .tc main_arg10) = x10
      ∧ after (ops10 (F := F)) W (Proc.devRef .tc main_arg2) = x2
      ∧ after (ops10 (F := F)) W (Proc.devRef .tc main_arg3) = x3
      ∧ after (ops10 (F := F)) W (Proc.devRef .tc main_arg4) = x4
      ∧ after (ops10 (F := F)) W (Proc.devRef .tc main_arg5) = x5
      ∧ after (ops10 (F := F)) W (Proc.devRef .tc main_arg6) = x6
      ∧ after (ops10 (F := F)) W (Proc.devRef .tc main_arg7) = x7
      ∧ after (ops10 (F := F)) W (Proc.devRef .tc main_arg8) = x8
      ∧ after (ops10 (F := F)) W (Proc.devRef .tc main_arg9) = x9
      ∧ after (ops10 (F := F)) W (Proc.devRef .tc main_v6) = (val_main_v6 (F := F))
      ∧ after (ops10 (F := F)) W (Proc.devRef .tc main_v50) = (val_main_v50 (F := F) x0 x1 x2 x5 x6)
      ∧ after (ops10 (F := F)) W (Proc.devRef .tc main_v98) = (val_main_v98 (F := F) x0 x1 x2 x3 x4 x7 x8) := by
  refine ⟨?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v50
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v76]
    try rw [h_main_v85]
    try rw [h_main_v90]
    try rw [h_main_v91]
    rfl

/-- Operations 118 to 127 of @main. -/
abbrev ops11 : List (HloOp τ sig (Elt F)) :=
  [ unary main_arg9 main_v99 ((extractStridedSlice S1x2x1024x512 ![0, 0, 0, 0] · slices_S2x2x1024x512_S1x2x1024x512_0_0_0_0) : (⟨S2x2x1024x512, .f32⟩ : BufTy).Contents (Elt F) → (⟨S1x2x1024x512, .f32⟩ : BufTy).Contents (Elt F)),
    reshape main_v99 main_v100 rfl shapeCasts_S1x2x1024x512_S2x1024x512,
    unary main_arg10 main_v101 ((extractStridedSlice S1x2x1024 ![0, 0, 0] · slices_S2x2x1024_S1x2x1024_0_0_0) : (⟨S2x2x1024, .f32⟩ : BufTy).Contents (Elt F) → (⟨S1x2x1024, .f32⟩ : BufTy).Contents (Elt F)),
    reshape main_v101 main_v102 rfl shapeCasts_S1x2x1024_S2x1024,
    unary main_v100 main_v103 ((extractStridedSlice S1x1024x512 ![0, 0, 0] · slices_S2x1024x512_S1x1024x512_0_0_0) : (⟨S2x1024x512, .f32⟩ : BufTy).Contents (Elt F) → (⟨S1x1024x512, .f32⟩ : BufTy).Contents (Elt F)),
    reshape main_v103 main_v104 rfl shapeCasts_S1x1024x512_S1024x512,
    binary main_v50 main_v104 main_v105 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_v102 main_v106 ((extractStridedSlice S1x1024 ![0, 0] · slices_S2x1024_S1x1024_0_0) : (⟨S2x1024, .f32⟩ : BufTy).Contents (Elt F) → (⟨S1x1024, .f32⟩ : BufTy).Contents (Elt F)),
    reshape main_v106 main_v107 rfl shapeCasts_S1x1024_S1024,
    unary main_v107 main_v108 (broadcastInDim S1x1x1024 ![2] bcast_S1024_S1x1x1024_2 : (⟨S1024, .f32⟩ : BufTy).Contents (Elt F) → (⟨S1x1x1024, .f32⟩ : BufTy).Contents (Elt F)) ]

theorem ops11_sub : (ops11 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., reshape_bufs_sub .., unary_bufs_sub ..⟩
theorem ops11_fresh : ∀ op ∈ (ops11 : List (HloOp τ sig (Elt F))), op.fresh = ∅ := by
  intro _ h; (repeat (cases h with | head => rfl | tail _ h => ?_)); exact nomatch h

set_option maxRecDepth 8192 in
/-- From buffer contents `W` that hold the stages' values at every buffer still to be read, operations 118 to 127
    leave the stages' values at every buffer read after them. -/
theorem chunk11 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v50 : W (Proc.devRef .tc main_v50) = (val_main_v50 (F := F) x0 x1 x2 x5 x6))
    (h_main_v98 : W (Proc.devRef .tc main_v98) = (val_main_v98 (F := F) x0 x1 x2 x3 x4 x7 x8)) :
    after (ops11 (F := F)) W (Proc.devRef .tc main_arg0) = x0
      ∧ after (ops11 (F := F)) W (Proc.devRef .tc main_arg1) = x1
      ∧ after (ops11 (F := F)) W (Proc.devRef .tc main_arg10) = x10
      ∧ after (ops11 (F := F)) W (Proc.devRef .tc main_arg2) = x2
      ∧ after (ops11 (F := F)) W (Proc.devRef .tc main_arg3) = x3
      ∧ after (ops11 (F := F)) W (Proc.devRef .tc main_arg4) = x4
      ∧ after (ops11 (F := F)) W (Proc.devRef .tc main_arg5) = x5
      ∧ after (ops11 (F := F)) W (Proc.devRef .tc main_arg6) = x6
      ∧ after (ops11 (F := F)) W (Proc.devRef .tc main_arg7) = x7
      ∧ after (ops11 (F := F)) W (Proc.devRef .tc main_arg8) = x8
      ∧ after (ops11 (F := F)) W (Proc.devRef .tc main_arg9) = x9
      ∧ after (ops11 (F := F)) W (Proc.devRef .tc main_v6) = (val_main_v6 (F := F))
      ∧ after (ops11 (F := F)) W (Proc.devRef .tc main_v50) = (val_main_v50 (F := F) x0 x1 x2 x5 x6)
      ∧ after (ops11 (F := F)) W (Proc.devRef .tc main_v98) = (val_main_v98 (F := F) x0 x1 x2 x3 x4 x7 x8)
      ∧ after (ops11 (F := F)) W (Proc.devRef .tc main_v100) = (val_main_v100 (F := F) x9)
      ∧ after (ops11 (F := F)) W (Proc.devRef .tc main_v102) = (val_main_v102 (F := F) x10)
      ∧ after (ops11 (F := F)) W (Proc.devRef .tc main_v105) = (val_main_v105 (F := F) x0 x1 x2 x5 x6 x9)
      ∧ after (ops11 (F := F)) W (Proc.devRef .tc main_v108) = (val_main_v108 (F := F) x10) := by
  refine ⟨?_, ?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v50
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v98
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v98]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v98]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v98]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v98]
    rfl

/-- Part 1's operations in order. -/
abbrev opsPart1 : List (HloOp τ sig (Elt F)) := ops6 ++ (ops7 ++ (ops8 ++ (ops9 ++ (ops10 ++ (ops11)))))

set_option maxRecDepth 8192 in
set_option maxHeartbeats 4000000 in
/-- Part 1 of @main is the straight line of its operations. -/
theorem part1_eq (c : Dev nD) : main_part1 (F := F) c = seq (opsPart1 (F := F)) := rfl

end Cert.ReferenceIdeal.RunChunks

end
-- ==== Proof.RefRunPart2.lean ====
/-
  The reference's host program, part 2 of its six printed parts (operations 128 to 191), run a stretch of operations at a time.
  `main_part2` is the straight line of its stretches' operations (`part2_eq`); each stretch lemma says that the
  stretch, started from buffer contents that hold the stages' values (RefReadP's `val_…`) at every buffer still to be
  read, leaves the stages' values at every buffer read after it.
-/
import proofs.«101546_j62689342652477_1_alg».proof.Proof.RefReadP

noncomputable section

namespace Cert.ReferenceIdeal.RunChunks

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 128 to 138 of @main. -/
abbrev ops12 : List (HloOp τ sig (Elt F)) :=
  [ unary main_v108 main_v109 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v105 main_v109 main_v110 (addf : (⟨S32x512x1024, .f32⟩ : BufTy).Contents (Elt F) → (⟨S32x512x1024, .f32⟩ : BufTy).Contents (Elt F) → (⟨S32x512x1024, .f32⟩ : BufTy).Contents (Elt F)),
    unary main_v110 main_v111 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    unary main_v110 main_v112 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v112 main_v113 (Host.negf : (⟨S32x512x512, .f32⟩ : BufTy).Contents (Elt F) → (⟨S32x512x512, .f32⟩ : BufTy).Contents (Elt F)),
    unary main_v113 main_v114 (Host.exp : (⟨S32x512x512, .f32⟩ : BufTy).Contents (Elt F) → (⟨S32x512x512, .f32⟩ : BufTy).Contents (Elt F)),
    nullary main_cst_9 (constant S_ .f32 0x3F800000#32),
    unary main_cst_9 main_v115 (broadcastInDim S32x512x512 ![] bcast_S_S32x512x512 : (⟨S_, .f32⟩ : BufTy).Contents (Elt F) → (⟨S32x512x512, .f32⟩ : BufTy).Contents (Elt F)),
    binary main_v115 main_v114 main_v116 (addf : (⟨S32x512x512, .f32⟩ : BufTy).Contents (Elt F) → (⟨S32x512x512, .f32⟩ : BufTy).Contents (Elt F) → (⟨S32x512x512, .f32⟩ : BufTy).Contents (Elt F)),
    nullary main_cst_10 (constant S_ .f32 0x3F800000#32),
    unary main_cst_10 main_v117 (broadcastInDim S32x512x512 ![] bcast_S_S32x512x512 : (⟨S_, .f32⟩ : BufTy).Contents (Elt F) → (⟨S32x512x512, .f32⟩ : BufTy).Contents (Elt F)) ]

theorem ops12_sub : (ops12 : List (HloOp τ sig (Elt F))).Forall fun op => op.bufs ⊆ tcRefs τ sig :=
  ⟨unary_bufs_sub .., binary_bufs_sub .., unary_bufs_sub .., unary_bufs_sub .., unary_bufs_sub .., unary_bufs_sub .., nullary_bufs_sub .., unary_bufs_sub .., binary_bufs_sub .., nullary_bufs_sub .., unary_bufs_sub ..⟩
theorem ops12_fresh : ∀ op ∈ (ops12 : List (HloOp τ sig (Elt F))), op.fresh = ∅ := by
  intro _ h; (repeat (cases h with | head => rfl | tail _ h => ?_)); exact nomatch h

set_option maxRecDepth 8192 in
/-- From buffer contents `W` that hold the stages' values at every buffer still to be read, operations 128 to 138
    leave the stages' values at every buffer read after them. -/
theorem chunk12 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v50 : W (Proc.devRef .tc main_v50) = (val_main_v50 (F := F) x0 x1 x2 x5 x6))
    (h_main_v98 : W (Proc.devRef .tc main_v98) = (val_main_v98 (F := F) x0 x1 x2 x3 x4 x7 x8))
    (h_main_v100 : W (Proc.devRef .tc main_v100) = (val_main_v100 (F := F) x9))
    (h_main_v102 : W (Proc.devRef .tc main_v102) = (val_main_v102 (F := F) x10))
    (h_main_v105 : W (Proc.devRef .tc main_v105) = (val_main_v105 (F := F) x0 x1 x2 x5 x6 x9))
    (h_main_v108 : W (Proc.devRef .tc main_v108) = (val_main_v108 (F := F) x10)) :
    after (ops12 (F := F)) W (Proc.devRef .tc main_arg0) = x0
      ∧ after (ops12 (F := F)) W (Proc.devRef .tc main_arg1) = x1
      ∧ after (ops12 (F := F)) W (Proc.devRef .tc main_arg10) = x10
      ∧ after (ops12 (F := F)) W (Proc.devRef .tc main_arg2) = x2
      ∧ after (ops12 (F := F)) W (Proc.devRef .tc main_arg3) = x3
      ∧ after (ops12 (F := F)) W (Proc.devRef .tc main_arg4) = x4
      ∧ after (ops12 (F := F)) W (Proc.devRef .tc main_arg5) = x5
      ∧ after (ops12 (F := F)) W (Proc.devRef .tc main_arg6) = x6
      ∧ after (ops12 (F := F)) W (Proc.devRef .tc main_arg7) = x7
      ∧ after (ops12 (F := F)) W (Proc.devRef .tc main_arg8) = x8
      ∧ after (ops12 (F := F)) W (Proc.devRef .tc main_arg9) = x9
      ∧ after (ops12 (F := F)) W (Proc.devRef .tc main_v6) = (val_main_v6 (F := F))
      ∧ after (ops12 (F := F)) W (Proc.devRef .tc main_v50) = (val_main_v50 (F := F) x0 x1 x2 x5 x6)
      ∧ after (ops12 (F := F)) W (Proc.devRef .tc main_v98) = (val_main_v98 (F := F) x0 x1 x2 x3 x4 x7 x8)
      ∧ after (ops12 (F := F)) W (Proc.devRef .tc main_v100) = (val_main_v100 (F := F) x9)
      ∧ after (ops12 (F := F)) W (Proc.devRef .tc main_v102) = (val_main_v102 (F := F) x10)
      ∧ after (ops12 (F := F)) W (Proc.devRef .tc main_v111) = (val_main_v111 (F := F) x0 x1 x2 x5 x6 x9 x10)
      ∧ after (ops12 (F := F)) W (Proc.devRef .tc main_v116) = (val_main_v116 (F := F) x0 x1 x2 x5 x6 x9 x10)
      ∧ after (ops12 (F := F)) W (Proc.devRef .tc main_v117) = (val_main_v117 (F := F)) := by
  refine ⟨?_, ?_, ?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v50
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v98
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v100
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v102
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v98]
    try rw [h_main_v100]
    try rw [h_main_v102]
    try rw [h_main_v105]
    try rw [h_main_v108]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v98]
    try rw [h_main_v100]
    try rw [h_main_v102]
    try rw [h_main_v105]
    try rw [h_main_v108]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v98]
    try rw [h_main_v100]
    try rw [h_main_v102]
    try rw [h_main_v105]
    try rw [h_main_v108]
    rfl

/-- Operations 139 to 149 of @main. -/
abbrev ops13 : List (HloOp τ sig (Elt F)) :=
  [ binary main_v117 main_v116 main_v118 (Host.divf : (⟨S32x512x512, .f32⟩ : BufTy).Contents (Elt F) → (⟨S32x512x512, .f32⟩ : BufTy).Contents (Elt F) → (⟨S32x512x512, .f32⟩ : BufTy).Contents (Elt F)),
    binary main_v118 main_v50 main_v119 (mulf : (⟨S32x512x512, .f32⟩ : BufTy).Contents (Elt F) → (⟨S32x512x512, .f32⟩ : BufTy).Contents (Elt F) → (⟨S32x512x512, .f32⟩ : BufTy).Contents (Elt F)),
    nullary main_cst_11 (constant S_ .f32 0x3F800000#32),
    unary main_cst_11 main_v120 (broadcastInDim S32x512x512 ![] bcast_S_S32x512x512 : (⟨S_, .f32⟩ : BufTy).Contents (Elt F) → (⟨S32x512x512, .f32⟩ : BufTy).Contents (Elt F)),
    binary main_v120 main_v118 main_v121 (subf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S32x512x512, .f32⟩) main_call4_v0) (broadcastInDim S32x512x512 ![] bcast_S_S32x512x512),
    TRef.binary (TRef.of (T := ⟨S32x512x512, .f32⟩) main_v111) (TRef.of (T := ⟨S32x512x512, .f32⟩) main_call4_v0) (TRef.of (T := ⟨S32x512x512, .f32⟩) main_v122) maximumf,
    binary main_v121 main_v122 main_v123 (mulf : (⟨S32x512x512, .f32⟩ : BufTy).Contents (Elt F) → (⟨S32x512x512, .f32⟩ : BufTy).Contents (Elt F) → (⟨S32x512x512, .f32⟩ : BufTy).Contents (Elt F)),
    binary main_v119 main_v123 main_v124 (addf : (⟨S32x512x512, .f32⟩ : BufTy).Contents (Elt F) → (⟨S32x512x512, .f32⟩ : BufTy).Contents (Elt F) → (⟨S32x512x512, .f32⟩ : BufTy).Contents (Elt F)),
    unary main_v100 main_v125 ((extractStridedSlice S1x1024x512 ![1, 0, 0] · slices_S2x1024x512_S1x1024x512_1_0_0) : (⟨S2x1024x512, .f32⟩ : BufTy).Contents (Elt F) → (⟨S1x1024x512, .f32⟩ : BufTy).Contents (Elt F)) ]

theorem ops13_sub : (ops13 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., unary_bufs_sub ..⟩
theorem ops13_fresh : ∀ op ∈ (ops13 : List (HloOp τ sig (Elt F))), op.fresh = ∅ := by
  intro _ h; (repeat (cases h with | head => rfl | tail _ h => ?_)); exact nomatch h

set_option maxRecDepth 8192 in
/-- From buffer contents `W` that hold the stages' values at every buffer still to be read, operations 139 to 149
    leave the stages' values at every buffer read after them. -/
theorem chunk13 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v50 : W (Proc.devRef .tc main_v50) = (val_main_v50 (F := F) x0 x1 x2 x5 x6))
    (h_main_v98 : W (Proc.devRef .tc main_v98) = (val_main_v98 (F := F) x0 x1 x2 x3 x4 x7 x8))
    (h_main_v100 : W (Proc.devRef .tc main_v100) = (val_main_v100 (F := F) x9))
    (h_main_v102 : W (Proc.devRef .tc main_v102) = (val_main_v102 (F := F) x10))
    (h_main_v111 : W (Proc.devRef .tc main_v111) = (val_main_v111 (F := F) x0 x1 x2 x5 x6 x9 x10))
    (h_main_v116 : W (Proc.devRef .tc main_v116) = (val_main_v116 (F := F) x0 x1 x2 x5 x6 x9 x10))
    (h_main_v117 : W (Proc.devRef .tc main_v117) = (val_main_v117 (F := F))) :
    after (ops13 (F := F)) W (Proc.devRef .tc main_arg0) = x0
      ∧ after (ops13 (F := F)) W (Proc.devRef .tc main_arg1) = x1
      ∧ after (ops13 (F := F)) W (Proc.devRef .tc main_arg10) = x10
      ∧ after (ops13 (F := F)) W (Proc.devRef .tc main_arg2) = x2
      ∧ after (ops13 (F := F)) W (Proc.devRef .tc main_arg3) = x3
      ∧ after (ops13 (F := F)) W (Proc.devRef .tc main_arg4) = x4
      ∧ after (ops13 (F := F)) W (Proc.devRef .tc main_arg5) = x5
      ∧ after (ops13 (F := F)) W (Proc.devRef .tc main_arg6) = x6
      ∧ after (ops13 (F := F)) W (Proc.devRef .tc main_arg7) = x7
      ∧ after (ops13 (F := F)) W (Proc.devRef .tc main_arg8) = x8
      ∧ after (ops13 (F := F)) W (Proc.devRef .tc main_arg9) = x9
      ∧ after (ops13 (F := F)) W (Proc.devRef .tc main_v6) = (val_main_v6 (F := F))
      ∧ after (ops13 (F := F)) W (Proc.devRef .tc main_v98) = (val_main_v98 (F := F) x0 x1 x2 x3 x4 x7 x8)
      ∧ after (ops13 (F := F)) W (Proc.devRef .tc main_v102) = (val_main_v102 (F := F) x10)
      ∧ after (ops13 (F := F)) W (Proc.devRef .tc main_v124) = (val_main_v124 (F := F) x0 x1 x2 x5 x6 x9 x10)
      ∧ after (ops13 (F := F)) W (Proc.devRef .tc main_v125) = (val_main_v125 (F := F) x9) := by
  refine ⟨?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v98
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v102
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v98]
    try rw [h_main_v100]
    try rw [h_main_v102]
    try rw [h_main_v111]
    try rw [h_main_v116]
    try rw [h_main_v117]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v50]
    try rw [h_main_v98]
    try rw [h_main_v100]
    try rw [h_main_v102]
    try rw [h_main_v111]
    try rw [h_main_v116]
    try rw [h_main_v117]
    rfl

/-- Operations 150 to 160 of @main. -/
abbrev ops14 : List (HloOp τ sig (Elt F)) :=
  [ reshape main_v125 main_v126 rfl shapeCasts_S1x1024x512_S1024x512,
    binary main_v124 main_v126 main_v127 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_v102 main_v128 ((extractStridedSlice S1x1024 ![1, 0] · slices_S2x1024_S1x1024_1_0) : (⟨S2x1024, .f32⟩ : BufTy).Contents (Elt F) → (⟨S1x1024, .f32⟩ : BufTy).Contents (Elt F)),
    reshape main_v128 main_v129 rfl shapeCasts_S1x1024_S1024,
    unary main_v129 main_v130 (broadcastInDim S1x1x1024 ![2] bcast_S1024_S1x1x1024_2 : (⟨S1024, .f32⟩ : BufTy).Contents (Elt F) → (⟨S1x1x1024, .f32⟩ : BufTy).Contents (Elt F)),
    unary main_v130 main_v131 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v127 main_v131 main_v132 (addf : (⟨S32x512x1024, .f32⟩ : BufTy).Contents (Elt F) → (⟨S32x512x1024, .f32⟩ : BufTy).Contents (Elt F) → (⟨S32x512x1024, .f32⟩ : BufTy).Contents (Elt F)),
    unary main_v132 main_v133 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    unary main_v132 main_v134 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v134 main_v135 (Host.negf : (⟨S32x512x512, .f32⟩ : BufTy).Contents (Elt F) → (⟨S32x512x512, .f32⟩ : BufTy).Contents (Elt F)),
    unary main_v135 main_v136 (Host.exp : (⟨S32x512x512, .f32⟩ : BufTy).Contents (Elt F) → (⟨S32x512x512, .f32⟩ : BufTy).Contents (Elt F)) ]

theorem ops14_sub : (ops14 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub .., unary_bufs_sub .., unary_bufs_sub .., unary_bufs_sub .., unary_bufs_sub ..⟩
theorem ops14_fresh : ∀ op ∈ (ops14 : List (HloOp τ sig (Elt F))), op.fresh = ∅ := by
  intro _ h; (repeat (cases h with | head => rfl | tail _ h => ?_)); exact nomatch h

set_option maxRecDepth 8192 in
/-- From buffer contents `W` that hold the stages' values at every buffer still to be read, operations 150 to 160
    leave the stages' values at every buffer read after them. -/
theorem chunk14 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v98 : W (Proc.devRef .tc main_v98) = (val_main_v98 (F := F) x0 x1 x2 x3 x4 x7 x8))
    (h_main_v102 : W (Proc.devRef .tc main_v102) = (val_main_v102 (F := F) x10))
    (h_main_v124 : W (Proc.devRef .tc main_v124) = (val_main_v124 (F := F) x0 x1 x2 x5 x6 x9 x10))
    (h_main_v125 : W (Proc.devRef .tc main_v125) = (val_main_v125 (F := F) x9)) :
    after (ops14 (F := F)) W (Proc.devRef .tc main_arg0) = x0
      ∧ after (ops14 (F := F)) W (Proc.devRef .tc main_arg1) = x1
      ∧ after (ops14 (F := F)) W (Proc.devRef .tc main_arg10) = x10
      ∧ after (ops14 (F := F)) W (Proc.devRef .tc main_arg2) = x2
      ∧ after (ops14 (F := F)) W (Proc.devRef .tc main_arg3) = x3
      ∧ after (ops14 (F := F)) W (Proc.devRef .tc main_arg4) = x4
      ∧ after (ops14 (F := F)) W (Proc.devRef .tc main_arg5) = x5
      ∧ after (ops14 (F := F)) W (Proc.devRef .tc main_arg6) = x6
      ∧ after (ops14 (F := F)) W (Proc.devRef .tc main_arg7) = x7
      ∧ after (ops14 (F := F)) W (Proc.devRef .tc main_arg8) = x8
      ∧ after (ops14 (F := F)) W (Proc.devRef .tc main_arg9) = x9
      ∧ after (ops14 (F := F)) W (Proc.devRef .tc main_v6) = (val_main_v6 (F := F))
      ∧ after (ops14 (F := F)) W (Proc.devRef .tc main_v98) = (val_main_v98 (F := F) x0 x1 x2 x3 x4 x7 x8)
      ∧ after (ops14 (F := F)) W (Proc.devRef .tc main_v124) = (val_main_v124 (F := F) x0 x1 x2 x5 x6 x9 x10)
      ∧ after (ops14 (F := F)) W (Proc.devRef .tc main_v133) = (val_main_v133 (F := F) x0 x1 x2 x5 x6 x9 x10)
      ∧ after (ops14 (F := F)) W (Proc.devRef .tc main_v136) = (val_main_v136 (F := F) x0 x1 x2 x5 x6 x9 x10) := by
  refine ⟨?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v98
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v124
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v98]
    try rw [h_main_v102]
    try rw [h_main_v124]
    try rw [h_main_v125]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v98]
    try rw [h_main_v102]
    try rw [h_main_v124]
    try rw [h_main_v125]
    rfl

/-- Operations 161 to 171 of @main. -/
abbrev ops15 : List (HloOp τ sig (Elt F)) :=
  [ nullary main_cst_12 (constant S_ .f32 0x3F800000#32),
    unary main_cst_12 main_v137 (broadcastInDim S32x512x512 ![] bcast_S_S32x512x512 : (⟨S_, .f32⟩ : BufTy).Contents (Elt F) → (⟨S32x512x512, .f32⟩ : BufTy).Contents (Elt F)),
    binary main_v137 main_v136 main_v138 (addf : (⟨S32x512x512, .f32⟩ : BufTy).Contents (Elt F) → (⟨S32x512x512, .f32⟩ : BufTy).Contents (Elt F) → (⟨S32x512x512, .f32⟩ : BufTy).Contents (Elt F)),
    nullary main_cst_13 (constant S_ .f32 0x3F800000#32),
    unary main_cst_13 main_v139 (broadcastInDim S32x512x512 ![] bcast_S_S32x512x512 : (⟨S_, .f32⟩ : BufTy).Contents (Elt F) → (⟨S32x512x512, .f32⟩ : BufTy).Contents (Elt F)),
    binary main_v139 main_v138 main_v140 (Host.divf : (⟨S32x512x512, .f32⟩ : BufTy).Contents (Elt F) → (⟨S32x512x512, .f32⟩ : BufTy).Contents (Elt F) → (⟨S32x512x512, .f32⟩ : BufTy).Contents (Elt F)),
    binary main_v140 main_v124 main_v141 (mulf : (⟨S32x512x512, .f32⟩ : BufTy).Contents (Elt F) → (⟨S32x512x512, .f32⟩ : BufTy).Contents (Elt F) → (⟨S32x512x512, .f32⟩ : BufTy).Contents (Elt F)),
    nullary main_cst_14 (constant S_ .f32 0x3F800000#32),
    unary main_cst_14 main_v142 (broadcastInDim S32x512x512 ![] bcast_S_S32x512x512 : (⟨S_, .f32⟩ : BufTy).Contents (Elt F) → (⟨S32x512x512, .f32⟩ : BufTy).Contents (Elt F)),
    binary main_v142 main_v140 main_v143 (subf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call5_cst) (constant S_ .f32 0x00000000#32) ]

theorem ops15_sub : (ops15 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., nullary_bufs_sub ..⟩
theorem ops15_fresh : ∀ op ∈ (ops15 : List (HloOp τ sig (Elt F))), op.fresh = ∅ := by
  intro _ h; (repeat (cases h with | head => rfl | tail _ h => ?_)); exact nomatch h

set_option maxRecDepth 8192 in
/-- From buffer contents `W` that hold the stages' values at every buffer still to be read, operations 161 to 171
    leave the stages' values at every buffer read after them. -/
theorem chunk15 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v98 : W (Proc.devRef .tc main_v98) = (val_main_v98 (F := F) x0 x1 x2 x3 x4 x7 x8))
    (h_main_v124 : W (Proc.devRef .tc main_v124) = (val_main_v124 (F := F) x0 x1 x2 x5 x6 x9 x10))
    (h_main_v133 : W (Proc.devRef .tc main_v133) = (val_main_v133 (F := F) x0 x1 x2 x5 x6 x9 x10))
    (h_main_v136 : W (Proc.devRef .tc main_v136) = (val_main_v136 (F := F) x0 x1 x2 x5 x6 x9 x10)) :
    after (ops15 (F := F)) W (Proc.devRef .tc main_arg0) = x0
      ∧ after (ops15 (F := F)) W (Proc.devRef .tc main_arg1) = x1
      ∧ after (ops15 (F := F)) W (Proc.devRef .tc main_arg10) = x10
      ∧ after (ops15 (F := F)) W (Proc.devRef .tc main_arg2) = x2
      ∧ after (ops15 (F := F)) W (Proc.devRef .tc main_arg3) = x3
      ∧ after (ops15 (F := F)) W (Proc.devRef .tc main_arg4) = x4
      ∧ after (ops15 (F := F)) W (Proc.devRef .tc main_arg5) = x5
      ∧ after (ops15 (F := F)) W (Proc.devRef .tc main_arg6) = x6
      ∧ after (ops15 (F := F)) W (Proc.devRef .tc main_arg7) = x7
      ∧ after (ops15 (F := F)) W (Proc.devRef .tc main_arg8) = x8
      ∧ after (ops15 (F := F)) W (Proc.devRef .tc main_arg9) = x9
      ∧ after (ops15 (F := F)) W (Proc.devRef .tc main_v6) = (val_main_v6 (F := F))
      ∧ after (ops15 (F := F)) W (Proc.devRef .tc main_v98) = (val_main_v98 (F := F) x0 x1 x2 x3 x4 x7 x8)
      ∧ after (ops15 (F := F)) W (Proc.devRef .tc main_v133) = (val_main_v133 (F := F) x0 x1 x2 x5 x6 x9 x10)
      ∧ after (ops15 (F := F)) W (Proc.devRef .tc main_v141) = (val_main_v141 (F := F) x0 x1 x2 x5 x6 x9 x10)
      ∧ after (ops15 (F := F)) W (Proc.devRef .tc main_v143) = (val_main_v143 (F := F) x0 x1 x2 x5 x6 x9 x10)
      ∧ after (ops15 (F := F)) W (Proc.devRef .tc main_call5_cst) = (val_main_call5_cst (F := F)) := by
  refine ⟨?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v98
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v133
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v98]
    try rw [h_main_v124]
    try rw [h_main_v133]
    try rw [h_main_v136]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v98]
    try rw [h_main_v124]
    try rw [h_main_v133]
    try rw [h_main_v136]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v98]
    try rw [h_main_v124]
    try rw [h_main_v133]
    try rw [h_main_v136]
    rfl

/-- Operations 172 to 181 of @main. -/
abbrev ops16 : List (HloOp τ sig (Elt F)) :=
  [ TRef.unary (TRef.of (T := ⟨S_, .f32⟩) main_call5_cst) (TRef.of (T := ⟨S32x512x512, .f32⟩) main_call5_v0) (broadcastInDim S32x512x512 ![] bcast_S_S32x512x512),
    TRef.binary (TRef.of (T := ⟨S32x512x512, .f32⟩) main_v133) (TRef.of (T := ⟨S32x512x512, .f32⟩) main_call5_v0) (TRef.of (T := ⟨S32x512x512, .f32⟩) main_v144) maximumf,
    binary main_v143 main_v144 main_v145 (mulf : (⟨S32x512x512, .f32⟩ : BufTy).Contents (Elt F) → (⟨S32x512x512, .f32⟩ : BufTy).Contents (Elt F) → (⟨S32x512x512, .f32⟩ : BufTy).Contents (Elt F)),
    binary main_v141 main_v145 main_v146 (addf : (⟨S32x512x512, .f32⟩ : BufTy).Contents (Elt F) → (⟨S32x512x512, .f32⟩ : BufTy).Contents (Elt F) → (⟨S32x512x512, .f32⟩ : BufTy).Contents (Elt F)),
    binary main_v98 main_v146 main_v147 ((fun a b => concatenate S32x512x1024 2 [⟨S32x512x512, a⟩, ⟨S32x512x512, b⟩] concatenates_S32x512x512_S32x512x512_S32x512x1024_d2) : (⟨S32x512x512, .f32⟩ : BufTy).Contents (Elt F) → (⟨S32x512x512, .f32⟩ : BufTy).Contents (Elt F) → (⟨S32x512x1024, .f32⟩ : BufTy).Contents (Elt F)),
    unary main_arg1 main_v148 ((extractStridedSlice S1x3x512 ![1, 0, 0] · slices_S2x3x512_S1x3x512_1_0_0) : (⟨S2x3x512, .f32⟩ : BufTy).Contents (Elt F) → (⟨S1x3x512, .f32⟩ : BufTy).Contents (Elt F)),
    reshape main_v148 main_v149 rfl shapeCasts_S1x3x512_S3x512,
    unary main_v149 main_v150 (broadcastInDim S32x3x512 ![1, 2] bcast_S3x512_S32x3x512_1_2 : (⟨S3x512, .f32⟩ : BufTy).Contents (Elt F) → (⟨S32x3x512, .f32⟩ : BufTy).Contents (Elt F)),
    unary main_arg2 main_v151 ((extractStridedSlice S1x3x512 ![1, 0, 0] · slices_S2x3x512_S1x3x512_1_0_0) : (⟨S2x3x512, .f32⟩ : BufTy).Contents (Elt F) → (⟨S1x3x512, .f32⟩ : BufTy).Contents (Elt F)),
    reshape main_v151 main_v152 rfl shapeCasts_S1x3x512_S3x512 ]

theorem ops16_sub : (ops16 : List (HloOp τ sig (Elt F))).Forall fun op => op.bufs ⊆ tcRefs τ sig :=
  ⟨unary_bufs_sub .., binary_bufs_sub .., binary_bufs_sub .., binary_bufs_sub .., binary_bufs_sub .., unary_bufs_sub .., reshape_bufs_sub .., unary_bufs_sub .., unary_bufs_sub .., reshape_bufs_sub ..⟩
theorem ops16_fresh : ∀ op ∈ (ops16 : List (HloOp τ sig (Elt F))), op.fresh = ∅ := by
  intro _ h; (repeat (cases h with | head => rfl | tail _ h => ?_)); exact nomatch h

set_option maxRecDepth 8192 in
/-- From buffer contents `W` that hold the stages' values at every buffer still to be read, operations 172 to 181
    leave the stages' values at every buffer read after them. -/
theorem chunk16 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v98 : W (Proc.devRef .tc main_v98) = (val_main_v98 (F := F) x0 x1 x2 x3 x4 x7 x8))
    (h_main_v133 : W (Proc.devRef .tc main_v133) = (val_main_v133 (F := F) x0 x1 x2 x5 x6 x9 x10))
    (h_main_v141 : W (Proc.devRef .tc main_v141) = (val_main_v141 (F := F) x0 x1 x2 x5 x6 x9 x10))
    (h_main_v143 : W (Proc.devRef .tc main_v143) = (val_main_v143 (F := F) x0 x1 x2 x5 x6 x9 x10))
    (h_main_call5_cst : W (Proc.devRef .tc main_call5_cst) = (val_main_call5_cst (F := F))) :
    after (ops16 (F := F)) W (Proc.devRef .tc main_arg0) = x0
      ∧ after (ops16 (F := F)) W (Proc.devRef .tc main_arg1) = x1
      ∧ after (ops16 (F := F)) W (Proc.devRef .tc main_arg10) = x10
      ∧ after (ops16 (F := F)) W (Proc.devRef .tc main_arg2) = x2
      ∧ after (ops16 (F := F)) W (Proc.devRef .tc main_arg3) = x3
      ∧ after (ops16 (F := F)) W (Proc.devRef .tc main_arg4) = x4
      ∧ after (ops16 (F := F)) W (Proc.devRef .tc main_arg5) = x5
      ∧ after (ops16 (F := F)) W (Proc.devRef .tc main_arg6) = x6
      ∧ after (ops16 (F := F)) W (Proc.devRef .tc main_arg7) = x7
      ∧ after (ops16 (F := F)) W (Proc.devRef .tc main_arg8) = x8
      ∧ after (ops16 (F := F)) W (Proc.devRef .tc main_arg9) = x9
      ∧ after (ops16 (F := F)) W (Proc.devRef .tc main_v6) = (val_main_v6 (F := F))
      ∧ after (ops16 (F := F)) W (Proc.devRef .tc main_v98) = (val_main_v98 (F := F) x0 x1 x2 x3 x4 x7 x8)
      ∧ after (ops16 (F := F)) W (Proc.devRef .tc main_v146) = (val_main_v146 (F := F) x0 x1 x2 x5 x6 x9 x10)
      ∧ after (ops16 (F := F)) W (Proc.devRef .tc main_v147) = (val_main_v147 (F := F) x0 x1 x2 x3 x4 x5 x6 x7 x8 x9 x10)
      ∧ after (ops16 (F := F)) W (Proc.devRef .tc main_v150) = (val_main_v150 (F := F) x1)
      ∧ after (ops16 (F := F)) W (Proc.devRef .tc main_v152) = (val_main_v152 (F := F) x2) := by
  refine ⟨?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v98
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v98]
    try rw [h_main_v133]
    try rw [h_main_v141]
    try rw [h_main_v143]
    try rw [h_main_call5_cst]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v98]
    try rw [h_main_v133]
    try rw [h_main_v141]
    try rw [h_main_v143]
    try rw [h_main_call5_cst]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v98]
    try rw [h_main_v133]
    try rw [h_main_v141]
    try rw [h_main_v143]
    try rw [h_main_call5_cst]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v98]
    try rw [h_main_v133]
    try rw [h_main_v141]
    try rw [h_main_v143]
    try rw [h_main_call5_cst]
    rfl

/-- Operations 182 to 191 of @main. -/
abbrev ops17 : List (HloOp τ sig (Elt F)) :=
  [ unary main_v152 main_v153 (broadcastInDim S32x3x512 ![1, 2] bcast_S3x512_S32x3x512_1_2 : (⟨S3x512, .f32⟩ : BufTy).Contents (Elt F) → (⟨S32x3x512, .f32⟩ : BufTy).Contents (Elt F)),
    nary ![main_v150, main_v98, main_v153] main_v154 (fun u => concatenate S32x518x512 1 [⟨S32x3x512, u 0⟩, ⟨S32x512x512, u 1⟩, ⟨S32x3x512, u 2⟩] concatenates_S32x3x512_S32x512x512_S32x3x512_S32x518x512_d1),
    nary ![main_v150, main_v146, main_v153] main_v155 (fun u => concatenate S32x518x512 1 [⟨S32x3x512, u 0⟩, ⟨S32x512x512, u 1⟩, ⟨S32x3x512, u 2⟩] concatenates_S32x3x512_S32x512x512_S32x3x512_S32x518x512_d1),
    nullary main_c_15 (constantI S_ 32 0#32),
    unary main_c_15 main_v156 (broadcastInDim S512x4 ![] bcast_S_S512x4 : (⟨S_, .i32⟩ : BufTy).Contents (Elt F) → (⟨S512x4, .i32⟩ : BufTy).Contents (Elt F)),
    binary main_v6 main_v156 main_v157 (cmpi .slt : (⟨S512x4, .i32⟩ : BufTy).Contents (Elt F) → (⟨S512x4, .i32⟩ : BufTy).Contents (Elt F) → (⟨S512x4, .i1⟩ : BufTy).Contents (Elt F)),
    nullary main_c_16 (constantI S_ 32 518#32),
    unary main_c_16 main_v158 (broadcastInDim S512x4 ![] bcast_S_S512x4 : (⟨S_, .i32⟩ : BufTy).Contents (Elt F) → (⟨S512x4, .i32⟩ : BufTy).Contents (Elt F)),
    binary main_v6 main_v158 main_v159 (addi : (⟨S512x4, .i32⟩ : BufTy).Contents (Elt F) → (⟨S512x4, .i32⟩ : BufTy).Contents (Elt F) → (⟨S512x4, .i32⟩ : BufTy).Contents (Elt F)),
    ternary main_v157 main_v159 main_v6 main_v160 (select : (⟨S512x4, .i1⟩ : BufTy).Contents (Elt F) → (⟨S512x4, .i32⟩ : BufTy).Contents (Elt F) → (⟨S512x4, .i32⟩ : BufTy).Contents (Elt F) → (⟨S512x4, .i32⟩ : BufTy).Contents (Elt F)) ]

theorem ops17_sub : (ops17 : List (HloOp τ sig (Elt F))).Forall fun op => op.bufs ⊆ tcRefs τ sig :=
  ⟨unary_bufs_sub .., nary_bufs_sub .., nary_bufs_sub .., nullary_bufs_sub .., unary_bufs_sub .., binary_bufs_sub .., nullary_bufs_sub .., unary_bufs_sub .., binary_bufs_sub .., ternary_bufs_sub ..⟩
theorem ops17_fresh : ∀ op ∈ (ops17 : List (HloOp τ sig (Elt F))), op.fresh = ∅ := by
  intro _ h; (repeat (cases h with | head => rfl | tail _ h => ?_)); exact nomatch h

set_option maxRecDepth 8192 in
/-- From buffer contents `W` that hold the stages' values at every buffer still to be read, operations 182 to 191
    leave the stages' values at every buffer read after them. -/
theorem chunk17 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v98 : W (Proc.devRef .tc main_v98) = (val_main_v98 (F := F) x0 x1 x2 x3 x4 x7 x8))
    (h_main_v146 : W (Proc.devRef .tc main_v146) = (val_main_v146 (F := F) x0 x1 x2 x5 x6 x9 x10))
    (h_main_v147 : W (Proc.devRef .tc main_v147) = (val_main_v147 (F := F) x0 x1 x2 x3 x4 x5 x6 x7 x8 x9 x10))
    (h_main_v150 : W (Proc.devRef .tc main_v150) = (val_main_v150 (F := F) x1))
    (h_main_v152 : W (Proc.devRef .tc main_v152) = (val_main_v152 (F := F) x2)) :
    after (ops17 (F := F)) W (Proc.devRef .tc main_arg0) = x0
      ∧ after (ops17 (F := F)) W (Proc.devRef .tc main_arg1) = x1
      ∧ after (ops17 (F := F)) W (Proc.devRef .tc main_arg10) = x10
      ∧ after (ops17 (F := F)) W (Proc.devRef .tc main_arg2) = x2
      ∧ after (ops17 (F := F)) W (Proc.devRef .tc main_arg3) = x3
      ∧ after (ops17 (F := F)) W (Proc.devRef .tc main_arg4) = x4
      ∧ after (ops17 (F := F)) W (Proc.devRef .tc main_arg5) = x5
      ∧ after (ops17 (F := F)) W (Proc.devRef .tc main_arg6) = x6
      ∧ after (ops17 (F := F)) W (Proc.devRef .tc main_arg7) = x7
      ∧ after (ops17 (F := F)) W (Proc.devRef .tc main_arg8) = x8
      ∧ after (ops17 (F := F)) W (Proc.devRef .tc main_arg9) = x9
      ∧ after (ops17 (F := F)) W (Proc.devRef .tc main_v6) = (val_main_v6 (F := F))
      ∧ after (ops17 (F := F)) W (Proc.devRef .tc main_v147) = (val_main_v147 (F := F) x0 x1 x2 x3 x4 x5 x6 x7 x8 x9 x10)
      ∧ after (ops17 (F := F)) W (Proc.devRef .tc main_v154) = (val_main_v154 (F := F) x0 x1 x2 x3 x4 x7 x8)
      ∧ after (ops17 (F := F)) W (Proc.devRef .tc main_v155) = (val_main_v155 (F := F) x0 x1 x2 x5 x6 x9 x10)
      ∧ after (ops17 (F := F)) W (Proc.devRef .tc main_v160) = (val_main_v160 (F := F)) := by
  refine ⟨?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v98]
    try rw [h_main_v146]
    try rw [h_main_v147]
    try rw [h_main_v150]
    try rw [h_main_v152]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v98]
    try rw [h_main_v146]
    try rw [h_main_v147]
    try rw [h_main_v150]
    try rw [h_main_v152]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v98]
    try rw [h_main_v146]
    try rw [h_main_v147]
    try rw [h_main_v150]
    try rw [h_main_v152]
    rfl

/-- Part 2's operations in order. -/
abbrev opsPart2 : List (HloOp τ sig (Elt F)) := ops12 ++ (ops13 ++ (ops14 ++ (ops15 ++ (ops16 ++ (ops17)))))

set_option maxRecDepth 8192 in
set_option maxHeartbeats 4000000 in
/-- Part 2 of @main is the straight line of its operations. -/
theorem part2_eq (c : Dev nD) : main_part2 (F := F) c = seq (opsPart2 (F := F)) := rfl

end Cert.ReferenceIdeal.RunChunks

end
-- ==== Proof.RefRunPart3.lean ====
/-
  The reference's host program, part 3 of its six printed parts (operations 192 to 255), run a stretch of operations at a time.
  `main_part3` is the straight line of its stretches' operations (`part3_eq`); each stretch lemma says that the
  stretch, started from buffer contents that hold the stages' values (RefReadP's `val_…`) at every buffer still to be
  read, leaves the stages' values at every buffer read after it.
-/
import proofs.«101546_j62689342652477_1_alg».proof.Proof.RefReadP

noncomputable section

namespace Cert.ReferenceIdeal.RunChunks

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 192 to 202 of @main. -/
abbrev ops18 : List (HloOp τ sig (Elt F)) :=
  [ unary main_v160 main_v161 (broadcastInDim S512x4x1 ![0, 1] bcast_S512x4_S512x4x1_0_1 : (⟨S512x4, .i32⟩ : BufTy).Contents (Elt F) → (⟨S512x4x1, .i32⟩ : BufTy).Contents (Elt F)),
    binary main_v154 main_v161 main_v162 ((fun x i => Host.gather gather_S32x518x512_S512x4x1_S32x512x4x512_03_1_n_n_1_2_321512 x i) : (⟨S32x518x512, .f32⟩ : BufTy).Contents (Elt F) → (⟨S512x4x1, .i32⟩ : BufTy).Contents (Elt F) → (⟨S32x512x4x512, .f32⟩ : BufTy).Contents (Elt F)),
    reshape main_v162 main_v163 rfl shapeCasts_S32x512x4x512_S32x512x2048,
    nullary main_c_17 (constantI S_ 32 3#32),
    unary main_c_17 main_v164 (broadcastInDim S512x4 ![] bcast_S_S512x4 : (⟨S_, .i32⟩ : BufTy).Contents (Elt F) → (⟨S512x4, .i32⟩ : BufTy).Contents (Elt F)),
    binary main_v6 main_v164 main_v165 (addi : (⟨S512x4, .i32⟩ : BufTy).Contents (Elt F) → (⟨S512x4, .i32⟩ : BufTy).Contents (Elt F) → (⟨S512x4, .i32⟩ : BufTy).Contents (Elt F)),
    nullary main_c_18 (constantI S_ 32 0#32),
    unary main_c_18 main_v166 (broadcastInDim S512x4 ![] bcast_S_S512x4 : (⟨S_, .i32⟩ : BufTy).Contents (Elt F) → (⟨S512x4, .i32⟩ : BufTy).Contents (Elt F)),
    binary main_v165 main_v166 main_v167 (cmpi .slt : (⟨S512x4, .i32⟩ : BufTy).Contents (Elt F) → (⟨S512x4, .i32⟩ : BufTy).Contents (Elt F) → (⟨S512x4, .i1⟩ : BufTy).Contents (Elt F)),
    nullary main_c_19 (constantI S_ 32 518#32),
    unary main_c_19 main_v168 (broadcastInDim S512x4 ![] bcast_S_S512x4 : (⟨S_, .i32⟩ : BufTy).Contents (Elt F) → (⟨S512x4, .i32⟩ : BufTy).Contents (Elt F)) ]

theorem ops18_sub : (ops18 : List (HloOp τ sig (Elt F))).Forall fun op => op.bufs ⊆ tcRefs τ sig :=
  ⟨unary_bufs_sub .., binary_bufs_sub .., reshape_bufs_sub .., nullary_bufs_sub .., unary_bufs_sub .., binary_bufs_sub .., nullary_bufs_sub .., unary_bufs_sub .., binary_bufs_sub .., nullary_bufs_sub .., unary_bufs_sub ..⟩
theorem ops18_fresh : ∀ op ∈ (ops18 : List (HloOp τ sig (Elt F))), op.fresh = ∅ := by
  intro _ h; (repeat (cases h with | head => rfl | tail _ h => ?_)); exact nomatch h

set_option maxRecDepth 8192 in
/-- From buffer contents `W` that hold the stages' values at every buffer still to be read, operations 192 to 202
    leave the stages' values at every buffer read after them. -/
theorem chunk18 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v6 : W (Proc.devRef .tc main_v6) = (val_main_v6 (F := F)))
    (h_main_v147 : W (Proc.devRef .tc main_v147) = (val_main_v147 (F := F) x0 x1 x2 x3 x4 x5 x6 x7 x8 x9 x10))
    (h_main_v154 : W (Proc.devRef .tc main_v154) = (val_main_v154 (F := F) x0 x1 x2 x3 x4 x7 x8))
    (h_main_v155 : W (Proc.devRef .tc main_v155) = (val_main_v155 (F := F) x0 x1 x2 x5 x6 x9 x10))
    (h_main_v160 : W (Proc.devRef .tc main_v160) = (val_main_v160 (F := F))) :
    after (ops18 (F := F)) W (Proc.devRef .tc main_arg0) = x0
      ∧ after (ops18 (F := F)) W (Proc.devRef .tc main_arg1) = x1
      ∧ after (ops18 (F := F)) W (Proc.devRef .tc main_arg10) = x10
      ∧ after (ops18 (F := F)) W (Proc.devRef .tc main_arg2) = x2
      ∧ after (ops18 (F := F)) W (Proc.devRef .tc main_arg3) = x3
      ∧ after (ops18 (F := F)) W (Proc.devRef .tc main_arg4) = x4
      ∧ after (ops18 (F := F)) W (Proc.devRef .tc main_arg5) = x5
      ∧ after (ops18 (F := F)) W (Proc.devRef .tc main_arg6) = x6
      ∧ after (ops18 (F := F)) W (Proc.devRef .tc main_arg7) = x7
      ∧ after (ops18 (F := F)) W (Proc.devRef .tc main_arg8) = x8
      ∧ after (ops18 (F := F)) W (Proc.devRef .tc main_arg9) = x9
      ∧ after (ops18 (F := F)) W (Proc.devRef .tc main_v147) = (val_main_v147 (F := F) x0 x1 x2 x3 x4 x5 x6 x7 x8 x9 x10)
      ∧ after (ops18 (F := F)) W (Proc.devRef .tc main_v155) = (val_main_v155 (F := F) x0 x1 x2 x5 x6 x9 x10)
      ∧ after (ops18 (F := F)) W (Proc.devRef .tc main_v163) = (val_main_v163 (F := F) x0 x1 x2 x3 x4 x7 x8)
      ∧ after (ops18 (F := F)) W (Proc.devRef .tc main_v165) = (val_main_v165 (F := F))
      ∧ after (ops18 (F := F)) W (Proc.devRef .tc main_v167) = (val_main_v167 (F := F))
      ∧ after (ops18 (F := F)) W (Proc.devRef .tc main_v168) = (val_main_v168 (F := F)) := by
  refine ⟨?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v155
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v147]
    try rw [h_main_v154]
    try rw [h_main_v155]
    try rw [h_main_v160]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v147]
    try rw [h_main_v154]
    try rw [h_main_v155]
    try rw [h_main_v160]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v147]
    try rw [h_main_v154]
    try rw [h_main_v155]
    try rw [h_main_v160]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v6]
    try rw [h_main_v147]
    try rw [h_main_v154]
    try rw [h_main_v155]
    try rw [h_main_v160]
    rfl

/-- Operations 203 to 213 of @main. -/
abbrev ops19 : List (HloOp τ sig (Elt F)) :=
  [ binary main_v165 main_v168 main_v169 (addi : (⟨S512x4, .i32⟩ : BufTy).Contents (Elt F) → (⟨S512x4, .i32⟩ : BufTy).Contents (Elt F) → (⟨S512x4, .i32⟩ : BufTy).Contents (Elt F)),
    ternary main_v167 main_v169 main_v165 main_v170 (select : (⟨S512x4, .i1⟩ : BufTy).Contents (Elt F) → (⟨S512x4, .i32⟩ : BufTy).Contents (Elt F) → (⟨S512x4, .i32⟩ : BufTy).Contents (Elt F) → (⟨S512x4, .i32⟩ : BufTy).Contents (Elt F)),
    unary main_v170 main_v171 (broadcastInDim S512x4x1 ![0, 1] bcast_S512x4_S512x4x1_0_1 : (⟨S512x4, .i32⟩ : BufTy).Contents (Elt F) → (⟨S512x4x1, .i32⟩ : BufTy).Contents (Elt F)),
    binary main_v155 main_v171 main_v172 ((fun x i => Host.gather gather_S32x518x512_S512x4x1_S32x512x4x512_03_1_n_n_1_2_321512 x i) : (⟨S32x518x512, .f32⟩ : BufTy).Contents (Elt F) → (⟨S512x4x1, .i32⟩ : BufTy).Contents (Elt F) → (⟨S32x512x4x512, .f32⟩ : BufTy).Contents (Elt F)),
    reshape main_v172 main_v173 rfl shapeCasts_S32x512x4x512_S32x512x2048,
    unary main_arg3 main_v174 ((extractStridedSlice S1x512x2048 ![1, 0, 0] · slices_S2x512x2048_S1x512x2048_1_0_0) : (⟨S2x512x2048, .f32⟩ : BufTy).Contents (Elt F) → (⟨S1x512x2048, .f32⟩ : BufTy).Contents (Elt F)),
    reshape main_v174 main_v175 rfl shapeCasts_S1x512x2048_S512x2048,
    binary main_v163 main_v175 main_v176 ((fun l r => Host.dotGeneral dot_S32x512x2048_S512x2048_S32x512x512_2_1_01_0_n_n none l r) : (⟨S32x512x2048, .f32⟩ : BufTy).Contents (Elt F) → (⟨S512x2048, .f32⟩ : BufTy).Contents (Elt F) → (⟨S32x512x512, .f32⟩ : BufTy).Contents (Elt F)),
    unary main_arg4 main_v177 ((extractStridedSlice S1x512 ![1, 0] · slices_S2x512_S1x512_1_0) : (⟨S2x512, .f32⟩ : BufTy).Contents (Elt F) → (⟨S1x512, .f32⟩ : BufTy).Contents (Elt F)),
    reshape main_v177 main_v178 rfl shapeCasts_S1x512_S512,
    unary main_v178 main_v179 (broadcastInDim S1x1x512 ![2] bcast_S512_S1x1x512_2 : (⟨S512, .f32⟩ : BufTy).Contents (Elt F) → (⟨S1x1x512, .f32⟩ : BufTy).Contents (Elt F)) ]

theorem ops19_sub : (ops19 : List (HloOp τ sig (Elt F))).Forall fun op => op.bufs ⊆ tcRefs τ sig :=
  ⟨binary_bufs_sub .., ternary_bufs_sub .., unary_bufs_sub .., binary_bufs_sub .., reshape_bufs_sub .., unary_bufs_sub .., reshape_bufs_sub .., binary_bufs_sub .., unary_bufs_sub .., reshape_bufs_sub .., unary_bufs_sub ..⟩
theorem ops19_fresh : ∀ op ∈ (ops19 : List (HloOp τ sig (Elt F))), op.fresh = ∅ := by
  intro _ h; (repeat (cases h with | head => rfl | tail _ h => ?_)); exact nomatch h

set_option maxRecDepth 8192 in
/-- From buffer contents `W` that hold the stages' values at every buffer still to be read, operations 203 to 213
    leave the stages' values at every buffer read after them. -/
theorem chunk19 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v155 : W (Proc.devRef .tc main_v155) = (val_main_v155 (F := F) x0 x1 x2 x5 x6 x9 x10))
    (h_main_v163 : W (Proc.devRef .tc main_v163) = (val_main_v163 (F := F) x0 x1 x2 x3 x4 x7 x8))
    (h_main_v165 : W (Proc.devRef .tc main_v165) = (val_main_v165 (F := F)))
    (h_main_v167 : W (Proc.devRef .tc main_v167) = (val_main_v167 (F := F)))
    (h_main_v168 : W (Proc.devRef .tc main_v168) = (val_main_v168 (F := F))) :
    after (ops19 (F := F)) W (Proc.devRef .tc main_arg0) = x0
      ∧ after (ops19 (F := F)) W (Proc.devRef .tc main_arg1) = x1
      ∧ after (ops19 (F := F)) W (Proc.devRef .tc main_arg10) = x10
      ∧ after (ops19 (F := F)) W (Proc.devRef .tc main_arg2) = x2
      ∧ after (ops19 (F := F)) W (Proc.devRef .tc main_arg3) = x3
      ∧ after (ops19 (F := F)) W (Proc.devRef .tc main_arg4) = x4
      ∧ after (ops19 (F := F)) W (Proc.devRef .tc main_arg5) = x5
      ∧ after (ops19 (F := F)) W (Proc.devRef .tc main_arg6) = x6
      ∧ after (ops19 (F := F)) W (Proc.devRef .tc main_arg7) = x7
      ∧ after (ops19 (F := F)) W (Proc.devRef .tc main_arg8) = x8
      ∧ after (ops19 (F := F)) W (Proc.devRef .tc main_arg9) = x9
      ∧ after (ops19 (F := F)) W (Proc.devRef .tc main_v147) = (val_main_v147 (F := F) x0 x1 x2 x3 x4 x5 x6 x7 x8 x9 x10)
      ∧ after (ops19 (F := F)) W (Proc.devRef .tc main_v173) = (val_main_v173 (F := F) x0 x1 x2 x5 x6 x9 x10)
      ∧ after (ops19 (F := F)) W (Proc.devRef .tc main_v176) = (val_main_v176 (F := F) x0 x1 x2 x3 x4 x7 x8)
      ∧ after (ops19 (F := F)) W (Proc.devRef .tc main_v179) = (val_main_v179 (F := F) x4) := by
  refine ⟨?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v155]
    try rw [h_main_v163]
    try rw [h_main_v165]
    try rw [h_main_v167]
    try rw [h_main_v168]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v155]
    try rw [h_main_v163]
    try rw [h_main_v165]
    try rw [h_main_v167]
    try rw [h_main_v168]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v155]
    try rw [h_main_v163]
    try rw [h_main_v165]
    try rw [h_main_v167]
    try rw [h_main_v168]
    rfl

/-- Operations 214 to 224 of @main. -/
abbrev ops20 : List (HloOp τ sig (Elt F)) :=
  [ unary main_v179 main_v180 (broadcastInDim S32x512x512 ![0, 1, 2] bcast_S1x1x512_S32x512x512_0_1_2 : (⟨S1x1x512, .f32⟩ : BufTy).Contents (Elt F) → (⟨S32x512x512, .f32⟩ : BufTy).Contents (Elt F)),
    binary main_v176 main_v180 main_v181 (addf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S32x512x512, .f32⟩) main_call6_v0) (broadcastInDim S32x512x512 ![] bcast_S_S32x512x512),
    TRef.binary (TRef.of (T := ⟨S32x512x512, .f32⟩) main_v181) (TRef.of (T := ⟨S32x512x512, .f32⟩) main_call6_v0) (TRef.of (T := ⟨S32x512x512, .f32⟩) main_v182) maximumf,
    unary main_arg5 main_v183 ((extractStridedSlice S1x512x2048 ![1, 0, 0] · slices_S2x512x2048_S1x512x2048_1_0_0) : (⟨S2x512x2048, .f32⟩ : BufTy).Contents (Elt F) → (⟨S1x512x2048, .f32⟩ : BufTy).Contents (Elt F)),
    reshape main_v183 main_v184 rfl shapeCasts_S1x512x2048_S512x2048,
    binary main_v173 main_v184 main_v185 ((fun l r => Host.dotGeneral dot_S32x512x2048_S512x2048_S32x512x512_2_1_01_0_n_n none l r) : (⟨S32x512x2048, .f32⟩ : BufTy).Contents (Elt F) → (⟨S512x2048, .f32⟩ : BufTy).Contents (Elt F) → (⟨S32x512x512, .f32⟩ : BufTy).Contents (Elt F)),
    unary main_arg6 main_v186 ((extractStridedSlice S1x512 ![1, 0] · slices_S2x512_S1x512_1_0) : (⟨S2x512, .f32⟩ : BufTy).Contents (Elt F) → (⟨S1x512, .f32⟩ : BufTy).Contents (Elt F)),
    reshape main_v186 main_v187 rfl shapeCasts_S1x512_S512,
    unary main_v187 main_v188 (broadcastInDim S1x1x512 ![2] bcast_S512_S1x1x512_2 : (⟨S512, .f32⟩ : BufTy).Contents (Elt F) → (⟨S1x1x512, .f32⟩ : BufTy).Contents (Elt F)) ]

theorem ops20_sub : (ops20 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., binary_bufs_sub .., unary_bufs_sub .., reshape_bufs_sub .., unary_bufs_sub ..⟩
theorem ops20_fresh : ∀ op ∈ (ops20 : List (HloOp τ sig (Elt F))), op.fresh = ∅ := by
  intro _ h; (repeat (cases h with | head => rfl | tail _ h => ?_)); exact nomatch h

set_option maxRecDepth 8192 in
/-- From buffer contents `W` that hold the stages' values at every buffer still to be read, operations 214 to 224
    leave the stages' values at every buffer read after them. -/
theorem chunk20 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v173 : W (Proc.devRef .tc main_v173) = (val_main_v173 (F := F) x0 x1 x2 x5 x6 x9 x10))
    (h_main_v176 : W (Proc.devRef .tc main_v176) = (val_main_v176 (F := F) x0 x1 x2 x3 x4 x7 x8))
    (h_main_v179 : W (Proc.devRef .tc main_v179) = (val_main_v179 (F := F) x4)) :
    after (ops20 (F := F)) W (Proc.devRef .tc main_arg0) = x0
      ∧ after (ops20 (F := F)) W (Proc.devRef .tc main_arg1) = x1
      ∧ after (ops20 (F := F)) W (Proc.devRef .tc main_arg10) = x10
      ∧ after (ops20 (F := F)) W (Proc.devRef .tc main_arg2) = x2
      ∧ after (ops20 (F := F)) W (Proc.devRef .tc main_arg3) = x3
      ∧ after (ops20 (F := F)) W (Proc.devRef .tc main_arg4) = x4
      ∧ after (ops20 (F := F)) W (Proc.devRef .tc main_arg5) = x5
      ∧ after (ops20 (F := F)) W (Proc.devRef .tc main_arg6) = x6
      ∧ after (ops20 (F := F)) W (Proc.devRef .tc main_arg7) = x7
      ∧ after (ops20 (F := F)) W (Proc.devRef .tc main_arg8) = x8
      ∧ after (ops20 (F := F)) W (Proc.devRef .tc main_arg9) = x9
      ∧ after (ops20 (F := F)) W (Proc.devRef .tc main_v147) = (val_main_v147 (F := F) x0 x1 x2 x3 x4 x5 x6 x7 x8 x9 x10)
      ∧ after (ops20 (F := F)) W (Proc.devRef .tc main_v182) = (val_main_v182 (F := F) x0 x1 x2 x3 x4 x7 x8)
      ∧ after (ops20 (F := F)) W (Proc.devRef .tc main_v185) = (val_main_v185 (F := F) x0 x1 x2 x5 x6 x9 x10)
      ∧ after (ops20 (F := F)) W (Proc.devRef .tc main_v188) = (val_main_v188 (F := F) x6) := by
  refine ⟨?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v173]
    try rw [h_main_v176]
    try rw [h_main_v179]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v173]
    try rw [h_main_v176]
    try rw [h_main_v179]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v173]
    try rw [h_main_v176]
    try rw [h_main_v179]
    rfl

/-- Operations 225 to 235 of @main. -/
abbrev ops21 : List (HloOp τ sig (Elt F)) :=
  [ unary main_v188 main_v189 (broadcastInDim S32x512x512 ![0, 1, 2] bcast_S1x1x512_S32x512x512_0_1_2 : (⟨S1x1x512, .f32⟩ : BufTy).Contents (Elt F) → (⟨S32x512x512, .f32⟩ : BufTy).Contents (Elt F)),
    binary main_v185 main_v189 main_v190 (addf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S32x512x512, .f32⟩) main_call7_v0) (broadcastInDim S32x512x512 ![] bcast_S_S32x512x512),
    TRef.binary (TRef.of (T := ⟨S32x512x512, .f32⟩) main_v190) (TRef.of (T := ⟨S32x512x512, .f32⟩) main_call7_v0) (TRef.of (T := ⟨S32x512x512, .f32⟩) main_v191) maximumf,
    unary main_arg7 main_v192 ((extractStridedSlice S1x2x1024x512 ![1, 0, 0, 0] · slices_S2x2x1024x512_S1x2x1024x512_1_0_0_0) : (⟨S2x2x1024x512, .f32⟩ : BufTy).Contents (Elt F) → (⟨S1x2x1024x512, .f32⟩ : BufTy).Contents (Elt F)),
    reshape main_v192 main_v193 rfl shapeCasts_S1x2x1024x512_S2x1024x512,
    unary main_arg8 main_v194 ((extractStridedSlice S1x2x1024 ![1, 0, 0] · slices_S2x2x1024_S1x2x1024_1_0_0) : (⟨S2x2x1024, .f32⟩ : BufTy).Contents (Elt F) → (⟨S1x2x1024, .f32⟩ : BufTy).Contents (Elt F)),
    reshape main_v194 main_v195 rfl shapeCasts_S1x2x1024_S2x1024,
    unary main_v193 main_v196 ((extractStridedSlice S1x1024x512 ![0, 0, 0] · slices_S2x1024x512_S1x1024x512_0_0_0) : (⟨S2x1024x512, .f32⟩ : BufTy).Contents (Elt F) → (⟨S1x1024x512, .f32⟩ : BufTy).Contents (Elt F)),
    reshape main_v196 main_v197 rfl shapeCasts_S1x1024x512_S1024x512 ]

theorem ops21_sub : (ops21 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., unary_bufs_sub .., reshape_bufs_sub .., unary_bufs_sub .., reshape_bufs_sub ..⟩
theorem ops21_fresh : ∀ op ∈ (ops21 : List (HloOp τ sig (Elt F))), op.fresh = ∅ := by
  intro _ h; (repeat (cases h with | head => rfl | tail _ h => ?_)); exact nomatch h

set_option maxRecDepth 8192 in
/-- From buffer contents `W` that hold the stages' values at every buffer still to be read, operations 225 to 235
    leave the stages' values at every buffer read after them. -/
theorem chunk21 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v182 : W (Proc.devRef .tc main_v182) = (val_main_v182 (F := F) x0 x1 x2 x3 x4 x7 x8))
    (h_main_v185 : W (Proc.devRef .tc main_v185) = (val_main_v185 (F := F) x0 x1 x2 x5 x6 x9 x10))
    (h_main_v188 : W (Proc.devRef .tc main_v188) = (val_main_v188 (F := F) x6)) :
    after (ops21 (F := F)) W (Proc.devRef .tc main_arg0) = x0
      ∧ after (ops21 (F := F)) W (Proc.devRef .tc main_arg1) = x1
      ∧ after (ops21 (F := F)) W (Proc.devRef .tc main_arg10) = x10
      ∧ after (ops21 (F := F)) W (Proc.devRef .tc main_arg2) = x2
      ∧ after (ops21 (F := F)) W (Proc.devRef .tc main_arg3) = x3
      ∧ after (ops21 (F := F)) W (Proc.devRef .tc main_arg4) = x4
      ∧ after (ops21 (F := F)) W (Proc.devRef .tc main_arg5) = x5
      ∧ after (ops21 (F := F)) W (Proc.devRef .tc main_arg6) = x6
      ∧ after (ops21 (F := F)) W (Proc.devRef .tc main_arg7) = x7
      ∧ after (ops21 (F := F)) W (Proc.devRef .tc main_arg8) = x8
      ∧ after (ops21 (F := F)) W (Proc.devRef .tc main_arg9) = x9
      ∧ after (ops21 (F := F)) W (Proc.devRef .tc main_v147) = (val_main_v147 (F := F) x0 x1 x2 x3 x4 x5 x6 x7 x8 x9 x10)
      ∧ after (ops21 (F := F)) W (Proc.devRef .tc main_v182) = (val_main_v182 (F := F) x0 x1 x2 x3 x4 x7 x8)
      ∧ after (ops21 (F := F)) W (Proc.devRef .tc main_v191) = (val_main_v191 (F := F) x0 x1 x2 x5 x6 x9 x10)
      ∧ after (ops21 (F := F)) W (Proc.devRef .tc main_v193) = (val_main_v193 (F := F) x7)
      ∧ after (ops21 (F := F)) W (Proc.devRef .tc main_v195) = (val_main_v195 (F := F) x8)
      ∧ after (ops21 (F := F)) W (Proc.devRef .tc main_v197) = (val_main_v197 (F := F) x7) := by
  refine ⟨?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v182
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v182]
    try rw [h_main_v185]
    try rw [h_main_v188]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v182]
    try rw [h_main_v185]
    try rw [h_main_v188]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v182]
    try rw [h_main_v185]
    try rw [h_main_v188]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v182]
    try rw [h_main_v185]
    try rw [h_main_v188]
    rfl

/-- Operations 236 to 245 of @main. -/
abbrev ops22 : List (HloOp τ sig (Elt F)) :=
  [ binary main_v182 main_v197 main_v198 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_v195 main_v199 ((extractStridedSlice S1x1024 ![0, 0] · slices_S2x1024_S1x1024_0_0) : (⟨S2x1024, .f32⟩ : BufTy).Contents (Elt F) → (⟨S1x1024, .f32⟩ : BufTy).Contents (Elt F)),
    reshape main_v199 main_v200 rfl shapeCasts_S1x1024_S1024,
    unary main_v200 main_v201 (broadcastInDim S1x1x1024 ![2] bcast_S1024_S1x1x1024_2 : (⟨S1024, .f32⟩ : BufTy).Contents (Elt F) → (⟨S1x1x1024, .f32⟩ : BufTy).Contents (Elt F)),
    unary main_v201 main_v202 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v198 main_v202 main_v203 (addf : (⟨S32x512x1024, .f32⟩ : BufTy).Contents (Elt F) → (⟨S32x512x1024, .f32⟩ : BufTy).Contents (Elt F) → (⟨S32x512x1024, .f32⟩ : BufTy).Contents (Elt F)),
    unary main_v203 main_v204 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    unary main_v203 main_v205 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v205 main_v206 (Host.negf : (⟨S32x512x512, .f32⟩ : BufTy).Contents (Elt F) → (⟨S32x512x512, .f32⟩ : BufTy).Contents (Elt F)),
    unary main_v206 main_v207 (Host.exp : (⟨S32x512x512, .f32⟩ : BufTy).Contents (Elt F) → (⟨S32x512x512, .f32⟩ : BufTy).Contents (Elt F)) ]

theorem ops22_sub : (ops22 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., unary_bufs_sub .., unary_bufs_sub .., unary_bufs_sub ..⟩
theorem ops22_fresh : ∀ op ∈ (ops22 : List (HloOp τ sig (Elt F))), op.fresh = ∅ := by
  intro _ h; (repeat (cases h with | head => rfl | tail _ h => ?_)); exact nomatch h

set_option maxRecDepth 8192 in
/-- From buffer contents `W` that hold the stages' values at every buffer still to be read, operations 236 to 245
    leave the stages' values at every buffer read after them. -/
theorem chunk22 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v182 : W (Proc.devRef .tc main_v182) = (val_main_v182 (F := F) x0 x1 x2 x3 x4 x7 x8))
    (h_main_v191 : W (Proc.devRef .tc main_v191) = (val_main_v191 (F := F) x0 x1 x2 x5 x6 x9 x10))
    (h_main_v193 : W (Proc.devRef .tc main_v193) = (val_main_v193 (F := F) x7))
    (h_main_v195 : W (Proc.devRef .tc main_v195) = (val_main_v195 (F := F) x8))
    (h_main_v197 : W (Proc.devRef .tc main_v197) = (val_main_v197 (F := F) x7)) :
    after (ops22 (F := F)) W (Proc.devRef .tc main_arg0) = x0
      ∧ after (ops22 (F := F)) W (Proc.devRef .tc main_arg1) = x1
      ∧ after (ops22 (F := F)) W (Proc.devRef .tc main_arg10) = x10
      ∧ after (ops22 (F := F)) W (Proc.devRef .tc main_arg2) = x2
      ∧ after (ops22 (F := F)) W (Proc.devRef .tc main_arg3) = x3
      ∧ after (ops22 (F := F)) W (Proc.devRef .tc main_arg4) = x4
      ∧ after (ops22 (F := F)) W (Proc.devRef .tc main_arg5) = x5
      ∧ after (ops22 (F := F)) W (Proc.devRef .tc main_arg6) = x6
      ∧ after (ops22 (F := F)) W (Proc.devRef .tc main_arg7) = x7
      ∧ after (ops22 (F := F)) W (Proc.devRef .tc main_arg8) = x8
      ∧ after (ops22 (F := F)) W (Proc.devRef .tc main_arg9) = x9
      ∧ after (ops22 (F := F)) W (Proc.devRef .tc main_v147) = (val_main_v147 (F := F) x0 x1 x2 x3 x4 x5 x6 x7 x8 x9 x10)
      ∧ after (ops22 (F := F)) W (Proc.devRef .tc main_v182) = (val_main_v182 (F := F) x0 x1 x2 x3 x4 x7 x8)
      ∧ after (ops22 (F := F)) W (Proc.devRef .tc main_v191) = (val_main_v191 (F := F) x0 x1 x2 x5 x6 x9 x10)
      ∧ after (ops22 (F := F)) W (Proc.devRef .tc main_v193) = (val_main_v193 (F := F) x7)
      ∧ after (ops22 (F := F)) W (Proc.devRef .tc main_v195) = (val_main_v195 (F := F) x8)
      ∧ after (ops22 (F := F)) W (Proc.devRef .tc main_v204) = (val_main_v204 (F := F) x0 x1 x2 x3 x4 x7 x8)
      ∧ after (ops22 (F := F)) W (Proc.devRef .tc main_v207) = (val_main_v207 (F := F) x0 x1 x2 x3 x4 x7 x8) := by
  refine ⟨?_, ?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v182
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v191
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v193
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v195
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v182]
    try rw [h_main_v191]
    try rw [h_main_v193]
    try rw [h_main_v195]
    try rw [h_main_v197]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v182]
    try rw [h_main_v191]
    try rw [h_main_v193]
    try rw [h_main_v195]
    try rw [h_main_v197]
    rfl

/-- Operations 246 to 255 of @main. -/
abbrev ops23 : List (HloOp τ sig (Elt F)) :=
  [ nullary main_cst_20 (constant S_ .f32 0x3F800000#32),
    unary main_cst_20 main_v208 (broadcastInDim S32x512x512 ![] bcast_S_S32x512x512 : (⟨S_, .f32⟩ : BufTy).Contents (Elt F) → (⟨S32x512x512, .f32⟩ : BufTy).Contents (Elt F)),
    binary main_v208 main_v207 main_v209 (addf : (⟨S32x512x512, .f32⟩ : BufTy).Contents (Elt F) → (⟨S32x512x512, .f32⟩ : BufTy).Contents (Elt F) → (⟨S32x512x512, .f32⟩ : BufTy).Contents (Elt F)),
    nullary main_cst_21 (constant S_ .f32 0x3F800000#32),
    unary main_cst_21 main_v210 (broadcastInDim S32x512x512 ![] bcast_S_S32x512x512 : (⟨S_, .f32⟩ : BufTy).Contents (Elt F) → (⟨S32x512x512, .f32⟩ : BufTy).Contents (Elt F)),
    binary main_v210 main_v209 main_v211 (Host.divf : (⟨S32x512x512, .f32⟩ : BufTy).Contents (Elt F) → (⟨S32x512x512, .f32⟩ : BufTy).Contents (Elt F) → (⟨S32x512x512, .f32⟩ : BufTy).Contents (Elt F)),
    binary main_v211 main_v182 main_v212 (mulf : (⟨S32x512x512, .f32⟩ : BufTy).Contents (Elt F) → (⟨S32x512x512, .f32⟩ : BufTy).Contents (Elt F) → (⟨S32x512x512, .f32⟩ : BufTy).Contents (Elt F)),
    nullary main_cst_22 (constant S_ .f32 0x3F800000#32),
    unary main_cst_22 main_v213 (broadcastInDim S32x512x512 ![] bcast_S_S32x512x512 : (⟨S_, .f32⟩ : BufTy).Contents (Elt F) → (⟨S32x512x512, .f32⟩ : BufTy).Contents (Elt F)),
    binary main_v213 main_v211 main_v214 (subf : (⟨S32x512x512, .f32⟩ : BufTy).Contents (Elt F) → (⟨S32x512x512, .f32⟩ : BufTy).Contents (Elt F) → (⟨S32x512x512, .f32⟩ : BufTy).Contents (Elt F)) ]

theorem ops23_sub : (ops23 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub ..⟩
theorem ops23_fresh : ∀ op ∈ (ops23 : List (HloOp τ sig (Elt F))), op.fresh = ∅ := by
  intro _ h; (repeat (cases h with | head => rfl | tail _ h => ?_)); exact nomatch h

set_option maxRecDepth 8192 in
/-- From buffer contents `W` that hold the stages' values at every buffer still to be read, operations 246 to 255
    leave the stages' values at every buffer read after them. -/
theorem chunk23 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v182 : W (Proc.devRef .tc main_v182) = (val_main_v182 (F := F) x0 x1 x2 x3 x4 x7 x8))
    (h_main_v191 : W (Proc.devRef .tc main_v191) = (val_main_v191 (F := F) x0 x1 x2 x5 x6 x9 x10))
    (h_main_v193 : W (Proc.devRef .tc main_v193) = (val_main_v193 (F := F) x7))
    (h_main_v195 : W (Proc.devRef .tc main_v195) = (val_main_v195 (F := F) x8))
    (h_main_v204 : W (Proc.devRef .tc main_v204) = (val_main_v204 (F := F) x0 x1 x2 x3 x4 x7 x8))
    (h_main_v207 : W (Proc.devRef .tc main_v207) = (val_main_v207 (F := F) x0 x1 x2 x3 x4 x7 x8)) :
    after (ops23 (F := F)) W (Proc.devRef .tc main_arg0) = x0
      ∧ after (ops23 (F := F)) W (Proc.devRef .tc main_arg1) = x1
      ∧ after (ops23 (F := F)) W (Proc.devRef .tc main_arg10) = x10
      ∧ after (ops23 (F := F)) W (Proc.devRef .tc main_arg2) = x2
      ∧ after (ops23 (F := F)) W (Proc.devRef .tc main_arg3) = x3
      ∧ after (ops23 (F := F)) W (Proc.devRef .tc main_arg4) = x4
      ∧ after (ops23 (F := F)) W (Proc.devRef .tc main_arg5) = x5
      ∧ after (ops23 (F := F)) W (Proc.devRef .tc main_arg6) = x6
      ∧ after (ops23 (F := F)) W (Proc.devRef .tc main_arg7) = x7
      ∧ after (ops23 (F := F)) W (Proc.devRef .tc main_arg8) = x8
      ∧ after (ops23 (F := F)) W (Proc.devRef .tc main_arg9) = x9
      ∧ after (ops23 (F := F)) W (Proc.devRef .tc main_v147) = (val_main_v147 (F := F) x0 x1 x2 x3 x4 x5 x6 x7 x8 x9 x10)
      ∧ after (ops23 (F := F)) W (Proc.devRef .tc main_v191) = (val_main_v191 (F := F) x0 x1 x2 x5 x6 x9 x10)
      ∧ after (ops23 (F := F)) W (Proc.devRef .tc main_v193) = (val_main_v193 (F := F) x7)
      ∧ after (ops23 (F := F)) W (Proc.devRef .tc main_v195) = (val_main_v195 (F := F) x8)
      ∧ after (ops23 (F := F)) W (Proc.devRef .tc main_v204) = (val_main_v204 (F := F) x0 x1 x2 x3 x4 x7 x8)
      ∧ after (ops23 (F := F)) W (Proc.devRef .tc main_v212) = (val_main_v212 (F := F) x0 x1 x2 x3 x4 x7 x8)
      ∧ after (ops23 (F := F)) W (Proc.devRef .tc main_v214) = (val_main_v214 (F := F) x0 x1 x2 x3 x4 x7 x8) := by
  refine ⟨?_, ?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v191
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v193
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v195
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v204
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v182]
    try rw [h_main_v191]
    try rw [h_main_v193]
    try rw [h_main_v195]
    try rw [h_main_v204]
    try rw [h_main_v207]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v182]
    try rw [h_main_v191]
    try rw [h_main_v193]
    try rw [h_main_v195]
    try rw [h_main_v204]
    try rw [h_main_v207]
    rfl

/-- Part 3's operations in order. -/
abbrev opsPart3 : List (HloOp τ sig (Elt F)) := ops18 ++ (ops19 ++ (ops20 ++ (ops21 ++ (ops22 ++ (ops23)))))

set_option maxRecDepth 8192 in
set_option maxHeartbeats 4000000 in
/-- Part 3 of @main is the straight line of its operations. -/
theorem part3_eq (c : Dev nD) : main_part3 (F := F) c = seq (opsPart3 (F := F)) := rfl

end Cert.ReferenceIdeal.RunChunks

end
-- ==== Proof.RefRunPart4.lean ====
/-
  The reference's host program, part 4 of its six printed parts (operations 256 to 321), run a stretch of operations at a time.
  `main_part4` is the straight line of its stretches' operations (`part4_eq`); each stretch lemma says that the
  stretch, started from buffer contents that hold the stages' values (RefReadP's `val_…`) at every buffer still to be
  read, leaves the stages' values at every buffer read after it.
-/
import proofs.«101546_j62689342652477_1_alg».proof.Proof.RefReadP

noncomputable section

namespace Cert.ReferenceIdeal.RunChunks

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 256 to 266 of @main. -/
abbrev ops24 : List (HloOp τ sig (Elt F)) :=
  [ TRef.nullary (TRef.of (T := ⟨S_, .f32⟩) main_call8_cst) (constant S_ .f32 0x00000000#32),
    TRef.unary (TRef.of (T := ⟨S_, .f32⟩) main_call8_cst) (TRef.of (T := ⟨S32x512x512, .f32⟩) main_call8_v0) (broadcastInDim S32x512x512 ![] bcast_S_S32x512x512),
    TRef.binary (TRef.of (T := ⟨S32x512x512, .f32⟩) main_v204) (TRef.of (T := ⟨S32x512x512, .f32⟩) main_call8_v0) (TRef.of (T := ⟨S32x512x512, .f32⟩) main_v215) maximumf,
    binary main_v214 main_v215 main_v216 (mulf : (⟨S32x512x512, .f32⟩ : BufTy).Contents (Elt F) → (⟨S32x512x512, .f32⟩ : BufTy).Contents (Elt F) → (⟨S32x512x512, .f32⟩ : BufTy).Contents (Elt F)),
    binary main_v212 main_v216 main_v217 (addf : (⟨S32x512x512, .f32⟩ : BufTy).Contents (Elt F) → (⟨S32x512x512, .f32⟩ : BufTy).Contents (Elt F) → (⟨S32x512x512, .f32⟩ : BufTy).Contents (Elt F)),
    unary main_v193 main_v218 ((extractStridedSlice S1x1024x512 ![1, 0, 0] · slices_S2x1024x512_S1x1024x512_1_0_0) : (⟨S2x1024x512, .f32⟩ : BufTy).Contents (Elt F) → (⟨S1x1024x512, .f32⟩ : BufTy).Contents (Elt F)),
    reshape main_v218 main_v219 rfl shapeCasts_S1x1024x512_S1024x512,
    binary main_v217 main_v219 main_v220 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_v195 main_v221 ((extractStridedSlice S1x1024 ![1, 0] · slices_S2x1024_S1x1024_1_0) : (⟨S2x1024, .f32⟩ : BufTy).Contents (Elt F) → (⟨S1x1024, .f32⟩ : BufTy).Contents (Elt F)),
    reshape main_v221 main_v222 rfl shapeCasts_S1x1024_S1024,
    unary main_v222 main_v223 (broadcastInDim S1x1x1024 ![2] bcast_S1024_S1x1x1024_2 : (⟨S1024, .f32⟩ : BufTy).Contents (Elt F) → (⟨S1x1x1024, .f32⟩ : BufTy).Contents (Elt F)) ]

theorem ops24_sub : (ops24 : List (HloOp τ sig (Elt F))).Forall fun op => op.bufs ⊆ tcRefs τ sig :=
  ⟨nullary_bufs_sub .., unary_bufs_sub .., binary_bufs_sub .., binary_bufs_sub .., binary_bufs_sub .., unary_bufs_sub .., reshape_bufs_sub .., binary_bufs_sub .., unary_bufs_sub .., reshape_bufs_sub .., unary_bufs_sub ..⟩
theorem ops24_fresh : ∀ op ∈ (ops24 : List (HloOp τ sig (Elt F))), op.fresh = ∅ := by
  intro _ h; (repeat (cases h with | head => rfl | tail _ h => ?_)); exact nomatch h

set_option maxRecDepth 8192 in
/-- From buffer contents `W` that hold the stages' values at every buffer still to be read, operations 256 to 266
    leave the stages' values at every buffer read after them. -/
theorem chunk24 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v191 : W (Proc.devRef .tc main_v191) = (val_main_v191 (F := F) x0 x1 x2 x5 x6 x9 x10))
    (h_main_v193 : W (Proc.devRef .tc main_v193) = (val_main_v193 (F := F) x7))
    (h_main_v195 : W (Proc.devRef .tc main_v195) = (val_main_v195 (F := F) x8))
    (h_main_v204 : W (Proc.devRef .tc main_v204) = (val_main_v204 (F := F) x0 x1 x2 x3 x4 x7 x8))
    (h_main_v212 : W (Proc.devRef .tc main_v212) = (val_main_v212 (F := F) x0 x1 x2 x3 x4 x7 x8))
    (h_main_v214 : W (Proc.devRef .tc main_v214) = (val_main_v214 (F := F) x0 x1 x2 x3 x4 x7 x8)) :
    after (ops24 (F := F)) W (Proc.devRef .tc main_arg0) = x0
      ∧ after (ops24 (F := F)) W (Proc.devRef .tc main_arg1) = x1
      ∧ after (ops24 (F := F)) W (Proc.devRef .tc main_arg10) = x10
      ∧ after (ops24 (F := F)) W (Proc.devRef .tc main_arg2) = x2
      ∧ after (ops24 (F := F)) W (Proc.devRef .tc main_arg3) = x3
      ∧ after (ops24 (F := F)) W (Proc.devRef .tc main_arg4) = x4
      ∧ after (ops24 (F := F)) W (Proc.devRef .tc main_arg5) = x5
      ∧ after (ops24 (F := F)) W (Proc.devRef .tc main_arg6) = x6
      ∧ after (ops24 (F := F)) W (Proc.devRef .tc main_arg7) = x7
      ∧ after (ops24 (F := F)) W (Proc.devRef .tc main_arg8) = x8
      ∧ after (ops24 (F := F)) W (Proc.devRef .tc main_arg9) = x9
      ∧ after (ops24 (F := F)) W (Proc.devRef .tc main_v147) = (val_main_v147 (F := F) x0 x1 x2 x3 x4 x5 x6 x7 x8 x9 x10)
      ∧ after (ops24 (F := F)) W (Proc.devRef .tc main_v191) = (val_main_v191 (F := F) x0 x1 x2 x5 x6 x9 x10)
      ∧ after (ops24 (F := F)) W (Proc.devRef .tc main_v217) = (val_main_v217 (F := F) x0 x1 x2 x3 x4 x7 x8)
      ∧ after (ops24 (F := F)) W (Proc.devRef .tc main_v220) = (val_main_v220 (F := F) x0 x1 x2 x3 x4 x7 x8)
      ∧ after (ops24 (F := F)) W (Proc.devRef .tc main_v223) = (val_main_v223 (F := F) x8) := by
  refine ⟨?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v191
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v193]
    try rw [h_main_v195]
    try rw [h_main_v204]
    try rw [h_main_v212]
    try rw [h_main_v214]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v193]
    try rw [h_main_v195]
    try rw [h_main_v204]
    try rw [h_main_v212]
    try rw [h_main_v214]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v193]
    try rw [h_main_v195]
    try rw [h_main_v204]
    try rw [h_main_v212]
    try rw [h_main_v214]
    rfl

/-- Operations 267 to 277 of @main. -/
abbrev ops25 : List (HloOp τ sig (Elt F)) :=
  [ unary main_v223 main_v224 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v220 main_v224 main_v225 (addf : (⟨S32x512x1024, .f32⟩ : BufTy).Contents (Elt F) → (⟨S32x512x1024, .f32⟩ : BufTy).Contents (Elt F) → (⟨S32x512x1024, .f32⟩ : BufTy).Contents (Elt F)),
    unary main_v225 main_v226 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    unary main_v225 main_v227 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v227 main_v228 (Host.negf : (⟨S32x512x512, .f32⟩ : BufTy).Contents (Elt F) → (⟨S32x512x512, .f32⟩ : BufTy).Contents (Elt F)),
    unary main_v228 main_v229 (Host.exp : (⟨S32x512x512, .f32⟩ : BufTy).Contents (Elt F) → (⟨S32x512x512, .f32⟩ : BufTy).Contents (Elt F)),
    nullary main_cst_23 (constant S_ .f32 0x3F800000#32),
    unary main_cst_23 main_v230 (broadcastInDim S32x512x512 ![] bcast_S_S32x512x512 : (⟨S_, .f32⟩ : BufTy).Contents (Elt F) → (⟨S32x512x512, .f32⟩ : BufTy).Contents (Elt F)),
    binary main_v230 main_v229 main_v231 (addf : (⟨S32x512x512, .f32⟩ : BufTy).Contents (Elt F) → (⟨S32x512x512, .f32⟩ : BufTy).Contents (Elt F) → (⟨S32x512x512, .f32⟩ : BufTy).Contents (Elt F)),
    nullary main_cst_24 (constant S_ .f32 0x3F800000#32),
    unary main_cst_24 main_v232 (broadcastInDim S32x512x512 ![] bcast_S_S32x512x512 : (⟨S_, .f32⟩ : BufTy).Contents (Elt F) → (⟨S32x512x512, .f32⟩ : BufTy).Contents (Elt F)) ]

theorem ops25_sub : (ops25 : List (HloOp τ sig (Elt F))).Forall fun op => op.bufs ⊆ tcRefs τ sig :=
  ⟨unary_bufs_sub .., binary_bufs_sub .., unary_bufs_sub .., unary_bufs_sub .., unary_bufs_sub .., unary_bufs_sub .., nullary_bufs_sub .., unary_bufs_sub .., binary_bufs_sub .., nullary_bufs_sub .., unary_bufs_sub ..⟩
theorem ops25_fresh : ∀ op ∈ (ops25 : List (HloOp τ sig (Elt F))), op.fresh = ∅ := by
  intro _ h; (repeat (cases h with | head => rfl | tail _ h => ?_)); exact nomatch h

set_option maxRecDepth 8192 in
/-- From buffer contents `W` that hold the stages' values at every buffer still to be read, operations 267 to 277
    leave the stages' values at every buffer read after them. -/
theorem chunk25 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v191 : W (Proc.devRef .tc main_v191) = (val_main_v191 (F := F) x0 x1 x2 x5 x6 x9 x10))
    (h_main_v217 : W (Proc.devRef .tc main_v217) = (val_main_v217 (F := F) x0 x1 x2 x3 x4 x7 x8))
    (h_main_v220 : W (Proc.devRef .tc main_v220) = (val_main_v220 (F := F) x0 x1 x2 x3 x4 x7 x8))
    (h_main_v223 : W (Proc.devRef .tc main_v223) = (val_main_v223 (F := F) x8)) :
    after (ops25 (F := F)) W (Proc.devRef .tc main_arg0) = x0
      ∧ after (ops25 (F := F)) W (Proc.devRef .tc main_arg1) = x1
      ∧ after (ops25 (F := F)) W (Proc.devRef .tc main_arg10) = x10
      ∧ after (ops25 (F := F)) W (Proc.devRef .tc main_arg2) = x2
      ∧ after (ops25 (F := F)) W (Proc.devRef .tc main_arg3) = x3
      ∧ after (ops25 (F := F)) W (Proc.devRef .tc main_arg4) = x4
      ∧ after (ops25 (F := F)) W (Proc.devRef .tc main_arg5) = x5
      ∧ after (ops25 (F := F)) W (Proc.devRef .tc main_arg6) = x6
      ∧ after (ops25 (F := F)) W (Proc.devRef .tc main_arg7) = x7
      ∧ after (ops25 (F := F)) W (Proc.devRef .tc main_arg8) = x8
      ∧ after (ops25 (F := F)) W (Proc.devRef .tc main_arg9) = x9
      ∧ after (ops25 (F := F)) W (Proc.devRef .tc main_v147) = (val_main_v147 (F := F) x0 x1 x2 x3 x4 x5 x6 x7 x8 x9 x10)
      ∧ after (ops25 (F := F)) W (Proc.devRef .tc main_v191) = (val_main_v191 (F := F) x0 x1 x2 x5 x6 x9 x10)
      ∧ after (ops25 (F := F)) W (Proc.devRef .tc main_v217) = (val_main_v217 (F := F) x0 x1 x2 x3 x4 x7 x8)
      ∧ after (ops25 (F := F)) W (Proc.devRef .tc main_v226) = (val_main_v226 (F := F) x0 x1 x2 x3 x4 x7 x8)
      ∧ after (ops25 (F := F)) W (Proc.devRef .tc main_v231) = (val_main_v231 (F := F) x0 x1 x2 x3 x4 x7 x8)
      ∧ after (ops25 (F := F)) W (Proc.devRef .tc main_v232) = (val_main_v232 (F := F)) := by
  refine ⟨?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v191
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v217
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v217]
    try rw [h_main_v220]
    try rw [h_main_v223]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v217]
    try rw [h_main_v220]
    try rw [h_main_v223]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v217]
    try rw [h_main_v220]
    try rw [h_main_v223]
    rfl

/-- Operations 278 to 288 of @main. -/
abbrev ops26 : List (HloOp τ sig (Elt F)) :=
  [ binary main_v232 main_v231 main_v233 (Host.divf : (⟨S32x512x512, .f32⟩ : BufTy).Contents (Elt F) → (⟨S32x512x512, .f32⟩ : BufTy).Contents (Elt F) → (⟨S32x512x512, .f32⟩ : BufTy).Contents (Elt F)),
    binary main_v233 main_v217 main_v234 (mulf : (⟨S32x512x512, .f32⟩ : BufTy).Contents (Elt F) → (⟨S32x512x512, .f32⟩ : BufTy).Contents (Elt F) → (⟨S32x512x512, .f32⟩ : BufTy).Contents (Elt F)),
    nullary main_cst_25 (constant S_ .f32 0x3F800000#32),
    unary main_cst_25 main_v235 (broadcastInDim S32x512x512 ![] bcast_S_S32x512x512 : (⟨S_, .f32⟩ : BufTy).Contents (Elt F) → (⟨S32x512x512, .f32⟩ : BufTy).Contents (Elt F)),
    binary main_v235 main_v233 main_v236 (subf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S32x512x512, .f32⟩) main_call9_v0) (broadcastInDim S32x512x512 ![] bcast_S_S32x512x512),
    TRef.binary (TRef.of (T := ⟨S32x512x512, .f32⟩) main_v226) (TRef.of (T := ⟨S32x512x512, .f32⟩) main_call9_v0) (TRef.of (T := ⟨S32x512x512, .f32⟩) main_v237) maximumf,
    binary main_v236 main_v237 main_v238 (mulf : (⟨S32x512x512, .f32⟩ : BufTy).Contents (Elt F) → (⟨S32x512x512, .f32⟩ : BufTy).Contents (Elt F) → (⟨S32x512x512, .f32⟩ : BufTy).Contents (Elt F)),
    binary main_v234 main_v238 main_v239 (addf : (⟨S32x512x512, .f32⟩ : BufTy).Contents (Elt F) → (⟨S32x512x512, .f32⟩ : BufTy).Contents (Elt F) → (⟨S32x512x512, .f32⟩ : BufTy).Contents (Elt F)),
    unary main_arg9 main_v240 ((extractStridedSlice S1x2x1024x512 ![1, 0, 0, 0] · slices_S2x2x1024x512_S1x2x1024x512_1_0_0_0) : (⟨S2x2x1024x512, .f32⟩ : BufTy).Contents (Elt F) → (⟨S1x2x1024x512, .f32⟩ : BufTy).Contents (Elt F)) ]

theorem ops26_sub : (ops26 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., unary_bufs_sub ..⟩
theorem ops26_fresh : ∀ op ∈ (ops26 : List (HloOp τ sig (Elt F))), op.fresh = ∅ := by
  intro _ h; (repeat (cases h with | head => rfl | tail _ h => ?_)); exact nomatch h

set_option maxRecDepth 8192 in
/-- From buffer contents `W` that hold the stages' values at every buffer still to be read, operations 278 to 288
    leave the stages' values at every buffer read after them. -/
theorem chunk26 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v191 : W (Proc.devRef .tc main_v191) = (val_main_v191 (F := F) x0 x1 x2 x5 x6 x9 x10))
    (h_main_v217 : W (Proc.devRef .tc main_v217) = (val_main_v217 (F := F) x0 x1 x2 x3 x4 x7 x8))
    (h_main_v226 : W (Proc.devRef .tc main_v226) = (val_main_v226 (F := F) x0 x1 x2 x3 x4 x7 x8))
    (h_main_v231 : W (Proc.devRef .tc main_v231) = (val_main_v231 (F := F) x0 x1 x2 x3 x4 x7 x8))
    (h_main_v232 : W (Proc.devRef .tc main_v232) = (val_main_v232 (F := F))) :
    after (ops26 (F := F)) W (Proc.devRef .tc main_arg0) = x0
      ∧ after (ops26 (F := F)) W (Proc.devRef .tc main_arg1) = x1
      ∧ after (ops26 (F := F)) W (Proc.devRef .tc main_arg10) = x10
      ∧ after (ops26 (F := F)) W (Proc.devRef .tc main_arg2) = x2
      ∧ after (ops26 (F := F)) W (Proc.devRef .tc main_arg3) = x3
      ∧ after (ops26 (F := F)) W (Proc.devRef .tc main_arg4) = x4
      ∧ after (ops26 (F := F)) W (Proc.devRef .tc main_arg5) = x5
      ∧ after (ops26 (F := F)) W (Proc.devRef .tc main_arg6) = x6
      ∧ after (ops26 (F := F)) W (Proc.devRef .tc main_arg7) = x7
      ∧ after (ops26 (F := F)) W (Proc.devRef .tc main_arg8) = x8
      ∧ after (ops26 (F := F)) W (Proc.devRef .tc main_arg9) = x9
      ∧ after (ops26 (F := F)) W (Proc.devRef .tc main_v147) = (val_main_v147 (F := F) x0 x1 x2 x3 x4 x5 x6 x7 x8 x9 x10)
      ∧ after (ops26 (F := F)) W (Proc.devRef .tc main_v191) = (val_main_v191 (F := F) x0 x1 x2 x5 x6 x9 x10)
      ∧ after (ops26 (F := F)) W (Proc.devRef .tc main_v239) = (val_main_v239 (F := F) x0 x1 x2 x3 x4 x7 x8)
      ∧ after (ops26 (F := F)) W (Proc.devRef .tc main_v240) = (val_main_v240 (F := F) x9) := by
  refine ⟨?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v191
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v217]
    try rw [h_main_v226]
    try rw [h_main_v231]
    try rw [h_main_v232]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v217]
    try rw [h_main_v226]
    try rw [h_main_v231]
    try rw [h_main_v232]
    rfl

/-- Operations 289 to 299 of @main. -/
abbrev ops27 : List (HloOp τ sig (Elt F)) :=
  [ reshape main_v240 main_v241 rfl shapeCasts_S1x2x1024x512_S2x1024x512,
    unary main_arg10 main_v242 ((extractStridedSlice S1x2x1024 ![1, 0, 0] · slices_S2x2x1024_S1x2x1024_1_0_0) : (⟨S2x2x1024, .f32⟩ : BufTy).Contents (Elt F) → (⟨S1x2x1024, .f32⟩ : BufTy).Contents (Elt F)),
    reshape main_v242 main_v243 rfl shapeCasts_S1x2x1024_S2x1024,
    unary main_v241 main_v244 ((extractStridedSlice S1x1024x512 ![0, 0, 0] · slices_S2x1024x512_S1x1024x512_0_0_0) : (⟨S2x1024x512, .f32⟩ : BufTy).Contents (Elt F) → (⟨S1x1024x512, .f32⟩ : BufTy).Contents (Elt F)),
    reshape main_v244 main_v245 rfl shapeCasts_S1x1024x512_S1024x512,
    binary main_v191 main_v245 main_v246 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_v243 main_v247 ((extractStridedSlice S1x1024 ![0, 0] · slices_S2x1024_S1x1024_0_0) : (⟨S2x1024, .f32⟩ : BufTy).Contents (Elt F) → (⟨S1x1024, .f32⟩ : BufTy).Contents (Elt F)),
    reshape main_v247 main_v248 rfl shapeCasts_S1x1024_S1024,
    unary main_v248 main_v249 (broadcastInDim S1x1x1024 ![2] bcast_S1024_S1x1x1024_2 : (⟨S1024, .f32⟩ : BufTy).Contents (Elt F) → (⟨S1x1x1024, .f32⟩ : BufTy).Contents (Elt F)),
    unary main_v249 main_v250 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v246 main_v250 main_v251 (addf : (⟨S32x512x1024, .f32⟩ : BufTy).Contents (Elt F) → (⟨S32x512x1024, .f32⟩ : BufTy).Contents (Elt F) → (⟨S32x512x1024, .f32⟩ : BufTy).Contents (Elt F)) ]

theorem ops27_sub : (ops27 : List (HloOp τ sig (Elt F))).Forall fun op => op.bufs ⊆ tcRefs τ sig :=
  ⟨reshape_bufs_sub .., unary_bufs_sub .., reshape_bufs_sub .., unary_bufs_sub .., reshape_bufs_sub .., binary_bufs_sub .., unary_bufs_sub .., reshape_bufs_sub .., unary_bufs_sub .., unary_bufs_sub .., binary_bufs_sub ..⟩
theorem ops27_fresh : ∀ op ∈ (ops27 : List (HloOp τ sig (Elt F))), op.fresh = ∅ := by
  intro _ h; (repeat (cases h with | head => rfl | tail _ h => ?_)); exact nomatch h

set_option maxRecDepth 8192 in
/-- From buffer contents `W` that hold the stages' values at every buffer still to be read, operations 289 to 299
    leave the stages' values at every buffer read after them. -/
theorem chunk27 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v191 : W (Proc.devRef .tc main_v191) = (val_main_v191 (F := F) x0 x1 x2 x5 x6 x9 x10))
    (h_main_v239 : W (Proc.devRef .tc main_v239) = (val_main_v239 (F := F) x0 x1 x2 x3 x4 x7 x8))
    (h_main_v240 : W (Proc.devRef .tc main_v240) = (val_main_v240 (F := F) x9)) :
    after (ops27 (F := F)) W (Proc.devRef .tc main_arg0) = x0
      ∧ after (ops27 (F := F)) W (Proc.devRef .tc main_arg1) = x1
      ∧ after (ops27 (F := F)) W (Proc.devRef .tc main_arg10) = x10
      ∧ after (ops27 (F := F)) W (Proc.devRef .tc main_arg2) = x2
      ∧ after (ops27 (F := F)) W (Proc.devRef .tc main_arg3) = x3
      ∧ after (ops27 (F := F)) W (Proc.devRef .tc main_arg4) = x4
      ∧ after (ops27 (F := F)) W (Proc.devRef .tc main_arg5) = x5
      ∧ after (ops27 (F := F)) W (Proc.devRef .tc main_arg6) = x6
      ∧ after (ops27 (F := F)) W (Proc.devRef .tc main_arg7) = x7
      ∧ after (ops27 (F := F)) W (Proc.devRef .tc main_arg8) = x8
      ∧ after (ops27 (F := F)) W (Proc.devRef .tc main_arg9) = x9
      ∧ after (ops27 (F := F)) W (Proc.devRef .tc main_v147) = (val_main_v147 (F := F) x0 x1 x2 x3 x4 x5 x6 x7 x8 x9 x10)
      ∧ after (ops27 (F := F)) W (Proc.devRef .tc main_v191) = (val_main_v191 (F := F) x0 x1 x2 x5 x6 x9 x10)
      ∧ after (ops27 (F := F)) W (Proc.devRef .tc main_v239) = (val_main_v239 (F := F) x0 x1 x2 x3 x4 x7 x8)
      ∧ after (ops27 (F := F)) W (Proc.devRef .tc main_v241) = (val_main_v241 (F := F) x9)
      ∧ after (ops27 (F := F)) W (Proc.devRef .tc main_v243) = (val_main_v243 (F := F) x10)
      ∧ after (ops27 (F := F)) W (Proc.devRef .tc main_v251) = (val_main_v251 (F := F) x0 x1 x2 x5 x6 x9 x10) := by
  refine ⟨?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v191
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v239
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v239]
    try rw [h_main_v240]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v239]
    try rw [h_main_v240]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v239]
    try rw [h_main_v240]
    rfl

/-- Operations 300 to 310 of @main. -/
abbrev ops28 : List (HloOp τ sig (Elt F)) :=
  [ unary main_v251 main_v252 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    unary main_v251 main_v253 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v253 main_v254 (Host.negf : (⟨S32x512x512, .f32⟩ : BufTy).Contents (Elt F) → (⟨S32x512x512, .f32⟩ : BufTy).Contents (Elt F)),
    unary main_v254 main_v255 (Host.exp : (⟨S32x512x512, .f32⟩ : BufTy).Contents (Elt F) → (⟨S32x512x512, .f32⟩ : BufTy).Contents (Elt F)),
    nullary main_cst_26 (constant S_ .f32 0x3F800000#32),
    unary main_cst_26 main_v256 (broadcastInDim S32x512x512 ![] bcast_S_S32x512x512 : (⟨S_, .f32⟩ : BufTy).Contents (Elt F) → (⟨S32x512x512, .f32⟩ : BufTy).Contents (Elt F)),
    binary main_v256 main_v255 main_v257 (addf : (⟨S32x512x512, .f32⟩ : BufTy).Contents (Elt F) → (⟨S32x512x512, .f32⟩ : BufTy).Contents (Elt F) → (⟨S32x512x512, .f32⟩ : BufTy).Contents (Elt F)),
    nullary main_cst_27 (constant S_ .f32 0x3F800000#32),
    unary main_cst_27 main_v258 (broadcastInDim S32x512x512 ![] bcast_S_S32x512x512 : (⟨S_, .f32⟩ : BufTy).Contents (Elt F) → (⟨S32x512x512, .f32⟩ : BufTy).Contents (Elt F)),
    binary main_v258 main_v257 main_v259 (Host.divf : (⟨S32x512x512, .f32⟩ : BufTy).Contents (Elt F) → (⟨S32x512x512, .f32⟩ : BufTy).Contents (Elt F) → (⟨S32x512x512, .f32⟩ : BufTy).Contents (Elt F)),
    binary main_v259 main_v191 main_v260 (mulf : (⟨S32x512x512, .f32⟩ : BufTy).Contents (Elt F) → (⟨S32x512x512, .f32⟩ : BufTy).Contents (Elt F) → (⟨S32x512x512, .f32⟩ : BufTy).Contents (Elt F)) ]

theorem ops28_sub : (ops28 : List (HloOp τ sig (Elt F))).Forall fun op => op.bufs ⊆ tcRefs τ sig :=
  ⟨unary_bufs_sub .., unary_bufs_sub .., unary_bufs_sub .., unary_bufs_sub .., nullary_bufs_sub .., unary_bufs_sub .., binary_bufs_sub .., nullary_bufs_sub .., unary_bufs_sub .., binary_bufs_sub .., binary_bufs_sub ..⟩
theorem ops28_fresh : ∀ op ∈ (ops28 : List (HloOp τ sig (Elt F))), op.fresh = ∅ := by
  intro _ h; (repeat (cases h with | head => rfl | tail _ h => ?_)); exact nomatch h

set_option maxRecDepth 8192 in
/-- From buffer contents `W` that hold the stages' values at every buffer still to be read, operations 300 to 310
    leave the stages' values at every buffer read after them. -/
theorem chunk28 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v191 : W (Proc.devRef .tc main_v191) = (val_main_v191 (F := F) x0 x1 x2 x5 x6 x9 x10))
    (h_main_v239 : W (Proc.devRef .tc main_v239) = (val_main_v239 (F := F) x0 x1 x2 x3 x4 x7 x8))
    (h_main_v241 : W (Proc.devRef .tc main_v241) = (val_main_v241 (F := F) x9))
    (h_main_v243 : W (Proc.devRef .tc main_v243) = (val_main_v243 (F := F) x10))
    (h_main_v251 : W (Proc.devRef .tc main_v251) = (val_main_v251 (F := F) x0 x1 x2 x5 x6 x9 x10)) :
    after (ops28 (F := F)) W (Proc.devRef .tc main_arg0) = x0
      ∧ after (ops28 (F := F)) W (Proc.devRef .tc main_arg1) = x1
      ∧ after (ops28 (F := F)) W (Proc.devRef .tc main_arg10) = x10
      ∧ after (ops28 (F := F)) W (Proc.devRef .tc main_arg2) = x2
      ∧ after (ops28 (F := F)) W (Proc.devRef .tc main_arg3) = x3
      ∧ after (ops28 (F := F)) W (Proc.devRef .tc main_arg4) = x4
      ∧ after (ops28 (F := F)) W (Proc.devRef .tc main_arg5) = x5
      ∧ after (ops28 (F := F)) W (Proc.devRef .tc main_arg6) = x6
      ∧ after (ops28 (F := F)) W (Proc.devRef .tc main_arg7) = x7
      ∧ after (ops28 (F := F)) W (Proc.devRef .tc main_arg8) = x8
      ∧ after (ops28 (F := F)) W (Proc.devRef .tc main_arg9) = x9
      ∧ after (ops28 (F := F)) W (Proc.devRef .tc main_v147) = (val_main_v147 (F := F) x0 x1 x2 x3 x4 x5 x6 x7 x8 x9 x10)
      ∧ after (ops28 (F := F)) W (Proc.devRef .tc main_v239) = (val_main_v239 (F := F) x0 x1 x2 x3 x4 x7 x8)
      ∧ after (ops28 (F := F)) W (Proc.devRef .tc main_v241) = (val_main_v241 (F := F) x9)
      ∧ after (ops28 (F := F)) W (Proc.devRef .tc main_v243) = (val_main_v243 (F := F) x10)
      ∧ after (ops28 (F := F)) W (Proc.devRef .tc main_v252) = (val_main_v252 (F := F) x0 x1 x2 x5 x6 x9 x10)
      ∧ after (ops28 (F := F)) W (Proc.devRef .tc main_v259) = (val_main_v259 (F := F) x0 x1 x2 x5 x6 x9 x10)
      ∧ after (ops28 (F := F)) W (Proc.devRef .tc main_v260) = (val_main_v260 (F := F) x0 x1 x2 x5 x6 x9 x10) := by
  refine ⟨?_, ?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v239
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v241
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v243
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v239]
    try rw [h_main_v241]
    try rw [h_main_v243]
    try rw [h_main_v251]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v239]
    try rw [h_main_v241]
    try rw [h_main_v243]
    try rw [h_main_v251]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v191]
    try rw [h_main_v239]
    try rw [h_main_v241]
    try rw [h_main_v243]
    try rw [h_main_v251]
    rfl

/-- Operations 311 to 321 of @main. -/
abbrev ops29 : List (HloOp τ sig (Elt F)) :=
  [ nullary main_cst_28 (constant S_ .f32 0x3F800000#32),
    unary main_cst_28 main_v261 (broadcastInDim S32x512x512 ![] bcast_S_S32x512x512 : (⟨S_, .f32⟩ : BufTy).Contents (Elt F) → (⟨S32x512x512, .f32⟩ : BufTy).Contents (Elt F)),
    binary main_v261 main_v259 main_v262 (subf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S32x512x512, .f32⟩) main_call10_v0) (broadcastInDim S32x512x512 ![] bcast_S_S32x512x512),
    TRef.binary (TRef.of (T := ⟨S32x512x512, .f32⟩) main_v252) (TRef.of (T := ⟨S32x512x512, .f32⟩) main_call10_v0) (TRef.of (T := ⟨S32x512x512, .f32⟩) main_v263) maximumf,
    binary main_v262 main_v263 main_v264 (mulf : (⟨S32x512x512, .f32⟩ : BufTy).Contents (Elt F) → (⟨S32x512x512, .f32⟩ : BufTy).Contents (Elt F) → (⟨S32x512x512, .f32⟩ : BufTy).Contents (Elt F)),
    binary main_v260 main_v264 main_v265 (addf : (⟨S32x512x512, .f32⟩ : BufTy).Contents (Elt F) → (⟨S32x512x512, .f32⟩ : BufTy).Contents (Elt F) → (⟨S32x512x512, .f32⟩ : BufTy).Contents (Elt F)),
    unary main_v241 main_v266 ((extractStridedSlice S1x1024x512 ![1, 0, 0] · slices_S2x1024x512_S1x1024x512_1_0_0) : (⟨S2x1024x512, .f32⟩ : BufTy).Contents (Elt F) → (⟨S1x1024x512, .f32⟩ : BufTy).Contents (Elt F)),
    reshape main_v266 main_v267 rfl shapeCasts_S1x1024x512_S1024x512,
    binary main_v265 main_v267 main_v268 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)) ]

theorem ops29_sub : (ops29 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., reshape_bufs_sub .., binary_bufs_sub ..⟩
theorem ops29_fresh : ∀ op ∈ (ops29 : List (HloOp τ sig (Elt F))), op.fresh = ∅ := by
  intro _ h; (repeat (cases h with | head => rfl | tail _ h => ?_)); exact nomatch h

set_option maxRecDepth 8192 in
/-- From buffer contents `W` that hold the stages' values at every buffer still to be read, operations 311 to 321
    leave the stages' values at every buffer read after them. -/
theorem chunk29 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v239 : W (Proc.devRef .tc main_v239) = (val_main_v239 (F := F) x0 x1 x2 x3 x4 x7 x8))
    (h_main_v241 : W (Proc.devRef .tc main_v241) = (val_main_v241 (F := F) x9))
    (h_main_v243 : W (Proc.devRef .tc main_v243) = (val_main_v243 (F := F) x10))
    (h_main_v252 : W (Proc.devRef .tc main_v252) = (val_main_v252 (F := F) x0 x1 x2 x5 x6 x9 x10))
    (h_main_v259 : W (Proc.devRef .tc main_v259) = (val_main_v259 (F := F) x0 x1 x2 x5 x6 x9 x10))
    (h_main_v260 : W (Proc.devRef .tc main_v260) = (val_main_v260 (F := F) x0 x1 x2 x5 x6 x9 x10)) :
    after (ops29 (F := F)) W (Proc.devRef .tc main_arg0) = x0
      ∧ after (ops29 (F := F)) W (Proc.devRef .tc main_arg1) = x1
      ∧ after (ops29 (F := F)) W (Proc.devRef .tc main_arg10) = x10
      ∧ after (ops29 (F := F)) W (Proc.devRef .tc main_arg2) = x2
      ∧ after (ops29 (F := F)) W (Proc.devRef .tc main_arg3) = x3
      ∧ after (ops29 (F := F)) W (Proc.devRef .tc main_arg4) = x4
      ∧ after (ops29 (F := F)) W (Proc.devRef .tc main_arg5) = x5
      ∧ after (ops29 (F := F)) W (Proc.devRef .tc main_arg6) = x6
      ∧ after (ops29 (F := F)) W (Proc.devRef .tc main_arg7) = x7
      ∧ after (ops29 (F := F)) W (Proc.devRef .tc main_arg8) = x8
      ∧ after (ops29 (F := F)) W (Proc.devRef .tc main_arg9) = x9
      ∧ after (ops29 (F := F)) W (Proc.devRef .tc main_v147) = (val_main_v147 (F := F) x0 x1 x2 x3 x4 x5 x6 x7 x8 x9 x10)
      ∧ after (ops29 (F := F)) W (Proc.devRef .tc main_v239) = (val_main_v239 (F := F) x0 x1 x2 x3 x4 x7 x8)
      ∧ after (ops29 (F := F)) W (Proc.devRef .tc main_v243) = (val_main_v243 (F := F) x10)
      ∧ after (ops29 (F := F)) W (Proc.devRef .tc main_v265) = (val_main_v265 (F := F) x0 x1 x2 x5 x6 x9 x10)
      ∧ after (ops29 (F := F)) W (Proc.devRef .tc main_v268) = (val_main_v268 (F := F) x0 x1 x2 x5 x6 x9 x10) := by
  refine ⟨?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v239
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v243
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v239]
    try rw [h_main_v241]
    try rw [h_main_v243]
    try rw [h_main_v252]
    try rw [h_main_v259]
    try rw [h_main_v260]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v239]
    try rw [h_main_v241]
    try rw [h_main_v243]
    try rw [h_main_v252]
    try rw [h_main_v259]
    try rw [h_main_v260]
    rfl

/-- Part 4's operations in order. -/
abbrev opsPart4 : List (HloOp τ sig (Elt F)) := ops24 ++ (ops25 ++ (ops26 ++ (ops27 ++ (ops28 ++ (ops29)))))

set_option maxRecDepth 8192 in
set_option maxHeartbeats 4000000 in
/-- Part 4 of @main is the straight line of its operations. -/
theorem part4_eq (c : Dev nD) : main_part4 (F := F) c = seq (opsPart4 (F := F)) := rfl

end Cert.ReferenceIdeal.RunChunks

end
-- ==== Proof.RefRunPart5.lean ====
/-
  The reference's host program, part 5 of its six printed parts (operations 322 to 349), run a stretch of operations at a time.
  `main_part5` is the straight line of its stretches' operations (`part5_eq`); each stretch lemma says that the
  stretch, started from buffer contents that hold the stages' values (RefReadP's `val_…`) at every buffer still to be
  read, leaves the stages' values at every buffer read after it.
-/
import proofs.«101546_j62689342652477_1_alg».proof.Proof.RefReadP

noncomputable section

namespace Cert.ReferenceIdeal.RunChunks

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 322 to 331 of @main. -/
abbrev ops30 : List (HloOp τ sig (Elt F)) :=
  [ unary main_v243 main_v269 ((extractStridedSlice S1x1024 ![1, 0] · slices_S2x1024_S1x1024_1_0) : (⟨S2x1024, .f32⟩ : BufTy).Contents (Elt F) → (⟨S1x1024, .f32⟩ : BufTy).Contents (Elt F)),
    reshape main_v269 main_v270 rfl shapeCasts_S1x1024_S1024,
    unary main_v270 main_v271 (broadcastInDim S1x1x1024 ![2] bcast_S1024_S1x1x1024_2 : (⟨S1024, .f32⟩ : BufTy).Contents (Elt F) → (⟨S1x1x1024, .f32⟩ : BufTy).Contents (Elt F)),
    unary main_v271 main_v272 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v268 main_v272 main_v273 (addf : (⟨S32x512x1024, .f32⟩ : BufTy).Contents (Elt F) → (⟨S32x512x1024, .f32⟩ : BufTy).Contents (Elt F) → (⟨S32x512x1024, .f32⟩ : BufTy).Contents (Elt F)),
    unary main_v273 main_v274 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    unary main_v273 main_v275 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v275 main_v276 (Host.negf : (⟨S32x512x512, .f32⟩ : BufTy).Contents (Elt F) → (⟨S32x512x512, .f32⟩ : BufTy).Contents (Elt F)),
    unary main_v276 main_v277 (Host.exp : (⟨S32x512x512, .f32⟩ : BufTy).Contents (Elt F) → (⟨S32x512x512, .f32⟩ : BufTy).Contents (Elt F)),
    nullary main_cst_29 (constant S_ .f32 0x3F800000#32) ]

theorem ops30_sub : (ops30 : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub .., unary_bufs_sub .., unary_bufs_sub .., nullary_bufs_sub ..⟩
theorem ops30_fresh : ∀ op ∈ (ops30 : List (HloOp τ sig (Elt F))), op.fresh = ∅ := by
  intro _ h; (repeat (cases h with | head => rfl | tail _ h => ?_)); exact nomatch h

set_option maxRecDepth 8192 in
/-- From buffer contents `W` that hold the stages' values at every buffer still to be read, operations 322 to 331
    leave the stages' values at every buffer read after them. -/
theorem chunk30 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v239 : W (Proc.devRef .tc main_v239) = (val_main_v239 (F := F) x0 x1 x2 x3 x4 x7 x8))
    (h_main_v243 : W (Proc.devRef .tc main_v243) = (val_main_v243 (F := F) x10))
    (h_main_v265 : W (Proc.devRef .tc main_v265) = (val_main_v265 (F := F) x0 x1 x2 x5 x6 x9 x10))
    (h_main_v268 : W (Proc.devRef .tc main_v268) = (val_main_v268 (F := F) x0 x1 x2 x5 x6 x9 x10)) :
    after (ops30 (F := F)) W (Proc.devRef .tc main_arg0) = x0
      ∧ after (ops30 (F := F)) W (Proc.devRef .tc main_arg1) = x1
      ∧ after (ops30 (F := F)) W (Proc.devRef .tc main_arg10) = x10
      ∧ after (ops30 (F := F)) W (Proc.devRef .tc main_arg2) = x2
      ∧ after (ops30 (F := F)) W (Proc.devRef .tc main_arg3) = x3
      ∧ after (ops30 (F := F)) W (Proc.devRef .tc main_arg4) = x4
      ∧ after (ops30 (F := F)) W (Proc.devRef .tc main_arg5) = x5
      ∧ after (ops30 (F := F)) W (Proc.devRef .tc main_arg6) = x6
      ∧ after (ops30 (F := F)) W (Proc.devRef .tc main_arg7) = x7
      ∧ after (ops30 (F := F)) W (Proc.devRef .tc main_arg8) = x8
      ∧ after (ops30 (F := F)) W (Proc.devRef .tc main_arg9) = x9
      ∧ after (ops30 (F := F)) W (Proc.devRef .tc main_v147) = (val_main_v147 (F := F) x0 x1 x2 x3 x4 x5 x6 x7 x8 x9 x10)
      ∧ after (ops30 (F := F)) W (Proc.devRef .tc main_v239) = (val_main_v239 (F := F) x0 x1 x2 x3 x4 x7 x8)
      ∧ after (ops30 (F := F)) W (Proc.devRef .tc main_v265) = (val_main_v265 (F := F) x0 x1 x2 x5 x6 x9 x10)
      ∧ after (ops30 (F := F)) W (Proc.devRef .tc main_v274) = (val_main_v274 (F := F) x0 x1 x2 x5 x6 x9 x10)
      ∧ after (ops30 (F := F)) W (Proc.devRef .tc main_v277) = (val_main_v277 (F := F) x0 x1 x2 x5 x6 x9 x10)
      ∧ after (ops30 (F := F)) W (Proc.devRef .tc main_cst_29) = (val_main_cst_29 (F := F)) := by
  refine ⟨?_, ?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v239
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v265
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v239]
    try rw [h_main_v243]
    try rw [h_main_v265]
    try rw [h_main_v268]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v239]
    try rw [h_main_v243]
    try rw [h_main_v265]
    try rw [h_main_v268]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v239]
    try rw [h_main_v243]
    try rw [h_main_v265]
    try rw [h_main_v268]
    rfl

/-- Operations 332 to 340 of @main. -/
abbrev ops31 : List (HloOp τ sig (Elt F)) :=
  [ unary main_cst_29 main_v278 (broadcastInDim S32x512x512 ![] bcast_S_S32x512x512 : (⟨S_, .f32⟩ : BufTy).Contents (Elt F) → (⟨S32x512x512, .f32⟩ : BufTy).Contents (Elt F)),
    binary main_v278 main_v277 main_v279 (addf : (⟨S32x512x512, .f32⟩ : BufTy).Contents (Elt F) → (⟨S32x512x512, .f32⟩ : BufTy).Contents (Elt F) → (⟨S32x512x512, .f32⟩ : BufTy).Contents (Elt F)),
    nullary main_cst_30 (constant S_ .f32 0x3F800000#32),
    unary main_cst_30 main_v280 (broadcastInDim S32x512x512 ![] bcast_S_S32x512x512 : (⟨S_, .f32⟩ : BufTy).Contents (Elt F) → (⟨S32x512x512, .f32⟩ : BufTy).Contents (Elt F)),
    binary main_v280 main_v279 main_v281 (Host.divf : (⟨S32x512x512, .f32⟩ : BufTy).Contents (Elt F) → (⟨S32x512x512, .f32⟩ : BufTy).Contents (Elt F) → (⟨S32x512x512, .f32⟩ : BufTy).Contents (Elt F)),
    binary main_v281 main_v265 main_v282 (mulf : (⟨S32x512x512, .f32⟩ : BufTy).Contents (Elt F) → (⟨S32x512x512, .f32⟩ : BufTy).Contents (Elt F) → (⟨S32x512x512, .f32⟩ : BufTy).Contents (Elt F)),
    nullary main_cst_31 (constant S_ .f32 0x3F800000#32),
    unary main_cst_31 main_v283 (broadcastInDim S32x512x512 ![] bcast_S_S32x512x512 : (⟨S_, .f32⟩ : BufTy).Contents (Elt F) → (⟨S32x512x512, .f32⟩ : BufTy).Contents (Elt F)),
    binary main_v283 main_v281 main_v284 (subf : (⟨S32x512x512, .f32⟩ : BufTy).Contents (Elt F) → (⟨S32x512x512, .f32⟩ : BufTy).Contents (Elt F) → (⟨S32x512x512, .f32⟩ : BufTy).Contents (Elt F)) ]

theorem ops31_sub : (ops31 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub ..⟩
theorem ops31_fresh : ∀ op ∈ (ops31 : List (HloOp τ sig (Elt F))), op.fresh = ∅ := by
  intro _ h; (repeat (cases h with | head => rfl | tail _ h => ?_)); exact nomatch h

set_option maxRecDepth 8192 in
/-- From buffer contents `W` that hold the stages' values at every buffer still to be read, operations 332 to 340
    leave the stages' values at every buffer read after them. -/
theorem chunk31 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v239 : W (Proc.devRef .tc main_v239) = (val_main_v239 (F := F) x0 x1 x2 x3 x4 x7 x8))
    (h_main_v265 : W (Proc.devRef .tc main_v265) = (val_main_v265 (F := F) x0 x1 x2 x5 x6 x9 x10))
    (h_main_v274 : W (Proc.devRef .tc main_v274) = (val_main_v274 (F := F) x0 x1 x2 x5 x6 x9 x10))
    (h_main_v277 : W (Proc.devRef .tc main_v277) = (val_main_v277 (F := F) x0 x1 x2 x5 x6 x9 x10))
    (h_main_cst_29 : W (Proc.devRef .tc main_cst_29) = (val_main_cst_29 (F := F))) :
    after (ops31 (F := F)) W (Proc.devRef .tc main_arg0) = x0
      ∧ after (ops31 (F := F)) W (Proc.devRef .tc main_arg1) = x1
      ∧ after (ops31 (F := F)) W (Proc.devRef .tc main_arg10) = x10
      ∧ after (ops31 (F := F)) W (Proc.devRef .tc main_arg2) = x2
      ∧ after (ops31 (F := F)) W (Proc.devRef .tc main_arg3) = x3
      ∧ after (ops31 (F := F)) W (Proc.devRef .tc main_arg4) = x4
      ∧ after (ops31 (F := F)) W (Proc.devRef .tc main_arg5) = x5
      ∧ after (ops31 (F := F)) W (Proc.devRef .tc main_arg6) = x6
      ∧ after (ops31 (F := F)) W (Proc.devRef .tc main_arg7) = x7
      ∧ after (ops31 (F := F)) W (Proc.devRef .tc main_arg8) = x8
      ∧ after (ops31 (F := F)) W (Proc.devRef .tc main_arg9) = x9
      ∧ after (ops31 (F := F)) W (Proc.devRef .tc main_v147) = (val_main_v147 (F := F) x0 x1 x2 x3 x4 x5 x6 x7 x8 x9 x10)
      ∧ after (ops31 (F := F)) W (Proc.devRef .tc main_v239) = (val_main_v239 (F := F) x0 x1 x2 x3 x4 x7 x8)
      ∧ after (ops31 (F := F)) W (Proc.devRef .tc main_v274) = (val_main_v274 (F := F) x0 x1 x2 x5 x6 x9 x10)
      ∧ after (ops31 (F := F)) W (Proc.devRef .tc main_v282) = (val_main_v282 (F := F) x0 x1 x2 x5 x6 x9 x10)
      ∧ after (ops31 (F := F)) W (Proc.devRef .tc main_v284) = (val_main_v284 (F := F) x0 x1 x2 x5 x6 x9 x10) := by
  refine ⟨?_, ?_, ?_, ?_, ?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v147
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v239
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_v274
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v239]
    try rw [h_main_v265]
    try rw [h_main_v274]
    try rw [h_main_v277]
    try rw [h_main_cst_29]
    rfl
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v239]
    try rw [h_main_v265]
    try rw [h_main_v274]
    try rw [h_main_v277]
    try rw [h_main_cst_29]
    rfl

/-- Operations 341 to 349 of @main. -/
abbrev ops32 : List (HloOp τ sig (Elt F)) :=
  [ TRef.nullary (TRef.of (T := ⟨S_, .f32⟩) main_call11_cst) (constant S_ .f32 0x00000000#32),
    TRef.unary (TRef.of (T := ⟨S_, .f32⟩) main_call11_cst) (TRef.of (T := ⟨S32x512x512, .f32⟩) main_call11_v0) (broadcastInDim S32x512x512 ![] bcast_S_S32x512x512),
    TRef.binary (TRef.of (T := ⟨S32x512x512, .f32⟩) main_v274) (TRef.of (T := ⟨S32x512x512, .f32⟩) main_call11_v0) (TRef.of (T := ⟨S32x512x512, .f32⟩) main_v285) maximumf,
    binary main_v284 main_v285 main_v286 (mulf : (⟨S32x512x512, .f32⟩ : BufTy).Contents (Elt F) → (⟨S32x512x512, .f32⟩ : BufTy).Contents (Elt F) → (⟨S32x512x512, .f32⟩ : BufTy).Contents (Elt F)),
    binary main_v282 main_v286 main_v287 (addf : (⟨S32x512x512, .f32⟩ : BufTy).Contents (Elt F) → (⟨S32x512x512, .f32⟩ : BufTy).Contents (Elt F) → (⟨S32x512x512, .f32⟩ : BufTy).Contents (Elt F)),
    binary main_v239 main_v287 main_v288 ((fun a b => concatenate S32x512x1024 2 [⟨S32x512x512, a⟩, ⟨S32x512x512, b⟩] concatenates_S32x512x512_S32x512x512_S32x512x1024_d2) : (⟨S32x512x512, .f32⟩ : BufTy).Contents (Elt F) → (⟨S32x512x512, .f32⟩ : BufTy).Contents (Elt F) → (⟨S32x512x1024, .f32⟩ : BufTy).Contents (Elt F)),
    unary main_v147 main_v289 (broadcastInDim S1x32x512x1024 ![1, 2, 3] bcast_S32x512x1024_S1x32x512x1024_1_2_3 : (⟨S32x512x1024, .f32⟩ : BufTy).Contents (Elt F) → (⟨S1x32x512x1024, .f32⟩ : BufTy).Contents (Elt F)),
    unary main_v288 main_v290 (broadcastInDim S1x32x512x1024 ![1, 2, 3] bcast_S32x512x1024_S1x32x512x1024_1_2_3 : (⟨S32x512x1024, .f32⟩ : BufTy).Contents (Elt F) → (⟨S1x32x512x1024, .f32⟩ : BufTy).Contents (Elt F)),
    binary main_v289 main_v290 main_v291 ((fun a b => concatenate S2x32x512x1024 0 [⟨S1x32x512x1024, a⟩, ⟨S1x32x512x1024, b⟩] concatenates_S1x32x512x1024_S1x32x512x1024_S2x32x512x1024_d0) : (⟨S1x32x512x1024, .f32⟩ : BufTy).Contents (Elt F) → (⟨S1x32x512x1024, .f32⟩ : BufTy).Contents (Elt F) → (⟨S2x32x512x1024, .f32⟩ : BufTy).Contents (Elt F)) ]

theorem ops32_sub : (ops32 : List (HloOp τ sig (Elt F))).Forall fun op => op.bufs ⊆ tcRefs τ sig :=
  ⟨nullary_bufs_sub .., unary_bufs_sub .., binary_bufs_sub .., binary_bufs_sub .., binary_bufs_sub .., binary_bufs_sub .., unary_bufs_sub .., unary_bufs_sub .., binary_bufs_sub ..⟩
theorem ops32_fresh : ∀ op ∈ (ops32 : List (HloOp τ sig (Elt F))), op.fresh = ∅ := by
  intro _ h; (repeat (cases h with | head => rfl | tail _ h => ?_)); exact nomatch h

set_option maxRecDepth 8192 in
/-- From buffer contents `W` that hold the stages' values at every buffer still to be read, operations 341 to 349
    leave the stages' values at every buffer read after them. -/
theorem chunk32 (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F))
    (h_main_arg0 : W (Proc.devRef .tc main_arg0) = x0)
    (h_main_arg1 : W (Proc.devRef .tc main_arg1) = x1)
    (h_main_arg10 : W (Proc.devRef .tc main_arg10) = x10)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v147 : W (Proc.devRef .tc main_v147) = (val_main_v147 (F := F) x0 x1 x2 x3 x4 x5 x6 x7 x8 x9 x10))
    (h_main_v239 : W (Proc.devRef .tc main_v239) = (val_main_v239 (F := F) x0 x1 x2 x3 x4 x7 x8))
    (h_main_v274 : W (Proc.devRef .tc main_v274) = (val_main_v274 (F := F) x0 x1 x2 x5 x6 x9 x10))
    (h_main_v282 : W (Proc.devRef .tc main_v282) = (val_main_v282 (F := F) x0 x1 x2 x5 x6 x9 x10))
    (h_main_v284 : W (Proc.devRef .tc main_v284) = (val_main_v284 (F := F) x0 x1 x2 x5 x6 x9 x10)) :
    after (ops32 (F := F)) W (Proc.devRef .tc main_arg0) = x0
      ∧ after (ops32 (F := F)) W (Proc.devRef .tc main_arg1) = x1
      ∧ after (ops32 (F := F)) W (Proc.devRef .tc main_arg10) = x10
      ∧ after (ops32 (F := F)) W (Proc.devRef .tc main_arg2) = x2
      ∧ after (ops32 (F := F)) W (Proc.devRef .tc main_arg3) = x3
      ∧ after (ops32 (F := F)) W (Proc.devRef .tc main_arg4) = x4
      ∧ after (ops32 (F := F)) W (Proc.devRef .tc main_arg5) = x5
      ∧ after (ops32 (F := F)) W (Proc.devRef .tc main_arg6) = x6
      ∧ after (ops32 (F := F)) W (Proc.devRef .tc main_arg7) = x7
      ∧ after (ops32 (F := F)) W (Proc.devRef .tc main_arg8) = x8
      ∧ after (ops32 (F := F)) W (Proc.devRef .tc main_arg9) = x9
      ∧ after (ops32 (F := F)) W (Proc.devRef .tc main_v291) = (val_main_v291 (F := F) x0 x1 x2 x3 x4 x5 x6 x7 x8 x9 x10) := by
  refine ⟨?_, ?_, ?_, ?_, ?_, ?_, ?_, ?_, ?_, ?_, ?_, ?_⟩
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg0
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg1
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg10
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg2
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg3
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg4
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg5
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg6
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg7
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg8
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    exact h_main_arg9
  · simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try simp (disch := decide) only [Matrix.cons_val, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
    try (repeat (first | rw [nullary_result] | rw [unary_result] | rw [binary_result] | rw [ternary_result] | rw [reshape_result] | rw [nary_result] | (rw [nullary_result_ne]; rotate_left; decide) | (rw [unary_result_ne]; rotate_left; decide) | (rw [binary_result_ne]; rotate_left; decide) | (rw [ternary_result_ne]; rotate_left; decide) | (rw [reshape_result_ne]; rotate_left; decide) | (rw [nary_result_ne]; rotate_left; decide)))
    try rw [h_main_arg0]
    try rw [h_main_arg1]
    try rw [h_main_arg10]
    try rw [h_main_arg2]
    try rw [h_main_arg3]
    try rw [h_main_arg4]
    try rw [h_main_arg5]
    try rw [h_main_arg6]
    try rw [h_main_arg7]
    try rw [h_main_arg8]
    try rw [h_main_arg9]
    try rw [h_main_v147]
    try rw [h_main_v239]
    try rw [h_main_v274]
    try rw [h_main_v282]
    try rw [h_main_v284]
    rfl

/-- Part 5's operations in order. -/
abbrev opsPart5 : List (HloOp τ sig (Elt F)) := ops30 ++ (ops31 ++ (ops32))

set_option maxRecDepth 8192 in
set_option maxHeartbeats 4000000 in
/-- Part 5 of @main is the straight line of its operations. -/
theorem part5_eq (c : Dev nD) : main_part5 (F := F) c = seq (opsPart5 (F := F)) := rfl

end Cert.ReferenceIdeal.RunChunks

end
-- ==== Proof.RefRun.lean ====
/-
  The reference's run with its result named: every weakly fair execution of the reference's @main terminates with
  the result buffer at the last stage's value `val_main_v291` of the argument arrays, and the arguments unchanged.

  @main is a straight line of 350 host operations, printed in six parts; the buffer contents after it are the fold of
  the operations' results over the launch contents.  The line is cut into 33 stretches of about ten operations; each
  stretch, started from contents that hold the stages' values at every buffer still to be read, leaves the stages'
  values at every buffer read later (the stretch lemmas), so the fold over the whole line holds the last stage's value
  at the result buffer and the arguments where they were.
-/
import proofs.«101546_j62689342652477_1_alg».proof.Proof.RefRunPart0
import proofs.«101546_j62689342652477_1_alg».proof.Proof.RefRunPart1
import proofs.«101546_j62689342652477_1_alg».proof.Proof.RefRunPart2
import proofs.«101546_j62689342652477_1_alg».proof.Proof.RefRunPart3
import proofs.«101546_j62689342652477_1_alg».proof.Proof.RefRunPart4
import proofs.«101546_j62689342652477_1_alg».proof.Proof.RefRunPart5

noncomputable section

namespace Cert.ReferenceIdeal.RunValue

open Cert.ReferenceIdeal Cert.ReferenceIdeal.Gen Cert.ReferenceIdeal.ReadP Cert.ReferenceIdeal.RunChunks
open Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lines holds of their concatenation. -/
theorem forall_append {α : Type*} {p : α → Prop} {l₁ l₂ : List α} (h₁ : l₁.Forall p) (h₂ : l₂.Forall p) : (l₁ ++ l₂).Forall p := by
  rw [List.forall_iff_forall_mem] at *
  intro x hx
  rcases List.mem_append.mp hx with h | h
  · exact h₁ x h
  · exact h₂ x h

/-- @main's operations in order: its six parts. -/
abbrev ops : List (HloOp τ sig (Elt F)) := opsPart0 ++ (opsPart1 ++ (opsPart2 ++ (opsPart3 ++ (opsPart4 ++ (opsPart5)))))

/-- @main is the straight line of its operations: each part is (`partK_eq`), and two lines run one after the other
    are their concatenation run as one. -/
theorem main_eq (c : Dev nD) : main (F := F) c = seq (ops (F := F)) := by
  rw [show main (F := F) c = (do main_part0 c; main_part1 c; main_part2 c; main_part3 c; main_part4 c; main_part5 c) from rfl,
    part0_eq c, part1_eq c, part2_eq c, part3_eq c, part4_eq c, part5_eq c]
  simp only [ops, seq_append]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  forall_append (forall_append ops0_sub (forall_append ops1_sub (forall_append ops2_sub (forall_append ops3_sub (forall_append ops4_sub (ops5_sub)))))) (forall_append (forall_append ops6_sub (forall_append ops7_sub (forall_append ops8_sub (forall_append ops9_sub (forall_append ops10_sub (ops11_sub)))))) (forall_append (forall_append ops12_sub (forall_append ops13_sub (forall_append ops14_sub (forall_append ops15_sub (forall_append ops16_sub (ops17_sub)))))) (forall_append (forall_append ops18_sub (forall_append ops19_sub (forall_append ops20_sub (forall_append ops21_sub (forall_append ops22_sub (ops23_sub)))))) (forall_append (forall_append ops24_sub (forall_append ops25_sub (forall_append ops26_sub (forall_append ops27_sub (forall_append ops28_sub (ops29_sub)))))) ((forall_append ops30_sub (forall_append ops31_sub (ops32_sub))))))))

/-- No operation allocates a buffer. -/
theorem ops_fresh : ∀ op ∈ (ops : List (HloOp τ sig (Elt F))), op.fresh = ∅ :=
  List.forall_iff_forall_mem.mp
    (forall_append (forall_append (List.forall_iff_forall_mem.mpr ops0_fresh) (forall_append (List.forall_iff_forall_mem.mpr ops1_fresh) (forall_append (List.forall_iff_forall_mem.mpr ops2_fresh) (forall_append (List.forall_iff_forall_mem.mpr ops3_fresh) (forall_append (List.forall_iff_forall_mem.mpr ops4_fresh) ((List.forall_iff_forall_mem.mpr ops5_fresh))))))) (forall_append (forall_append (List.forall_iff_forall_mem.mpr ops6_fresh) (forall_append (List.forall_iff_forall_mem.mpr ops7_fresh) (forall_append (List.forall_iff_forall_mem.mpr ops8_fresh) (forall_append (List.forall_iff_forall_mem.mpr ops9_fresh) (forall_append (List.forall_iff_forall_mem.mpr ops10_fresh) ((List.forall_iff_forall_mem.mpr ops11_fresh))))))) (forall_append (forall_append (List.forall_iff_forall_mem.mpr ops12_fresh) (forall_append (List.forall_iff_forall_mem.mpr ops13_fresh) (forall_append (List.forall_iff_forall_mem.mpr ops14_fresh) (forall_append (List.forall_iff_forall_mem.mpr ops15_fresh) (forall_append (List.forall_iff_forall_mem.mpr ops16_fresh) ((List.forall_iff_forall_mem.mpr ops17_fresh))))))) (forall_append (forall_append (List.forall_iff_forall_mem.mpr ops18_fresh) (forall_append (List.forall_iff_forall_mem.mpr ops19_fresh) (forall_append (List.forall_iff_forall_mem.mpr ops20_fresh) (forall_append (List.forall_iff_forall_mem.mpr ops21_fresh) (forall_append (List.forall_iff_forall_mem.mpr ops22_fresh) ((List.forall_iff_forall_mem.mpr ops23_fresh))))))) (forall_append (forall_append (List.forall_iff_forall_mem.mpr ops24_fresh) (forall_append (List.forall_iff_forall_mem.mpr ops25_fresh) (forall_append (List.forall_iff_forall_mem.mpr ops26_fresh) (forall_append (List.forall_iff_forall_mem.mpr ops27_fresh) (forall_append (List.forall_iff_forall_mem.mpr ops28_fresh) ((List.forall_iff_forall_mem.mpr ops29_fresh))))))) ((forall_append (List.forall_iff_forall_mem.mpr ops30_fresh) (forall_append (List.forall_iff_forall_mem.mpr ops31_fresh) ((List.forall_iff_forall_mem.mpr ops32_fresh))))))))))

/-- The contents after the first `j` stretches. -/
abbrev at0 (W : Valuation τ sig (Elt F)) : Valuation τ sig (Elt F) := W
abbrev at1 (W : Valuation τ sig (Elt F)) : Valuation τ sig (Elt F) := after (ops0 (F := F)) (at0 W)
abbrev at2 (W : Valuation τ sig (Elt F)) : Valuation τ sig (Elt F) := after (ops1 (F := F)) (at1 W)
abbrev at3 (W : Valuation τ sig (Elt F)) : Valuation τ sig (Elt F) := after (ops2 (F := F)) (at2 W)
abbrev at4 (W : Valuation τ sig (Elt F)) : Valuation τ sig (Elt F) := after (ops3 (F := F)) (at3 W)
abbrev at5 (W : Valuation τ sig (Elt F)) : Valuation τ sig (Elt F) := after (ops4 (F := F)) (at4 W)
abbrev at6 (W : Valuation τ sig (Elt F)) : Valuation τ sig (Elt F) := after (ops5 (F := F)) (at5 W)
abbrev at7 (W : Valuation τ sig (Elt F)) : Valuation τ sig (Elt F) := after (ops6 (F := F)) (at6 W)
abbrev at8 (W : Valuation τ sig (Elt F)) : Valuation τ sig (Elt F) := after (ops7 (F := F)) (at7 W)
abbrev at9 (W : Valuation τ sig (Elt F)) : Valuation τ sig (Elt F) := after (ops8 (F := F)) (at8 W)
abbrev at10 (W : Valuation τ sig (Elt F)) : Valuation τ sig (Elt F) := after (ops9 (F := F)) (at9 W)
abbrev at11 (W : Valuation τ sig (Elt F)) : Valuation τ sig (Elt F) := after (ops10 (F := F)) (at10 W)
abbrev at12 (W : Valuation τ sig (Elt F)) : Valuation τ sig (Elt F) := after (ops11 (F := F)) (at11 W)
abbrev at13 (W : Valuation τ sig (Elt F)) : Valuation τ sig (Elt F) := after (ops12 (F := F)) (at12 W)
abbrev at14 (W : Valuation τ sig (Elt F)) : Valuation τ sig (Elt F) := after (ops13 (F := F)) (at13 W)
abbrev at15 (W : Valuation τ sig (Elt F)) : Valuation τ sig (Elt F) := after (ops14 (F := F)) (at14 W)
abbrev at16 (W : Valuation τ sig (Elt F)) : Valuation τ sig (Elt F) := after (ops15 (F := F)) (at15 W)
abbrev at17 (W : Valuation τ sig (Elt F)) : Valuation τ sig (Elt F) := after (ops16 (F := F)) (at16 W)
abbrev at18 (W : Valuation τ sig (Elt F)) : Valuation τ sig (Elt F) := after (ops17 (F := F)) (at17 W)
abbrev at19 (W : Valuation τ sig (Elt F)) : Valuation τ sig (Elt F) := after (ops18 (F := F)) (at18 W)
abbrev at20 (W : Valuation τ sig (Elt F)) : Valuation τ sig (Elt F) := after (ops19 (F := F)) (at19 W)
abbrev at21 (W : Valuation τ sig (Elt F)) : Valuation τ sig (Elt F) := after (ops20 (F := F)) (at20 W)
abbrev at22 (W : Valuation τ sig (Elt F)) : Valuation τ sig (Elt F) := after (ops21 (F := F)) (at21 W)
abbrev at23 (W : Valuation τ sig (Elt F)) : Valuation τ sig (Elt F) := after (ops22 (F := F)) (at22 W)
abbrev at24 (W : Valuation τ sig (Elt F)) : Valuation τ sig (Elt F) := after (ops23 (F := F)) (at23 W)
abbrev at25 (W : Valuation τ sig (Elt F)) : Valuation τ sig (Elt F) := after (ops24 (F := F)) (at24 W)
abbrev at26 (W : Valuation τ sig (Elt F)) : Valuation τ sig (Elt F) := after (ops25 (F := F)) (at25 W)
abbrev at27 (W : Valuation τ sig (Elt F)) : Valuation τ sig (Elt F) := after (ops26 (F := F)) (at26 W)
abbrev at28 (W : Valuation τ sig (Elt F)) : Valuation τ sig (Elt F) := after (ops27 (F := F)) (at27 W)
abbrev at29 (W : Valuation τ sig (Elt F)) : Valuation τ sig (Elt F) := after (ops28 (F := F)) (at28 W)
abbrev at30 (W : Valuation τ sig (Elt F)) : Valuation τ sig (Elt F) := after (ops29 (F := F)) (at29 W)
abbrev at31 (W : Valuation τ sig (Elt F)) : Valuation τ sig (Elt F) := after (ops30 (F := F)) (at30 W)
abbrev at32 (W : Valuation τ sig (Elt F)) : Valuation τ sig (Elt F) := after (ops31 (F := F)) (at31 W)
abbrev at33 (W : Valuation τ sig (Elt F)) : Valuation τ sig (Elt F) := after (ops32 (F := F)) (at32 W)

theorem after_ops_eq (W : Valuation τ sig (Elt F)) : after (ops (F := F)) W = at33 W := by
  simp only [ops, opsPart0, opsPart1, opsPart2, opsPart3, opsPart4, opsPart5, after_append]

/-- From launch contents holding the arguments, the whole line leaves the last stage's value at the result and the
    arguments where they were. -/
theorem after_ops (x0 : (⟨S32x512x512, .f32⟩ : BufTy).Contents (Elt F)) (x1 : (⟨S2x3x512, .f32⟩ : BufTy).Contents (Elt F)) (x2 : (⟨S2x3x512, .f32⟩ : BufTy).Contents (Elt F)) (x3 : (⟨S2x512x2048, .f32⟩ : BufTy).Contents (Elt F)) (x4 : (⟨S2x512, .f32⟩ : BufTy).Contents (Elt F)) (x5 : (⟨S2x512x2048, .f32⟩ : BufTy).Contents (Elt F)) (x6 : (⟨S2x512, .f32⟩ : BufTy).Contents (Elt F)) (x7 : (⟨S2x2x1024x512, .f32⟩ : BufTy).Contents (Elt F)) (x8 : (⟨S2x2x1024, .f32⟩ : BufTy).Contents (Elt F)) (x9 : (⟨S2x2x1024x512, .f32⟩ : BufTy).Contents (Elt F)) (x10 : (⟨S2x2x1024, .f32⟩ : BufTy).Contents (Elt F))
    (W : Valuation τ sig (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_arg5 : W (Proc.devRef .tc main_arg5) = x5) (h_main_arg6 : W (Proc.devRef .tc main_arg6) = x6) (h_main_arg7 : W (Proc.devRef .tc main_arg7) = x7) (h_main_arg8 : W (Proc.devRef .tc main_arg8) = x8) (h_main_arg9 : W (Proc.devRef .tc main_arg9) = x9) (h_main_arg10 : W (Proc.devRef .tc main_arg10) = x10) :
    after (ops (F := F)) W (Proc.devRef .tc main_v291) = (val_main_v291 (F := F) x0 x1 x2 x3 x4 x5 x6 x7 x8 x9 x10)
      ∧ after (ops (F := F)) W (Proc.devRef .tc main_arg0) = x0
      ∧ after (ops (F := F)) W (Proc.devRef .tc main_arg1) = x1
      ∧ after (ops (F := F)) W (Proc.devRef .tc main_arg2) = x2
      ∧ after (ops (F := F)) W (Proc.devRef .tc main_arg3) = x3
      ∧ after (ops (F := F)) W (Proc.devRef .tc main_arg4) = x4
      ∧ after (ops (F := F)) W (Proc.devRef .tc main_arg5) = x5
      ∧ after (ops (F := F)) W (Proc.devRef .tc main_arg6) = x6
      ∧ after (ops (F := F)) W (Proc.devRef .tc main_arg7) = x7
      ∧ after (ops (F := F)) W (Proc.devRef .tc main_arg8) = x8
      ∧ after (ops (F := F)) W (Proc.devRef .tc main_arg9) = x9
      ∧ after (ops (F := F)) W (Proc.devRef .tc main_arg10) = x10 := by
  rw [after_ops_eq]
  obtain ⟨k0_main_arg0, k0_main_arg1, k0_main_arg10, k0_main_arg2, k0_main_arg3, k0_main_arg4, k0_main_arg5, k0_main_arg6, k0_main_arg7, k0_main_arg8, k0_main_arg9, k0_main_v6, k0_main_v9, k0_main_v10⟩ := chunk0 x0 x1 x2 x3 x4 x5 x6 x7 x8 x9 x10 (at0 W) h_main_arg0 h_main_arg1 h_main_arg10 h_main_arg2 h_main_arg3 h_main_arg4 h_main_arg5 h_main_arg6 h_main_arg7 h_main_arg8 h_main_arg9
  obtain ⟨k1_main_arg0, k1_main_arg1, k1_main_arg10, k1_main_arg2, k1_main_arg3, k1_main_arg4, k1_main_arg5, k1_main_arg6, k1_main_arg7, k1_main_arg8, k1_main_arg9, k1_main_v6, k1_main_v13, k1_main_v14, k1_main_v19⟩ := chunk1 x0 x1 x2 x3 x4 x5 x6 x7 x8 x9 x10 (at1 W) k0_main_arg0 k0_main_arg1 k0_main_arg10 k0_main_arg2 k0_main_arg3 k0_main_arg4 k0_main_arg5 k0_main_arg6 k0_main_arg7 k0_main_arg8 k0_main_arg9 k0_main_v6 k0_main_v9 k0_main_v10
  obtain ⟨k2_main_arg0, k2_main_arg1, k2_main_arg10, k2_main_arg2, k2_main_arg3, k2_main_arg4, k2_main_arg5, k2_main_arg6, k2_main_arg7, k2_main_arg8, k2_main_arg9, k2_main_v6, k2_main_v14, k2_main_v22, k2_main_v24, k2_main_v26, k2_main_v27⟩ := chunk2 x0 x1 x2 x3 x4 x5 x6 x7 x8 x9 x10 (at2 W) k1_main_arg0 k1_main_arg1 k1_main_arg10 k1_main_arg2 k1_main_arg3 k1_main_arg4 k1_main_arg5 k1_main_arg6 k1_main_arg7 k1_main_arg8 k1_main_arg9 k1_main_v6 k1_main_v13 k1_main_v14 k1_main_v19
  obtain ⟨k3_main_arg0, k3_main_arg1, k3_main_arg10, k3_main_arg2, k3_main_arg3, k3_main_arg4, k3_main_arg5, k3_main_arg6, k3_main_arg7, k3_main_arg8, k3_main_arg9, k3_main_v6, k3_main_v32, k3_main_v35, k3_main_v38⟩ := chunk3 x0 x1 x2 x3 x4 x5 x6 x7 x8 x9 x10 (at3 W) k2_main_arg0 k2_main_arg1 k2_main_arg10 k2_main_arg2 k2_main_arg3 k2_main_arg4 k2_main_arg5 k2_main_arg6 k2_main_arg7 k2_main_arg8 k2_main_arg9 k2_main_v6 k2_main_v14 k2_main_v22 k2_main_v24 k2_main_v26 k2_main_v27
  obtain ⟨k4_main_arg0, k4_main_arg1, k4_main_arg10, k4_main_arg2, k4_main_arg3, k4_main_arg4, k4_main_arg5, k4_main_arg6, k4_main_arg7, k4_main_arg8, k4_main_arg9, k4_main_v6, k4_main_v41, k4_main_v44, k4_main_v46⟩ := chunk4 x0 x1 x2 x3 x4 x5 x6 x7 x8 x9 x10 (at4 W) k3_main_arg0 k3_main_arg1 k3_main_arg10 k3_main_arg2 k3_main_arg3 k3_main_arg4 k3_main_arg5 k3_main_arg6 k3_main_arg7 k3_main_arg8 k3_main_arg9 k3_main_v6 k3_main_v32 k3_main_v35 k3_main_v38
  obtain ⟨k5_main_arg0, k5_main_arg1, k5_main_arg10, k5_main_arg2, k5_main_arg3, k5_main_arg4, k5_main_arg5, k5_main_arg6, k5_main_arg7, k5_main_arg8, k5_main_arg9, k5_main_v6, k5_main_v41, k5_main_v50, k5_main_v52, k5_main_v54⟩ := chunk5 x0 x1 x2 x3 x4 x5 x6 x7 x8 x9 x10 (at5 W) k4_main_arg0 k4_main_arg1 k4_main_arg10 k4_main_arg2 k4_main_arg3 k4_main_arg4 k4_main_arg5 k4_main_arg6 k4_main_arg7 k4_main_arg8 k4_main_arg9 k4_main_v6 k4_main_v41 k4_main_v44 k4_main_v46
  obtain ⟨k6_main_arg0, k6_main_arg1, k6_main_arg10, k6_main_arg2, k6_main_arg3, k6_main_arg4, k6_main_arg5, k6_main_arg6, k6_main_arg7, k6_main_arg8, k6_main_arg9, k6_main_v6, k6_main_v41, k6_main_v50, k6_main_v52, k6_main_v54, k6_main_v63, k6_main_v65⟩ := chunk6 x0 x1 x2 x3 x4 x5 x6 x7 x8 x9 x10 (at6 W) k5_main_arg0 k5_main_arg1 k5_main_arg10 k5_main_arg2 k5_main_arg3 k5_main_arg4 k5_main_arg5 k5_main_arg6 k5_main_arg7 k5_main_arg8 k5_main_arg9 k5_main_v6 k5_main_v41 k5_main_v50 k5_main_v52 k5_main_v54
  obtain ⟨k7_main_arg0, k7_main_arg1, k7_main_arg10, k7_main_arg2, k7_main_arg3, k7_main_arg4, k7_main_arg5, k7_main_arg6, k7_main_arg7, k7_main_arg8, k7_main_arg9, k7_main_v6, k7_main_v50, k7_main_v52, k7_main_v54, k7_main_v63, k7_main_v71, k7_main_v73⟩ := chunk7 x0 x1 x2 x3 x4 x5 x6 x7 x8 x9 x10 (at7 W) k6_main_arg0 k6_main_arg1 k6_main_arg10 k6_main_arg2 k6_main_arg3 k6_main_arg4 k6_main_arg5 k6_main_arg6 k6_main_arg7 k6_main_arg8 k6_main_arg9 k6_main_v6 k6_main_v41 k6_main_v50 k6_main_v52 k6_main_v54 k6_main_v63 k6_main_v65
  obtain ⟨k8_main_arg0, k8_main_arg1, k8_main_arg10, k8_main_arg2, k8_main_arg3, k8_main_arg4, k8_main_arg5, k8_main_arg6, k8_main_arg7, k8_main_arg8, k8_main_arg9, k8_main_v6, k8_main_v50, k8_main_v76, k8_main_v79, k8_main_v82⟩ := chunk8 x0 x1 x2 x3 x4 x5 x6 x7 x8 x9 x10 (at8 W) k7_main_arg0 k7_main_arg1 k7_main_arg10 k7_main_arg2 k7_main_arg3 k7_main_arg4 k7_main_arg5 k7_main_arg6 k7_main_arg7 k7_main_arg8 k7_main_arg9 k7_main_v6 k7_main_v50 k7_main_v52 k7_main_v54 k7_main_v63 k7_main_v71 k7_main_v73
  obtain ⟨k9_main_arg0, k9_main_arg1, k9_main_arg10, k9_main_arg2, k9_main_arg3, k9_main_arg4, k9_main_arg5, k9_main_arg6, k9_main_arg7, k9_main_arg8, k9_main_arg9, k9_main_v6, k9_main_v50, k9_main_v76, k9_main_v85, k9_main_v90, k9_main_v91⟩ := chunk9 x0 x1 x2 x3 x4 x5 x6 x7 x8 x9 x10 (at9 W) k8_main_arg0 k8_main_arg1 k8_main_arg10 k8_main_arg2 k8_main_arg3 k8_main_arg4 k8_main_arg5 k8_main_arg6 k8_main_arg7 k8_main_arg8 k8_main_arg9 k8_main_v6 k8_main_v50 k8_main_v76 k8_main_v79 k8_main_v82
  obtain ⟨k10_main_arg0, k10_main_arg1, k10_main_arg10, k10_main_arg2, k10_main_arg3, k10_main_arg4, k10_main_arg5, k10_main_arg6, k10_main_arg7, k10_main_arg8, k10_main_arg9, k10_main_v6, k10_main_v50, k10_main_v98⟩ := chunk10 x0 x1 x2 x3 x4 x5 x6 x7 x8 x9 x10 (at10 W) k9_main_arg0 k9_main_arg1 k9_main_arg10 k9_main_arg2 k9_main_arg3 k9_main_arg4 k9_main_arg5 k9_main_arg6 k9_main_arg7 k9_main_arg8 k9_main_arg9 k9_main_v6 k9_main_v50 k9_main_v76 k9_main_v85 k9_main_v90 k9_main_v91
  obtain ⟨k11_main_arg0, k11_main_arg1, k11_main_arg10, k11_main_arg2, k11_main_arg3, k11_main_arg4, k11_main_arg5, k11_main_arg6, k11_main_arg7, k11_main_arg8, k11_main_arg9, k11_main_v6, k11_main_v50, k11_main_v98, k11_main_v100, k11_main_v102, k11_main_v105, k11_main_v108⟩ := chunk11 x0 x1 x2 x3 x4 x5 x6 x7 x8 x9 x10 (at11 W) k10_main_arg0 k10_main_arg1 k10_main_arg10 k10_main_arg2 k10_main_arg3 k10_main_arg4 k10_main_arg5 k10_main_arg6 k10_main_arg7 k10_main_arg8 k10_main_arg9 k10_main_v6 k10_main_v50 k10_main_v98
  obtain ⟨k12_main_arg0, k12_main_arg1, k12_main_arg10, k12_main_arg2, k12_main_arg3, k12_main_arg4, k12_main_arg5, k12_main_arg6, k12_main_arg7, k12_main_arg8, k12_main_arg9, k12_main_v6, k12_main_v50, k12_main_v98, k12_main_v100, k12_main_v102, k12_main_v111, k12_main_v116, k12_main_v117⟩ := chunk12 x0 x1 x2 x3 x4 x5 x6 x7 x8 x9 x10 (at12 W) k11_main_arg0 k11_main_arg1 k11_main_arg10 k11_main_arg2 k11_main_arg3 k11_main_arg4 k11_main_arg5 k11_main_arg6 k11_main_arg7 k11_main_arg8 k11_main_arg9 k11_main_v6 k11_main_v50 k11_main_v98 k11_main_v100 k11_main_v102 k11_main_v105 k11_main_v108
  obtain ⟨k13_main_arg0, k13_main_arg1, k13_main_arg10, k13_main_arg2, k13_main_arg3, k13_main_arg4, k13_main_arg5, k13_main_arg6, k13_main_arg7, k13_main_arg8, k13_main_arg9, k13_main_v6, k13_main_v98, k13_main_v102, k13_main_v124, k13_main_v125⟩ := chunk13 x0 x1 x2 x3 x4 x5 x6 x7 x8 x9 x10 (at13 W) k12_main_arg0 k12_main_arg1 k12_main_arg10 k12_main_arg2 k12_main_arg3 k12_main_arg4 k12_main_arg5 k12_main_arg6 k12_main_arg7 k12_main_arg8 k12_main_arg9 k12_main_v6 k12_main_v50 k12_main_v98 k12_main_v100 k12_main_v102 k12_main_v111 k12_main_v116 k12_main_v117
  obtain ⟨k14_main_arg0, k14_main_arg1, k14_main_arg10, k14_main_arg2, k14_main_arg3, k14_main_arg4, k14_main_arg5, k14_main_arg6, k14_main_arg7, k14_main_arg8, k14_main_arg9, k14_main_v6, k14_main_v98, k14_main_v124, k14_main_v133, k14_main_v136⟩ := chunk14 x0 x1 x2 x3 x4 x5 x6 x7 x8 x9 x10 (at14 W) k13_main_arg0 k13_main_arg1 k13_main_arg10 k13_main_arg2 k13_main_arg3 k13_main_arg4 k13_main_arg5 k13_main_arg6 k13_main_arg7 k13_main_arg8 k13_main_arg9 k13_main_v6 k13_main_v98 k13_main_v102 k13_main_v124 k13_main_v125
  obtain ⟨k15_main_arg0, k15_main_arg1, k15_main_arg10, k15_main_arg2, k15_main_arg3, k15_main_arg4, k15_main_arg5, k15_main_arg6, k15_main_arg7, k15_main_arg8, k15_main_arg9, k15_main_v6, k15_main_v98, k15_main_v133, k15_main_v141, k15_main_v143, k15_main_call5_cst⟩ := chunk15 x0 x1 x2 x3 x4 x5 x6 x7 x8 x9 x10 (at15 W) k14_main_arg0 k14_main_arg1 k14_main_arg10 k14_main_arg2 k14_main_arg3 k14_main_arg4 k14_main_arg5 k14_main_arg6 k14_main_arg7 k14_main_arg8 k14_main_arg9 k14_main_v6 k14_main_v98 k14_main_v124 k14_main_v133 k14_main_v136
  obtain ⟨k16_main_arg0, k16_main_arg1, k16_main_arg10, k16_main_arg2, k16_main_arg3, k16_main_arg4, k16_main_arg5, k16_main_arg6, k16_main_arg7, k16_main_arg8, k16_main_arg9, k16_main_v6, k16_main_v98, k16_main_v146, k16_main_v147, k16_main_v150, k16_main_v152⟩ := chunk16 x0 x1 x2 x3 x4 x5 x6 x7 x8 x9 x10 (at16 W) k15_main_arg0 k15_main_arg1 k15_main_arg10 k15_main_arg2 k15_main_arg3 k15_main_arg4 k15_main_arg5 k15_main_arg6 k15_main_arg7 k15_main_arg8 k15_main_arg9 k15_main_v6 k15_main_v98 k15_main_v133 k15_main_v141 k15_main_v143 k15_main_call5_cst
  obtain ⟨k17_main_arg0, k17_main_arg1, k17_main_arg10, k17_main_arg2, k17_main_arg3, k17_main_arg4, k17_main_arg5, k17_main_arg6, k17_main_arg7, k17_main_arg8, k17_main_arg9, k17_main_v6, k17_main_v147, k17_main_v154, k17_main_v155, k17_main_v160⟩ := chunk17 x0 x1 x2 x3 x4 x5 x6 x7 x8 x9 x10 (at17 W) k16_main_arg0 k16_main_arg1 k16_main_arg10 k16_main_arg2 k16_main_arg3 k16_main_arg4 k16_main_arg5 k16_main_arg6 k16_main_arg7 k16_main_arg8 k16_main_arg9 k16_main_v6 k16_main_v98 k16_main_v146 k16_main_v147 k16_main_v150 k16_main_v152
  obtain ⟨k18_main_arg0, k18_main_arg1, k18_main_arg10, k18_main_arg2, k18_main_arg3, k18_main_arg4, k18_main_arg5, k18_main_arg6, k18_main_arg7, k18_main_arg8, k18_main_arg9, k18_main_v147, k18_main_v155, k18_main_v163, k18_main_v165, k18_main_v167, k18_main_v168⟩ := chunk18 x0 x1 x2 x3 x4 x5 x6 x7 x8 x9 x10 (at18 W) k17_main_arg0 k17_main_arg1 k17_main_arg10 k17_main_arg2 k17_main_arg3 k17_main_arg4 k17_main_arg5 k17_main_arg6 k17_main_arg7 k17_main_arg8 k17_main_arg9 k17_main_v6 k17_main_v147 k17_main_v154 k17_main_v155 k17_main_v160
  obtain ⟨k19_main_arg0, k19_main_arg1, k19_main_arg10, k19_main_arg2, k19_main_arg3, k19_main_arg4, k19_main_arg5, k19_main_arg6, k19_main_arg7, k19_main_arg8, k19_main_arg9, k19_main_v147, k19_main_v173, k19_main_v176, k19_main_v179⟩ := chunk19 x0 x1 x2 x3 x4 x5 x6 x7 x8 x9 x10 (at19 W) k18_main_arg0 k18_main_arg1 k18_main_arg10 k18_main_arg2 k18_main_arg3 k18_main_arg4 k18_main_arg5 k18_main_arg6 k18_main_arg7 k18_main_arg8 k18_main_arg9 k18_main_v147 k18_main_v155 k18_main_v163 k18_main_v165 k18_main_v167 k18_main_v168
  obtain ⟨k20_main_arg0, k20_main_arg1, k20_main_arg10, k20_main_arg2, k20_main_arg3, k20_main_arg4, k20_main_arg5, k20_main_arg6, k20_main_arg7, k20_main_arg8, k20_main_arg9, k20_main_v147, k20_main_v182, k20_main_v185, k20_main_v188⟩ := chunk20 x0 x1 x2 x3 x4 x5 x6 x7 x8 x9 x10 (at20 W) k19_main_arg0 k19_main_arg1 k19_main_arg10 k19_main_arg2 k19_main_arg3 k19_main_arg4 k19_main_arg5 k19_main_arg6 k19_main_arg7 k19_main_arg8 k19_main_arg9 k19_main_v147 k19_main_v173 k19_main_v176 k19_main_v179
  obtain ⟨k21_main_arg0, k21_main_arg1, k21_main_arg10, k21_main_arg2, k21_main_arg3, k21_main_arg4, k21_main_arg5, k21_main_arg6, k21_main_arg7, k21_main_arg8, k21_main_arg9, k21_main_v147, k21_main_v182, k21_main_v191, k21_main_v193, k21_main_v195, k21_main_v197⟩ := chunk21 x0 x1 x2 x3 x4 x5 x6 x7 x8 x9 x10 (at21 W) k20_main_arg0 k20_main_arg1 k20_main_arg10 k20_main_arg2 k20_main_arg3 k20_main_arg4 k20_main_arg5 k20_main_arg6 k20_main_arg7 k20_main_arg8 k20_main_arg9 k20_main_v147 k20_main_v182 k20_main_v185 k20_main_v188
  obtain ⟨k22_main_arg0, k22_main_arg1, k22_main_arg10, k22_main_arg2, k22_main_arg3, k22_main_arg4, k22_main_arg5, k22_main_arg6, k22_main_arg7, k22_main_arg8, k22_main_arg9, k22_main_v147, k22_main_v182, k22_main_v191, k22_main_v193, k22_main_v195, k22_main_v204, k22_main_v207⟩ := chunk22 x0 x1 x2 x3 x4 x5 x6 x7 x8 x9 x10 (at22 W) k21_main_arg0 k21_main_arg1 k21_main_arg10 k21_main_arg2 k21_main_arg3 k21_main_arg4 k21_main_arg5 k21_main_arg6 k21_main_arg7 k21_main_arg8 k21_main_arg9 k21_main_v147 k21_main_v182 k21_main_v191 k21_main_v193 k21_main_v195 k21_main_v197
  obtain ⟨k23_main_arg0, k23_main_arg1, k23_main_arg10, k23_main_arg2, k23_main_arg3, k23_main_arg4, k23_main_arg5, k23_main_arg6, k23_main_arg7, k23_main_arg8, k23_main_arg9, k23_main_v147, k23_main_v191, k23_main_v193, k23_main_v195, k23_main_v204, k23_main_v212, k23_main_v214⟩ := chunk23 x0 x1 x2 x3 x4 x5 x6 x7 x8 x9 x10 (at23 W) k22_main_arg0 k22_main_arg1 k22_main_arg10 k22_main_arg2 k22_main_arg3 k22_main_arg4 k22_main_arg5 k22_main_arg6 k22_main_arg7 k22_main_arg8 k22_main_arg9 k22_main_v147 k22_main_v182 k22_main_v191 k22_main_v193 k22_main_v195 k22_main_v204 k22_main_v207
  obtain ⟨k24_main_arg0, k24_main_arg1, k24_main_arg10, k24_main_arg2, k24_main_arg3, k24_main_arg4, k24_main_arg5, k24_main_arg6, k24_main_arg7, k24_main_arg8, k24_main_arg9, k24_main_v147, k24_main_v191, k24_main_v217, k24_main_v220, k24_main_v223⟩ := chunk24 x0 x1 x2 x3 x4 x5 x6 x7 x8 x9 x10 (at24 W) k23_main_arg0 k23_main_arg1 k23_main_arg10 k23_main_arg2 k23_main_arg3 k23_main_arg4 k23_main_arg5 k23_main_arg6 k23_main_arg7 k23_main_arg8 k23_main_arg9 k23_main_v147 k23_main_v191 k23_main_v193 k23_main_v195 k23_main_v204 k23_main_v212 k23_main_v214
  obtain ⟨k25_main_arg0, k25_main_arg1, k25_main_arg10, k25_main_arg2, k25_main_arg3, k25_main_arg4, k25_main_arg5, k25_main_arg6, k25_main_arg7, k25_main_arg8, k25_main_arg9, k25_main_v147, k25_main_v191, k25_main_v217, k25_main_v226, k25_main_v231, k25_main_v232⟩ := chunk25 x0 x1 x2 x3 x4 x5 x6 x7 x8 x9 x10 (at25 W) k24_main_arg0 k24_main_arg1 k24_main_arg10 k24_main_arg2 k24_main_arg3 k24_main_arg4 k24_main_arg5 k24_main_arg6 k24_main_arg7 k24_main_arg8 k24_main_arg9 k24_main_v147 k24_main_v191 k24_main_v217 k24_main_v220 k24_main_v223
  obtain ⟨k26_main_arg0, k26_main_arg1, k26_main_arg10, k26_main_arg2, k26_main_arg3, k26_main_arg4, k26_main_arg5, k26_main_arg6, k26_main_arg7, k26_main_arg8, k26_main_arg9, k26_main_v147, k26_main_v191, k26_main_v239, k26_main_v240⟩ := chunk26 x0 x1 x2 x3 x4 x5 x6 x7 x8 x9 x10 (at26 W) k25_main_arg0 k25_main_arg1 k25_main_arg10 k25_main_arg2 k25_main_arg3 k25_main_arg4 k25_main_arg5 k25_main_arg6 k25_main_arg7 k25_main_arg8 k25_main_arg9 k25_main_v147 k25_main_v191 k25_main_v217 k25_main_v226 k25_main_v231 k25_main_v232
  obtain ⟨k27_main_arg0, k27_main_arg1, k27_main_arg10, k27_main_arg2, k27_main_arg3, k27_main_arg4, k27_main_arg5, k27_main_arg6, k27_main_arg7, k27_main_arg8, k27_main_arg9, k27_main_v147, k27_main_v191, k27_main_v239, k27_main_v241, k27_main_v243, k27_main_v251⟩ := chunk27 x0 x1 x2 x3 x4 x5 x6 x7 x8 x9 x10 (at27 W) k26_main_arg0 k26_main_arg1 k26_main_arg10 k26_main_arg2 k26_main_arg3 k26_main_arg4 k26_main_arg5 k26_main_arg6 k26_main_arg7 k26_main_arg8 k26_main_arg9 k26_main_v147 k26_main_v191 k26_main_v239 k26_main_v240
  obtain ⟨k28_main_arg0, k28_main_arg1, k28_main_arg10, k28_main_arg2, k28_main_arg3, k28_main_arg4, k28_main_arg5, k28_main_arg6, k28_main_arg7, k28_main_arg8, k28_main_arg9, k28_main_v147, k28_main_v239, k28_main_v241, k28_main_v243, k28_main_v252, k28_main_v259, k28_main_v260⟩ := chunk28 x0 x1 x2 x3 x4 x5 x6 x7 x8 x9 x10 (at28 W) k27_main_arg0 k27_main_arg1 k27_main_arg10 k27_main_arg2 k27_main_arg3 k27_main_arg4 k27_main_arg5 k27_main_arg6 k27_main_arg7 k27_main_arg8 k27_main_arg9 k27_main_v147 k27_main_v191 k27_main_v239 k27_main_v241 k27_main_v243 k27_main_v251
  obtain ⟨k29_main_arg0, k29_main_arg1, k29_main_arg10, k29_main_arg2, k29_main_arg3, k29_main_arg4, k29_main_arg5, k29_main_arg6, k29_main_arg7, k29_main_arg8, k29_main_arg9, k29_main_v147, k29_main_v239, k29_main_v243, k29_main_v265, k29_main_v268⟩ := chunk29 x0 x1 x2 x3 x4 x5 x6 x7 x8 x9 x10 (at29 W) k28_main_arg0 k28_main_arg1 k28_main_arg10 k28_main_arg2 k28_main_arg3 k28_main_arg4 k28_main_arg5 k28_main_arg6 k28_main_arg7 k28_main_arg8 k28_main_arg9 k28_main_v147 k28_main_v239 k28_main_v241 k28_main_v243 k28_main_v252 k28_main_v259 k28_main_v260
  obtain ⟨k30_main_arg0, k30_main_arg1, k30_main_arg10, k30_main_arg2, k30_main_arg3, k30_main_arg4, k30_main_arg5, k30_main_arg6, k30_main_arg7, k30_main_arg8, k30_main_arg9, k30_main_v147, k30_main_v239, k30_main_v265, k30_main_v274, k30_main_v277, k30_main_cst_29⟩ := chunk30 x0 x1 x2 x3 x4 x5 x6 x7 x8 x9 x10 (at30 W) k29_main_arg0 k29_main_arg1 k29_main_arg10 k29_main_arg2 k29_main_arg3 k29_main_arg4 k29_main_arg5 k29_main_arg6 k29_main_arg7 k29_main_arg8 k29_main_arg9 k29_main_v147 k29_main_v239 k29_main_v243 k29_main_v265 k29_main_v268
  obtain ⟨k31_main_arg0, k31_main_arg1, k31_main_arg10, k31_main_arg2, k31_main_arg3, k31_main_arg4, k31_main_arg5, k31_main_arg6, k31_main_arg7, k31_main_arg8, k31_main_arg9, k31_main_v147, k31_main_v239, k31_main_v274, k31_main_v282, k31_main_v284⟩ := chunk31 x0 x1 x2 x3 x4 x5 x6 x7 x8 x9 x10 (at31 W) k30_main_arg0 k30_main_arg1 k30_main_arg10 k30_main_arg2 k30_main_arg3 k30_main_arg4 k30_main_arg5 k30_main_arg6 k30_main_arg7 k30_main_arg8 k30_main_arg9 k30_main_v147 k30_main_v239 k30_main_v265 k30_main_v274 k30_main_v277 k30_main_cst_29
  obtain ⟨k32_main_arg0, k32_main_arg1, k32_main_arg10, k32_main_arg2, k32_main_arg3, k32_main_arg4, k32_main_arg5, k32_main_arg6, k32_main_arg7, k32_main_arg8, k32_main_arg9, k32_main_v291⟩ := chunk32 x0 x1 x2 x3 x4 x5 x6 x7 x8 x9 x10 (at32 W) k31_main_arg0 k31_main_arg1 k31_main_arg10 k31_main_arg2 k31_main_arg3 k31_main_arg4 k31_main_arg5 k31_main_arg6 k31_main_arg7 k31_main_arg8 k31_main_arg9 k31_main_v147 k31_main_v239 k31_main_v274 k31_main_v282 k31_main_v284
  exact ⟨k32_main_v291, k32_main_arg0, k32_main_arg1, k32_main_arg2, k32_main_arg3, k32_main_arg4, k32_main_arg5, k32_main_arg6, k32_main_arg7, k32_main_arg8, k32_main_arg9, k32_main_arg10⟩

/-- On every device, from any memory with zero counters: every weakly fair execution of the reference's @main
    terminates, with the result at the last stage's value of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v291) = val_main_v291 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      obtain ⟨e, e0, e1, e2, e3, e4, e5, e6, e7, e8, e9, e10⟩ := after_ops (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (launchContents m c) rfl rfl rfl rfl rfl rfl rfl rfl rfl rfl rfl
      exact ⟨(h c main_v291).trans e, (h c main_arg0).trans e0, (h c main_arg1).trans e1, (h c main_arg2).trans e2, (h c main_arg3).trans e3, (h c main_arg4).trans e4, (h c main_arg5).trans e5, (h c main_arg6).trans e6, (h c main_arg7).trans e7, (h c main_arg8).trans e8, (h c main_arg9).trans e9, (h c main_arg10).trans e10⟩)
    (run_seq scopedRefs_eq scopedSems_eq defs main (fun _ => ops) main_eq (fun _ => ops_sub) m ρ (fun _ => ops_fresh))

end Cert.ReferenceIdeal.RunValue

end
-- ==== Proof.LibBlockSum.lean ====
/-
  Block decomposition of a finite sum: a sum over `Fin (a * b)` is the sum over the `a` consecutive
  blocks of length `b` of the sums inside each block.  Stated in any additive commutative monoid, and
  once more at the literal sizes `8192 = 8 * 1024` with no cast in the statement.
-/
import Mathlib.Algebra.BigOperators.Fin
import Mathlib.Logic.Equiv.Fin.Basic

open scoped BigOperators

namespace Cert.Math

/-- The position `b * i + p` of entry `p` of block `i` lies below `a * b`. -/
theorem block_index_lt {a b : ℕ} (i : Fin a) (p : Fin b) : b * i.val + p.val < a * b := by
  have hi : i.val + 1 ≤ a := i.isLt
  have hp : p.val < b := p.isLt
  calc b * i.val + p.val < b * i.val + b := Nat.add_lt_add_left hp _
    _ = (i.val + 1) * b := by rw [Nat.succ_mul, Nat.mul_comm]
    _ ≤ a * b := Nat.mul_le_mul_right _ hi

/-- A sum over `Fin (a * b)` split into `a` consecutive blocks of length `b`: the pair `(i, p)`
    names position `b * i + p`, and the pairs enumerate every position exactly once. -/
theorem sum_fin_mul {M : Type*} [AddCommMonoid M] (a b : ℕ) (f : Fin (a * b) → M) :
    ∑ r, f r = ∑ i : Fin a, ∑ p : Fin b, f ⟨b * i.val + p.val, block_index_lt i p⟩ := by
  rw [← Equiv.sum_comp (finProdFinEquiv (m := a) (n := b)) f, Fintype.sum_prod_type]
  refine Finset.sum_congr rfl fun i _ => Finset.sum_congr rfl fun p _ => ?_
  congr 1
  apply Fin.ext
  show p.val + b * i.val = b * i.val + p.val
  exact Nat.add_comm _ _

/-- The same at `8192 = 8 * 1024`: eight blocks of 1024 consecutive positions. -/
theorem sum_blocks_8192 {M : Type*} [AddCommMonoid M] (f : Fin 8192 → M) :
    ∑ r : Fin 8192, f r
      = ∑ i : Fin 8, ∑ p : Fin 1024,
          f ⟨1024 * i.val + p.val, by have := i.isLt; have := p.isLt; omega⟩ :=
  sum_fin_mul 8 1024 f

end Cert.Math
-- ==== Proof.RStage.lean ====
/-
  The reference's arithmetic stages read at an index.

  Each direction of each layer is a windowed linear map with its bias and the rectifier, followed by two highway
  steps.  Read at batch row `b`, position `s` and channel `h`, the value after the rectifier is `Spec.convRelu`
  of the gathered window and of the layer's slices of the weight and bias arguments: the contraction over the 2048
  window entries is the double sum over the four offsets and the 512 channels, entry `w * 512 + k`.  The value
  after a highway step is `Spec.hwStep` of the value before it: the 1024 outputs of the step's affine map split
  into the candidate (the first 512) and the gate (the last 512), the expansion `1 / (1 + e^(-g))` of the gate is
  the logistic function `σ`, and the step returns `σ · x + (1 − σ) · max n 0`.

  Every index equation below is a statement about row-major positions: a reshape that adds or drops an axis of size
  one keeps the position, so the quotients and remainders by the literal sizes return the coordinates.
-/
import proofs.«101546_j62689342652477_1_alg».proof.Proof.RefReadP
import proofs.«101546_j62689342652477_1_alg».proof.Proof.Spec
import proofs.«101546_j62689342652477_1_alg».proof.Proof.LibBlockSum
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.Stage

open Idealize.ShloMosaic Idealize.ShloMosaic.ValueIdx Idealize.ShloMosaic.TcCoe Idealize.SL.Sem
open Cert.ReferenceIdeal Cert.ReferenceIdeal.ReadP

/-! ## Two facts used by every stage -/

/-- A sum over 2048 consecutive positions, as four blocks of 512: position `w * 512 + k`. -/
theorem sum_2048 (f : Fin 2048 → EReal) :
    ∑ r : Fin 2048, f r = ∑ w : Fin 4, ∑ k : Fin 512, f ⟨w.val * 512 + k.val, by omega⟩ := by
  refine (Cert.Math.sum_fin_mul 4 512 f).trans ?_
  refine Finset.sum_congr rfl fun w _ => Finset.sum_congr rfl fun k _ => ?_
  exact congrArg f (Fin.ext (by show 512 * w.val + k.val = w.val * 512 + k.val; omega))

/-- The expansion `1 / (1 + e^(-g))` is the logistic function, and the highway combination of a gate `g`,
    a candidate `n` and a carried value `x` in the host's operations is the one over the extended reals. -/
theorem highway_arith (g n x : EReal) :
    FloatOps.addf
        (FloatOps.mulf
          (FloatOps.hostDivf (FloatOps.ofBits (F := Ideal) .f32 0x3F800000#32)
            (FloatOps.addf (FloatOps.ofBits (F := Ideal) .f32 0x3F800000#32) (FloatOps.hostUnary .exp (FloatOps.hostNegf g))))
          x)
        (FloatOps.mulf
          (FloatOps.subf (FloatOps.ofBits (F := Ideal) .f32 0x3F800000#32)
            (FloatOps.hostDivf (FloatOps.ofBits (F := Ideal) .f32 0x3F800000#32)
              (FloatOps.addf (FloatOps.ofBits (F := Ideal) .f32 0x3F800000#32) (FloatOps.hostUnary .exp (FloatOps.hostNegf g)))))
          (FloatOps.maximumf n (FloatOps.ofBits (F := Ideal) .f32 0x00000000#32)))
      = Ideal.logistic g * x + (1 - Ideal.logistic g) * max n 0 := by
  simp only [Ideal.ofBits_def, Ideal.ofBits_one_f32, Ideal.ofBits_zero_f32, Ideal.addf_def, Ideal.mulf_def, Ideal.subf_def,
    Ideal.maximumf_def, Ideal.hostDivf_def, Ideal.hostUnary_exp_def, Ideal.hostNegf_def, Ideal.negf_def]
  rfl

/-! ## The windowed linear map, its bias and the rectifier -/

/-- Forward direction, layer 0: the rectified windowed linear map at row `b`, position `s`, channel `h`. -/
theorem v41_apply (x0 : (⟨S32x512x512, .f32⟩ : BufTy).Contents (Elt Ideal)) (x1 x2 : (⟨S2x3x512, .f32⟩ : BufTy).Contents (Elt Ideal)) (x3 : (⟨S2x512x2048, .f32⟩ : BufTy).Contents (Elt Ideal)) (x4 : (⟨S2x512, .f32⟩ : BufTy).Contents (Elt Ideal))
    (b : Fin 32) (s h : Fin 512) :
    val_main_v41 (F := Ideal) x0 x1 x2 x3 x4 (ix3 b s h)
      = Cert.Spec.convRelu (fun s w k => val_main_v22 (F := Ideal) x0 x1 x2 (ix3 b s (⟨w.val * 512 + k.val, by omega⟩ : Fin 2048)))
          (Cert.Spec.wOf x3 0) (Cert.Spec.bOf x4 0) s h := by
  -- the weight read by the dot at contraction position `k`
  have eW : ∀ k : Fin 2048, val_main_v34 (F := Ideal) x3 (ridx_main_v35 (ix3 b s h) k) = x3 (ix3 0 h k) := by
    intro k
    rw [val_main_v34_apply, val_main_v33_apply]
    refine congrArg x3 (funext fun a => Fin.ext ?_)
    have hh := h.isLt; have hk := k.isLt
    match a with
    | ⟨0, _⟩ => rfl
    | ⟨1, _⟩ =>
      show (h.val * 2048 + k.val) / 2048 % 512 = h.val
      omega
    | ⟨2, _⟩ =>
      show (h.val * 2048 + k.val) % 2048 = k.val
      omega
  -- the bias, broadcast along batch and position
  have eB : val_main_v39 (F := Ideal) x4 (ix3 b s h) = x4 (ix2 0 h) := by
    rw [val_main_v39_apply, val_main_v38_apply, val_main_v37_apply, val_main_v36_apply]
    refine congrArg x4 (funext fun a => Fin.ext ?_)
    have hh := h.isLt
    match a with
    | ⟨0, _⟩ => rfl
    | ⟨1, _⟩ =>
      show h.val % 512 = h.val
      omega
  have eL : ∀ k : Fin 2048, lidx_main_v35 (ix3 b s h) k = ix3 b s k := fun k => funext fun a => by
    match a with
    | ⟨0, _⟩ => rfl
    | ⟨1, _⟩ => rfl
    | ⟨2, _⟩ => rfl
  have e0 : val_main_call0_v0 (F := Ideal) (ix3 b s h) = 0 := by
    rw [val_main_call0_v0_apply, val_main_call0_cst_apply, Ideal.ofBits_def, Ideal.ofBits_zero_f32]
  rw [val_main_v41_apply, val_main_v40_apply, val_main_v35_apply, eB, e0, Ideal.maximumf_def, Ideal.addf_def]
  simp only [eW, eL]
  rw [sum_2048]
  rfl

/-- Backward direction, layer 0: the rectified windowed linear map at row `b`, position `s`, channel `h`. -/
theorem v50_apply (x0 : (⟨S32x512x512, .f32⟩ : BufTy).Contents (Elt Ideal)) (x1 x2 : (⟨S2x3x512, .f32⟩ : BufTy).Contents (Elt Ideal)) (x5 : (⟨S2x512x2048, .f32⟩ : BufTy).Contents (Elt Ideal)) (x6 : (⟨S2x512, .f32⟩ : BufTy).Contents (Elt Ideal))
    (b : Fin 32) (s h : Fin 512) :
    val_main_v50 (F := Ideal) x0 x1 x2 x5 x6 (ix3 b s h)
      = Cert.Spec.convRelu (fun s w k => val_main_v32 (F := Ideal) x0 x1 x2 (ix3 b s (⟨w.val * 512 + k.val, by omega⟩ : Fin 2048)))
          (Cert.Spec.wOf x5 0) (Cert.Spec.bOf x6 0) s h := by
  -- the weight read by the dot at contraction position `k`
  have eW : ∀ k : Fin 2048, val_main_v43 (F := Ideal) x5 (ridx_main_v44 (ix3 b s h) k) = x5 (ix3 0 h k) := by
    intro k
    rw [val_main_v43_apply, val_main_v42_apply]
    refine congrArg x5 (funext fun a => Fin.ext ?_)
    have hh := h.isLt; have hk := k.isLt
    match a with
    | ⟨0, _⟩ => rfl
    | ⟨1, _⟩ =>
      show (h.val * 2048 + k.val) / 2048 % 512 = h.val
      omega
    | ⟨2, _⟩ =>
      show (h.val * 2048 + k.val) % 2048 = k.val
      omega
  -- the bias, broadcast along batch and position
  have eB : val_main_v48 (F := Ideal) x6 (ix3 b s h) = x6 (ix2 0 h) := by
    rw [val_main_v48_apply, val_main_v47_apply, val_main_v46_apply, val_main_v45_apply]
    refine congrArg x6 (funext fun a => Fin.ext ?_)
    have hh := h.isLt
    match a with
    | ⟨0, _⟩ => rfl
    | ⟨1, _⟩ =>
      show h.val % 512 = h.val
      omega
  have eL : ∀ k : Fin 2048, lidx_main_v44 (ix3 b s h) k = ix3 b s k := fun k => funext fun a => by
    match a with
    | ⟨0, _⟩ => rfl
    | ⟨1, _⟩ => rfl
    | ⟨2, _⟩ => rfl
  have e0 : val_main_call1_v0 (F := Ideal) (ix3 b s h) = 0 := by
    rw [val_main_call1_v0_apply, val_main_call1_cst_apply, Ideal.ofBits_def, Ideal.ofBits_zero_f32]
  rw [val_main_v50_apply, val_main_v49_apply, val_main_v44_apply, eB, e0, Ideal.maximumf_def, Ideal.addf_def]
  simp only [eW, eL]
  rw [sum_2048]
  rfl

/-- Forward direction, layer 1: the rectified windowed linear map at row `b`, position `s`, channel `h`. -/
theorem v182_apply (x0 : (⟨S32x512x512, .f32⟩ : BufTy).Contents (Elt Ideal)) (x1 x2 : (⟨S2x3x512, .f32⟩ : BufTy).Contents (Elt Ideal)) (x3 : (⟨S2x512x2048, .f32⟩ : BufTy).Contents (Elt Ideal)) (x4 : (⟨S2x512, .f32⟩ : BufTy).Contents (Elt Ideal)) (x7 : (⟨S2x2x1024x512, .f32⟩ : BufTy).Contents (Elt Ideal)) (x8 : (⟨S2x2x1024, .f32⟩ : BufTy).Contents (Elt Ideal))
    (b : Fin 32) (s h : Fin 512) :
    val_main_v182 (F := Ideal) x0 x1 x2 x3 x4 x7 x8 (ix3 b s h)
      = Cert.Spec.convRelu (fun s w k => val_main_v163 (F := Ideal) x0 x1 x2 x3 x4 x7 x8 (ix3 b s (⟨w.val * 512 + k.val, by omega⟩ : Fin 2048)))
          (Cert.Spec.wOf x3 1) (Cert.Spec.bOf x4 1) s h := by
  -- the weight read by the dot at contraction position `k`
  have eW : ∀ k : Fin 2048, val_main_v175 (F := Ideal) x3 (ridx_main_v176 (ix3 b s h) k) = x3 (ix3 1 h k) := by
    intro k
    rw [val_main_v175_apply, val_main_v174_apply]
    refine congrArg x3 (funext fun a => Fin.ext ?_)
    have hh := h.isLt; have hk := k.isLt
    match a with
    | ⟨0, _⟩ => rfl
    | ⟨1, _⟩ =>
      show (h.val * 2048 + k.val) / 2048 % 512 = h.val
      omega
    | ⟨2, _⟩ =>
      show (h.val * 2048 + k.val) % 2048 = k.val
      omega
  -- the bias, broadcast along batch and position
  have eB : val_main_v180 (F := Ideal) x4 (ix3 b s h) = x4 (ix2 1 h) := by
    rw [val_main_v180_apply, val_main_v179_apply, val_main_v178_apply, val_main_v177_apply]
    refine congrArg x4 (funext fun a => Fin.ext ?_)
    have hh := h.isLt
    match a with
    | ⟨0, _⟩ => rfl
    | ⟨1, _⟩ =>
      show h.val % 512 = h.val
      omega
  have eL : ∀ k : Fin 2048, lidx_main_v176 (ix3 b s h) k = ix3 b s k := fun k => funext fun a => by
    match a with
    | ⟨0, _⟩ => rfl
    | ⟨1, _⟩ => rfl
    | ⟨2, _⟩ => rfl
  have e0 : val_main_call6_v0 (F := Ideal) (ix3 b s h) = 0 := by
    rw [val_main_call6_v0_apply, val_main_call6_cst_apply, Ideal.ofBits_def, Ideal.ofBits_zero_f32]
  rw [val_main_v182_apply, val_main_v181_apply, val_main_v176_apply, eB, e0, Ideal.maximumf_def, Ideal.addf_def]
  simp only [eW, eL]
  rw [sum_2048]
  rfl

/-- Backward direction, layer 1: the rectified windowed linear map at row `b`, position `s`, channel `h`. -/
theorem v191_apply (x0 : (⟨S32x512x512, .f32⟩ : BufTy).Contents (Elt Ideal)) (x1 x2 : (⟨S2x3x512, .f32⟩ : BufTy).Contents (Elt Ideal)) (x5 : (⟨S2x512x2048, .f32⟩ : BufTy).Contents (Elt Ideal)) (x6 : (⟨S2x512, .f32⟩ : BufTy).Contents (Elt Ideal)) (x9 : (⟨S2x2x1024x512, .f32⟩ : BufTy).Contents (Elt Ideal)) (x10 : (⟨S2x2x1024, .f32⟩ : BufTy).Contents (Elt Ideal))
    (b : Fin 32) (s h : Fin 512) :
    val_main_v191 (F := Ideal) x0 x1 x2 x5 x6 x9 x10 (ix3 b s h)
      = Cert.Spec.convRelu (fun s w k => val_main_v173 (F := Ideal) x0 x1 x2 x5 x6 x9 x10 (ix3 b s (⟨w.val * 512 + k.val, by omega⟩ : Fin 2048)))
          (Cert.Spec.wOf x5 1) (Cert.Spec.bOf x6 1) s h := by
  -- the weight read by the dot at contraction position `k`
  have eW : ∀ k : Fin 2048, val_main_v184 (F := Ideal) x5 (ridx_main_v185 (ix3 b s h) k) = x5 (ix3 1 h k) := by
    intro k
    rw [val_main_v184_apply, val_main_v183_apply]
    refine congrArg x5 (funext fun a => Fin.ext ?_)
    have hh := h.isLt; have hk := k.isLt
    match a with
    | ⟨0, _⟩ => rfl
    | ⟨1, _⟩ =>
      show (h.val * 2048 + k.val) / 2048 % 512 = h.val
      omega
    | ⟨2, _⟩ =>
      show (h.val * 2048 + k.val) % 2048 = k.val
      omega
  -- the bias, broadcast along batch and position
  have eB : val_main_v189 (F := Ideal) x6 (ix3 b s h) = x6 (ix2 1 h) := by
    rw [val_main_v189_apply, val_main_v188_apply, val_main_v187_apply, val_main_v186_apply]
    refine congrArg x6 (funext fun a => Fin.ext ?_)
    have hh := h.isLt
    match a with
    | ⟨0, _⟩ => rfl
    | ⟨1, _⟩ =>
      show h.val % 512 = h.val
      omega
  have eL : ∀ k : Fin 2048, lidx_main_v185 (ix3 b s h) k = ix3 b s k := fun k => funext fun a => by
    match a with
    | ⟨0, _⟩ => rfl
    | ⟨1, _⟩ => rfl
    | ⟨2, _⟩ => rfl
  have e0 : val_main_call7_v0 (F := Ideal) (ix3 b s h) = 0 := by
    rw [val_main_call7_v0_apply, val_main_call7_cst_apply, Ideal.ofBits_def, Ideal.ofBits_zero_f32]
  rw [val_main_v191_apply, val_main_v190_apply, val_main_v185_apply, eB, e0, Ideal.maximumf_def, Ideal.addf_def]
  simp only [eW, eL]
  rw [sum_2048]
  rfl

/-! ## The highway steps -/

/-- Forward direction, layer 0, highway step 0, at row `b`, position `s`, channel `h`. -/
theorem v76_apply (x0 : (⟨S32x512x512, .f32⟩ : BufTy).Contents (Elt Ideal)) (x1 x2 : (⟨S2x3x512, .f32⟩ : BufTy).Contents (Elt Ideal)) (x3 : (⟨S2x512x2048, .f32⟩ : BufTy).Contents (Elt Ideal)) (x4 : (⟨S2x512, .f32⟩ : BufTy).Contents (Elt Ideal)) (x7 : (⟨S2x2x1024x512, .f32⟩ : BufTy).Contents (Elt Ideal)) (x8 : (⟨S2x2x1024, .f32⟩ : BufTy).Contents (Elt Ideal))
    (b : Fin 32) (s h : Fin 512) :
    val_main_v76 (F := Ideal) x0 x1 x2 x3 x4 x7 x8 (ix3 b s h)
      = Cert.Spec.hwStep (fun s k => val_main_v41 (F := Ideal) x0 x1 x2 x3 x4 (ix3 b s k))
          (Cert.Spec.hwOf x7 0 0) (Cert.Spec.hbOf x8 0 0) s h := by
  -- the affine map of the step, at output `g` of 1024
  have eP : ∀ g : Fin 1024, val_main_v62 (F := Ideal) x0 x1 x2 x3 x4 x7 x8 (ix3 b s g)
      = Cert.Spec.hwProj (fun s k => val_main_v41 (F := Ideal) x0 x1 x2 x3 x4 (ix3 b s k))
          (Cert.Spec.hwOf x7 0 0) (Cert.Spec.hbOf x8 0 0) s g := by
    intro g
    have eW : ∀ k : Fin 512, val_main_v56 (F := Ideal) x7 (ridx_main_v57 (ix3 b s g) k) = x7 (ix4 0 0 g k) := by
      intro k
      rw [val_main_v56_apply, val_main_v55_apply, val_main_v52_apply, val_main_v51_apply]
      refine congrArg x7 (funext fun a => Fin.ext ?_)
      have hg := g.isLt; have hk := k.isLt
      match a with
      | ⟨0, _⟩ => rfl
      | ⟨1, _⟩ =>
        show ((0 * 1024 + (g.val * 512 + k.val) / 512 % 1024) * 512 + (g.val * 512 + k.val) % 512) / 524288 % 2 = 0
        omega
      | ⟨2, _⟩ =>
        show ((0 * 1024 + (g.val * 512 + k.val) / 512 % 1024) * 512 + (g.val * 512 + k.val) % 512) / 512 % 1024 = g.val
        omega
      | ⟨3, _⟩ =>
        show ((0 * 1024 + (g.val * 512 + k.val) / 512 % 1024) * 512 + (g.val * 512 + k.val) % 512) % 512 = k.val
        omega
    have eB : val_main_v61 (F := Ideal) x8 (ix3 b s g) = x8 (ix3 0 0 g) := by
      rw [val_main_v61_apply, val_main_v60_apply, val_main_v59_apply, val_main_v58_apply, val_main_v54_apply, val_main_v53_apply]
      refine congrArg x8 (funext fun a => Fin.ext ?_)
      have hg := g.isLt
      match a with
      | ⟨0, _⟩ => rfl
      | ⟨1, _⟩ =>
        show (0 * 1024 + g.val % 1024) / 1024 % 2 = 0
        omega
      | ⟨2, _⟩ =>
        show (0 * 1024 + g.val % 1024) % 1024 = g.val
        omega
    have eL : ∀ k : Fin 512, lidx_main_v57 (ix3 b s g) k = ix3 b s k := fun k => funext fun a => by
      match a with
      | ⟨0, _⟩ => rfl
      | ⟨1, _⟩ => rfl
      | ⟨2, _⟩ => rfl
    rw [val_main_v62_apply, val_main_v57_apply, eB, Ideal.addf_def]
    simp only [eW, eL]
    rfl
  -- the candidate is the first half of the 1024 outputs, the gate the second half
  have eLo : idx_main_v63 (ix3 b s h) = ix3 b s (Cert.Spec.lo h) := funext fun a => by
    match a with
    | ⟨0, _⟩ => rfl
    | ⟨1, _⟩ => rfl
    | ⟨2, _⟩ => rfl
  have eHi : idx_main_v64 (ix3 b s h) = ix3 b s (Cert.Spec.hi h) := funext fun a => by
    match a with
    | ⟨0, _⟩ => rfl
    | ⟨1, _⟩ => rfl
    | ⟨2, _⟩ => rfl
  have c1 : val_main_v67 (F := Ideal) (ix3 b s h) = FloatOps.ofBits (F := Ideal) .f32 0x3F800000#32 := by
    rw [val_main_v67_apply, val_main_cst_apply]
  have c2 : val_main_v69 (F := Ideal) (ix3 b s h) = FloatOps.ofBits (F := Ideal) .f32 0x3F800000#32 := by
    rw [val_main_v69_apply, val_main_cst_4_apply]
  have c3 : val_main_v72 (F := Ideal) (ix3 b s h) = FloatOps.ofBits (F := Ideal) .f32 0x3F800000#32 := by
    rw [val_main_v72_apply, val_main_cst_5_apply]
  have c0 : val_main_call2_v0 (F := Ideal) (ix3 b s h) = FloatOps.ofBits (F := Ideal) .f32 0x00000000#32 := by
    rw [val_main_call2_v0_apply, val_main_call2_cst_apply]
  rw [val_main_v76_apply, val_main_v71_apply, val_main_v75_apply, val_main_v73_apply, val_main_v74_apply,
    val_main_v70_apply, val_main_v68_apply, val_main_v66_apply, val_main_v65_apply, val_main_v64_apply,
    val_main_v63_apply, eLo, eHi, eP, eP, c1, c2, c3, c0]
  exact highway_arith _ _ _

/-- Forward direction, layer 0, highway step 1, at row `b`, position `s`, channel `h`. -/
theorem v98_apply (x0 : (⟨S32x512x512, .f32⟩ : BufTy).Contents (Elt Ideal)) (x1 x2 : (⟨S2x3x512, .f32⟩ : BufTy).Contents (Elt Ideal)) (x3 : (⟨S2x512x2048, .f32⟩ : BufTy).Contents (Elt Ideal)) (x4 : (⟨S2x512, .f32⟩ : BufTy).Contents (Elt Ideal)) (x7 : (⟨S2x2x1024x512, .f32⟩ : BufTy).Contents (Elt Ideal)) (x8 : (⟨S2x2x1024, .f32⟩ : BufTy).Contents (Elt Ideal))
    (b : Fin 32) (s h : Fin 512) :
    val_main_v98 (F := Ideal) x0 x1 x2 x3 x4 x7 x8 (ix3 b s h)
      = Cert.Spec.hwStep (fun s k => val_main_v76 (F := Ideal) x0 x1 x2 x3 x4 x7 x8 (ix3 b s k))
          (Cert.Spec.hwOf x7 0 1) (Cert.Spec.hbOf x8 0 1) s h := by
  -- the affine map of the step, at output `g` of 1024
  have eP : ∀ g : Fin 1024, val_main_v84 (F := Ideal) x0 x1 x2 x3 x4 x7 x8 (ix3 b s g)
      = Cert.Spec.hwProj (fun s k => val_main_v76 (F := Ideal) x0 x1 x2 x3 x4 x7 x8 (ix3 b s k))
          (Cert.Spec.hwOf x7 0 1) (Cert.Spec.hbOf x8 0 1) s g := by
    intro g
    have eW : ∀ k : Fin 512, val_main_v78 (F := Ideal) x7 (ridx_main_v79 (ix3 b s g) k) = x7 (ix4 0 1 g k) := by
      intro k
      rw [val_main_v78_apply, val_main_v77_apply, val_main_v52_apply, val_main_v51_apply]
      refine congrArg x7 (funext fun a => Fin.ext ?_)
      have hg := g.isLt; have hk := k.isLt
      match a with
      | ⟨0, _⟩ => rfl
      | ⟨1, _⟩ =>
        show ((1 * 1024 + (g.val * 512 + k.val) / 512 % 1024) * 512 + (g.val * 512 + k.val) % 512) / 524288 % 2 = 1
        omega
      | ⟨2, _⟩ =>
        show ((1 * 1024 + (g.val * 512 + k.val) / 512 % 1024) * 512 + (g.val * 512 + k.val) % 512) / 512 % 1024 = g.val
        omega
      | ⟨3, _⟩ =>
        show ((1 * 1024 + (g.val * 512 + k.val) / 512 % 1024) * 512 + (g.val * 512 + k.val) % 512) % 512 = k.val
        omega
    have eB : val_main_v83 (F := Ideal) x8 (ix3 b s g) = x8 (ix3 0 1 g) := by
      rw [val_main_v83_apply, val_main_v82_apply, val_main_v81_apply, val_main_v80_apply, val_main_v54_apply, val_main_v53_apply]
      refine congrArg x8 (funext fun a => Fin.ext ?_)
      have hg := g.isLt
      match a with
      | ⟨0, _⟩ => rfl
      | ⟨1, _⟩ =>
        show (1 * 1024 + g.val % 1024) / 1024 % 2 = 1
        omega
      | ⟨2, _⟩ =>
        show (1 * 1024 + g.val % 1024) % 1024 = g.val
        omega
    have eL : ∀ k : Fin 512, lidx_main_v79 (ix3 b s g) k = ix3 b s k := fun k => funext fun a => by
      match a with
      | ⟨0, _⟩ => rfl
      | ⟨1, _⟩ => rfl
      | ⟨2, _⟩ => rfl
    rw [val_main_v84_apply, val_main_v79_apply, eB, Ideal.addf_def]
    simp only [eW, eL]
    rfl
  -- the candidate is the first half of the 1024 outputs, the gate the second half
  have eLo : idx_main_v85 (ix3 b s h) = ix3 b s (Cert.Spec.lo h) := funext fun a => by
    match a with
    | ⟨0, _⟩ => rfl
    | ⟨1, _⟩ => rfl
    | ⟨2, _⟩ => rfl
  have eHi : idx_main_v86 (ix3 b s h) = ix3 b s (Cert.Spec.hi h) := funext fun a => by
    match a with
    | ⟨0, _⟩ => rfl
    | ⟨1, _⟩ => rfl
    | ⟨2, _⟩ => rfl
  have c1 : val_main_v89 (F := Ideal) (ix3 b s h) = FloatOps.ofBits (F := Ideal) .f32 0x3F800000#32 := by
    rw [val_main_v89_apply, val_main_cst_6_apply]
  have c2 : val_main_v91 (F := Ideal) (ix3 b s h) = FloatOps.ofBits (F := Ideal) .f32 0x3F800000#32 := by
    rw [val_main_v91_apply, val_main_cst_7_apply]
  have c3 : val_main_v94 (F := Ideal) (ix3 b s h) = FloatOps.ofBits (F := Ideal) .f32 0x3F800000#32 := by
    rw [val_main_v94_apply, val_main_cst_8_apply]
  have c0 : val_main_call3_v0 (F := Ideal) (ix3 b s h) = FloatOps.ofBits (F := Ideal) .f32 0x00000000#32 := by
    rw [val_main_call3_v0_apply, val_main_call3_cst_apply]
  rw [val_main_v98_apply, val_main_v93_apply, val_main_v97_apply, val_main_v95_apply, val_main_v96_apply,
    val_main_v92_apply, val_main_v90_apply, val_main_v88_apply, val_main_v87_apply, val_main_v86_apply,
    val_main_v85_apply, eLo, eHi, eP, eP, c1, c2, c3, c0]
  exact highway_arith _ _ _

/-- Backward direction, layer 0, highway step 0, at row `b`, position `s`, channel `h`. -/
theorem v124_apply (x0 : (⟨S32x512x512, .f32⟩ : BufTy).Contents (Elt Ideal)) (x1 x2 : (⟨S2x3x512, .f32⟩ : BufTy).Contents (Elt Ideal)) (x5 : (⟨S2x512x2048, .f32⟩ : BufTy).Contents (Elt Ideal)) (x6 : (⟨S2x512, .f32⟩ : BufTy).Contents (Elt Ideal)) (x9 : (⟨S2x2x1024x512, .f32⟩ : BufTy).Contents (Elt Ideal)) (x10 : (⟨S2x2x1024, .f32⟩ : BufTy).Contents (Elt Ideal))
    (b : Fin 32) (s h : Fin 512) :
    val_main_v124 (F := Ideal) x0 x1 x2 x5 x6 x9 x10 (ix3 b s h)
      = Cert.Spec.hwStep (fun s k => val_main_v50 (F := Ideal) x0 x1 x2 x5 x6 (ix3 b s k))
          (Cert.Spec.hwOf x9 0 0) (Cert.Spec.hbOf x10 0 0) s h := by
  -- the affine map of the step, at output `g` of 1024
  have eP : ∀ g : Fin 1024, val_main_v110 (F := Ideal) x0 x1 x2 x5 x6 x9 x10 (ix3 b s g)
      = Cert.Spec.hwProj (fun s k => val_main_v50 (F := Ideal) x0 x1 x2 x5 x6 (ix3 b s k))
          (Cert.Spec.hwOf x9 0 0) (Cert.Spec.hbOf x10 0 0) s g := by
    intro g
    have eW : ∀ k : Fin 512, val_main_v104 (F := Ideal) x9 (ridx_main_v105 (ix3 b s g) k) = x9 (ix4 0 0 g k) := by
      intro k
      rw [val_main_v104_apply, val_main_v103_apply, val_main_v100_apply, val_main_v99_apply]
      refine congrArg x9 (funext fun a => Fin.ext ?_)
      have hg := g.isLt; have hk := k.isLt
      match a with
      | ⟨0, _⟩ => rfl
      | ⟨1, _⟩ =>
        show ((0 * 1024 + (g.val * 512 + k.val) / 512 % 1024) * 512 + (g.val * 512 + k.val) % 512) / 524288 % 2 = 0
        omega
      | ⟨2, _⟩ =>
        show ((0 * 1024 + (g.val * 512 + k.val) / 512 % 1024) * 512 + (g.val * 512 + k.val) % 512) / 512 % 1024 = g.val
        omega
      | ⟨3, _⟩ =>
        show ((0 * 1024 + (g.val * 512 + k.val) / 512 % 1024) * 512 + (g.val * 512 + k.val) % 512) % 512 = k.val
        omega
    have eB : val_main_v109 (F := Ideal) x10 (ix3 b s g) = x10 (ix3 0 0 g) := by
      rw [val_main_v109_apply, val_main_v108_apply, val_main_v107_apply, val_main_v106_apply, val_main_v102_apply, val_main_v101_apply]
      refine congrArg x10 (funext fun a => Fin.ext ?_)
      have hg := g.isLt
      match a with
      | ⟨0, _⟩ => rfl
      | ⟨1, _⟩ =>
        show (0 * 1024 + g.val % 1024) / 1024 % 2 = 0
        omega
      | ⟨2, _⟩ =>
        show (0 * 1024 + g.val % 1024) % 1024 = g.val
        omega
    have eL : ∀ k : Fin 512, lidx_main_v105 (ix3 b s g) k = ix3 b s k := fun k => funext fun a => by
      match a with
      | ⟨0, _⟩ => rfl
      | ⟨1, _⟩ => rfl
      | ⟨2, _⟩ => rfl
    rw [val_main_v110_apply, val_main_v105_apply, eB, Ideal.addf_def]
    simp only [eW, eL]
    rfl
  -- the candidate is the first half of the 1024 outputs, the gate the second half
  have eLo : idx_main_v111 (ix3 b s h) = ix3 b s (Cert.Spec.lo h) := funext fun a => by
    match a with
    | ⟨0, _⟩ => rfl
    | ⟨1, _⟩ => rfl
    | ⟨2, _⟩ => rfl
  have eHi : idx_main_v112 (ix3 b s h) = ix3 b s (Cert.Spec.hi h) := funext fun a => by
    match a with
    | ⟨0, _⟩ => rfl
    | ⟨1, _⟩ => rfl
    | ⟨2, _⟩ => rfl
  have c1 : val_main_v115 (F := Ideal) (ix3 b s h) = FloatOps.ofBits (F := Ideal) .f32 0x3F800000#32 := by
    rw [val_main_v115_apply, val_main_cst_9_apply]
  have c2 : val_main_v117 (F := Ideal) (ix3 b s h) = FloatOps.ofBits (F := Ideal) .f32 0x3F800000#32 := by
    rw [val_main_v117_apply, val_main_cst_10_apply]
  have c3 : val_main_v120 (F := Ideal) (ix3 b s h) = FloatOps.ofBits (F := Ideal) .f32 0x3F800000#32 := by
    rw [val_main_v120_apply, val_main_cst_11_apply]
  have c0 : val_main_call4_v0 (F := Ideal) (ix3 b s h) = FloatOps.ofBits (F := Ideal) .f32 0x00000000#32 := by
    rw [val_main_call4_v0_apply, val_main_call4_cst_apply]
  rw [val_main_v124_apply, val_main_v119_apply, val_main_v123_apply, val_main_v121_apply, val_main_v122_apply,
    val_main_v118_apply, val_main_v116_apply, val_main_v114_apply, val_main_v113_apply, val_main_v112_apply,
    val_main_v111_apply, eLo, eHi, eP, eP, c1, c2, c3, c0]
  exact highway_arith _ _ _

/-- Backward direction, layer 0, highway step 1, at row `b`, position `s`, channel `h`. -/
theorem v146_apply (x0 : (⟨S32x512x512, .f32⟩ : BufTy).Contents (Elt Ideal)) (x1 x2 : (⟨S2x3x512, .f32⟩ : BufTy).Contents (Elt Ideal)) (x5 : (⟨S2x512x2048, .f32⟩ : BufTy).Contents (Elt Ideal)) (x6 : (⟨S2x512, .f32⟩ : BufTy).Contents (Elt Ideal)) (x9 : (⟨S2x2x1024x512, .f32⟩ : BufTy).Contents (Elt Ideal)) (x10 : (⟨S2x2x1024, .f32⟩ : BufTy).Contents (Elt Ideal))
    (b : Fin 32) (s h : Fin 512) :
    val_main_v146 (F := Ideal) x0 x1 x2 x5 x6 x9 x10 (ix3 b s h)
      = Cert.Spec.hwStep (fun s k => val_main_v124 (F := Ideal) x0 x1 x2 x5 x6 x9 x10 (ix3 b s k))
          (Cert.Spec.hwOf x9 0 1) (Cert.Spec.hbOf x10 0 1) s h := by
  -- the affine map of the step, at output `g` of 1024
  have eP : ∀ g : Fin 1024, val_main_v132 (F := Ideal) x0 x1 x2 x5 x6 x9 x10 (ix3 b s g)
      = Cert.Spec.hwProj (fun s k => val_main_v124 (F := Ideal) x0 x1 x2 x5 x6 x9 x10 (ix3 b s k))
          (Cert.Spec.hwOf x9 0 1) (Cert.Spec.hbOf x10 0 1) s g := by
    intro g
    have eW : ∀ k : Fin 512, val_main_v126 (F := Ideal) x9 (ridx_main_v127 (ix3 b s g) k) = x9 (ix4 0 1 g k) := by
      intro k
      rw [val_main_v126_apply, val_main_v125_apply, val_main_v100_apply, val_main_v99_apply]
      refine congrArg x9 (funext fun a => Fin.ext ?_)
      have hg := g.isLt; have hk := k.isLt
      match a with
      | ⟨0, _⟩ => rfl
      | ⟨1, _⟩ =>
        show ((1 * 1024 + (g.val * 512 + k.val) / 512 % 1024) * 512 + (g.val * 512 + k.val) % 512) / 524288 % 2 = 1
        omega
      | ⟨2, _⟩ =>
        show ((1 * 1024 + (g.val * 512 + k.val) / 512 % 1024) * 512 + (g.val * 512 + k.val) % 512) / 512 % 1024 = g.val
        omega
      | ⟨3, _⟩ =>
        show ((1 * 1024 + (g.val * 512 + k.val) / 512 % 1024) * 512 + (g.val * 512 + k.val) % 512) % 512 = k.val
        omega
    have eB : val_main_v131 (F := Ideal) x10 (ix3 b s g) = x10 (ix3 0 1 g) := by
      rw [val_main_v131_apply, val_main_v130_apply, val_main_v129_apply, val_main_v128_apply, val_main_v102_apply, val_main_v101_apply]
      refine congrArg x10 (funext fun a => Fin.ext ?_)
      have hg := g.isLt
      match a with
      | ⟨0, _⟩ => rfl
      | ⟨1, _⟩ =>
        show (1 * 1024 + g.val % 1024) / 1024 % 2 = 1
        omega
      | ⟨2, _⟩ =>
        show (1 * 1024 + g.val % 1024) % 1024 = g.val
        omega
    have eL : ∀ k : Fin 512, lidx_main_v127 (ix3 b s g) k = ix3 b s k := fun k => funext fun a => by
      match a with
      | ⟨0, _⟩ => rfl
      | ⟨1, _⟩ => rfl
      | ⟨2, _⟩ => rfl
    rw [val_main_v132_apply, val_main_v127_apply, eB, Ideal.addf_def]
    simp only [eW, eL]
    rfl
  -- the candidate is the first half of the 1024 outputs, the gate the second half
  have eLo : idx_main_v133 (ix3 b s h) = ix3 b s (Cert.Spec.lo h) := funext fun a => by
    match a with
    | ⟨0, _⟩ => rfl
    | ⟨1, _⟩ => rfl
    | ⟨2, _⟩ => rfl
  have eHi : idx_main_v134 (ix3 b s h) = ix3 b s (Cert.Spec.hi h) := funext fun a => by
    match a with
    | ⟨0, _⟩ => rfl
    | ⟨1, _⟩ => rfl
    | ⟨2, _⟩ => rfl
  have c1 : val_main_v137 (F := Ideal) (ix3 b s h) = FloatOps.ofBits (F := Ideal) .f32 0x3F800000#32 := by
    rw [val_main_v137_apply, val_main_cst_12_apply]
  have c2 : val_main_v139 (F := Ideal) (ix3 b s h) = FloatOps.ofBits (F := Ideal) .f32 0x3F800000#32 := by
    rw [val_main_v139_apply, val_main_cst_13_apply]
  have c3 : val_main_v142 (F := Ideal) (ix3 b s h) = FloatOps.ofBits (F := Ideal) .f32 0x3F800000#32 := by
    rw [val_main_v142_apply, val_main_cst_14_apply]
  have c0 : val_main_call5_v0 (F := Ideal) (ix3 b s h) = FloatOps.ofBits (F := Ideal) .f32 0x00000000#32 := by
    rw [val_main_call5_v0_apply, val_main_call5_cst_apply]
  rw [val_main_v146_apply, val_main_v141_apply, val_main_v145_apply, val_main_v143_apply, val_main_v144_apply,
    val_main_v140_apply, val_main_v138_apply, val_main_v136_apply, val_main_v135_apply, val_main_v134_apply,
    val_main_v133_apply, eLo, eHi, eP, eP, c1, c2, c3, c0]
  exact highway_arith _ _ _

/-- Forward direction, layer 1, highway step 0, at row `b`, position `s`, channel `h`. -/
theorem v217_apply (x0 : (⟨S32x512x512, .f32⟩ : BufTy).Contents (Elt Ideal)) (x1 x2 : (⟨S2x3x512, .f32⟩ : BufTy).Contents (Elt Ideal)) (x3 : (⟨S2x512x2048, .f32⟩ : BufTy).Contents (Elt Ideal)) (x4 : (⟨S2x512, .f32⟩ : BufTy).Contents (Elt Ideal)) (x7 : (⟨S2x2x1024x512, .f32⟩ : BufTy).Contents (Elt Ideal)) (x8 : (⟨S2x2x1024, .f32⟩ : BufTy).Contents (Elt Ideal))
    (b : Fin 32) (s h : Fin 512) :
    val_main_v217 (F := Ideal) x0 x1 x2 x3 x4 x7 x8 (ix3 b s h)
      = Cert.Spec.hwStep (fun s k => val_main_v182 (F := Ideal) x0 x1 x2 x3 x4 x7 x8 (ix3 b s k))
          (Cert.Spec.hwOf x7 1 0) (Cert.Spec.hbOf x8 1 0) s h := by
  -- the affine map of the step, at output `g` of 1024
  have eP : ∀ g : Fin 1024, val_main_v203 (F := Ideal) x0 x1 x2 x3 x4 x7 x8 (ix3 b s g)
      = Cert.Spec.hwProj (fun s k => val_main_v182 (F := Ideal) x0 x1 x2 x3 x4 x7 x8 (ix3 b s k))
          (Cert.Spec.hwOf x7 1 0) (Cert.Spec.hbOf x8 1 0) s g := by
    intro g
    have eW : ∀ k : Fin 512, val_main_v197 (F := Ideal) x7 (ridx_main_v198 (ix3 b s g) k) = x7 (ix4 1 0 g k) := by
      intro k
      rw [val_main_v197_apply, val_main_v196_apply, val_main_v193_apply, val_main_v192_apply]
      refine congrArg x7 (funext fun a => Fin.ext ?_)
      have hg := g.isLt; have hk := k.isLt
      match a with
      | ⟨0, _⟩ => rfl
      | ⟨1, _⟩ =>
        show ((0 * 1024 + (g.val * 512 + k.val) / 512 % 1024) * 512 + (g.val * 512 + k.val) % 512) / 524288 % 2 = 0
        omega
      | ⟨2, _⟩ =>
        show ((0 * 1024 + (g.val * 512 + k.val) / 512 % 1024) * 512 + (g.val * 512 + k.val) % 512) / 512 % 1024 = g.val
        omega
      | ⟨3, _⟩ =>
        show ((0 * 1024 + (g.val * 512 + k.val) / 512 % 1024) * 512 + (g.val * 512 + k.val) % 512) % 512 = k.val
        omega
    have eB : val_main_v202 (F := Ideal) x8 (ix3 b s g) = x8 (ix3 1 0 g) := by
      rw [val_main_v202_apply, val_main_v201_apply, val_main_v200_apply, val_main_v199_apply, val_main_v195_apply, val_main_v194_apply]
      refine congrArg x8 (funext fun a => Fin.ext ?_)
      have hg := g.isLt
      match a with
      | ⟨0, _⟩ => rfl
      | ⟨1, _⟩ =>
        show (0 * 1024 + g.val % 1024) / 1024 % 2 = 0
        omega
      | ⟨2, _⟩ =>
        show (0 * 1024 + g.val % 1024) % 1024 = g.val
        omega
    have eL : ∀ k : Fin 512, lidx_main_v198 (ix3 b s g) k = ix3 b s k := fun k => funext fun a => by
      match a with
      | ⟨0, _⟩ => rfl
      | ⟨1, _⟩ => rfl
      | ⟨2, _⟩ => rfl
    rw [val_main_v203_apply, val_main_v198_apply, eB, Ideal.addf_def]
    simp only [eW, eL]
    rfl
  -- the candidate is the first half of the 1024 outputs, the gate the second half
  have eLo : idx_main_v204 (ix3 b s h) = ix3 b s (Cert.Spec.lo h) := funext fun a => by
    match a with
    | ⟨0, _⟩ => rfl
    | ⟨1, _⟩ => rfl
    | ⟨2, _⟩ => rfl
  have eHi : idx_main_v205 (ix3 b s h) = ix3 b s (Cert.Spec.hi h) := funext fun a => by
    match a with
    | ⟨0, _⟩ => rfl
    | ⟨1, _⟩ => rfl
    | ⟨2, _⟩ => rfl
  have c1 : val_main_v208 (F := Ideal) (ix3 b s h) = FloatOps.ofBits (F := Ideal) .f32 0x3F800000#32 := by
    rw [val_main_v208_apply, val_main_cst_20_apply]
  have c2 : val_main_v210 (F := Ideal) (ix3 b s h) = FloatOps.ofBits (F := Ideal) .f32 0x3F800000#32 := by
    rw [val_main_v210_apply, val_main_cst_21_apply]
  have c3 : val_main_v213 (F := Ideal) (ix3 b s h) = FloatOps.ofBits (F := Ideal) .f32 0x3F800000#32 := by
    rw [val_main_v213_apply, val_main_cst_22_apply]
  have c0 : val_main_call8_v0 (F := Ideal) (ix3 b s h) = FloatOps.ofBits (F := Ideal) .f32 0x00000000#32 := by
    rw [val_main_call8_v0_apply, val_main_call8_cst_apply]
  rw [val_main_v217_apply, val_main_v212_apply, val_main_v216_apply, val_main_v214_apply, val_main_v215_apply,
    val_main_v211_apply, val_main_v209_apply, val_main_v207_apply, val_main_v206_apply, val_main_v205_apply,
    val_main_v204_apply, eLo, eHi, eP, eP, c1, c2, c3, c0]
  exact highway_arith _ _ _

/-- Forward direction, layer 1, highway step 1, at row `b`, position `s`, channel `h`. -/
theorem v239_apply (x0 : (⟨S32x512x512, .f32⟩ : BufTy).Contents (Elt Ideal)) (x1 x2 : (⟨S2x3x512, .f32⟩ : BufTy).Contents (Elt Ideal)) (x3 : (⟨S2x512x2048, .f32⟩ : BufTy).Contents (Elt Ideal)) (x4 : (⟨S2x512, .f32⟩ : BufTy).Contents (Elt Ideal)) (x7 : (⟨S2x2x1024x512, .f32⟩ : BufTy).Contents (Elt Ideal)) (x8 : (⟨S2x2x1024, .f32⟩ : BufTy).Contents (Elt Ideal))
    (b : Fin 32) (s h : Fin 512) :
    val_main_v239 (F := Ideal) x0 x1 x2 x3 x4 x7 x8 (ix3 b s h)
      = Cert.Spec.hwStep (fun s k => val_main_v217 (F := Ideal) x0 x1 x2 x3 x4 x7 x8 (ix3 b s k))
          (Cert.Spec.hwOf x7 1 1) (Cert.Spec.hbOf x8 1 1) s h := by
  -- the affine map of the step, at output `g` of 1024
  have eP : ∀ g : Fin 1024, val_main_v225 (F := Ideal) x0 x1 x2 x3 x4 x7 x8 (ix3 b s g)
      = Cert.Spec.hwProj (fun s k => val_main_v217 (F := Ideal) x0 x1 x2 x3 x4 x7 x8 (ix3 b s k))
          (Cert.Spec.hwOf x7 1 1) (Cert.Spec.hbOf x8 1 1) s g := by
    intro g
    have eW : ∀ k : Fin 512, val_main_v219 (F := Ideal) x7 (ridx_main_v220 (ix3 b s g) k) = x7 (ix4 1 1 g k) := by
      intro k
      rw [val_main_v219_apply, val_main_v218_apply, val_main_v193_apply, val_main_v192_apply]
      refine congrArg x7 (funext fun a => Fin.ext ?_)
      have hg := g.isLt; have hk := k.isLt
      match a with
      | ⟨0, _⟩ => rfl
      | ⟨1, _⟩ =>
        show ((1 * 1024 + (g.val * 512 + k.val) / 512 % 1024) * 512 + (g.val * 512 + k.val) % 512) / 524288 % 2 = 1
        omega
      | ⟨2, _⟩ =>
        show ((1 * 1024 + (g.val * 512 + k.val) / 512 % 1024) * 512 + (g.val * 512 + k.val) % 512) / 512 % 1024 = g.val
        omega
      | ⟨3, _⟩ =>
        show ((1 * 1024 + (g.val * 512 + k.val) / 512 % 1024) * 512 + (g.val * 512 + k.val) % 512) % 512 = k.val
        omega
    have eB : val_main_v224 (F := Ideal) x8 (ix3 b s g) = x8 (ix3 1 1 g) := by
      rw [val_main_v224_apply, val_main_v223_apply, val_main_v222_apply, val_main_v221_apply, val_main_v195_apply, val_main_v194_apply]
      refine congrArg x8 (funext fun a => Fin.ext ?_)
      have hg := g.isLt
      match a with
      | ⟨0, _⟩ => rfl
      | ⟨1, _⟩ =>
        show (1 * 1024 + g.val % 1024) / 1024 % 2 = 1
        omega
      | ⟨2, _⟩ =>
        show (1 * 1024 + g.val % 1024) % 1024 = g.val
        omega
    have eL : ∀ k : Fin 512, lidx_main_v220 (ix3 b s g) k = ix3 b s k := fun k => funext fun a => by
      match a with
      | ⟨0, _⟩ => rfl
      | ⟨1, _⟩ => rfl
      | ⟨2, _⟩ => rfl
    rw [val_main_v225_apply, val_main_v220_apply, eB, Ideal.addf_def]
    simp only [eW, eL]
    rfl
  -- the candidate is the first half of the 1024 outputs, the gate the second half
  have eLo : idx_main_v226 (ix3 b s h) = ix3 b s (Cert.Spec.lo h) := funext fun a => by
    match a with
    | ⟨0, _⟩ => rfl
    | ⟨1, _⟩ => rfl
    | ⟨2, _⟩ => rfl
  have eHi : idx_main_v227 (ix3 b s h) = ix3 b s (Cert.Spec.hi h) := funext fun a => by
    match a with
    | ⟨0, _⟩ => rfl
    | ⟨1, _⟩ => rfl
    | ⟨2, _⟩ => rfl
  have c1 : val_main_v230 (F := Ideal) (ix3 b s h) = FloatOps.ofBits (F := Ideal) .f32 0x3F800000#32 := by
    rw [val_main_v230_apply, val_main_cst_23_apply]
  have c2 : val_main_v232 (F := Ideal) (ix3 b s h) = FloatOps.ofBits (F := Ideal) .f32 0x3F800000#32 := by
    rw [val_main_v232_apply, val_main_cst_24_apply]
  have c3 : val_main_v235 (F := Ideal) (ix3 b s h) = FloatOps.ofBits (F := Ideal) .f32 0x3F800000#32 := by
    rw [val_main_v235_apply, val_main_cst_25_apply]
  have c0 : val_main_call9_v0 (F := Ideal) (ix3 b s h) = FloatOps.ofBits (F := Ideal) .f32 0x00000000#32 := by
    rw [val_main_call9_v0_apply, val_main_call9_cst_apply]
  rw [val_main_v239_apply, val_main_v234_apply, val_main_v238_apply, val_main_v236_apply, val_main_v237_apply,
    val_main_v233_apply, val_main_v231_apply, val_main_v229_apply, val_main_v228_apply, val_main_v227_apply,
    val_main_v226_apply, eLo, eHi, eP, eP, c1, c2, c3, c0]
  exact highway_arith _ _ _

/-- Backward direction, layer 1, highway step 0, at row `b`, position `s`, channel `h`. -/
theorem v265_apply (x0 : (⟨S32x512x512, .f32⟩ : BufTy).Contents (Elt Ideal)) (x1 x2 : (⟨S2x3x512, .f32⟩ : BufTy).Contents (Elt Ideal)) (x5 : (⟨S2x512x2048, .f32⟩ : BufTy).Contents (Elt Ideal)) (x6 : (⟨S2x512, .f32⟩ : BufTy).Contents (Elt Ideal)) (x9 : (⟨S2x2x1024x512, .f32⟩ : BufTy).Contents (Elt Ideal)) (x10 : (⟨S2x2x1024, .f32⟩ : BufTy).Contents (Elt Ideal))
    (b : Fin 32) (s h : Fin 512) :
    val_main_v265 (F := Ideal) x0 x1 x2 x5 x6 x9 x10 (ix3 b s h)
      = Cert.Spec.hwStep (fun s k => val_main_v191 (F := Ideal) x0 x1 x2 x5 x6 x9 x10 (ix3 b s k))
          (Cert.Spec.hwOf x9 1 0) (Cert.Spec.hbOf x10 1 0) s h := by
  -- the affine map of the step, at output `g` of 1024
  have eP : ∀ g : Fin 1024, val_main_v251 (F := Ideal) x0 x1 x2 x5 x6 x9 x10 (ix3 b s g)
      = Cert.Spec.hwProj (fun s k => val_main_v191 (F := Ideal) x0 x1 x2 x5 x6 x9 x10 (ix3 b s k))
          (Cert.Spec.hwOf x9 1 0) (Cert.Spec.hbOf x10 1 0) s g := by
    intro g
    have eW : ∀ k : Fin 512, val_main_v245 (F := Ideal) x9 (ridx_main_v246 (ix3 b s g) k) = x9 (ix4 1 0 g k) := by
      intro k
      rw [val_main_v245_apply, val_main_v244_apply, val_main_v241_apply, val_main_v240_apply]
      refine congrArg x9 (funext fun a => Fin.ext ?_)
      have hg := g.isLt; have hk := k.isLt
      match a with
      | ⟨0, _⟩ => rfl
      | ⟨1, _⟩ =>
        show ((0 * 1024 + (g.val * 512 + k.val) / 512 % 1024) * 512 + (g.val * 512 + k.val) % 512) / 524288 % 2 = 0
        omega
      | ⟨2, _⟩ =>
        show ((0 * 1024 + (g.val * 512 + k.val) / 512 % 1024) * 512 + (g.val * 512 + k.val) % 512) / 512 % 1024 = g.val
        omega
      | ⟨3, _⟩ =>
        show ((0 * 1024 + (g.val * 512 + k.val) / 512 % 1024) * 512 + (g.val * 512 + k.val) % 512) % 512 = k.val
        omega
    have eB : val_main_v250 (F := Ideal) x10 (ix3 b s g) = x10 (ix3 1 0 g) := by
      rw [val_main_v250_apply, val_main_v249_apply, val_main_v248_apply, val_main_v247_apply, val_main_v243_apply, val_main_v242_apply]
      refine congrArg x10 (funext fun a => Fin.ext ?_)
      have hg := g.isLt
      match a with
      | ⟨0, _⟩ => rfl
      | ⟨1, _⟩ =>
        show (0 * 1024 + g.val % 1024) / 1024 % 2 = 0
        omega
      | ⟨2, _⟩ =>
        show (0 * 1024 + g.val % 1024) % 1024 = g.val
        omega
    have eL : ∀ k : Fin 512, lidx_main_v246 (ix3 b s g) k = ix3 b s k := fun k => funext fun a => by
      match a with
      | ⟨0, _⟩ => rfl
      | ⟨1, _⟩ => rfl
      | ⟨2, _⟩ => rfl
    rw [val_main_v251_apply, val_main_v246_apply, eB, Ideal.addf_def]
    simp only [eW, eL]
    rfl
  -- the candidate is the first half of the 1024 outputs, the gate the second half
  have eLo : idx_main_v252 (ix3 b s h) = ix3 b s (Cert.Spec.lo h) := funext fun a => by
    match a with
    | ⟨0, _⟩ => rfl
    | ⟨1, _⟩ => rfl
    | ⟨2, _⟩ => rfl
  have eHi : idx_main_v253 (ix3 b s h) = ix3 b s (Cert.Spec.hi h) := funext fun a => by
    match a with
    | ⟨0, _⟩ => rfl
    | ⟨1, _⟩ => rfl
    | ⟨2, _⟩ => rfl
  have c1 : val_main_v256 (F := Ideal) (ix3 b s h) = FloatOps.ofBits (F := Ideal) .f32 0x3F800000#32 := by
    rw [val_main_v256_apply, val_main_cst_26_apply]
  have c2 : val_main_v258 (F := Ideal) (ix3 b s h) = FloatOps.ofBits (F := Ideal) .f32 0x3F800000#32 := by
    rw [val_main_v258_apply, val_main_cst_27_apply]
  have c3 : val_main_v261 (F := Ideal) (ix3 b s h) = FloatOps.ofBits (F := Ideal) .f32 0x3F800000#32 := by
    rw [val_main_v261_apply, val_main_cst_28_apply]
  have c0 : val_main_call10_v0 (F := Ideal) (ix3 b s h) = FloatOps.ofBits (F := Ideal) .f32 0x00000000#32 := by
    rw [val_main_call10_v0_apply, val_main_call10_cst_apply]
  rw [val_main_v265_apply, val_main_v260_apply, val_main_v264_apply, val_main_v262_apply, val_main_v263_apply,
    val_main_v259_apply, val_main_v257_apply, val_main_v255_apply, val_main_v254_apply, val_main_v253_apply,
    val_main_v252_apply, eLo, eHi, eP, eP, c1, c2, c3, c0]
  exact highway_arith _ _ _

/-- Backward direction, layer 1, highway step 1, at row `b`, position `s`, channel `h`. -/
theorem v287_apply (x0 : (⟨S32x512x512, .f32⟩ : BufTy).Contents (Elt Ideal)) (x1 x2 : (⟨S2x3x512, .f32⟩ : BufTy).Contents (Elt Ideal)) (x5 : (⟨S2x512x2048, .f32⟩ : BufTy).Contents (Elt Ideal)) (x6 : (⟨S2x512, .f32⟩ : BufTy).Contents (Elt Ideal)) (x9 : (⟨S2x2x1024x512, .f32⟩ : BufTy).Contents (Elt Ideal)) (x10 : (⟨S2x2x1024, .f32⟩ : BufTy).Contents (Elt Ideal))
    (b : Fin 32) (s h : Fin 512) :
    val_main_v287 (F := Ideal) x0 x1 x2 x5 x6 x9 x10 (ix3 b s h)
      = Cert.Spec.hwStep (fun s k => val_main_v265 (F := Ideal) x0 x1 x2 x5 x6 x9 x10 (ix3 b s k))
          (Cert.Spec.hwOf x9 1 1) (Cert.Spec.hbOf x10 1 1) s h := by
  -- the affine map of the step, at output `g` of 1024
  have eP : ∀ g : Fin 1024, val_main_v273 (F := Ideal) x0 x1 x2 x5 x6 x9 x10 (ix3 b s g)
      = Cert.Spec.hwProj (fun s k => val_main_v265 (F := Ideal) x0 x1 x2 x5 x6 x9 x10 (ix3 b s k))
          (Cert.Spec.hwOf x9 1 1) (Cert.Spec.hbOf x10 1 1) s g := by
    intro g
    have eW : ∀ k : Fin 512, val_main_v267 (F := Ideal) x9 (ridx_main_v268 (ix3 b s g) k) = x9 (ix4 1 1 g k) := by
      intro k
      rw [val_main_v267_apply, val_main_v266_apply, val_main_v241_apply, val_main_v240_apply]
      refine congrArg x9 (funext fun a => Fin.ext ?_)
      have hg := g.isLt; have hk := k.isLt
      match a with
      | ⟨0, _⟩ => rfl
      | ⟨1, _⟩ =>
        show ((1 * 1024 + (g.val * 512 + k.val) / 512 % 1024) * 512 + (g.val * 512 + k.val) % 512) / 524288 % 2 = 1
        omega
      | ⟨2, _⟩ =>
        show ((1 * 1024 + (g.val * 512 + k.val) / 512 % 1024) * 512 + (g.val * 512 + k.val) % 512) / 512 % 1024 = g.val
        omega
      | ⟨3, _⟩ =>
        show ((1 * 1024 + (g.val * 512 + k.val) / 512 % 1024) * 512 + (g.val * 512 + k.val) % 512) % 512 = k.val
        omega
    have eB : val_main_v272 (F := Ideal) x10 (ix3 b s g) = x10 (ix3 1 1 g) := by
      rw [val_main_v272_apply, val_main_v271_apply, val_main_v270_apply, val_main_v269_apply, val_main_v243_apply, val_main_v242_apply]
      refine congrArg x10 (funext fun a => Fin.ext ?_)
      have hg := g.isLt
      match a with
      | ⟨0, _⟩ => rfl
      | ⟨1, _⟩ =>
        show (1 * 1024 + g.val % 1024) / 1024 % 2 = 1
        omega
      | ⟨2, _⟩ =>
        show (1 * 1024 + g.val % 1024) % 1024 = g.val
        omega
    have eL : ∀ k : Fin 512, lidx_main_v268 (ix3 b s g) k = ix3 b s k := fun k => funext fun a => by
      match a with
      | ⟨0, _⟩ => rfl
      | ⟨1, _⟩ => rfl
      | ⟨2, _⟩ => rfl
    rw [val_main_v273_apply, val_main_v268_apply, eB, Ideal.addf_def]
    simp only [eW, eL]
    rfl
  -- the candidate is the first half of the 1024 outputs, the gate the second half
  have eLo : idx_main_v274 (ix3 b s h) = ix3 b s (Cert.Spec.lo h) := funext fun a => by
    match a with
    | ⟨0, _⟩ => rfl
    | ⟨1, _⟩ => rfl
    | ⟨2, _⟩ => rfl
  have eHi : idx_main_v275 (ix3 b s h) = ix3 b s (Cert.Spec.hi h) := funext fun a => by
    match a with
    | ⟨0, _⟩ => rfl
    | ⟨1, _⟩ => rfl
    | ⟨2, _⟩ => rfl
  have c1 : val_main_v278 (F := Ideal) (ix3 b s h) = FloatOps.ofBits (F := Ideal) .f32 0x3F800000#32 := by
    rw [val_main_v278_apply, val_main_cst_29_apply]
  have c2 : val_main_v280 (F := Ideal) (ix3 b s h) = FloatOps.ofBits (F := Ideal) .f32 0x3F800000#32 := by
    rw [val_main_v280_apply, val_main_cst_30_apply]
  have c3 : val_main_v283 (F := Ideal) (ix3 b s h) = FloatOps.ofBits (F := Ideal) .f32 0x3F800000#32 := by
    rw [val_main_v283_apply, val_main_cst_31_apply]
  have c0 : val_main_call11_v0 (F := Ideal) (ix3 b s h) = FloatOps.ofBits (F := Ideal) .f32 0x00000000#32 := by
    rw [val_main_call11_v0_apply, val_main_call11_cst_apply]
  rw [val_main_v287_apply, val_main_v282_apply, val_main_v286_apply, val_main_v284_apply, val_main_v285_apply,
    val_main_v281_apply, val_main_v279_apply, val_main_v277_apply, val_main_v276_apply, val_main_v275_apply,
    val_main_v274_apply, eLo, eHi, eP, eP, c1, c2, c3, c0]
  exact highway_arith _ _ _

end Cert.ReferenceIdeal.Stage

end
-- ==== Proof.RWin.lean ====
/-
  The reference's windows, read at an index.

  Per layer the reference pads a batch of rows with three learned rows in front and three behind (a concatenation of
  3 + 512 + 3 positions), and gathers, for position `s` and offset `w < 4`, the padded position `s + w` (forward) or
  `s + w + 3` (backward) from an integer table; the four offsets are then laid side by side along the channel axis,
  column `w · 512 + k`.  The table's entries lie in `[0, 517]`, so neither the wrap of negative positions nor the
  gather's clamp changes them, and the gathered element is the pad row `s + w` when `s + w < 3` and the row's position
  `s + w − 3` otherwise (forward), the row's position `s + w` when `s + w < 512` and the pad row `s + w − 512`
  otherwise (backward).
-/
import proofs.«101546_j62689342652477_1_alg».proof.Proof.RefReadP
import proofs.«101546_j62689342652477_1_alg».proof.Proof.Spec
import Idealize.ShloMosaic.Lib.ValueIdx
import Idealize.ShloMosaic.Lib.Pipeline.Value
import Idealize.ShloMosaic.Lib.ValueLayout

noncomputable section

namespace Cert.ReferenceIdeal.Win

open Idealize.ShloMosaic Idealize.ShloMosaic.ValueIdx Idealize.ShloMosaic.TcCoe Idealize.SL.Sem
open Cert.ReferenceIdeal Cert.ReferenceIdeal.ReadP Cert.ReferenceIdeal.Gen

section Concat
variable {α : Type}

/-- The three-piece concatenation along the position axis (3 + 512 + 3 rows), read in its first piece. -/
theorem cat3_lo (A B : S32x3x512.Idx → α) (X : S32x512x512.Idx → α) (b : Fin 32) (r : Fin 518) (k : Fin 512)
    (q : Fin 3) (hq : q.val = r.val) :
    concatenate S32x518x512 1 [⟨S32x3x512, A⟩, ⟨S32x512x512, X⟩, ⟨S32x3x512, B⟩]
      concatenates_S32x3x512_S32x512x512_S32x3x512_S32x518x512_d1 (ix3 b r k) = A (ix3 b q k) := by
  refine concatenate_apply_piece 1 _ _ (ix3 b r k) 0 (by show (0 : Nat) < 3; omega) S32x3x512 A rfl rfl 0 rfl
    (ix3 b q k) ?_ ?_
  · intro c hc
    match c with
    | ⟨0, _⟩ => rfl
    | ⟨1, _⟩ => exact absurd rfl hc
    | ⟨2, _⟩ => rfl
  · show 0 + q.val = r.val
    omega

/-- The same concatenation read in its middle piece. -/
theorem cat3_mid (A B : S32x3x512.Idx → α) (X : S32x512x512.Idx → α) (b : Fin 32) (r : Fin 518) (k : Fin 512)
    (q : Fin 512) (hq : 3 + q.val = r.val) :
    concatenate S32x518x512 1 [⟨S32x3x512, A⟩, ⟨S32x512x512, X⟩, ⟨S32x3x512, B⟩]
      concatenates_S32x3x512_S32x512x512_S32x3x512_S32x518x512_d1 (ix3 b r k) = X (ix3 b q k) := by
  refine concatenate_apply_piece 1 _ _ (ix3 b r k) 1 (by show (1 : Nat) < 3; omega) S32x512x512 X rfl rfl 3 rfl
    (ix3 b q k) ?_ ?_
  · intro c hc
    match c with
    | ⟨0, _⟩ => rfl
    | ⟨1, _⟩ => exact absurd rfl hc
    | ⟨2, _⟩ => rfl
  · exact hq

/-- The same concatenation read in its last piece. -/
theorem cat3_hi (A B : S32x3x512.Idx → α) (X : S32x512x512.Idx → α) (b : Fin 32) (r : Fin 518) (k : Fin 512)
    (q : Fin 3) (hq : 515 + q.val = r.val) :
    concatenate S32x518x512 1 [⟨S32x3x512, A⟩, ⟨S32x512x512, X⟩, ⟨S32x3x512, B⟩]
      concatenates_S32x3x512_S32x512x512_S32x3x512_S32x518x512_d1 (ix3 b r k) = B (ix3 b q k) := by
  refine concatenate_apply_piece 1 _ _ (ix3 b r k) 2 (by show (2 : Nat) < 3; omega) S32x3x512 B rfl rfl 515 rfl
    (ix3 b q k) ?_ ?_
  · intro c hc
    match c with
    | ⟨0, _⟩ => rfl
    | ⟨1, _⟩ => exact absurd rfl hc
    | ⟨2, _⟩ => rfl
  · exact hq

end Concat

section Gather
variable {α : Type}

local notation "G" => gather_S32x518x512_S512x4x1_S32x512x4x512_03_1_n_n_1_2_321512

theorem opIdx0 {n : Nat} (T : IVec S512x4x1 n) (b : Fin 32) (s : Fin 512) (w : Fin 4) (k : Fin 512) :
    (GatherDims.operandIdx G (ix4 b s w k) T 0).val = b.val := by
  show GatherDims.start G (ix4 b s w k) T 0 + GatherDims.batchCoord G (ix4 b s w k) 0
      + GatherDims.offCoord G (ix4 b s w k) 0 = _
  rw [GatherDims.batchCoord_eq_zero _ _ _ List.not_mem_nil, Nat.add_zero]
  unfold GatherDims.start GatherDims.offCoord
  rw [dif_neg (by decide), dif_pos (by decide)]
  rw [Nat.zero_add]
  rfl

theorem opIdx1 {n : Nat} (T : IVec S512x4x1 n) (b : Fin 32) (s : Fin 512) (w : Fin 4) (k : Fin 512) :
    (GatherDims.operandIdx G (ix4 b s w k) T 1).val = min (T (ix3 s w 0)).toInt.toNat 517 := by
  show GatherDims.start G (ix4 b s w k) T 1 + GatherDims.batchCoord G (ix4 b s w k) 1
      + GatherDims.offCoord G (ix4 b s w k) 1 = _
  rw [GatherDims.batchCoord_eq_zero _ _ _ List.not_mem_nil, Nat.add_zero,
    GatherDims.offCoord_eq_zero _ _ _ (by decide), Nat.add_zero]
  unfold GatherDims.start
  rw [dif_pos (by decide)]
  have hsi : GatherDims.siIdx G (ix4 b s w k) ⟨List.idxOf (1 : Fin 3) (GatherDims.startIndexMap G),
      List.idxOf_lt_length_iff.2 (by decide)⟩ = ix3 s w 0 := by
    funext c
    refine Fin.ext ?_
    match c with
    | ⟨0, _⟩ => rfl
    | ⟨1, _⟩ => rfl
    | ⟨2, _⟩ => rfl
  rw [hsi]
  rfl

theorem opIdx2 {n : Nat} (T : IVec S512x4x1 n) (b : Fin 32) (s : Fin 512) (w : Fin 4) (k : Fin 512) :
    (GatherDims.operandIdx G (ix4 b s w k) T 2).val = k.val := by
  show GatherDims.start G (ix4 b s w k) T 2 + GatherDims.batchCoord G (ix4 b s w k) 2
      + GatherDims.offCoord G (ix4 b s w k) 2 = _
  rw [GatherDims.batchCoord_eq_zero _ _ _ List.not_mem_nil, Nat.add_zero]
  unfold GatherDims.start GatherDims.offCoord
  rw [dif_neg (by decide), dif_pos (by decide)]
  rw [Nat.zero_add]
  rfl

/-- **The window gather read at an index.** Result element `(b, s, w, k)` is the operand at batch row `b`,
    channel `k`, and the position the table names at `(s, w)`, read as a signed integer and clamped into
    `[0, 517]`. -/
theorem gather_win_apply {n : Nat} (P : S32x518x512.Idx → α) (T : IVec S512x4x1 n)
    (b : Fin 32) (s : Fin 512) (w : Fin 4) (k : Fin 512) :
    Host.gather G P T (ix4 b s w k)
      = P (ix3 b ⟨min (T (ix3 s w 0)).toInt.toNat 517, by omega⟩ k) := by
  unfold Host.gather
  congr 1
  funext a
  match a with
  | ⟨0, _⟩ => exact Fin.ext (opIdx0 T b s w k)
  | ⟨1, _⟩ => exact Fin.ext (opIdx1 T b s w k)
  | ⟨2, _⟩ => exact Fin.ext (opIdx2 T b s w k)

end Gather

section Gather'
variable {α : Type}

/-- The window gather where the table's entry is a known position `r` of the padded row. -/
theorem gather_win_at {n : Nat} (P : S32x518x512.Idx → α) (T : IVec S512x4x1 n)
    (b : Fin 32) (s : Fin 512) (w : Fin 4) (k : Fin 512) (r : Fin 518)
    (hr : (T (ix3 s w 0)).toInt.toNat = r.val) :
    Host.gather gather_S32x518x512_S512x4x1_S32x512x4x512_03_1_n_n_1_2_321512 P T (ix4 b s w k) = P (ix3 b r k) := by
  rw [gather_win_apply]
  have e : (⟨min (T (ix3 s w 0)).toInt.toNat 517, by omega⟩ : Fin 518) = r :=
    Fin.ext (by show min (T (ix3 s w 0)).toInt.toNat 517 = r.val; rw [hr]; have := r.isLt; omega)
  rw [e]

end Gather'

/-- The reshape `[32, 512, 4, 512] → [32, 512, 2048]` reads column `w · 512 + k` at `(w, k)`. -/
theorem reshape_idx (b : Fin 32) (s : Fin 512) (w : Fin 4) (k : Fin 512) :
    idx_main_v22 (ix3 b s (⟨w.val * 512 + k.val, by omega⟩ : Fin 2048)) = ix4 b s w k := by
  funext a
  refine Fin.ext ?_
  have := b.isLt
  have := s.isLt
  have := w.isLt
  have := k.isLt
  match a with
  | ⟨0, _⟩ =>
    show ((b.val * 512 + s.val) * 2048 + (w.val * 512 + k.val)) / 1048576 = b.val
    omega
  | ⟨1, _⟩ =>
    show ((b.val * 512 + s.val) * 2048 + (w.val * 512 + k.val)) / 2048 % 512 = s.val
    omega
  | ⟨2, _⟩ =>
    show ((b.val * 512 + s.val) * 2048 + (w.val * 512 + k.val)) / 512 % 4 = w.val
    omega
  | ⟨3, _⟩ =>
    show ((b.val * 512 + s.val) * 2048 + (w.val * 512 + k.val)) % 512 = k.val
    omega

section Words

/-- A number below `2 ^ 31`, as a 32-bit word read signed, is itself. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e, if_pos (by omega)]

theorem toNat_toInt_ofNat_small (n : Nat) (h : n < 2147483648) : (BitVec.ofNat 32 n).toInt.toNat = n := by
  rw [toInt_ofNat_small n h]
  exact Int.toNat_natCast n

/-- Such a word is not negative. -/
theorem slt_zero_small (n : Nat) (h : n < 2147483648) : IntOp.cmpi .slt (BitVec.ofNat 32 n) 0#32 = 0#1 := by
  show BitVec.ofBool ((BitVec.ofNat 32 n).slt 0#32) = 0#1
  have hf : (BitVec.ofNat 32 n).slt 0#32 = false := by
    unfold BitVec.slt
    rw [toInt_ofNat_small n h]
    simp
  rw [hf]
  rfl

end Words

section Tables
variable {F : FTy → Type} [FloatOps F]

/-- The table `s + w`. -/
theorem v6_at (s : Fin 512) (w : Fin 4) :
    val_main_v6 (F := F) (ix2 s w) = BitVec.ofNat 32 (s.val + w.val) := by
  rw [val_main_v6_apply, val_main_v4_apply, val_main_v1_apply, val_main_v0_apply, val_main_v5_apply,
    val_main_v3_apply, val_main_v2_apply]
  show BitVec.ofNat 32 s.val + BitVec.ofNat 32 w.val = _
  rw [← BitVec.ofNat_add]

/-- The forward table of layer 0: `s + w` (it is not negative, so the wrap of negative positions is not taken). -/
theorem v20_at (s : Fin 512) (w : Fin 4) :
    val_main_v20 (F := F) (ix3 s w 0) = BitVec.ofNat 32 (s.val + w.val) := by
  rw [val_main_v20_apply]
  show val_main_v19 (F := F) (ix2 s w) = _
  rw [val_main_v19_apply, val_main_v16_apply, val_main_v15_apply, val_main_c_apply, v6_at,
    slt_zero_small _ (by omega), select_zero]

/-- The backward table of layer 0: `s + w + 3`. -/
theorem v30_at (s : Fin 512) (w : Fin 4) :
    val_main_v30 (F := F) (ix3 s w 0) = BitVec.ofNat 32 (s.val + w.val + 3) := by
  have h24 : val_main_v24 (F := F) (ix2 s w) = BitVec.ofNat 32 (s.val + w.val + 3) := by
    rw [val_main_v24_apply, val_main_v23_apply, val_main_c_1_apply, v6_at]
    show BitVec.ofNat 32 (s.val + w.val) + BitVec.ofNat 32 3 = _
    rw [← BitVec.ofNat_add]
  rw [val_main_v30_apply]
  show val_main_v29 (F := F) (ix2 s w) = _
  rw [val_main_v29_apply, val_main_v26_apply, val_main_v25_apply, val_main_c_2_apply, h24,
    slt_zero_small _ (by omega), select_zero]

/-- The forward table of layer 1. -/
theorem v161_at (s : Fin 512) (w : Fin 4) :
    val_main_v161 (F := F) (ix3 s w 0) = BitVec.ofNat 32 (s.val + w.val) := by
  rw [val_main_v161_apply]
  show val_main_v160 (F := F) (ix2 s w) = _
  rw [val_main_v160_apply, val_main_v157_apply, val_main_v156_apply, val_main_c_15_apply, v6_at,
    slt_zero_small _ (by omega), select_zero]

/-- The backward table of layer 1. -/
theorem v171_at (s : Fin 512) (w : Fin 4) :
    val_main_v171 (F := F) (ix3 s w 0) = BitVec.ofNat 32 (s.val + w.val + 3) := by
  have h165 : val_main_v165 (F := F) (ix2 s w) = BitVec.ofNat 32 (s.val + w.val + 3) := by
    rw [val_main_v165_apply, val_main_v164_apply, val_main_c_17_apply, v6_at]
    show BitVec.ofNat 32 (s.val + w.val) + BitVec.ofNat 32 3 = _
    rw [← BitVec.ofNat_add]
  rw [val_main_v171_apply]
  show val_main_v170 (F := F) (ix2 s w) = _
  rw [val_main_v170_apply, val_main_v167_apply, val_main_v166_apply, val_main_c_18_apply, h165,
    slt_zero_small _ (by omega), select_zero]

end Tables

section Pads
variable {F : FTy → Type} [FloatOps F]

/-- The forward pad rows of layer 0, repeated over the batch. -/
theorem v9_at (x1 : (⟨S2x3x512, .f32⟩ : BufTy).Contents (Elt F)) (b : Fin 32) (r : Fin 3) (k : Fin 512) :
    val_main_v9 (F := F) x1 (ix3 b r k) = x1 (ix3 0 r k) := by
  rw [val_main_v9_apply, val_main_v8_apply, val_main_v7_apply]
  congr 1
  funext a
  refine Fin.ext ?_
  match a with
  | ⟨0, _⟩ => rfl
  | ⟨1, _⟩ =>
    show (r.val * 512 + k.val) / 512 % 3 = r.val
    have := r.isLt
    have := k.isLt
    omega
  | ⟨2, _⟩ =>
    show (r.val * 512 + k.val) % 512 = k.val
    have := k.isLt
    omega

/-- The backward pad rows of layer 0, repeated over the batch. -/
theorem v12_at (x2 : (⟨S2x3x512, .f32⟩ : BufTy).Contents (Elt F)) (b : Fin 32) (r : Fin 3) (k : Fin 512) :
    val_main_v12 (F := F) x2 (ix3 b r k) = x2 (ix3 0 r k) := by
  rw [val_main_v12_apply, val_main_v11_apply, val_main_v10_apply]
  congr 1
  funext a
  refine Fin.ext ?_
  match a with
  | ⟨0, _⟩ => rfl
  | ⟨1, _⟩ =>
    show (r.val * 512 + k.val) / 512 % 3 = r.val
    have := r.isLt
    have := k.isLt
    omega
  | ⟨2, _⟩ =>
    show (r.val * 512 + k.val) % 512 = k.val
    have := k.isLt
    omega

/-- The forward pad rows of layer 1, repeated over the batch. -/
theorem v150_at (x1 : (⟨S2x3x512, .f32⟩ : BufTy).Contents (Elt F)) (b : Fin 32) (r : Fin 3) (k : Fin 512) :
    val_main_v150 (F := F) x1 (ix3 b r k) = x1 (ix3 1 r k) := by
  rw [val_main_v150_apply, val_main_v149_apply, val_main_v148_apply]
  congr 1
  funext a
  refine Fin.ext ?_
  match a with
  | ⟨0, _⟩ => rfl
  | ⟨1, _⟩ =>
    show (r.val * 512 + k.val) / 512 % 3 = r.val
    have := r.isLt
    have := k.isLt
    omega
  | ⟨2, _⟩ =>
    show (r.val * 512 + k.val) % 512 = k.val
    have := k.isLt
    omega

/-- The backward pad rows of layer 1, repeated over the batch. -/
theorem v153_at (x2 : (⟨S2x3x512, .f32⟩ : BufTy).Contents (Elt F)) (b : Fin 32) (r : Fin 3) (k : Fin 512) :
    val_main_v153 (F := F) x2 (ix3 b r k) = x2 (ix3 1 r k) := by
  rw [val_main_v153_apply, val_main_v152_apply, val_main_v151_apply]
  congr 1
  funext a
  refine Fin.ext ?_
  match a with
  | ⟨0, _⟩ => rfl
  | ⟨1, _⟩ =>
    show (r.val * 512 + k.val) / 512 % 3 = r.val
    have := r.isLt
    have := k.isLt
    omega
  | ⟨2, _⟩ =>
    show (r.val * 512 + k.val) % 512 = k.val
    have := k.isLt
    omega

end Pads

section Main

/-- The forward window of layer 0: three pad rows, then the input row. -/
theorem v22_apply (x0 : (⟨S32x512x512, .f32⟩ : BufTy).Contents (Elt Ideal))
    (x1 x2 : (⟨S2x3x512, .f32⟩ : BufTy).Contents (Elt Ideal))
    (b : Fin 32) (s : Fin 512) (w : Fin 4) (k : Fin 512) :
    val_main_v22 (F := Ideal) x0 x1 x2 (ix3 b s (⟨w.val * 512 + k.val, by omega⟩ : Fin 2048))
      = Cert.Spec.winF (Cert.Spec.padOf x1 0) (fun s k => x0 (ix3 b s k)) s w k := by
  rw [val_main_v22_apply]
  show val_main_v21 (F := Ideal) x0 x1 x2 (idx_main_v22 (ix3 b s (⟨w.val * 512 + k.val, by omega⟩ : Fin 2048))) = _
  rw [reshape_idx]
  unfold val_main_v21
  rw [gather_win_at _ _ b s w k ⟨s.val + w.val, by omega⟩
    (by rw [v20_at, toNat_toInt_ofNat_small _ (by omega)])]
  unfold val_main_v13 Cert.Spec.winF
  by_cases h : s.val + w.val < 3
  · rw [dif_pos h, cat3_lo _ _ _ b _ k ⟨s.val + w.val, h⟩ rfl, v9_at]
  · rw [dif_neg h, cat3_mid _ _ _ b _ k ⟨s.val + w.val - 3, by omega⟩ (by show 3 + (s.val + w.val - 3) = s.val + w.val; omega)]

/-- The backward window of layer 0: the input row, then three pad rows. -/
theorem v32_apply (x0 : (⟨S32x512x512, .f32⟩ : BufTy).Contents (Elt Ideal))
    (x1 x2 : (⟨S2x3x512, .f32⟩ : BufTy).Contents (Elt Ideal))
    (b : Fin 32) (s : Fin 512) (w : Fin 4) (k : Fin 512) :
    val_main_v32 (F := Ideal) x0 x1 x2 (ix3 b s (⟨w.val * 512 + k.val, by omega⟩ : Fin 2048))
      = Cert.Spec.winB (Cert.Spec.padOf x2 0) (fun s k => x0 (ix3 b s k)) s w k := by
  rw [val_main_v32_apply]
  show val_main_v31 (F := Ideal) x0 x1 x2 (idx_main_v22 (ix3 b s (⟨w.val * 512 + k.val, by omega⟩ : Fin 2048))) = _
  rw [reshape_idx]
  unfold val_main_v31
  rw [gather_win_at _ _ b s w k ⟨s.val + w.val + 3, by omega⟩
    (by rw [v30_at, toNat_toInt_ofNat_small _ (by omega)])]
  unfold val_main_v14 Cert.Spec.winB
  by_cases h : s.val + w.val < 512
  · rw [dif_pos h, cat3_mid _ _ _ b _ k ⟨s.val + w.val, h⟩ (by show 3 + (s.val + w.val) = s.val + w.val + 3; omega)]
  · rw [dif_neg h, cat3_hi _ _ _ b _ k ⟨s.val + w.val - 512, by omega⟩ (by show 515 + (s.val + w.val - 512) = s.val + w.val + 3; omega), v12_at]

/-- The forward window of layer 1, over layer 0's forward rows. -/
theorem v163_apply (x0 : (⟨S32x512x512, .f32⟩ : BufTy).Contents (Elt Ideal))
    (x1 x2 : (⟨S2x3x512, .f32⟩ : BufTy).Contents (Elt Ideal))
    (x3 : (⟨S2x512x2048, .f32⟩ : BufTy).Contents (Elt Ideal)) (x4 : (⟨S2x512, .f32⟩ : BufTy).Contents (Elt Ideal))
    (x7 : (⟨S2x2x1024x512, .f32⟩ : BufTy).Contents (Elt Ideal)) (x8 : (⟨S2x2x1024, .f32⟩ : BufTy).Contents (Elt Ideal))
    (b : Fin 32) (s : Fin 512) (w : Fin 4) (k : Fin 512) :
    val_main_v163 (F := Ideal) x0 x1 x2 x3 x4 x7 x8 (ix3 b s (⟨w.val * 512 + k.val, by omega⟩ : Fin 2048))
      = Cert.Spec.winF (Cert.Spec.padOf x1 1) (fun s k => val_main_v98 (F := Ideal) x0 x1 x2 x3 x4 x7 x8 (ix3 b s k)) s w k := by
  rw [val_main_v163_apply]
  show val_main_v162 (F := Ideal) x0 x1 x2 x3 x4 x7 x8 (idx_main_v22 (ix3 b s (⟨w.val * 512 + k.val, by omega⟩ : Fin 2048))) = _
  rw [reshape_idx]
  unfold val_main_v162
  rw [gather_win_at _ _ b s w k ⟨s.val + w.val, by omega⟩
    (by rw [v161_at, toNat_toInt_ofNat_small _ (by omega)])]
  unfold val_main_v154 Cert.Spec.winF
  by_cases h : s.val + w.val < 3
  · rw [dif_pos h, cat3_lo _ _ _ b _ k ⟨s.val + w.val, h⟩ rfl, v150_at]
  · rw [dif_neg h, cat3_mid _ _ _ b _ k ⟨s.val + w.val - 3, by omega⟩ (by show 3 + (s.val + w.val - 3) = s.val + w.val; omega)]

/-- The backward window of layer 1, over layer 0's backward rows. -/
theorem v173_apply (x0 : (⟨S32x512x512, .f32⟩ : BufTy).Contents (Elt Ideal))
    (x1 x2 : (⟨S2x3x512, .f32⟩ : BufTy).Contents (Elt Ideal))
    (x5 : (⟨S2x512x2048, .f32⟩ : BufTy).Contents (Elt Ideal)) (x6 : (⟨S2x512, .f32⟩ : BufTy).Contents (Elt Ideal))
    (x9 : (⟨S2x2x1024x512, .f32⟩ : BufTy).Contents (Elt Ideal)) (x10 : (⟨S2x2x1024, .f32⟩ : BufTy).Contents (Elt Ideal))
    (b : Fin 32) (s : Fin 512) (w : Fin 4) (k : Fin 512) :
    val_main_v173 (F := Ideal) x0 x1 x2 x5 x6 x9 x10 (ix3 b s (⟨w.val * 512 + k.val, by omega⟩ : Fin 2048))
      = Cert.Spec.winB (Cert.Spec.padOf x2 1) (fun s k => val_main_v146 (F := Ideal) x0 x1 x2 x5 x6 x9 x10 (ix3 b s k)) s w k := by
  rw [val_main_v173_apply]
  show val_main_v172 (F := Ideal) x0 x1 x2 x5 x6 x9 x10 (idx_main_v22 (ix3 b s (⟨w.val * 512 + k.val, by omega⟩ : Fin 2048))) = _
  rw [reshape_idx]
  unfold val_main_v172
  rw [gather_win_at _ _ b s w k ⟨s.val + w.val + 3, by omega⟩
    (by rw [v171_at, toNat_toInt_ofNat_small _ (by omega)])]
  unfold val_main_v155 Cert.Spec.winB
  by_cases h : s.val + w.val < 512
  · rw [dif_pos h, cat3_mid _ _ _ b _ k ⟨s.val + w.val, h⟩ (by show 3 + (s.val + w.val) = s.val + w.val + 3; omega)]
  · rw [dif_neg h, cat3_hi _ _ _ b _ k ⟨s.val + w.val - 512, by omega⟩ (by show 515 + (s.val + w.val - 512) = s.val + w.val + 3; omega), v153_at]

end Main

end Cert.ReferenceIdeal.Win

end
-- ==== Proof.RValue.lean ====
/-
  The reference's result is `Spec.result`.

  Row by row: the reference's value after the two highway steps of a direction of a layer is the specification's
  row, because each stage read at an index is the specification's stage of the stage before it, and the window of
  layer 0 is taken from the input row, that of layer 1 from layer 0's row.  The result stacks the two layers along
  a new leading axis, and in each layer joins the forward and the backward rows along the channel axis: channel
  `g < 512` is forward channel `g`, channel `g ≥ 512` is backward channel `g − 512`.
-/
import proofs.«101546_j62689342652477_1_alg».proof.Proof.RefReadP
import proofs.«101546_j62689342652477_1_alg».proof.Proof.Spec
import proofs.«101546_j62689342652477_1_alg».proof.Proof.RStage
import proofs.«101546_j62689342652477_1_alg».proof.Proof.RWin
import Idealize.ShloMosaic.Lib.ValueIdx
import Idealize.ShloMosaic.Lib.Pipeline.Value

noncomputable section

namespace Cert.ReferenceIdeal.Whole

open Idealize.ShloMosaic Idealize.ShloMosaic.ValueIdx Idealize.ShloMosaic.TcCoe Idealize.SL.Sem
open Cert.ReferenceIdeal Cert.ReferenceIdeal.ReadP Cert.ReferenceIdeal.Gen

/-! ## Two concatenations read at an index -/

section Concat
variable {α : Type}

/-- Two arrays of 512 channels joined along the channel axis: the first below channel 512, the second from it on. -/
theorem cat_channels (f r : S32x512x512.Idx → α) (b : Fin 32) (s : Fin 512) (g : Fin 1024) :
    concatenate S32x512x1024 2 [⟨S32x512x512, f⟩, ⟨S32x512x512, r⟩]
        concatenates_S32x512x512_S32x512x512_S32x512x1024_d2 (ix3 b s g)
      = if h : g.val < 512 then f (ix3 b s ⟨g.val, h⟩) else r (ix3 b s ⟨g.val - 512, by omega⟩) := by
  by_cases h : g.val < 512
  · rw [dif_pos h]
    refine concatenate_pair_apply_left 2 f r _ (ix3 b s g) rfl (ix3 b s ⟨g.val, h⟩) ?_
    intro c
    match c with
    | ⟨0, _⟩ => rfl
    | ⟨1, _⟩ => rfl
    | ⟨2, _⟩ => rfl
  · rw [dif_neg h]
    refine concatenate_pair_apply_right 2 f r _ (ix3 b s g) rfl rfl (ix3 b s ⟨g.val - 512, by omega⟩) ?_ ?_
    · intro c hc
      match c with
      | ⟨0, _⟩ => rfl
      | ⟨1, _⟩ => rfl
      | ⟨2, _⟩ => exact absurd rfl hc
    · show g.val - 512 + 512 = g.val
      omega

/-- Two arrays with a leading axis of size one stacked along it: layer 0 is the first, layer 1 the second. -/
theorem cat_layers (p q : S1x32x512x1024.Idx → α) (l : Fin 2) (b : Fin 32) (s : Fin 512) (g : Fin 1024) :
    concatenate S2x32x512x1024 0 [⟨S1x32x512x1024, p⟩, ⟨S1x32x512x1024, q⟩]
        concatenates_S1x32x512x1024_S1x32x512x1024_S2x32x512x1024_d0 (ix4 l b s g)
      = if l.val = 0 then p (ix4 0 b s g) else q (ix4 0 b s g) := by
  have hl := l.isLt
  by_cases h : l.val = 0
  · rw [if_pos h]
    refine concatenate_pair_apply_left 0 p q _ (ix4 l b s g) rfl (ix4 0 b s g) ?_
    intro c
    match c with
    | ⟨0, _⟩ => exact h.symm
    | ⟨1, _⟩ => rfl
    | ⟨2, _⟩ => rfl
    | ⟨3, _⟩ => rfl
  · rw [if_neg h]
    refine concatenate_pair_apply_right 0 p q _ (ix4 l b s g) rfl rfl (ix4 0 b s g) ?_ ?_
    · intro c hc
      match c with
      | ⟨0, _⟩ => exact absurd rfl hc
      | ⟨1, _⟩ => rfl
      | ⟨2, _⟩ => rfl
      | ⟨3, _⟩ => rfl
    · show 0 + 1 = l.val
      omega

end Concat

/-! ## The four rows -/

section Rows

variable (x0 : (⟨S32x512x512, .f32⟩ : BufTy).Contents (Elt Ideal)) (x1 x2 : (⟨S2x3x512, .f32⟩ : BufTy).Contents (Elt Ideal)) (x3 : (⟨S2x512x2048, .f32⟩ : BufTy).Contents (Elt Ideal)) (x4 : (⟨S2x512, .f32⟩ : BufTy).Contents (Elt Ideal)) (x5 : (⟨S2x512x2048, .f32⟩ : BufTy).Contents (Elt Ideal)) (x6 : (⟨S2x512, .f32⟩ : BufTy).Contents (Elt Ideal)) (x7 : (⟨S2x2x1024x512, .f32⟩ : BufTy).Contents (Elt Ideal)) (x8 : (⟨S2x2x1024, .f32⟩ : BufTy).Contents (Elt Ideal)) (x9 : (⟨S2x2x1024x512, .f32⟩ : BufTy).Contents (Elt Ideal)) (x10 : (⟨S2x2x1024, .f32⟩ : BufTy).Contents (Elt Ideal))

/-- Layer 0, forward: the reference's row `b` after the two highway steps is `Spec.f0`. -/
theorem f0_row (b : Fin 32) :
    (fun s k => val_main_v98 (F := Ideal) x0 x1 x2 x3 x4 x7 x8 (ix3 b s k)) = Cert.Spec.f0 x0 x1 x3 x4 x7 x8 b := by
  have eW : (fun (s : Fin 512) (w : Fin 4) (k : Fin 512) => val_main_v22 (F := Ideal) x0 x1 x2 (ix3 b s (⟨w.val * 512 + k.val, by omega⟩ : Fin 2048)))
      = Cert.Spec.winF (Cert.Spec.padOf x1 0) (fun s k => x0 (ix3 b s k)) :=
    (funext fun s => funext fun w => funext fun k => Cert.ReferenceIdeal.Win.v22_apply x0 x1 x2 b s w k)
  have eC : (fun s k => val_main_v41 (F := Ideal) x0 x1 x2 x3 x4 (ix3 b s k))
      = Cert.Spec.convRelu (Cert.Spec.winF (Cert.Spec.padOf x1 0) (fun s k => x0 (ix3 b s k))) (Cert.Spec.wOf x3 0) (Cert.Spec.bOf x4 0) :=
    (funext fun s => funext fun k => Cert.ReferenceIdeal.Stage.v41_apply x0 x1 x2 x3 x4 b s k).trans
      (congrArg (fun W => Cert.Spec.convRelu W (Cert.Spec.wOf x3 0) (Cert.Spec.bOf x4 0)) eW)
  have eH0 := (funext fun s => funext fun k => Cert.ReferenceIdeal.Stage.v76_apply x0 x1 x2 x3 x4 x7 x8 b s k).trans
      (congrArg (fun X => Cert.Spec.hwStep X (Cert.Spec.hwOf x7 0 0) (Cert.Spec.hbOf x8 0 0)) eC)
  have eH1 := (funext fun s => funext fun k => Cert.ReferenceIdeal.Stage.v98_apply x0 x1 x2 x3 x4 x7 x8 b s k).trans
      (congrArg (fun X => Cert.Spec.hwStep X (Cert.Spec.hwOf x7 0 1) (Cert.Spec.hbOf x8 0 1)) eH0)
  exact eH1

/-- The same at position `s` and channel `h`. -/
theorem f0_eq (b : Fin 32) (s h : Fin 512) :
    val_main_v98 (F := Ideal) x0 x1 x2 x3 x4 x7 x8 (ix3 b s h) = Cert.Spec.f0 x0 x1 x3 x4 x7 x8 b s h :=
  congrFun (congrFun (f0_row x0 x1 x2 x3 x4 x7 x8 b) s) h

/-- Layer 0, backward: the reference's row `b` after the two highway steps is `Spec.b0`. -/
theorem b0_row (b : Fin 32) :
    (fun s k => val_main_v146 (F := Ideal) x0 x1 x2 x5 x6 x9 x10 (ix3 b s k)) = Cert.Spec.b0 x0 x2 x5 x6 x9 x10 b := by
  have eW : (fun (s : Fin 512) (w : Fin 4) (k : Fin 512) => val_main_v32 (F := Ideal) x0 x1 x2 (ix3 b s (⟨w.val * 512 + k.val, by omega⟩ : Fin 2048)))
      = Cert.Spec.winB (Cert.Spec.padOf x2 0) (fun s k => x0 (ix3 b s k)) :=
    (funext fun s => funext fun w => funext fun k => Cert.ReferenceIdeal.Win.v32_apply x0 x1 x2 b s w k)
  have eC : (fun s k => val_main_v50 (F := Ideal) x0 x1 x2 x5 x6 (ix3 b s k))
      = Cert.Spec.convRelu (Cert.Spec.winB (Cert.Spec.padOf x2 0) (fun s k => x0 (ix3 b s k))) (Cert.Spec.wOf x5 0) (Cert.Spec.bOf x6 0) :=
    (funext fun s => funext fun k => Cert.ReferenceIdeal.Stage.v50_apply x0 x1 x2 x5 x6 b s k).trans
      (congrArg (fun W => Cert.Spec.convRelu W (Cert.Spec.wOf x5 0) (Cert.Spec.bOf x6 0)) eW)
  have eH0 := (funext fun s => funext fun k => Cert.ReferenceIdeal.Stage.v124_apply x0 x1 x2 x5 x6 x9 x10 b s k).trans
      (congrArg (fun X => Cert.Spec.hwStep X (Cert.Spec.hwOf x9 0 0) (Cert.Spec.hbOf x10 0 0)) eC)
  have eH1 := (funext fun s => funext fun k => Cert.ReferenceIdeal.Stage.v146_apply x0 x1 x2 x5 x6 x9 x10 b s k).trans
      (congrArg (fun X => Cert.Spec.hwStep X (Cert.Spec.hwOf x9 0 1) (Cert.Spec.hbOf x10 0 1)) eH0)
  exact eH1

/-- The same at position `s` and channel `h`. -/
theorem b0_eq (b : Fin 32) (s h : Fin 512) :
    val_main_v146 (F := Ideal) x0 x1 x2 x5 x6 x9 x10 (ix3 b s h) = Cert.Spec.b0 x0 x2 x5 x6 x9 x10 b s h :=
  congrFun (congrFun (b0_row x0 x1 x2 x5 x6 x9 x10 b) s) h

/-- Layer 1, forward, over layer 0's forward rows: `Spec.f1`. -/
theorem f1_row (b : Fin 32) :
    (fun s k => val_main_v239 (F := Ideal) x0 x1 x2 x3 x4 x7 x8 (ix3 b s k)) = Cert.Spec.f1 x0 x1 x3 x4 x7 x8 b := by
  have eW : (fun (s : Fin 512) (w : Fin 4) (k : Fin 512) => val_main_v163 (F := Ideal) x0 x1 x2 x3 x4 x7 x8 (ix3 b s (⟨w.val * 512 + k.val, by omega⟩ : Fin 2048)))
      = Cert.Spec.winF (Cert.Spec.padOf x1 1) (Cert.Spec.f0 x0 x1 x3 x4 x7 x8 b) :=
    (funext fun s => funext fun w => funext fun k => Cert.ReferenceIdeal.Win.v163_apply x0 x1 x2 x3 x4 x7 x8 b s w k).trans (congrArg (fun X => Cert.Spec.winF (Cert.Spec.padOf x1 1) X) (f0_row x0 x1 x2 x3 x4 x7 x8 b))
  have eC : (fun s k => val_main_v182 (F := Ideal) x0 x1 x2 x3 x4 x7 x8 (ix3 b s k))
      = Cert.Spec.convRelu (Cert.Spec.winF (Cert.Spec.padOf x1 1) (Cert.Spec.f0 x0 x1 x3 x4 x7 x8 b)) (Cert.Spec.wOf x3 1) (Cert.Spec.bOf x4 1) :=
    (funext fun s => funext fun k => Cert.ReferenceIdeal.Stage.v182_apply x0 x1 x2 x3 x4 x7 x8 b s k).trans
      (congrArg (fun W => Cert.Spec.convRelu W (Cert.Spec.wOf x3 1) (Cert.Spec.bOf x4 1)) eW)
  have eH0 := (funext fun s => funext fun k => Cert.ReferenceIdeal.Stage.v217_apply x0 x1 x2 x3 x4 x7 x8 b s k).trans
      (congrArg (fun X => Cert.Spec.hwStep X (Cert.Spec.hwOf x7 1 0) (Cert.Spec.hbOf x8 1 0)) eC)
  have eH1 := (funext fun s => funext fun k => Cert.ReferenceIdeal.Stage.v239_apply x0 x1 x2 x3 x4 x7 x8 b s k).trans
      (congrArg (fun X => Cert.Spec.hwStep X (Cert.Spec.hwOf x7 1 1) (Cert.Spec.hbOf x8 1 1)) eH0)
  exact eH1

/-- The same at position `s` and channel `h`. -/
theorem f1_eq (b : Fin 32) (s h : Fin 512) :
    val_main_v239 (F := Ideal) x0 x1 x2 x3 x4 x7 x8 (ix3 b s h) = Cert.Spec.f1 x0 x1 x3 x4 x7 x8 b s h :=
  congrFun (congrFun (f1_row x0 x1 x2 x3 x4 x7 x8 b) s) h

/-- Layer 1, backward, over layer 0's backward rows: `Spec.b1`. -/
theorem b1_row (b : Fin 32) :
    (fun s k => val_main_v287 (F := Ideal) x0 x1 x2 x5 x6 x9 x10 (ix3 b s k)) = Cert.Spec.b1 x0 x2 x5 x6 x9 x10 b := by
  have eW : (fun (s : Fin 512) (w : Fin 4) (k : Fin 512) => val_main_v173 (F := Ideal) x0 x1 x2 x5 x6 x9 x10 (ix3 b s (⟨w.val * 512 + k.val, by omega⟩ : Fin 2048)))
      = Cert.Spec.winB (Cert.Spec.padOf x2 1) (Cert.Spec.b0 x0 x2 x5 x6 x9 x10 b) :=
    (funext fun s => funext fun w => funext fun k => Cert.ReferenceIdeal.Win.v173_apply x0 x1 x2 x5 x6 x9 x10 b s w k).trans (congrArg (fun X => Cert.Spec.winB (Cert.Spec.padOf x2 1) X) (b0_row x0 x1 x2 x5 x6 x9 x10 b))
  have eC : (fun s k => val_main_v191 (F := Ideal) x0 x1 x2 x5 x6 x9 x10 (ix3 b s k))
      = Cert.Spec.convRelu (Cert.Spec.winB (Cert.Spec.padOf x2 1) (Cert.Spec.b0 x0 x2 x5 x6 x9 x10 b)) (Cert.Spec.wOf x5 1) (Cert.Spec.bOf x6 1) :=
    (funext fun s => funext fun k => Cert.ReferenceIdeal.Stage.v191_apply x0 x1 x2 x5 x6 x9 x10 b s k).trans
      (congrArg (fun W => Cert.Spec.convRelu W (Cert.Spec.wOf x5 1) (Cert.Spec.bOf x6 1)) eW)
  have eH0 := (funext fun s => funext fun k => Cert.ReferenceIdeal.Stage.v265_apply x0 x1 x2 x5 x6 x9 x10 b s k).trans
      (congrArg (fun X => Cert.Spec.hwStep X (Cert.Spec.hwOf x9 1 0) (Cert.Spec.hbOf x10 1 0)) eC)
  have eH1 := (funext fun s => funext fun k => Cert.ReferenceIdeal.Stage.v287_apply x0 x1 x2 x5 x6 x9 x10 b s k).trans
      (congrArg (fun X => Cert.Spec.hwStep X (Cert.Spec.hwOf x9 1 1) (Cert.Spec.hbOf x10 1 1)) eH0)
  exact eH1

/-- The same at position `s` and channel `h`. -/
theorem b1_eq (b : Fin 32) (s h : Fin 512) :
    val_main_v287 (F := Ideal) x0 x1 x2 x5 x6 x9 x10 (ix3 b s h) = Cert.Spec.b1 x0 x2 x5 x6 x9 x10 b s h :=
  congrFun (congrFun (b1_row x0 x1 x2 x5 x6 x9 x10 b) s) h

/-! ## The result -/

/-- Layer 0 of the result: the forward and the backward rows joined along the channel axis. -/
theorem v147_apply (b : Fin 32) (s : Fin 512) (g : Fin 1024) :
    val_main_v147 (F := Ideal) x0 x1 x2 x3 x4 x5 x6 x7 x8 x9 x10 (ix3 b s g)
      = Cert.Spec.join (Cert.Spec.f0 x0 x1 x3 x4 x7 x8 b) (Cert.Spec.b0 x0 x2 x5 x6 x9 x10 b) s g := by
  unfold val_main_v147 Cert.Spec.join
  rw [cat_channels]
  by_cases h : g.val < 512
  · rw [dif_pos h, dif_pos h, f0_eq]
  · rw [dif_neg h, dif_neg h, b0_eq]

/-- Layer 1 of the result. -/
theorem v288_apply (b : Fin 32) (s : Fin 512) (g : Fin 1024) :
    val_main_v288 (F := Ideal) x0 x1 x2 x3 x4 x5 x6 x7 x8 x9 x10 (ix3 b s g)
      = Cert.Spec.join (Cert.Spec.f1 x0 x1 x3 x4 x7 x8 b) (Cert.Spec.b1 x0 x2 x5 x6 x9 x10 b) s g := by
  unfold val_main_v288 Cert.Spec.join
  rw [cat_channels]
  by_cases h : g.val < 512
  · rw [dif_pos h, dif_pos h, f1_eq]
  · rw [dif_neg h, dif_neg h, b1_eq]

/-- The reference's result is the specification's: layer, batch row, position, channel of 1024. -/
theorem result_eq :
    val_main_v291 (F := Ideal) x0 x1 x2 x3 x4 x5 x6 x7 x8 x9 x10 = Cert.Spec.result x0 x1 x2 x3 x4 x5 x6 x7 x8 x9 x10 := by
  funext i
  obtain ⟨l, b, s, g, rfl⟩ : ∃ l b s g, i = ix4 l b s g := ⟨_, _, _, _, eq_ix4 i⟩
  have e289 : idx_main_v289 (ix4 (0 : Fin 1) b s g) = ix3 b s g := funext fun a => by
    match a with
    | ⟨0, _⟩ => rfl
    | ⟨1, _⟩ => rfl
    | ⟨2, _⟩ => rfl
  have e290 : idx_main_v290 (ix4 (0 : Fin 1) b s g) = ix3 b s g := funext fun a => by
    match a with
    | ⟨0, _⟩ => rfl
    | ⟨1, _⟩ => rfl
    | ⟨2, _⟩ => rfl
  unfold val_main_v291
  rw [cat_layers, val_main_v289_apply, val_main_v290_apply, e289, e290, v147_apply, v288_apply]
  rfl

end Rows

end Cert.ReferenceIdeal.Whole

end
-- ==== Proof.Claims.lean ====
/-
  The five claims of the certificate, assembled.

  The two frame claims of the kernel program are its generated frames.  The reference's run names the value of
  its result array and keeps its arguments; its frame claim forgets the value.  The idealization rewrote no
  operation.  The algebraic claim: at the extended reals the kernel program's result array ends at
  `Cert.Spec.result` of its launch memory's argument arrays, the reference's at `Cert.Spec.result` of its own,
  and the two memories agree on the arguments, so the two results are one array.
-/
import proofs.«101546_j62689342652477_1_alg».proof.Defs
import proofs.«101546_j62689342652477_1_alg».proof.Proof.Gen.Kernel
import proofs.«101546_j62689342652477_1_alg».proof.Proof.Gen.Kernel.Frame
import proofs.«101546_j62689342652477_1_alg».proof.Proof.Gen.KernelIdeal
import proofs.«101546_j62689342652477_1_alg».proof.Proof.Gen.KernelIdeal.Frame
import proofs.«101546_j62689342652477_1_alg».proof.Proof.Gen.ReferenceIdeal
import proofs.«101546_j62689342652477_1_alg».proof.Proof.Gen.Pre_finite_inputs
import proofs.«101546_j62689342652477_1_alg».proof.Proof.KRun
import proofs.«101546_j62689342652477_1_alg».proof.Proof.KValue1
import proofs.«101546_j62689342652477_1_alg».proof.Proof.RefRun
import proofs.«101546_j62689342652477_1_alg».proof.Proof.RValue
import proofs.«101546_j62689342652477_1_alg».proof.Proof.Spec

noncomputable section

open Idealize.ShloMosaic Idealize.ShloMosaic.TcCoe Idealize.SL.Sem

namespace Cert.Proof.Claims

/-- The kernel program as printed runs and leaves its arguments unchanged. -/
theorem frame_k : Cert.frame_Kernel := fun m ρ _ => Cert.Kernel.Gen.frame m ρ

/-- So does the kernel program read at the extended reals. -/
theorem frame_ki : Cert.frame_KernelIdeal := fun m ρ _ => Cert.KernelIdeal.Gen.frame m ρ

/-- The reference's run names its result and keeps its arguments; the frame claim is the second half. -/
theorem frame_ri : Cert.frame_ReferenceIdeal := fun m ρ _ =>
  (θ_run Cert.ReferenceIdeal.defs _ _).mono (fun _ h c => (h c).2) (Cert.ReferenceIdeal.RunValue.run (F := Ideal) m ρ)

/-- The idealization rewrote no operation: there is nothing to preserve. -/
theorem preserves : Cert.preserves_Kernel_KernelIdeal := trivial

/-- At the extended reals both programs end with their result array at ONE function of the argument arrays,
    `Cert.Spec.result`: the kernel program's last boundary contents are that function of its launch memory, the
    reference's last stage is that function of its own arguments, and the two memories agree on the arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Whole1.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RunValue.run (F := Ideal) m' ρ')
    obtain ⟨e0, e1, e2, e3, e4, e5, e6, e7, e8, e9, e10⟩ := hagree c
    rw [e0, e1, e2, e3, e4, e5, e6, e7, e8, e9, e10]
    exact Cert.ReferenceIdeal.Whole.result_eq _ _ _ _ _ _ _ _ _ _ _

end Cert.Proof.Claims

end
-- ==== Proof.lean ====
/-
  The certificate of a two-layer bidirectional windowed network with highway steps.

  Per batch row, one direction of one layer is a linear map over a window of four consecutive positions of the
  padded row, a bias and a rectifier, followed by two highway steps `σ(g) · x + (1 − σ(g)) · max n 0`; the forward
  direction pads three learned rows in front, the backward direction three behind; layer 1 reads layer 0; the result
  stacks the two layers and joins the two directions along the channel axis (Proof/Spec.lean, `Spec.result`).

  The kernel program computes each direction of each layer in one grid of 32 points, one batch row per point: the
  window's linear map as four 512 × 512 products of the row's shifted slices, summed; the reference gathers the four
  shifted rows into one 2048-wide row and takes one product.  At the exact instance both are the same finite sum
  — a sum over 2048 = 4 × 512 positions is the sum of its four blocks, and addition of extended reals is
  commutative and associative —, every other operation is the same function on both sides (a change of float format
  is the identity, the logistic function is `1 / (1 + e⁻ˣ)` in both spellings), so the two results are equal for
  all inputs: the precondition is never opened.

  The parts: Proof/KBody, KArr, KGlue, KValue0, KValue1 read the kernel program's result at an index from its
  frame's fold (Proof/KRun names the result in the frame's run); Proof/RWin, RStage, RValue read the reference's
  stages at an index; Proof/RefRunPart0 … 5 and RefRun run the reference's 350 host operations; Proof/Claims
  assembles the five conjuncts.
-/
import proofs.«101546_j62689342652477_1_alg».proof.Defs
import proofs.«101546_j62689342652477_1_alg».proof.Proof.Claims

noncomputable section

namespace Cert.Proof

open Idealize.ShloMosaic Idealize.SL.Sem

/-- The claim: the three frames, the (empty) idealization ledger, and the equality of the two idealized programs'
    results, under the witnesses of the programs' stated side conditions. -/
theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
